-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v528) = v0 c
          ∧ r.2.mem ((c.tc : Thread Cert.ReferenceIdeal.nD Cert.ReferenceIdeal.τ).loc Cert.ReferenceIdeal.main_v516) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x8 : Shape := ⟨2, ![262144, 8]⟩
abbrev S6x8 : Shape := ⟨2, ![6, 8]⟩
abbrev S6x4x128 : Shape := ⟨3, ![6, 4, 128]⟩
abbrev S6x128 : Shape := ⟨2, ![6, 128]⟩
abbrev S6x128x128 : Shape := ⟨3, ![6, 128, 128]⟩
abbrev S6x128x8 : Shape := ⟨3, ![6, 128, 8]⟩
abbrev S6x4 : Shape := ⟨2, ![6, 4]⟩
abbrev S_ : Shape := ⟨0, ![]⟩

class Facts : Prop where
  bcast_S_S262144x8 : S_.BroadcastsInDim S262144x8 (![] : Fin 0 → Fin S262144x8.rank)
  reducesTo_S262144x8_S_d0_1 : S262144x8.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S6x4x128 : S_.BroadcastsInDim S6x4x128 (![] : Fin 0 → Fin S6x4x128.rank)
  reducesTo_S6x4x128_S_d0_1_2 : S6x4x128.ReducesTo [0, 1, 2] S_
  bcast_S_S6x128 : S_.BroadcastsInDim S6x128 (![] : Fin 0 → Fin S6x128.rank)
  reducesTo_S6x128_S_d0_1 : S6x128.ReducesTo [0, 1] S_
  bcast_S_S6x128x128 : S_.BroadcastsInDim S6x128x128 (![] : Fin 0 → Fin S6x128x128.rank)
  reducesTo_S6x128x128_S_d0_1_2 : S6x128x128.ReducesTo [0, 1, 2] S_
  bcast_S_S6x128x8 : S_.BroadcastsInDim S6x128x8 (![] : Fin 0 → Fin S6x128x8.rank)
  reducesTo_S6x128x8_S_d0_1_2 : S6x128x8.ReducesTo [0, 1, 2] S_
  bcast_S_S6x4 : S_.BroadcastsInDim S6x4 (![] : Fin 0 → Fin S6x4.rank)
  reducesTo_S6x4_S_d0_1 : S6x4.ReducesTo [0, 1] S_

variable [Facts]

def fn_part2 {F : FTy → Type} [FloatOps F] (main_arg7 : FVec F S6x128x8 .f32) (main_arg8 : FVec F S6x8 .f32) (main_arg9 : FVec F S6x4 .f32) (main_v33 : IVec S_ 1) : IVec S_ 1 :=
  let main_v34 : FVec F S6x128x8 .f32 := Host.absf main_arg7
  let main_cst_12 : FVec F S_ .f32 := constant S_ .f32 0x7F800000#32
  let main_v35 : FVec F S6x128x8 .f32 := broadcastInDim S6x128x8 ![] bcast_S_S6x128x8 main_cst_12
  let main_v36 : IVec S6x128x8 1 := cmpf .olt main_v34 main_v35
  let main_c_13 : IVec S_ 1 := constantI S_ 1 1#1
  let main_v37 : IVec S_ 1 := (fun x v => Host.reduce IntOp.andi x v reducesTo_S6x128x8_S_d0_1_2 h_S_) main_v36 main_c_13
  let main_v38 : IVec S_ 1 := andi main_v33 main_v37
  let main_v39 : FVec F S6x8 .f32 := Host.absf main_arg8
  let main_cst_14 : FVec F S_ .f32 := constant S_ .f32 0x7F800000#32
  let main_v40 : FVec F S6x8 .f32 := broadcastInDim S6x8 ![] bcast_S_S6x8 main_cst_14
  let main_v41 : IVec S6x8 1 := cmpf .olt main_v39 main_v40
  let main_c_15 : IVec S_ 1 := constantI S_ 1 1#1
  let main_v42 : IVec S_ 1 := (fun x v => Host.reduce IntOp.andi x v reducesTo_S6x8_S_d0_1 h_S_) main_v41 main_c_15
  let main_v43 : IVec S_ 1 := andi main_v38 main_v42
  let main_v44 : FVec F S6x4 .f32 := Host.absf main_arg9
  let main_cst_16 : FVec F S_ .f32 := constant S_ .f32 0x7F800000#32
  let main_v45 : FVec F S6x4 .f32 := broadcastInDim S6x4 ![] bcast_S_S6x4 main_cst_16
  let main_v46 : IVec S6x4 1 := cmpf .olt main_v44 main_v45
  let main_c_17 : IVec S_ 1 := constantI S_ 1 1#1
  let main_v47 : IVec S_ 1 := (fun x v => Host.reduce IntOp.andi x v reducesTo_S6x4_S_d0_1 h_S_) main_v46 main_c_17
  let main_v48 : IVec S_ 1 := andi main_v43 main_v47
  main_v48

def fn_part1 {F : FTy → Type} [FloatOps F] (main_arg4 : FVec F S6x128 .f32) (main_arg5 : FVec F S6x128x128 .f32) (main_arg6 : FVec F S6x128 .f32) (main_arg7 : FVec F S6x128x8 .f32) (main_arg8 : FVec F S6x8 .f32) (main_arg9 : FVec F S6x4 .f32) (main_v13 : IVec S_ 1) (main_v16 : IVec S6x4x128 1) : IVec S_ 1 :=
  let main_c_5 : IVec S_ 1 := constantI S_ 1 1#1
  let main_v17 : IVec S_ 1 := (fun x v => Host.reduce IntOp.andi x v reducesTo_S6x4x128_S_d0_1_2 h_S_) main_v16 main_c_5
  let main_v18 : IVec S_ 1 := andi main_v13 main_v17
  let main_v19 : FVec F S6x128 .f32 := Host.absf main_arg4
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S6x128x128 .f32 := Host.absf main_arg5
  let main_cst_8 : FVec F S_ .f32 := constant S_ .f32 0x7F800000#32
  let main_v25 : FVec F S6x128x128 .f32 := broadcastInDim S6x128x128 ![] bcast_S_S6x128x128 main_cst_8
  let main_v26 : IVec S6x128x128 1 := cmpf .olt main_v24 main_v25
  let main_c_9 : IVec S_ 1 := constantI S_ 1 1#1
  let main_v27 : IVec S_ 1 := (fun x v => Host.reduce IntOp.andi x v reducesTo_S6x128x128_S_d0_1_2 h_S_) main_v26 main_c_9
  let main_v28 : IVec S_ 1 := andi main_v23 main_v27
  let main_v29 : FVec F S6x128 .f32 := Host.absf main_arg6
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x8 .f32) (main_arg1 : FVec F S6x8 .f32) (main_arg2 : FVec F S6x8 .f32) (main_arg3 : FVec F S6x4x128 .f32) (main_arg4 : FVec F S6x128 .f32) (main_arg5 : FVec F S6x128x128 .f32) (main_arg6 : FVec F S6x128 .f32) (main_arg7 : FVec F S6x128x8 .f32) (main_arg8 : FVec F S6x8 .f32) (main_arg9 : FVec F S6x4 .f32) : IVec S_ 1 :=
  let main_v0 : FVec F S262144x8 .f32 := Host.absf main_arg0
  let main_cst : FVec F S_ .f32 := constant S_ .f32 0x7F800000#32
  let main_v1 : FVec F S262144x8 .f32 := broadcastInDim S262144x8 ![] bcast_S_S262144x8 main_cst
  let main_v2 : IVec S262144x8 1 := cmpf .olt main_v0 main_v1
  let main_c : IVec S_ 1 := constantI S_ 1 1#1
  let main_v3 : IVec S_ 1 := (fun x v => Host.reduce IntOp.andi x v reducesTo_S262144x8_S_d0_1 h_S_) main_v2 main_c
  let main_v4 : FVec F S6x8 .f32 := Host.absf main_arg1
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S6x8 .f32 := Host.absf main_arg2
  let main_cst_2 : FVec F S_ .f32 := constant S_ .f32 0x7F800000#32
  let main_v10 : FVec F S6x8 .f32 := broadcastInDim S6x8 ![] bcast_S_S6x8 main_cst_2
  let main_v11 : IVec S6x8 1 := cmpf .olt main_v9 main_v10
  let main_c_3 : IVec S_ 1 := constantI S_ 1 1#1
  let main_v12 : IVec S_ 1 := (fun x v => Host.reduce IntOp.andi x v reducesTo_S6x8_S_d0_1 h_S_) main_v11 main_c_3
  let main_v13 : IVec S_ 1 := andi main_v8 main_v12
  let main_v14 : FVec F S6x4x128 .f32 := Host.absf main_arg3
  let main_cst_4 : FVec F S_ .f32 := constant S_ .f32 0x7F800000#32
  let main_v15 : FVec F S6x4x128 .f32 := broadcastInDim S6x4x128 ![] bcast_S_S6x4x128 main_cst_4
  let main_v16 : IVec S6x4x128 1 := cmpf .olt main_v14 main_v15
  fn_part1 (F := F) main_arg4 main_arg5 main_arg6 main_arg7 main_arg8 main_arg9 main_v13 main_v16
-- ==== Kernel.lean ====
abbrev S262144x8 : Shape := ⟨2, ![262144, 8]⟩
abbrev S6x8 : Shape := ⟨2, ![6, 8]⟩
abbrev S6x4x128 : Shape := ⟨3, ![6, 4, 128]⟩
abbrev S6x128 : Shape := ⟨2, ![6, 128]⟩
abbrev S6x128x128 : Shape := ⟨3, ![6, 128, 128]⟩
abbrev S6x128x8 : Shape := ⟨3, ![6, 128, 8]⟩
abbrev S6x4 : Shape := ⟨2, ![6, 4]⟩
abbrev S6x8x4 : Shape := ⟨3, ![6, 8, 4]⟩
abbrev S6x4x8 : Shape := ⟨3, ![6, 4, 8]⟩
abbrev S8x8 : Shape := ⟨2, ![8, 8]⟩
abbrev S262144x1 : Shape := ⟨2, ![262144, 1]⟩
abbrev S8192x8 : Shape := ⟨2, ![8192, 8]⟩
abbrev S8192x1 : Shape := ⟨2, ![8192, 1]⟩
abbrev S1x8 : Shape := ⟨2, ![1, 8]⟩
abbrev S8 : Shape := ⟨1, ![8]⟩
abbrev S1 : Shape := ⟨1, ![1]⟩
abbrev S1x1 : Shape := ⟨2, ![1, 1]⟩
abbrev S1x8x4 : Shape := ⟨3, ![1, 8, 4]⟩
abbrev S8x4 : Shape := ⟨2, ![8, 4]⟩
abbrev S1x4x8 : Shape := ⟨3, ![1, 4, 8]⟩
abbrev S4x8 : Shape := ⟨2, ![4, 8]⟩
abbrev S8192x8x1 : Shape := ⟨3, ![8192, 8, 1]⟩
abbrev S8192x8x4 : Shape := ⟨3, ![8192, 8, 4]⟩
abbrev S8192x4 : Shape := ⟨2, ![8192, 4]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x8 : Shape := ⟨3, ![1, 128, 8]⟩
abbrev S128x8 : Shape := ⟨2, ![128, 8]⟩
abbrev S8192x128 : Shape := ⟨2, ![8192, 128]⟩
abbrev S1x4 : Shape := ⟨2, ![1, 4]⟩
abbrev S4 : Shape := ⟨1, ![4]⟩
abbrev S8192 : Shape := ⟨1, ![8192]⟩
abbrev S8192x4x1 : Shape := ⟨3, ![8192, 4, 1]⟩
abbrev S8192x4x8 : Shape := ⟨3, ![8192, 4, 8]⟩
abbrev S1x8x8 : Shape := ⟨3, ![1, 8, 8]⟩
abbrev S8192x8x8 : Shape := ⟨3, ![8192, 8, 8]⟩
abbrev S262144 : Shape := ⟨1, ![262144]⟩

abbrev nBuf : Space → Nat
  | .hbm => 18
  | .vmem => 20
  | .smem => 0
  | _ => 0

abbrev bufTy : (tb : Table) → Fin (tcTables nBuf tb) → BufTy
  | .hbm, ⟨0, _⟩ => ⟨S262144x8, .f32⟩
  | .hbm, ⟨1, _⟩ => ⟨S6x8, .f32⟩
  | .hbm, ⟨2, _⟩ => ⟨S6x8, .f32⟩
  | .hbm, ⟨3, _⟩ => ⟨S6x4x128, .f32⟩
  | .hbm, ⟨4, _⟩ => ⟨S6x128, .f32⟩
  | .hbm, ⟨5, _⟩ => ⟨S6x128x128, .f32⟩
  | .hbm, ⟨6, _⟩ => ⟨S6x128, .f32⟩
  | .hbm, ⟨7, _⟩ => ⟨S6x128x8, .f32⟩
  | .hbm, ⟨8, _⟩ => ⟨S6x8, .f32⟩
  | .hbm, ⟨9, _⟩ => ⟨S6x4, .f32⟩
  | .hbm, ⟨10, _⟩ => ⟨S6x8x4, .f32⟩
  | .hbm, ⟨11, _⟩ => ⟨S6x8x4, .f32⟩
  | .hbm, ⟨12, _⟩ => ⟨S6x4x8, .f32⟩
  | .hbm, ⟨13, _⟩ => ⟨S6x4x8, .f32⟩
  | .hbm, ⟨14, _⟩ => ⟨S8x8, .f32⟩
  | .hbm, ⟨15, _⟩ => ⟨S262144x8, .f32⟩
  | .hbm, ⟨16, _⟩ => ⟨S262144x1, .f32⟩
  | .hbm, ⟨17, _⟩ => ⟨S262144, .f32⟩
  | .local _ .vmem, ⟨0, _⟩ => ⟨S8192x8, .f32⟩
  | .local _ .vmem, ⟨1, _⟩ => ⟨S8192x8, .f32⟩
  | .local _ .vmem, ⟨2, _⟩ => ⟨S6x8, .f32⟩
  | .local _ .vmem, ⟨3, _⟩ => ⟨S6x8, .f32⟩
  | .local _ .vmem, ⟨4, _⟩ => ⟨S6x4x128, .f32⟩
  | .local _ .vmem, ⟨5, _⟩ => ⟨S6x128, .f32⟩
  | .local _ .vmem, ⟨6, _⟩ => ⟨S6x128x128, .f32⟩
  | .local _ .vmem, ⟨7, _⟩ => ⟨S6x128, .f32⟩
  | .local _ .vmem, ⟨8, _⟩ => ⟨S6x128x8, .f32⟩
  | .local _ .vmem, ⟨9, _⟩ => ⟨S6x8, .f32⟩
  | .local _ .vmem, ⟨10, _⟩ => ⟨S6x4, .f32⟩
  | .local _ .vmem, ⟨11, _⟩ => ⟨S6x8x4, .f32⟩
  | .local _ .vmem, ⟨12, _⟩ => ⟨S6x8x4, .f32⟩
  | .local _ .vmem, ⟨13, _⟩ => ⟨S6x4x8, .f32⟩
  | .local _ .vmem, ⟨14, _⟩ => ⟨S6x4x8, .f32⟩
  | .local _ .vmem, ⟨15, _⟩ => ⟨S8x8, .f32⟩
  | .local _ .vmem, ⟨16, _⟩ => ⟨S8192x8, .f32⟩
  | .local _ .vmem, ⟨17, _⟩ => ⟨S8192x8, .f32⟩
  | .local _ .vmem, ⟨18, _⟩ => ⟨S8192x1, .f32⟩
  | .local _ .vmem, ⟨19, _⟩ => ⟨S8192x1, .f32⟩
  | _, _ => ⟨S262144x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_cst_3 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c6_i32 : BitVec 32 := 6#32
  let v3 : BitVec 32 := Scalar.addi c0_i32 c6_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let v7 : Index := Scalar.indexCast arg18
  let c0_8 : Index := 0#32
  ![v7.toNat, 0]
def k0_off2 (k0_t1 : Fin k0_t1_loop.trips) : Fin 3 → Nat :=
  let c0_i32 : BitVec 32 := 0#32
  let c1_i32 : BitVec 32 := 1#32
  let arg18 : BitVec 32 := Scf.iv c0_i32 c1_i32 k0_t1
  let v30 : Index := Scalar.indexCast arg18
  let c0_13 : Index := 0#32
  let c0_14 : Index := 0#32
  ![v30.toNat, 0, 0]
def k0_off3 (k0_t1 : Fin k0_t1_loop.trips) : Fin 3 → Nat :=
  let c0_i32 : BitVec 32 := 0#32
  let c1_i32 : BitVec 32 := 1#32
  let arg18 : BitVec 32 := Scf.iv c0_i32 c1_i32 k0_t1
  let v36 : Index := Scalar.indexCast arg18
  let c0_17 : Index := 0#32
  let c0_18 : Index := 0#32
  ![v36.toNat, 0, 0]
def k0_off4 (k0_t1 : Fin k0_t1_loop.trips) : Fin 3 → Nat :=
  let c0_i32 : BitVec 32 := 0#32
  let c1_i32 : BitVec 32 := 1#32
  let arg18 : BitVec 32 := Scf.iv c0_i32 c1_i32 k0_t1
  let v54 : Index := Scalar.indexCast arg18
  let c0_23 : Index := 0#32
  let c0_24 : Index := 0#32
  ![v54.toNat, 0, 0]
def k0_off5 (k0_t1 : Fin k0_t1_loop.trips) : Fin 2 → Nat :=
  let c0_i32 : BitVec 32 := 0#32
  let c1_i32 : BitVec 32 := 1#32
  let arg18 : BitVec 32 := Scf.iv c0_i32 c1_i32 k0_t1
  let v57 : Index := Scalar.indexCast arg18
  let c0_25 : Index := 0#32
  ![v57.toNat, 0]
def k0_off6 (k0_t1 : Fin k0_t1_loop.trips) : Fin 3 → Nat :=
  let c0_i32 : BitVec 32 := 0#32
  let c1_i32 : BitVec 32 := 1#32
  let arg18 : BitVec 32 := Scf.iv c0_i32 c1_i32 k0_t1
  let v60 : Index := Scalar.indexCast arg18
  let c0_26 : Index := 0#32
  let c0_27 : Index := 0#32
  ![v60.toNat, 0, 0]
def k0_off7 (k0_t1 : Fin k0_t1_loop.trips) : Fin 3 → Nat :=
  let c0_i32 : BitVec 32 := 0#32
  let c1_i32 : BitVec 32 := 1#32
  let arg18 : BitVec 32 := Scf.iv c0_i32 c1_i32 k0_t1
  let v66 : Index := Scalar.indexCast arg18
  let c0_29 : Index := 0#32
  let c0_30 : Index := 0#32
  ![v66.toNat, 0, 0]
def k0_off8 (k0_t1 : Fin k0_t1_loop.trips) : Fin 2 → Nat :=
  let c0_i32 : BitVec 32 := 0#32
  let c1_i32 : BitVec 32 := 1#32
  let arg18 : BitVec 32 := Scf.iv c0_i32 c1_i32 k0_t1
  let v96 : Index := Scalar.indexCast arg18
  let c0_37 : Index := 0#32
  ![v96.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x8x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x8x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x4x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x4x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8192x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8192x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  inb_S8x8_S8x8_0_0 : ∀ a, (![0, 0] : Fin 2 → Nat) a + S8x8.size a ≤ S8x8.size a
  h_S8x8 : 0 < S8x8.numel
  h_S1x8 : 0 < S1x8.numel
  shapeCasts_S1x8_S8 : S1x8.ShapeCasts S8
  shapeCasts_S8_S1x8 : S8.ShapeCasts S1x8
  broadcasts_S1x8_S8192x8 : S1x8.Broadcasts S8192x8
  reduces_S1x8_S1 : S1x8.Reduces [1] S1
  shapeCasts_S1_S1x1 : S1.ShapeCasts S1x1
  inpos_S1x1_p0_0 : ∀ a, (![0, 0] : Fin 2 → Nat) a < S1x1.size a
  h_S1x8x4 : 0 < S1x8x4.numel
  shapeCasts_S1x8x4_S8x4 : S1x8x4.ShapeCasts S8x4
  h_S1x4x8 : 0 < S1x4x8.numel
  shapeCasts_S1x4x8_S4x8 : S1x4x8.ShapeCasts S4x8
  shapeCasts_S8192x8_S8192x8x1 : S8192x8.ShapeCasts S8192x8x1
  shapeCasts_S8x4_S1x8x4 : S8x4.ShapeCasts S1x8x4
  broadcasts_S8192x8x1_S8192x8x4 : S8192x8x1.Broadcasts S8192x8x4
  broadcasts_S1x8x4_S8192x8x4 : S1x8x4.Broadcasts S8192x8x4
  reduces_S8192x8x4_S8192x4 : S8192x8x4.Reduces [1] S8192x4
  h_S1x4x128 : 0 < S1x4x128.numel
  shapeCasts_S1x4x128_S4x128 : S1x4x128.ShapeCasts S4x128
  h_S1x128 : 0 < S1x128.numel
  shapeCasts_S1x128_S128 : S1x128.ShapeCasts S128
  h_S1x128x128 : 0 < S1x128x128.numel
  shapeCasts_S1x128x128_S128x128 : S1x128x128.ShapeCasts S128x128
  h_S1x128x8 : 0 < S1x128x8.numel
  shapeCasts_S1x128x8_S128x8 : S1x128x8.ShapeCasts S128x8
  bitsLt_bf16_f32 : FTy.bits .bf16 < FTy.bits .f32
  shapeCasts_S128_S1x128 : S128.ShapeCasts S1x128
  broadcasts_S1x128_S8192x128 : S1x128.Broadcasts S8192x128
  slices_S8192x8_o0_0_S8192x4 : S8192x8.Slices ![0, 0] S8192x4
  slices_S8192x8_o0_4_S8192x4 : S8192x8.Slices ![0, 4] S8192x4
  h_S1x4 : 0 < S1x4.numel
  shapeCasts_S1x4_S4 : S1x4.ShapeCasts S4
  shapeCasts_S4_S1x4 : S4.ShapeCasts S1x4
  broadcasts_S1x4_S8192x4 : S1x4.Broadcasts S8192x4
  reduces_S8192x4_S8192 : S8192x4.Reduces [1] S8192
  shapeCasts_S8192_S8192x1 : S8192.ShapeCasts S8192x1
  shapeCasts_S8192x4_S8192x4x1 : S8192x4.ShapeCasts S8192x4x1
  shapeCasts_S4x8_S1x4x8 : S4x8.ShapeCasts S1x4x8
  broadcasts_S8192x4x1_S8192x4x8 : S8192x4x1.Broadcasts S8192x4x8
  broadcasts_S1x4x8_S8192x4x8 : S1x4x8.Broadcasts S8192x4x8
  reduces_S8192x4x8_S8192x8 : S8192x4x8.Reduces [1] S8192x8
  shapeCasts_S8x8_S1x8x8 : S8x8.ShapeCasts S1x8x8
  broadcasts_S8192x8x1_S8192x8x8 : S8192x8x1.Broadcasts S8192x8x8
  broadcasts_S1x8x8_S8192x8x8 : S1x8x8.Broadcasts S8192x8x8
  reduces_S8192x8x8_S8192x8 : S8192x8x8.Reduces [1] S8192x8
  inb_S8192x1_S8192x1_0_0 : ∀ a, (![0, 0] : Fin 2 → Nat) a + S8192x1.size a ≤ S8192x1.size a
  h_S8192x1 : 0 < S8192x1.numel
  shapeCasts_S262144x1_S262144 : S262144x1.ShapeCasts S262144
  dot_S8192x4_S4x128_S8192x128_1_0_0_1_n_n_wf : DotDims.WF S8192x4 S4x128 S8192x128 [1] [0] [0] [1] [] []
  dot_S8192x128_S128x128_S8192x128_1_0_0_1_n_n_wf : DotDims.WF S8192x128 S128x128 S8192x128 [1] [0] [0] [1] [] []
  dot_S8192x128_S128x8_S8192x8_1_0_0_1_n_n_wf : DotDims.WF S8192x128 S128x8 S8192x8 [1] [0] [0] [1] [] []
  hrank0 : 0 < grid0.rank
  k0_t1_ok : k0_t1_loop.OK
  k0_off1_inb : ∀ k0_t1 : Fin k0_t1_loop.trips, ∀ a, (k0_off1 k0_t1) a + S1x8.size a ≤ S6x8.size a
  k0_off2_inb : ∀ k0_t1 : Fin k0_t1_loop.trips, ∀ a, (k0_off2 k0_t1) a + S1x8x4.size a ≤ S6x8x4.size a
  k0_off3_inb : ∀ k0_t1 : Fin k0_t1_loop.trips, ∀ a, (k0_off3 k0_t1) a + S1x4x8.size a ≤ S6x4x8.size a
  k0_off4_inb : ∀ k0_t1 : Fin k0_t1_loop.trips, ∀ a, (k0_off4 k0_t1) a + S1x4x128.size a ≤ S6x4x128.size a
  k0_off5_inb : ∀ k0_t1 : Fin k0_t1_loop.trips, ∀ a, (k0_off5 k0_t1) a + S1x128.size a ≤ S6x128.size a
  k0_off6_inb : ∀ k0_t1 : Fin k0_t1_loop.trips, ∀ a, (k0_off6 k0_t1) a + S1x128x128.size a ≤ S6x128x128.size a
  k0_off7_inb : ∀ k0_t1 : Fin k0_t1_loop.trips, ∀ a, (k0_off7 k0_t1) a + S1x128x8.size a ≤ S6x128x8.size a
  k0_off8_inb : ∀ k0_t1 : Fin k0_t1_loop.trips, ∀ a, (k0_off8 k0_t1) a + S1x4.size a ≤ S6x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S262144x8.size a
  hwx0_0 : ∀ i : grid0.Coords, EltTy.bits .f32 = 32 ∨ (Rect.block (s := S262144x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x8.size a ≤ S6x8.size a
  hwx0_1 : ∀ i : grid0.Coords, EltTy.bits .f32 = 32 ∨ (Rect.block (s := S6x8) S6x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x8.size a ≤ S6x8.size a
  hwx0_2 : ∀ i : grid0.Coords, EltTy.bits .f32 = 32 ∨ (Rect.block (s := S6x8) S6x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x4x128.size a ≤ S6x4x128.size a
  hwx0_3 : ∀ i : grid0.Coords, EltTy.bits .f32 = 32 ∨ (Rect.block (s := S6x4x128) S6x4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128x128.size a ≤ S6x128x128.size a
  hwx0_5 : ∀ i : grid0.Coords, EltTy.bits .f32 = 32 ∨ (Rect.block (s := S6x128x128) S6x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x128.size a ≤ S6x128.size a
  hwx0_6 : ∀ i : grid0.Coords, EltTy.bits .f32 = 32 ∨ (Rect.block (s := S6x128) S6x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x128x8.size a ≤ S6x128x8.size a
  hwx0_7 : ∀ i : grid0.Coords, EltTy.bits .f32 = 32 ∨ (Rect.block (s := S6x128x8) S6x128x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x8.size a ≤ S6x8.size a
  hwx0_8 : ∀ i : grid0.Coords, EltTy.bits .f32 = 32 ∨ (Rect.block (s := S6x8) S6x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x4.size a ≤ S6x4.size a
  hwx0_9 : ∀ i : grid0.Coords, EltTy.bits .f32 = 32 ∨ (Rect.block (s := S6x4) S6x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x8x4.size a ≤ S6x8x4.size a
  hwx0_10 : ∀ i : grid0.Coords, EltTy.bits .f32 = 32 ∨ (Rect.block (s := S6x8x4) S6x8x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x8x4.size a ≤ S6x8x4.size a
  hwx0_11 : ∀ i : grid0.Coords, EltTy.bits .f32 = 32 ∨ (Rect.block (s := S6x8x4) S6x8x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x4x8.size a ≤ S6x4x8.size a
  hwx0_12 : ∀ i : grid0.Coords, EltTy.bits .f32 = 32 ∨ (Rect.block (s := S6x4x8) S6x4x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S6x4x8.size a ≤ S6x4x8.size a
  hwx0_13 : ∀ i : grid0.Coords, EltTy.bits .f32 = 32 ∨ (Rect.block (s := S6x4x8) S6x4x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S8x8.size a ≤ S8x8.size a
  hwx0_14 : ∀ i : grid0.Coords, EltTy.bits .f32 = 32 ∨ (Rect.block (s := S8x8) S8x8.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8192x8.size a ≤ S262144x8.size a
  hwx0_15 : ∀ i : grid0.Coords, EltTy.bits .f32 = 32 ∨ (Rect.block (s := S262144x8) S8192x8.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8192x1.size a ≤ S262144x1.size a
  hwx0_16 : ∀ i : grid0.Coords, EltTy.bits .f32 = 32 ∨ (Rect.block (s := S262144x1) S8192x1.size (cc0_transform_16 i) (hinb0_16 i)).WholeWords (EltTy.packing .f32)

variable [Facts₀]

def dot_S8192x4_S4x128_S8192x128_1_0_0_1_n_n : DotDims S8192x4 S4x128 S8192x128 where
  lhsContracting := [1]
  rhsContracting := [0]
  lhsNonContracting := [0]
  rhsNonContracting := [1]
  lhsBatch := []
  rhsBatch := []
  wf := dot_S8192x4_S4x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x128x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst) S6x8x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst_0) S6x8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_cst_1) S6x4x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_cst_2) S6x4x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_cst_3) S8x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S8192x8.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S8192x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S262144x8 : Shape := ⟨2, ![262144, 8]⟩
abbrev S6x8 : Shape := ⟨2, ![6, 8]⟩
abbrev S6x4x128 : Shape := ⟨3, ![6, 4, 128]⟩
abbrev S6x128 : Shape := ⟨2, ![6, 128]⟩
abbrev S6x128x128 : Shape := ⟨3, ![6, 128, 128]⟩
abbrev S6x128x8 : Shape := ⟨3, ![6, 128, 8]⟩
abbrev S6x4 : Shape := ⟨2, ![6, 4]⟩
abbrev S4 : Shape := ⟨1, ![4]⟩
abbrev S_ : Shape := ⟨0, ![]⟩
abbrev S262144 : Shape := ⟨1, ![262144]⟩
abbrev S1x8 : Shape := ⟨2, ![1, 8]⟩
abbrev S8 : Shape := ⟨1, ![8]⟩
abbrev S4x1 : Shape := ⟨2, ![4, 1]⟩
abbrev S262144x4 : Shape := ⟨2, ![262144, 4]⟩
abbrev S1x4x128 : Shape := ⟨3, ![1, 4, 128]⟩
abbrev S4x128 : Shape := ⟨2, ![4, 128]⟩
abbrev S262144x128 : Shape := ⟨2, ![262144, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x8 : Shape := ⟨3, ![1, 128, 8]⟩
abbrev S128x8 : Shape := ⟨2, ![128, 8]⟩
abbrev S1x4 : Shape := ⟨2, ![1, 4]⟩

abbrev nBuf : Space → Nat
  | .hbm => 740
  | .vmem => 0
  | .smem => 0
  | _ => 0

abbrev hbmTy0_0 (i : Nat) : BufTy := match i % 128 with
  | 0 => ⟨S262144x8, .f32⟩
  | 1 => ⟨S6x8, .f32⟩
  | 2 => ⟨S6x8, .f32⟩
  | 3 => ⟨S6x4x128, .f32⟩
  | 4 => ⟨S6x128, .f32⟩
  | 5 => ⟨S6x128x128, .f32⟩
  | 6 => ⟨S6x128, .f32⟩
  | 7 => ⟨S6x128x8, .f32⟩
  | 8 => ⟨S6x8, .f32⟩
  | 9 => ⟨S6x4, .f32⟩
  | 10 => ⟨S4, .i32⟩
  | 11 => ⟨S4, .i1⟩
  | 12 => ⟨S4, .i32⟩
  | 13 => ⟨S4, .i1⟩
  | 14 => ⟨S4, .i1⟩
  | 15 => ⟨S4, .i1⟩
  | 16 => ⟨S4, .i1⟩
  | 17 => ⟨S4, .i1⟩
  | 18 => ⟨S4, .i1⟩
  | 19 => ⟨S4, .i1⟩
  | 20 => ⟨S4, .i1⟩
  | 21 => ⟨S4, .i1⟩
  | 22 => ⟨S4, .i1⟩
  | 23 => ⟨S4, .i1⟩
  | 24 => ⟨S4, .i1⟩
  | 25 => ⟨S4, .i1⟩
  | 26 => ⟨S4, .i1⟩
  | 27 => ⟨S4, .i1⟩
  | 28 => ⟨S4, .i1⟩
  | 29 => ⟨S4, .i1⟩
  | 30 => ⟨S4, .i1⟩
  | 31 => ⟨S4, .i1⟩
  | 32 => ⟨S4, .i1⟩
  | 33 => ⟨S4, .i1⟩
  | 34 => ⟨S4, .i1⟩
  | 35 => ⟨S4, .i1⟩
  | 36 => ⟨S_, .f32⟩
  | 37 => ⟨S262144, .f32⟩
  | 38 => ⟨S1x8, .f32⟩
  | 39 => ⟨S8, .f32⟩
  | 40 => ⟨S_, .f32⟩
  | 41 => ⟨S_, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S1x8, .f32⟩
  | 49 => ⟨S8, .f32⟩
  | 50 => ⟨S1x8, .f32⟩
  | 51 => ⟨S262144x8, .f32⟩
  | 52 => ⟨S262144x8, .f32⟩
  | 53 => ⟨S8, .f32⟩
  | 54 => ⟨S1x8, .f32⟩
  | 55 => ⟨S262144x8, .f32⟩
  | 56 => ⟨S262144x8, .f32⟩
  | 57 => ⟨S_, .f32⟩
  | 58 => ⟨S_, .f32⟩
  | 59 => ⟨S262144, .f32⟩
  | 60 => ⟨S262144, .f32⟩
  | 61 => ⟨S_, .i32⟩
  | 62 => ⟨S4, .i32⟩
  | 63 => ⟨S4, .i32⟩
  | 64 => ⟨S4, .i32⟩
  | 65 => ⟨S4x1, .i32⟩
  | 66 => ⟨S262144x4, .f32⟩
  | 67 => ⟨S_, .i32⟩
  | 68 => ⟨S4, .i32⟩
  | 69 => ⟨S4, .i32⟩
  | 70 => ⟨S4, .i32⟩
  | 71 => ⟨S4x1, .i32⟩
  | 72 => ⟨S262144x4, .f32⟩
  | 73 => ⟨S1x4x128, .f32⟩
  | 74 => ⟨S4x128, .f32⟩
  | 75 => ⟨S262144x128, .f32⟩
  | 76 => ⟨S1x128, .f32⟩
  | 77 => ⟨S128, .f32⟩
  | 78 => ⟨S1x128, .f32⟩
  | 79 => ⟨S262144x128, .f32⟩
  | 80 => ⟨S262144x128, .f32⟩
  | 81 => ⟨S_, .f32⟩
  | 82 => ⟨S262144x128, .f32⟩
  | 83 => ⟨S262144x128, .f32⟩
  | 84 => ⟨S1x128x128, .f32⟩
  | 85 => ⟨S128x128, .f32⟩
  | 86 => ⟨S262144x128, .f32⟩
  | 87 => ⟨S1x128, .f32⟩
  | 88 => ⟨S128, .f32⟩
  | 89 => ⟨S1x128, .f32⟩
  | 90 => ⟨S262144x128, .f32⟩
  | 91 => ⟨S262144x128, .f32⟩
  | 92 => ⟨S_, .f32⟩
  | 93 => ⟨S262144x128, .f32⟩
  | 94 => ⟨S262144x128, .f32⟩
  | 95 => ⟨S1x128x8, .f32⟩
  | 96 => ⟨S128x8, .f32⟩
  | 97 => ⟨S262144x8, .f32⟩
  | 98 => ⟨S1x8, .f32⟩
  | 99 => ⟨S8, .f32⟩
  | 100 => ⟨S1x8, .f32⟩
  | 101 => ⟨S262144x8, .f32⟩
  | 102 => ⟨S262144x8, .f32⟩
  | 103 => ⟨S262144x4, .f32⟩
  | 104 => ⟨S262144x4, .f32⟩
  | 105 => ⟨S1x4, .f32⟩
  | 106 => ⟨S4, .f32⟩
  | 107 => ⟨S_, .f32⟩
  | 108 => ⟨S_, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S4, .f32⟩
  | 116 => ⟨S262144x4, .f32⟩
  | 117 => ⟨S1x4, .f32⟩
  | 118 => ⟨S262144x4, .f32⟩
  | 119 => ⟨S262144x4, .f32⟩
  | 120 => ⟨S262144x4, .f32⟩
  | 121 => ⟨S_, .f32⟩
  | 122 => ⟨S262144x4, .f32⟩
  | 123 => ⟨S262144x4, .f32⟩
  | 124 => ⟨S_, .f32⟩
  | 125 => ⟨S262144x4, .f32⟩
  | 126 => ⟨S262144x4, .f32⟩
  | 127 => ⟨S262144x4, .f32⟩
  | _ => ⟨S262144x8, .f32⟩

abbrev hbmTy0_1 (i : Nat) : BufTy := match i % 128 with
  | 0 => ⟨S262144x4, .f32⟩
  | 1 => ⟨S_, .f32⟩
  | 2 => ⟨S262144x4, .f32⟩
  | 3 => ⟨S262144x4, .f32⟩
  | 4 => ⟨S262144x4, .f32⟩
  | 5 => ⟨S_, .f32⟩
  | 6 => ⟨S262144x4, .f32⟩
  | 7 => ⟨S262144x4, .f32⟩
  | 8 => ⟨S262144x4, .f32⟩
  | 9 => ⟨S_, .f32⟩
  | 10 => ⟨S262144, .f32⟩
  | 11 => ⟨S262144, .f32⟩
  | 12 => ⟨S_, .f32⟩
  | 13 => ⟨S262144x8, .f32⟩
  | 14 => ⟨S_, .i32⟩
  | 15 => ⟨S4, .i32⟩
  | 16 => ⟨S4, .i32⟩
  | 17 => ⟨S4, .i32⟩
  | 18 => ⟨S4x1, .i32⟩
  | 19 => ⟨S262144x8, .f32⟩
  | 20 => ⟨S_, .i32⟩
  | 21 => ⟨S4, .i32⟩
  | 22 => ⟨S4, .i32⟩
  | 23 => ⟨S4, .i32⟩
  | 24 => ⟨S4x1, .i32⟩
  | 25 => ⟨S262144x8, .f32⟩
  | 26 => ⟨S262144x8, .f32⟩
  | 27 => ⟨S1x8, .f32⟩
  | 28 => ⟨S8, .f32⟩
  | 29 => ⟨S_, .f32⟩
  | 30 => ⟨S_, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S1x8, .f32⟩
  | 38 => ⟨S8, .f32⟩
  | 39 => ⟨S1x8, .f32⟩
  | 40 => ⟨S262144x8, .f32⟩
  | 41 => ⟨S262144x8, .f32⟩
  | 42 => ⟨S8, .f32⟩
  | 43 => ⟨S1x8, .f32⟩
  | 44 => ⟨S262144x8, .f32⟩
  | 45 => ⟨S262144x8, .f32⟩
  | 46 => ⟨S_, .f32⟩
  | 47 => ⟨S_, .f32⟩
  | 48 => ⟨S262144, .f32⟩
  | 49 => ⟨S262144, .f32⟩
  | 50 => ⟨S_, .i32⟩
  | 51 => ⟨S4, .i32⟩
  | 52 => ⟨S4, .i32⟩
  | 53 => ⟨S4, .i32⟩
  | 54 => ⟨S4x1, .i32⟩
  | 55 => ⟨S262144x4, .f32⟩
  | 56 => ⟨S_, .i32⟩
  | 57 => ⟨S4, .i32⟩
  | 58 => ⟨S4, .i32⟩
  | 59 => ⟨S4, .i32⟩
  | 60 => ⟨S4x1, .i32⟩
  | 61 => ⟨S262144x4, .f32⟩
  | 62 => ⟨S1x4x128, .f32⟩
  | 63 => ⟨S4x128, .f32⟩
  | 64 => ⟨S262144x128, .f32⟩
  | 65 => ⟨S1x128, .f32⟩
  | 66 => ⟨S128, .f32⟩
  | 67 => ⟨S1x128, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S1x128x128, .f32⟩
  | 74 => ⟨S128x128, .f32⟩
  | 75 => ⟨S262144x128, .f32⟩
  | 76 => ⟨S1x128, .f32⟩
  | 77 => ⟨S128, .f32⟩
  | 78 => ⟨S1x128, .f32⟩
  | 79 => ⟨S262144x128, .f32⟩
  | 80 => ⟨S262144x128, .f32⟩
  | 81 => ⟨S_, .f32⟩
  | 82 => ⟨S262144x128, .f32⟩
  | 83 => ⟨S262144x128, .f32⟩
  | 84 => ⟨S1x128x8, .f32⟩
  | 85 => ⟨S128x8, .f32⟩
  | 86 => ⟨S262144x8, .f32⟩
  | 87 => ⟨S1x8, .f32⟩
  | 88 => ⟨S8, .f32⟩
  | 89 => ⟨S1x8, .f32⟩
  | 90 => ⟨S262144x8, .f32⟩
  | 91 => ⟨S262144x8, .f32⟩
  | 92 => ⟨S262144x4, .f32⟩
  | 93 => ⟨S262144x4, .f32⟩
  | 94 => ⟨S1x4, .f32⟩
  | 95 => ⟨S4, .f32⟩
  | 96 => ⟨S_, .f32⟩
  | 97 => ⟨S_, .f32⟩
  | 98 => ⟨S_, .f32⟩
  | 99 => ⟨S4, .f32⟩
  | 100 => ⟨S4, .f32⟩
  | 101 => ⟨S_, .f32⟩
  | 102 => ⟨S4, .f32⟩
  | 103 => ⟨S4, .f32⟩
  | 104 => ⟨S4, .f32⟩
  | 105 => ⟨S262144x4, .f32⟩
  | 106 => ⟨S1x4, .f32⟩
  | 107 => ⟨S262144x4, .f32⟩
  | 108 => ⟨S262144x4, .f32⟩
  | 109 => ⟨S262144x4, .f32⟩
  | 110 => ⟨S_, .f32⟩
  | 111 => ⟨S262144x4, .f32⟩
  | 112 => ⟨S262144x4, .f32⟩
  | 113 => ⟨S_, .f32⟩
  | 114 => ⟨S262144x4, .f32⟩
  | 115 => ⟨S262144x4, .f32⟩
  | 116 => ⟨S262144x4, .f32⟩
  | 117 => ⟨S262144x4, .f32⟩
  | 118 => ⟨S_, .f32⟩
  | 119 => ⟨S262144x4, .f32⟩
  | 120 => ⟨S262144x4, .f32⟩
  | 121 => ⟨S262144x4, .f32⟩
  | 122 => ⟨S_, .f32⟩
  | 123 => ⟨S262144x4, .f32⟩
  | 124 => ⟨S262144x4, .f32⟩
  | 125 => ⟨S262144x4, .f32⟩
  | 126 => ⟨S_, .f32⟩
  | 127 => ⟨S262144, .f32⟩
  | _ => ⟨S262144x8, .f32⟩

abbrev hbmTy0_2 (i : Nat) : BufTy := match i % 128 with
  | 0 => ⟨S262144, .f32⟩
  | 1 => ⟨S_, .f32⟩
  | 2 => ⟨S262144x8, .f32⟩
  | 3 => ⟨S_, .i32⟩
  | 4 => ⟨S4, .i32⟩
  | 5 => ⟨S4, .i32⟩
  | 6 => ⟨S4, .i32⟩
  | 7 => ⟨S4x1, .i32⟩
  | 8 => ⟨S262144x8, .f32⟩
  | 9 => ⟨S_, .i32⟩
  | 10 => ⟨S4, .i32⟩
  | 11 => ⟨S4, .i32⟩
  | 12 => ⟨S4, .i32⟩
  | 13 => ⟨S4x1, .i32⟩
  | 14 => ⟨S262144x8, .f32⟩
  | 15 => ⟨S262144x8, .f32⟩
  | 16 => ⟨S1x8, .f32⟩
  | 17 => ⟨S8, .f32⟩
  | 18 => ⟨S_, .f32⟩
  | 19 => ⟨S_, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S1x8, .f32⟩
  | 27 => ⟨S8, .f32⟩
  | 28 => ⟨S1x8, .f32⟩
  | 29 => ⟨S262144x8, .f32⟩
  | 30 => ⟨S262144x8, .f32⟩
  | 31 => ⟨S8, .f32⟩
  | 32 => ⟨S1x8, .f32⟩
  | 33 => ⟨S262144x8, .f32⟩
  | 34 => ⟨S262144x8, .f32⟩
  | 35 => ⟨S_, .f32⟩
  | 36 => ⟨S_, .f32⟩
  | 37 => ⟨S262144, .f32⟩
  | 38 => ⟨S262144, .f32⟩
  | 39 => ⟨S_, .i32⟩
  | 40 => ⟨S4, .i32⟩
  | 41 => ⟨S4, .i32⟩
  | 42 => ⟨S4, .i32⟩
  | 43 => ⟨S4x1, .i32⟩
  | 44 => ⟨S262144x4, .f32⟩
  | 45 => ⟨S_, .i32⟩
  | 46 => ⟨S4, .i32⟩
  | 47 => ⟨S4, .i32⟩
  | 48 => ⟨S4, .i32⟩
  | 49 => ⟨S4x1, .i32⟩
  | 50 => ⟨S262144x4, .f32⟩
  | 51 => ⟨S1x4x128, .f32⟩
  | 52 => ⟨S4x128, .f32⟩
  | 53 => ⟨S262144x128, .f32⟩
  | 54 => ⟨S1x128, .f32⟩
  | 55 => ⟨S128, .f32⟩
  | 56 => ⟨S1x128, .f32⟩
  | 57 => ⟨S262144x128, .f32⟩
  | 58 => ⟨S262144x128, .f32⟩
  | 59 => ⟨S_, .f32⟩
  | 60 => ⟨S262144x128, .f32⟩
  | 61 => ⟨S262144x128, .f32⟩
  | 62 => ⟨S1x128x128, .f32⟩
  | 63 => ⟨S128x128, .f32⟩
  | 64 => ⟨S262144x128, .f32⟩
  | 65 => ⟨S1x128, .f32⟩
  | 66 => ⟨S128, .f32⟩
  | 67 => ⟨S1x128, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S1x128x8, .f32⟩
  | 74 => ⟨S128x8, .f32⟩
  | 75 => ⟨S262144x8, .f32⟩
  | 76 => ⟨S1x8, .f32⟩
  | 77 => ⟨S8, .f32⟩
  | 78 => ⟨S1x8, .f32⟩
  | 79 => ⟨S262144x8, .f32⟩
  | 80 => ⟨S262144x8, .f32⟩
  | 81 => ⟨S262144x4, .f32⟩
  | 82 => ⟨S262144x4, .f32⟩
  | 83 => ⟨S1x4, .f32⟩
  | 84 => ⟨S4, .f32⟩
  | 85 => ⟨S_, .f32⟩
  | 86 => ⟨S_, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S262144x4, .f32⟩
  | 95 => ⟨S1x4, .f32⟩
  | 96 => ⟨S262144x4, .f32⟩
  | 97 => ⟨S262144x4, .f32⟩
  | 98 => ⟨S262144x4, .f32⟩
  | 99 => ⟨S_, .f32⟩
  | 100 => ⟨S262144x4, .f32⟩
  | 101 => ⟨S262144x4, .f32⟩
  | 102 => ⟨S_, .f32⟩
  | 103 => ⟨S262144x4, .f32⟩
  | 104 => ⟨S262144x4, .f32⟩
  | 105 => ⟨S262144x4, .f32⟩
  | 106 => ⟨S262144x4, .f32⟩
  | 107 => ⟨S_, .f32⟩
  | 108 => ⟨S262144x4, .f32⟩
  | 109 => ⟨S262144x4, .f32⟩
  | 110 => ⟨S262144x4, .f32⟩
  | 111 => ⟨S_, .f32⟩
  | 112 => ⟨S262144x4, .f32⟩
  | 113 => ⟨S262144x4, .f32⟩
  | 114 => ⟨S262144x4, .f32⟩
  | 115 => ⟨S_, .f32⟩
  | 116 => ⟨S262144, .f32⟩
  | 117 => ⟨S262144, .f32⟩
  | 118 => ⟨S_, .f32⟩
  | 119 => ⟨S262144x8, .f32⟩
  | 120 => ⟨S_, .i32⟩
  | 121 => ⟨S4, .i32⟩
  | 122 => ⟨S4, .i32⟩
  | 123 => ⟨S4, .i32⟩
  | 124 => ⟨S4x1, .i32⟩
  | 125 => ⟨S262144x8, .f32⟩
  | 126 => ⟨S_, .i32⟩
  | 127 => ⟨S4, .i32⟩
  | _ => ⟨S262144x8, .f32⟩

abbrev hbmTy0_3 (i : Nat) : BufTy := match i % 128 with
  | 0 => ⟨S4, .i32⟩
  | 1 => ⟨S4, .i32⟩
  | 2 => ⟨S4x1, .i32⟩
  | 3 => ⟨S262144x8, .f32⟩
  | 4 => ⟨S262144x8, .f32⟩
  | 5 => ⟨S1x8, .f32⟩
  | 6 => ⟨S8, .f32⟩
  | 7 => ⟨S_, .f32⟩
  | 8 => ⟨S_, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S1x8, .f32⟩
  | 16 => ⟨S8, .f32⟩
  | 17 => ⟨S1x8, .f32⟩
  | 18 => ⟨S262144x8, .f32⟩
  | 19 => ⟨S262144x8, .f32⟩
  | 20 => ⟨S8, .f32⟩
  | 21 => ⟨S1x8, .f32⟩
  | 22 => ⟨S262144x8, .f32⟩
  | 23 => ⟨S262144x8, .f32⟩
  | 24 => ⟨S_, .f32⟩
  | 25 => ⟨S_, .f32⟩
  | 26 => ⟨S262144, .f32⟩
  | 27 => ⟨S262144, .f32⟩
  | 28 => ⟨S_, .i32⟩
  | 29 => ⟨S4, .i32⟩
  | 30 => ⟨S4, .i32⟩
  | 31 => ⟨S4, .i32⟩
  | 32 => ⟨S4x1, .i32⟩
  | 33 => ⟨S262144x4, .f32⟩
  | 34 => ⟨S_, .i32⟩
  | 35 => ⟨S4, .i32⟩
  | 36 => ⟨S4, .i32⟩
  | 37 => ⟨S4, .i32⟩
  | 38 => ⟨S4x1, .i32⟩
  | 39 => ⟨S262144x4, .f32⟩
  | 40 => ⟨S1x4x128, .f32⟩
  | 41 => ⟨S4x128, .f32⟩
  | 42 => ⟨S262144x128, .f32⟩
  | 43 => ⟨S1x128, .f32⟩
  | 44 => ⟨S128, .f32⟩
  | 45 => ⟨S1x128, .f32⟩
  | 46 => ⟨S262144x128, .f32⟩
  | 47 => ⟨S262144x128, .f32⟩
  | 48 => ⟨S_, .f32⟩
  | 49 => ⟨S262144x128, .f32⟩
  | 50 => ⟨S262144x128, .f32⟩
  | 51 => ⟨S1x128x128, .f32⟩
  | 52 => ⟨S128x128, .f32⟩
  | 53 => ⟨S262144x128, .f32⟩
  | 54 => ⟨S1x128, .f32⟩
  | 55 => ⟨S128, .f32⟩
  | 56 => ⟨S1x128, .f32⟩
  | 57 => ⟨S262144x128, .f32⟩
  | 58 => ⟨S262144x128, .f32⟩
  | 59 => ⟨S_, .f32⟩
  | 60 => ⟨S262144x128, .f32⟩
  | 61 => ⟨S262144x128, .f32⟩
  | 62 => ⟨S1x128x8, .f32⟩
  | 63 => ⟨S128x8, .f32⟩
  | 64 => ⟨S262144x8, .f32⟩
  | 65 => ⟨S1x8, .f32⟩
  | 66 => ⟨S8, .f32⟩
  | 67 => ⟨S1x8, .f32⟩
  | 68 => ⟨S262144x8, .f32⟩
  | 69 => ⟨S262144x8, .f32⟩
  | 70 => ⟨S262144x4, .f32⟩
  | 71 => ⟨S262144x4, .f32⟩
  | 72 => ⟨S1x4, .f32⟩
  | 73 => ⟨S4, .f32⟩
  | 74 => ⟨S_, .f32⟩
  | 75 => ⟨S_, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S262144x4, .f32⟩
  | 84 => ⟨S1x4, .f32⟩
  | 85 => ⟨S262144x4, .f32⟩
  | 86 => ⟨S262144x4, .f32⟩
  | 87 => ⟨S262144x4, .f32⟩
  | 88 => ⟨S_, .f32⟩
  | 89 => ⟨S262144x4, .f32⟩
  | 90 => ⟨S262144x4, .f32⟩
  | 91 => ⟨S_, .f32⟩
  | 92 => ⟨S262144x4, .f32⟩
  | 93 => ⟨S262144x4, .f32⟩
  | 94 => ⟨S262144x4, .f32⟩
  | 95 => ⟨S262144x4, .f32⟩
  | 96 => ⟨S_, .f32⟩
  | 97 => ⟨S262144x4, .f32⟩
  | 98 => ⟨S262144x4, .f32⟩
  | 99 => ⟨S262144x4, .f32⟩
  | 100 => ⟨S_, .f32⟩
  | 101 => ⟨S262144x4, .f32⟩
  | 102 => ⟨S262144x4, .f32⟩
  | 103 => ⟨S262144x4, .f32⟩
  | 104 => ⟨S_, .f32⟩
  | 105 => ⟨S262144, .f32⟩
  | 106 => ⟨S262144, .f32⟩
  | 107 => ⟨S_, .f32⟩
  | 108 => ⟨S262144x8, .f32⟩
  | 109 => ⟨S_, .i32⟩
  | 110 => ⟨S4, .i32⟩
  | 111 => ⟨S4, .i32⟩
  | 112 => ⟨S4, .i32⟩
  | 113 => ⟨S4x1, .i32⟩
  | 114 => ⟨S262144x8, .f32⟩
  | 115 => ⟨S_, .i32⟩
  | 116 => ⟨S4, .i32⟩
  | 117 => ⟨S4, .i32⟩
  | 118 => ⟨S4, .i32⟩
  | 119 => ⟨S4x1, .i32⟩
  | 120 => ⟨S262144x8, .f32⟩
  | 121 => ⟨S262144x8, .f32⟩
  | 122 => ⟨S1x8, .f32⟩
  | 123 => ⟨S8, .f32⟩
  | 124 => ⟨S_, .f32⟩
  | 125 => ⟨S_, .f32⟩
  | 126 => ⟨S_, .f32⟩
  | 127 => ⟨S8, .f32⟩
  | _ => ⟨S262144x8, .f32⟩

abbrev hbmTy0_4 (i : Nat) : BufTy := match i % 128 with
  | 0 => ⟨S8, .f32⟩
  | 1 => ⟨S_, .f32⟩
  | 2 => ⟨S8, .f32⟩
  | 3 => ⟨S8, .f32⟩
  | 4 => ⟨S1x8, .f32⟩
  | 5 => ⟨S8, .f32⟩
  | 6 => ⟨S1x8, .f32⟩
  | 7 => ⟨S262144x8, .f32⟩
  | 8 => ⟨S262144x8, .f32⟩
  | 9 => ⟨S8, .f32⟩
  | 10 => ⟨S1x8, .f32⟩
  | 11 => ⟨S262144x8, .f32⟩
  | 12 => ⟨S262144x8, .f32⟩
  | 13 => ⟨S_, .f32⟩
  | 14 => ⟨S_, .f32⟩
  | 15 => ⟨S262144, .f32⟩
  | 16 => ⟨S262144, .f32⟩
  | 17 => ⟨S_, .i32⟩
  | 18 => ⟨S4, .i32⟩
  | 19 => ⟨S4, .i32⟩
  | 20 => ⟨S4, .i32⟩
  | 21 => ⟨S4x1, .i32⟩
  | 22 => ⟨S262144x4, .f32⟩
  | 23 => ⟨S_, .i32⟩
  | 24 => ⟨S4, .i32⟩
  | 25 => ⟨S4, .i32⟩
  | 26 => ⟨S4, .i32⟩
  | 27 => ⟨S4x1, .i32⟩
  | 28 => ⟨S262144x4, .f32⟩
  | 29 => ⟨S1x4x128, .f32⟩
  | 30 => ⟨S4x128, .f32⟩
  | 31 => ⟨S262144x128, .f32⟩
  | 32 => ⟨S1x128, .f32⟩
  | 33 => ⟨S128, .f32⟩
  | 34 => ⟨S1x128, .f32⟩
  | 35 => ⟨S262144x128, .f32⟩
  | 36 => ⟨S262144x128, .f32⟩
  | 37 => ⟨S_, .f32⟩
  | 38 => ⟨S262144x128, .f32⟩
  | 39 => ⟨S262144x128, .f32⟩
  | 40 => ⟨S1x128x128, .f32⟩
  | 41 => ⟨S128x128, .f32⟩
  | 42 => ⟨S262144x128, .f32⟩
  | 43 => ⟨S1x128, .f32⟩
  | 44 => ⟨S128, .f32⟩
  | 45 => ⟨S1x128, .f32⟩
  | 46 => ⟨S262144x128, .f32⟩
  | 47 => ⟨S262144x128, .f32⟩
  | 48 => ⟨S_, .f32⟩
  | 49 => ⟨S262144x128, .f32⟩
  | 50 => ⟨S262144x128, .f32⟩
  | 51 => ⟨S1x128x8, .f32⟩
  | 52 => ⟨S128x8, .f32⟩
  | 53 => ⟨S262144x8, .f32⟩
  | 54 => ⟨S1x8, .f32⟩
  | 55 => ⟨S8, .f32⟩
  | 56 => ⟨S1x8, .f32⟩
  | 57 => ⟨S262144x8, .f32⟩
  | 58 => ⟨S262144x8, .f32⟩
  | 59 => ⟨S262144x4, .f32⟩
  | 60 => ⟨S262144x4, .f32⟩
  | 61 => ⟨S1x4, .f32⟩
  | 62 => ⟨S4, .f32⟩
  | 63 => ⟨S_, .f32⟩
  | 64 => ⟨S_, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S262144x4, .f32⟩
  | 73 => ⟨S1x4, .f32⟩
  | 74 => ⟨S262144x4, .f32⟩
  | 75 => ⟨S262144x4, .f32⟩
  | 76 => ⟨S262144x4, .f32⟩
  | 77 => ⟨S_, .f32⟩
  | 78 => ⟨S262144x4, .f32⟩
  | 79 => ⟨S262144x4, .f32⟩
  | 80 => ⟨S_, .f32⟩
  | 81 => ⟨S262144x4, .f32⟩
  | 82 => ⟨S262144x4, .f32⟩
  | 83 => ⟨S262144x4, .f32⟩
  | 84 => ⟨S262144x4, .f32⟩
  | 85 => ⟨S_, .f32⟩
  | 86 => ⟨S262144x4, .f32⟩
  | 87 => ⟨S262144x4, .f32⟩
  | 88 => ⟨S262144x4, .f32⟩
  | 89 => ⟨S_, .f32⟩
  | 90 => ⟨S262144x4, .f32⟩
  | 91 => ⟨S262144x4, .f32⟩
  | 92 => ⟨S262144x4, .f32⟩
  | 93 => ⟨S_, .f32⟩
  | 94 => ⟨S262144, .f32⟩
  | 95 => ⟨S262144, .f32⟩
  | 96 => ⟨S_, .f32⟩
  | 97 => ⟨S262144x8, .f32⟩
  | 98 => ⟨S_, .i32⟩
  | 99 => ⟨S4, .i32⟩
  | 100 => ⟨S4, .i32⟩
  | 101 => ⟨S4, .i32⟩
  | 102 => ⟨S4x1, .i32⟩
  | 103 => ⟨S262144x8, .f32⟩
  | 104 => ⟨S_, .i32⟩
  | 105 => ⟨S4, .i32⟩
  | 106 => ⟨S4, .i32⟩
  | 107 => ⟨S4, .i32⟩
  | 108 => ⟨S4x1, .i32⟩
  | 109 => ⟨S262144x8, .f32⟩
  | 110 => ⟨S262144x8, .f32⟩
  | 111 => ⟨S1x8, .f32⟩
  | 112 => ⟨S8, .f32⟩
  | 113 => ⟨S_, .f32⟩
  | 114 => ⟨S_, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S1x8, .f32⟩
  | 122 => ⟨S8, .f32⟩
  | 123 => ⟨S1x8, .f32⟩
  | 124 => ⟨S262144x8, .f32⟩
  | 125 => ⟨S262144x8, .f32⟩
  | 126 => ⟨S8, .f32⟩
  | 127 => ⟨S1x8, .f32⟩
  | _ => ⟨S262144x8, .f32⟩

abbrev hbmTy0_5 (i : Nat) : BufTy := match i % 128 with
  | 0 => ⟨S262144x8, .f32⟩
  | 1 => ⟨S262144x8, .f32⟩
  | 2 => ⟨S_, .f32⟩
  | 3 => ⟨S_, .f32⟩
  | 4 => ⟨S262144, .f32⟩
  | 5 => ⟨S262144, .f32⟩
  | 6 => ⟨S_, .i32⟩
  | 7 => ⟨S4, .i32⟩
  | 8 => ⟨S4, .i32⟩
  | 9 => ⟨S4, .i32⟩
  | 10 => ⟨S4x1, .i32⟩
  | 11 => ⟨S262144x4, .f32⟩
  | 12 => ⟨S_, .i32⟩
  | 13 => ⟨S4, .i32⟩
  | 14 => ⟨S4, .i32⟩
  | 15 => ⟨S4, .i32⟩
  | 16 => ⟨S4x1, .i32⟩
  | 17 => ⟨S262144x4, .f32⟩
  | 18 => ⟨S1x4x128, .f32⟩
  | 19 => ⟨S4x128, .f32⟩
  | 20 => ⟨S262144x128, .f32⟩
  | 21 => ⟨S1x128, .f32⟩
  | 22 => ⟨S128, .f32⟩
  | 23 => ⟨S1x128, .f32⟩
  | 24 => ⟨S262144x128, .f32⟩
  | 25 => ⟨S262144x128, .f32⟩
  | 26 => ⟨S_, .f32⟩
  | 27 => ⟨S262144x128, .f32⟩
  | 28 => ⟨S262144x128, .f32⟩
  | 29 => ⟨S1x128x128, .f32⟩
  | 30 => ⟨S128x128, .f32⟩
  | 31 => ⟨S262144x128, .f32⟩
  | 32 => ⟨S1x128, .f32⟩
  | 33 => ⟨S128, .f32⟩
  | 34 => ⟨S1x128, .f32⟩
  | 35 => ⟨S262144x128, .f32⟩
  | 36 => ⟨S262144x128, .f32⟩
  | 37 => ⟨S_, .f32⟩
  | 38 => ⟨S262144x128, .f32⟩
  | 39 => ⟨S262144x128, .f32⟩
  | 40 => ⟨S1x128x8, .f32⟩
  | 41 => ⟨S128x8, .f32⟩
  | 42 => ⟨S262144x8, .f32⟩
  | 43 => ⟨S1x8, .f32⟩
  | 44 => ⟨S8, .f32⟩
  | 45 => ⟨S1x8, .f32⟩
  | 46 => ⟨S262144x8, .f32⟩
  | 47 => ⟨S262144x8, .f32⟩
  | 48 => ⟨S262144x4, .f32⟩
  | 49 => ⟨S262144x4, .f32⟩
  | 50 => ⟨S1x4, .f32⟩
  | 51 => ⟨S4, .f32⟩
  | 52 => ⟨S_, .f32⟩
  | 53 => ⟨S_, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S4, .f32⟩
  | 61 => ⟨S262144x4, .f32⟩
  | 62 => ⟨S1x4, .f32⟩
  | 63 => ⟨S262144x4, .f32⟩
  | 64 => ⟨S262144x4, .f32⟩
  | 65 => ⟨S262144x4, .f32⟩
  | 66 => ⟨S_, .f32⟩
  | 67 => ⟨S262144x4, .f32⟩
  | 68 => ⟨S262144x4, .f32⟩
  | 69 => ⟨S_, .f32⟩
  | 70 => ⟨S262144x4, .f32⟩
  | 71 => ⟨S262144x4, .f32⟩
  | 72 => ⟨S262144x4, .f32⟩
  | 73 => ⟨S262144x4, .f32⟩
  | 74 => ⟨S_, .f32⟩
  | 75 => ⟨S262144x4, .f32⟩
  | 76 => ⟨S262144x4, .f32⟩
  | 77 => ⟨S262144x4, .f32⟩
  | 78 => ⟨S_, .f32⟩
  | 79 => ⟨S262144x4, .f32⟩
  | 80 => ⟨S262144x4, .f32⟩
  | 81 => ⟨S262144x4, .f32⟩
  | 82 => ⟨S_, .f32⟩
  | 83 => ⟨S262144, .f32⟩
  | 84 => ⟨S262144, .f32⟩
  | 85 => ⟨S_, .f32⟩
  | 86 => ⟨S262144x8, .f32⟩
  | 87 => ⟨S_, .i32⟩
  | 88 => ⟨S4, .i32⟩
  | 89 => ⟨S4, .i32⟩
  | 90 => ⟨S4, .i32⟩
  | 91 => ⟨S4x1, .i32⟩
  | 92 => ⟨S262144x8, .f32⟩
  | 93 => ⟨S_, .i32⟩
  | 94 => ⟨S4, .i32⟩
  | 95 => ⟨S4, .i32⟩
  | 96 => ⟨S4, .i32⟩
  | 97 => ⟨S4x1, .i32⟩
  | 98 => ⟨S262144x8, .f32⟩
  | 99 => ⟨S262144x8, .f32⟩
  | _ => ⟨S262144x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S262144x8, .f32⟩

abbrev bufTy : (tb : Table) → Fin (tcTables nBuf tb) → BufTy
  | .hbm, ⟨i, _⟩ => hbmTy i
  | _, _ => ⟨S262144x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_c_9 : Ref sig .tc := ⟨.hbm, 20, rfl⟩
abbrev main_c_10 : Ref sig .tc := ⟨.hbm, 21, rfl⟩
abbrev main_c_11 : Ref sig .tc := ⟨.hbm, 22, rfl⟩
abbrev main_c_12 : Ref sig .tc := ⟨.hbm, 23, rfl⟩
abbrev main_c_13 : Ref sig .tc := ⟨.hbm, 24, rfl⟩
abbrev main_c_14 : Ref sig .tc := ⟨.hbm, 25, rfl⟩
abbrev main_c_15 : Ref sig .tc := ⟨.hbm, 26, rfl⟩
abbrev main_c_16 : Ref sig .tc := ⟨.hbm, 27, rfl⟩
abbrev main_c_17 : Ref sig .tc := ⟨.hbm, 28, rfl⟩
abbrev main_c_18 : Ref sig .tc := ⟨.hbm, 29, rfl⟩
abbrev main_c_19 : Ref sig .tc := ⟨.hbm, 30, rfl⟩
abbrev main_c_20 : Ref sig .tc := ⟨.hbm, 31, rfl⟩
abbrev main_c_21 : Ref sig .tc := ⟨.hbm, 32, rfl⟩
abbrev main_c_22 : Ref sig .tc := ⟨.hbm, 33, rfl⟩
abbrev main_c_23 : Ref sig .tc := ⟨.hbm, 34, rfl⟩
abbrev main_c_24 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_cst_25 : Ref sig .tc := ⟨.hbm, 40, rfl⟩
abbrev main_cst_26 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_27 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_c_28 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_c_29 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call1_cst : Ref sig .tc := ⟨.hbm, 81, rfl⟩
abbrev main_call1_v0 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call2_cst : Ref sig .tc := ⟨.hbm, 92, rfl⟩
abbrev main_call2_v0 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_30 : Ref sig .tc := ⟨.hbm, 107, rfl⟩
abbrev main_cst_31 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_32 : Ref sig .tc := ⟨.hbm, 121, rfl⟩
abbrev main_v63 : Ref sig .tc := ⟨.hbm, 122, rfl⟩
abbrev main_v64 : Ref sig .tc := ⟨.hbm, 123, rfl⟩
abbrev main_cst_33 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_34 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_35 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_36 : Ref sig .tc := ⟨.hbm, 137, rfl⟩
abbrev main_v75 : Ref sig .tc := ⟨.hbm, 138, rfl⟩
abbrev main_v76 : Ref sig .tc := ⟨.hbm, 139, rfl⟩
abbrev main_cst_37 : Ref sig .tc := ⟨.hbm, 140, rfl⟩
abbrev main_v77 : Ref sig .tc := ⟨.hbm, 141, rfl⟩
abbrev main_c_38 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_c_39 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_40 : Ref sig .tc := ⟨.hbm, 157, rfl⟩
abbrev main_cst_41 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_42 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_c_43 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_c_44 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_call5_cst : Ref sig .tc := ⟨.hbm, 198, rfl⟩
abbrev main_call5_v0 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_call6_cst : Ref sig .tc := ⟨.hbm, 209, rfl⟩
abbrev main_call6_v0 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_cst_45 : Ref sig .tc := ⟨.hbm, 224, rfl⟩
abbrev main_cst_46 : Ref sig .tc := ⟨.hbm, 225, rfl⟩
abbrev main_call7_v0 : Ref sig .tc := ⟨.hbm, 226, rfl⟩
abbrev main_call7_v1 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_47 : Ref sig .tc := ⟨.hbm, 238, rfl⟩
abbrev main_v151 : Ref sig .tc := ⟨.hbm, 239, rfl⟩
abbrev main_v152 : Ref sig .tc := ⟨.hbm, 240, rfl⟩
abbrev main_cst_48 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_cst_49 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_cst_50 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_cst_51 : Ref sig .tc := ⟨.hbm, 254, rfl⟩
abbrev main_v163 : Ref sig .tc := ⟨.hbm, 255, rfl⟩
abbrev main_v164 : Ref sig .tc := ⟨.hbm, 256, rfl⟩
abbrev main_cst_52 : Ref sig .tc := ⟨.hbm, 257, rfl⟩
abbrev main_v165 : Ref sig .tc := ⟨.hbm, 258, rfl⟩
abbrev main_c_53 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_c_54 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_cst_55 : Ref sig .tc := ⟨.hbm, 274, rfl⟩
abbrev main_cst_56 : Ref sig .tc := ⟨.hbm, 275, rfl⟩
abbrev main_call8_v0 : Ref sig .tc := ⟨.hbm, 276, rfl⟩
abbrev main_call8_v1 : Ref sig .tc := ⟨.hbm, 277, rfl⟩
abbrev main_call8_v2 : Ref sig .tc := ⟨.hbm, 278, rfl⟩
abbrev main_call8_v3 : Ref sig .tc := ⟨.hbm, 279, rfl⟩
abbrev main_call8_v4 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_cst_57 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_c_58 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_c_59 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_call9_cst : Ref sig .tc := ⟨.hbm, 315, rfl⟩
abbrev main_call9_v0 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_call10_cst : Ref sig .tc := ⟨.hbm, 326, rfl⟩
abbrev main_call10_v0 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_cst_60 : Ref sig .tc := ⟨.hbm, 341, rfl⟩
abbrev main_cst_61 : Ref sig .tc := ⟨.hbm, 342, rfl⟩
abbrev main_call11_v0 : Ref sig .tc := ⟨.hbm, 343, rfl⟩
abbrev main_call11_v1 : Ref sig .tc := ⟨.hbm, 344, rfl⟩
abbrev main_call11_v2 : Ref sig .tc := ⟨.hbm, 345, rfl⟩
abbrev main_call11_v3 : Ref sig .tc := ⟨.hbm, 346, rfl⟩
abbrev main_call11_v4 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_cst_62 : Ref sig .tc := ⟨.hbm, 355, rfl⟩
abbrev main_v239 : Ref sig .tc := ⟨.hbm, 356, rfl⟩
abbrev main_v240 : Ref sig .tc := ⟨.hbm, 357, rfl⟩
abbrev main_cst_63 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_cst_64 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_cst_65 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_cst_66 : Ref sig .tc := ⟨.hbm, 371, rfl⟩
abbrev main_v251 : Ref sig .tc := ⟨.hbm, 372, rfl⟩
abbrev main_v252 : Ref sig .tc := ⟨.hbm, 373, rfl⟩
abbrev main_cst_67 : Ref sig .tc := ⟨.hbm, 374, rfl⟩
abbrev main_v253 : Ref sig .tc := ⟨.hbm, 375, rfl⟩
abbrev main_c_68 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_c_69 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_v264 : Ref sig .tc := ⟨.hbm, 388, rfl⟩
abbrev main_v265 : Ref sig .tc := ⟨.hbm, 389, rfl⟩
abbrev main_v266 : Ref sig .tc := ⟨.hbm, 390, rfl⟩
abbrev main_cst_70 : Ref sig .tc := ⟨.hbm, 391, rfl⟩
abbrev main_cst_71 : Ref sig .tc := ⟨.hbm, 392, rfl⟩
abbrev main_call12_v0 : Ref sig .tc := ⟨.hbm, 393, rfl⟩
abbrev main_call12_v1 : Ref sig .tc := ⟨.hbm, 394, rfl⟩
abbrev main_call12_v2 : Ref sig .tc := ⟨.hbm, 395, rfl⟩
abbrev main_call12_v3 : Ref sig .tc := ⟨.hbm, 396, rfl⟩
abbrev main_call12_v4 : Ref sig .tc := ⟨.hbm, 397, rfl⟩
abbrev main_v267 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_cst_72 : Ref sig .tc := ⟨.hbm, 408, rfl⟩
abbrev main_v277 : Ref sig .tc := ⟨.hbm, 409, rfl⟩
abbrev main_v278 : Ref sig .tc := ⟨.hbm, 410, rfl⟩
abbrev main_v279 : Ref sig .tc := ⟨.hbm, 411, rfl⟩
abbrev main_c_73 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_c_74 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_call13_cst : Ref sig .tc := ⟨.hbm, 432, rfl⟩
abbrev main_call13_v0 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev main_call14_cst : Ref sig .tc := ⟨.hbm, 443, rfl⟩
abbrev main_call14_v0 : Ref sig .tc := ⟨.hbm, 444, rfl⟩
abbrev main_v307 : Ref sig .tc := ⟨.hbm, 445, rfl⟩
abbrev main_v308 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_cst_75 : Ref sig .tc := ⟨.hbm, 458, rfl⟩
abbrev main_cst_76 : Ref sig .tc := ⟨.hbm, 459, rfl⟩
abbrev main_call15_v0 : Ref sig .tc := ⟨.hbm, 460, rfl⟩
abbrev main_call15_v1 : Ref sig .tc := ⟨.hbm, 461, rfl⟩
abbrev main_call15_v2 : Ref sig .tc := ⟨.hbm, 462, rfl⟩
abbrev main_call15_v3 : Ref sig .tc := ⟨.hbm, 463, rfl⟩
abbrev main_call15_v4 : Ref sig .tc := ⟨.hbm, 464, rfl⟩
abbrev main_v320 : Ref sig .tc := ⟨.hbm, 465, rfl⟩
abbrev main_v321 : Ref sig .tc := ⟨.hbm, 466, rfl⟩
abbrev main_v322 : Ref sig .tc := ⟨.hbm, 467, rfl⟩
abbrev main_v323 : Ref sig .tc := ⟨.hbm, 468, rfl⟩
abbrev main_v324 : Ref sig .tc := ⟨.hbm, 469, rfl⟩
abbrev main_v325 : Ref sig .tc := ⟨.hbm, 470, rfl⟩
abbrev main_v326 : Ref sig .tc := ⟨.hbm, 471, rfl⟩
abbrev main_cst_77 : Ref sig .tc := ⟨.hbm, 472, rfl⟩
abbrev main_v327 : Ref sig .tc := ⟨.hbm, 473, rfl⟩
abbrev main_v328 : Ref sig .tc := ⟨.hbm, 474, rfl⟩
abbrev main_cst_78 : Ref sig .tc := ⟨.hbm, 475, rfl⟩
abbrev main_v329 : Ref sig .tc := ⟨.hbm, 476, rfl⟩
abbrev main_v330 : Ref sig .tc := ⟨.hbm, 477, rfl⟩
abbrev main_v331 : Ref sig .tc := ⟨.hbm, 478, rfl⟩
abbrev main_v332 : Ref sig .tc := ⟨.hbm, 479, rfl⟩
abbrev main_cst_79 : Ref sig .tc := ⟨.hbm, 480, rfl⟩
abbrev main_v333 : Ref sig .tc := ⟨.hbm, 481, rfl⟩
abbrev main_v334 : Ref sig .tc := ⟨.hbm, 482, rfl⟩
abbrev main_v335 : Ref sig .tc := ⟨.hbm, 483, rfl⟩
abbrev main_cst_80 : Ref sig .tc := ⟨.hbm, 484, rfl⟩
abbrev main_v336 : Ref sig .tc := ⟨.hbm, 485, rfl⟩
abbrev main_v337 : Ref sig .tc := ⟨.hbm, 486, rfl⟩
abbrev main_v338 : Ref sig .tc := ⟨.hbm, 487, rfl⟩
abbrev main_cst_81 : Ref sig .tc := ⟨.hbm, 488, rfl⟩
abbrev main_v339 : Ref sig .tc := ⟨.hbm, 489, rfl⟩
abbrev main_v340 : Ref sig .tc := ⟨.hbm, 490, rfl⟩
abbrev main_cst_82 : Ref sig .tc := ⟨.hbm, 491, rfl⟩
abbrev main_v341 : Ref sig .tc := ⟨.hbm, 492, rfl⟩
abbrev main_c_83 : Ref sig .tc := ⟨.hbm, 493, rfl⟩
abbrev main_v342 : Ref sig .tc := ⟨.hbm, 494, rfl⟩
abbrev main_v343 : Ref sig .tc := ⟨.hbm, 495, rfl⟩
abbrev main_v344 : Ref sig .tc := ⟨.hbm, 496, rfl⟩
abbrev main_v345 : Ref sig .tc := ⟨.hbm, 497, rfl⟩
abbrev main_v346 : Ref sig .tc := ⟨.hbm, 498, rfl⟩
abbrev main_c_84 : Ref sig .tc := ⟨.hbm, 499, rfl⟩
abbrev main_v347 : Ref sig .tc := ⟨.hbm, 500, rfl⟩
abbrev main_v348 : Ref sig .tc := ⟨.hbm, 501, rfl⟩
abbrev main_v349 : Ref sig .tc := ⟨.hbm, 502, rfl⟩
abbrev main_v350 : Ref sig .tc := ⟨.hbm, 503, rfl⟩
abbrev main_v351 : Ref sig .tc := ⟨.hbm, 504, rfl⟩
abbrev main_v352 : Ref sig .tc := ⟨.hbm, 505, rfl⟩
abbrev main_v353 : Ref sig .tc := ⟨.hbm, 506, rfl⟩
abbrev main_v354 : Ref sig .tc := ⟨.hbm, 507, rfl⟩
abbrev main_cst_85 : Ref sig .tc := ⟨.hbm, 508, rfl⟩
abbrev main_cst_86 : Ref sig .tc := ⟨.hbm, 509, rfl⟩
abbrev main_call16_v0 : Ref sig .tc := ⟨.hbm, 510, rfl⟩
abbrev main_call16_v1 : Ref sig .tc := ⟨.hbm, 511, rfl⟩
abbrev main_call16_v2 : Ref sig .tc := ⟨.hbm, 512, rfl⟩
abbrev main_call16_v3 : Ref sig .tc := ⟨.hbm, 513, rfl⟩
abbrev main_call16_v4 : Ref sig .tc := ⟨.hbm, 514, rfl⟩
abbrev main_v355 : Ref sig .tc := ⟨.hbm, 515, rfl⟩
abbrev main_v356 : Ref sig .tc := ⟨.hbm, 516, rfl⟩
abbrev main_v357 : Ref sig .tc := ⟨.hbm, 517, rfl⟩
abbrev main_v358 : Ref sig .tc := ⟨.hbm, 518, rfl⟩
abbrev main_v359 : Ref sig .tc := ⟨.hbm, 519, rfl⟩
abbrev main_v360 : Ref sig .tc := ⟨.hbm, 520, rfl⟩
abbrev main_v361 : Ref sig .tc := ⟨.hbm, 521, rfl⟩
abbrev main_v362 : Ref sig .tc := ⟨.hbm, 522, rfl⟩
abbrev main_v363 : Ref sig .tc := ⟨.hbm, 523, rfl⟩
abbrev main_v364 : Ref sig .tc := ⟨.hbm, 524, rfl⟩
abbrev main_cst_87 : Ref sig .tc := ⟨.hbm, 525, rfl⟩
abbrev main_v365 : Ref sig .tc := ⟨.hbm, 526, rfl⟩
abbrev main_v366 : Ref sig .tc := ⟨.hbm, 527, rfl⟩
abbrev main_v367 : Ref sig .tc := ⟨.hbm, 528, rfl⟩
abbrev main_c_88 : Ref sig .tc := ⟨.hbm, 529, rfl⟩
abbrev main_v368 : Ref sig .tc := ⟨.hbm, 530, rfl⟩
abbrev main_v369 : Ref sig .tc := ⟨.hbm, 531, rfl⟩
abbrev main_v370 : Ref sig .tc := ⟨.hbm, 532, rfl⟩
abbrev main_v371 : Ref sig .tc := ⟨.hbm, 533, rfl⟩
abbrev main_v372 : Ref sig .tc := ⟨.hbm, 534, rfl⟩
abbrev main_c_89 : Ref sig .tc := ⟨.hbm, 535, rfl⟩
abbrev main_v373 : Ref sig .tc := ⟨.hbm, 536, rfl⟩
abbrev main_v374 : Ref sig .tc := ⟨.hbm, 537, rfl⟩
abbrev main_v375 : Ref sig .tc := ⟨.hbm, 538, rfl⟩
abbrev main_v376 : Ref sig .tc := ⟨.hbm, 539, rfl⟩
abbrev main_v377 : Ref sig .tc := ⟨.hbm, 540, rfl⟩
abbrev main_v378 : Ref sig .tc := ⟨.hbm, 541, rfl⟩
abbrev main_v379 : Ref sig .tc := ⟨.hbm, 542, rfl⟩
abbrev main_v380 : Ref sig .tc := ⟨.hbm, 543, rfl⟩
abbrev main_v381 : Ref sig .tc := ⟨.hbm, 544, rfl⟩
abbrev main_v382 : Ref sig .tc := ⟨.hbm, 545, rfl⟩
abbrev main_v383 : Ref sig .tc := ⟨.hbm, 546, rfl⟩
abbrev main_v384 : Ref sig .tc := ⟨.hbm, 547, rfl⟩
abbrev main_v385 : Ref sig .tc := ⟨.hbm, 548, rfl⟩
abbrev main_call17_cst : Ref sig .tc := ⟨.hbm, 549, rfl⟩
abbrev main_call17_v0 : Ref sig .tc := ⟨.hbm, 550, rfl⟩
abbrev main_v386 : Ref sig .tc := ⟨.hbm, 551, rfl⟩
abbrev main_v387 : Ref sig .tc := ⟨.hbm, 552, rfl⟩
abbrev main_v388 : Ref sig .tc := ⟨.hbm, 553, rfl⟩
abbrev main_v389 : Ref sig .tc := ⟨.hbm, 554, rfl⟩
abbrev main_v390 : Ref sig .tc := ⟨.hbm, 555, rfl⟩
abbrev main_v391 : Ref sig .tc := ⟨.hbm, 556, rfl⟩
abbrev main_v392 : Ref sig .tc := ⟨.hbm, 557, rfl⟩
abbrev main_v393 : Ref sig .tc := ⟨.hbm, 558, rfl⟩
abbrev main_v394 : Ref sig .tc := ⟨.hbm, 559, rfl⟩
abbrev main_call18_cst : Ref sig .tc := ⟨.hbm, 560, rfl⟩
abbrev main_call18_v0 : Ref sig .tc := ⟨.hbm, 561, rfl⟩
abbrev main_v395 : Ref sig .tc := ⟨.hbm, 562, rfl⟩
abbrev main_v396 : Ref sig .tc := ⟨.hbm, 563, rfl⟩
abbrev main_v397 : Ref sig .tc := ⟨.hbm, 564, rfl⟩
abbrev main_v398 : Ref sig .tc := ⟨.hbm, 565, rfl⟩
abbrev main_v399 : Ref sig .tc := ⟨.hbm, 566, rfl⟩
abbrev main_v400 : Ref sig .tc := ⟨.hbm, 567, rfl⟩
abbrev main_v401 : Ref sig .tc := ⟨.hbm, 568, rfl⟩
abbrev main_v402 : Ref sig .tc := ⟨.hbm, 569, rfl⟩
abbrev main_v403 : Ref sig .tc := ⟨.hbm, 570, rfl⟩
abbrev main_v404 : Ref sig .tc := ⟨.hbm, 571, rfl⟩
abbrev main_v405 : Ref sig .tc := ⟨.hbm, 572, rfl⟩
abbrev main_v406 : Ref sig .tc := ⟨.hbm, 573, rfl⟩
abbrev main_v407 : Ref sig .tc := ⟨.hbm, 574, rfl⟩
abbrev main_cst_90 : Ref sig .tc := ⟨.hbm, 575, rfl⟩
abbrev main_cst_91 : Ref sig .tc := ⟨.hbm, 576, rfl⟩
abbrev main_call19_v0 : Ref sig .tc := ⟨.hbm, 577, rfl⟩
abbrev main_call19_v1 : Ref sig .tc := ⟨.hbm, 578, rfl⟩
abbrev main_call19_v2 : Ref sig .tc := ⟨.hbm, 579, rfl⟩
abbrev main_call19_v3 : Ref sig .tc := ⟨.hbm, 580, rfl⟩
abbrev main_call19_v4 : Ref sig .tc := ⟨.hbm, 581, rfl⟩
abbrev main_v408 : Ref sig .tc := ⟨.hbm, 582, rfl⟩
abbrev main_v409 : Ref sig .tc := ⟨.hbm, 583, rfl⟩
abbrev main_v410 : Ref sig .tc := ⟨.hbm, 584, rfl⟩
abbrev main_v411 : Ref sig .tc := ⟨.hbm, 585, rfl⟩
abbrev main_v412 : Ref sig .tc := ⟨.hbm, 586, rfl⟩
abbrev main_v413 : Ref sig .tc := ⟨.hbm, 587, rfl⟩
abbrev main_v414 : Ref sig .tc := ⟨.hbm, 588, rfl⟩
abbrev main_cst_92 : Ref sig .tc := ⟨.hbm, 589, rfl⟩
abbrev main_v415 : Ref sig .tc := ⟨.hbm, 590, rfl⟩
abbrev main_v416 : Ref sig .tc := ⟨.hbm, 591, rfl⟩
abbrev main_cst_93 : Ref sig .tc := ⟨.hbm, 592, rfl⟩
abbrev main_v417 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_cst_94 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_cst_95 : Ref sig .tc := ⟨.hbm, 601, rfl⟩
abbrev main_v424 : Ref sig .tc := ⟨.hbm, 602, rfl⟩
abbrev main_v425 : Ref sig .tc := ⟨.hbm, 603, rfl⟩
abbrev main_v426 : Ref sig .tc := ⟨.hbm, 604, rfl⟩
abbrev main_cst_96 : Ref sig .tc := ⟨.hbm, 605, rfl⟩
abbrev main_v427 : Ref sig .tc := ⟨.hbm, 606, rfl⟩
abbrev main_v428 : Ref sig .tc := ⟨.hbm, 607, rfl⟩
abbrev main_cst_97 : Ref sig .tc := ⟨.hbm, 608, rfl⟩
abbrev main_v429 : Ref sig .tc := ⟨.hbm, 609, rfl⟩
abbrev main_c_98 : Ref sig .tc := ⟨.hbm, 610, rfl⟩
abbrev main_v430 : Ref sig .tc := ⟨.hbm, 611, rfl⟩
abbrev main_v431 : Ref sig .tc := ⟨.hbm, 612, rfl⟩
abbrev main_v432 : Ref sig .tc := ⟨.hbm, 613, rfl⟩
abbrev main_v433 : Ref sig .tc := ⟨.hbm, 614, rfl⟩
abbrev main_v434 : Ref sig .tc := ⟨.hbm, 615, rfl⟩
abbrev main_c_99 : Ref sig .tc := ⟨.hbm, 616, rfl⟩
abbrev main_v435 : Ref sig .tc := ⟨.hbm, 617, rfl⟩
abbrev main_v436 : Ref sig .tc := ⟨.hbm, 618, rfl⟩
abbrev main_v437 : Ref sig .tc := ⟨.hbm, 619, rfl⟩
abbrev main_v438 : Ref sig .tc := ⟨.hbm, 620, rfl⟩
abbrev main_v439 : Ref sig .tc := ⟨.hbm, 621, rfl⟩
abbrev main_v440 : Ref sig .tc := ⟨.hbm, 622, rfl⟩
abbrev main_v441 : Ref sig .tc := ⟨.hbm, 623, rfl⟩
abbrev main_v442 : Ref sig .tc := ⟨.hbm, 624, rfl⟩
abbrev main_cst_100 : Ref sig .tc := ⟨.hbm, 625, rfl⟩
abbrev main_cst_101 : Ref sig .tc := ⟨.hbm, 626, rfl⟩
abbrev main_call20_v0 : Ref sig .tc := ⟨.hbm, 627, rfl⟩
abbrev main_call20_v1 : Ref sig .tc := ⟨.hbm, 628, rfl⟩
abbrev main_call20_v2 : Ref sig .tc := ⟨.hbm, 629, rfl⟩
abbrev main_call20_v3 : Ref sig .tc := ⟨.hbm, 630, rfl⟩
abbrev main_call20_v4 : Ref sig .tc := ⟨.hbm, 631, rfl⟩
abbrev main_v443 : Ref sig .tc := ⟨.hbm, 632, rfl⟩
abbrev main_v444 : Ref sig .tc := ⟨.hbm, 633, rfl⟩
abbrev main_v445 : Ref sig .tc := ⟨.hbm, 634, rfl⟩
abbrev main_v446 : Ref sig .tc := ⟨.hbm, 635, rfl⟩
abbrev main_v447 : Ref sig .tc := ⟨.hbm, 636, rfl⟩
abbrev main_v448 : Ref sig .tc := ⟨.hbm, 637, rfl⟩
abbrev main_v449 : Ref sig .tc := ⟨.hbm, 638, rfl⟩
abbrev main_v450 : Ref sig .tc := ⟨.hbm, 639, rfl⟩
abbrev main_v451 : Ref sig .tc := ⟨.hbm, 640, rfl⟩
abbrev main_v452 : Ref sig .tc := ⟨.hbm, 641, rfl⟩
abbrev main_cst_102 : Ref sig .tc := ⟨.hbm, 642, rfl⟩
abbrev main_v453 : Ref sig .tc := ⟨.hbm, 643, rfl⟩
abbrev main_v454 : Ref sig .tc := ⟨.hbm, 644, rfl⟩
abbrev main_v455 : Ref sig .tc := ⟨.hbm, 645, rfl⟩
abbrev main_c_103 : Ref sig .tc := ⟨.hbm, 646, rfl⟩
abbrev main_v456 : Ref sig .tc := ⟨.hbm, 647, rfl⟩
abbrev main_v457 : Ref sig .tc := ⟨.hbm, 648, rfl⟩
abbrev main_v458 : Ref sig .tc := ⟨.hbm, 649, rfl⟩
abbrev main_v459 : Ref sig .tc := ⟨.hbm, 650, rfl⟩
abbrev main_v460 : Ref sig .tc := ⟨.hbm, 651, rfl⟩
abbrev main_c_104 : Ref sig .tc := ⟨.hbm, 652, rfl⟩
abbrev main_v461 : Ref sig .tc := ⟨.hbm, 653, rfl⟩
abbrev main_v462 : Ref sig .tc := ⟨.hbm, 654, rfl⟩
abbrev main_v463 : Ref sig .tc := ⟨.hbm, 655, rfl⟩
abbrev main_v464 : Ref sig .tc := ⟨.hbm, 656, rfl⟩
abbrev main_v465 : Ref sig .tc := ⟨.hbm, 657, rfl⟩
abbrev main_v466 : Ref sig .tc := ⟨.hbm, 658, rfl⟩
abbrev main_v467 : Ref sig .tc := ⟨.hbm, 659, rfl⟩
abbrev main_v468 : Ref sig .tc := ⟨.hbm, 660, rfl⟩
abbrev main_v469 : Ref sig .tc := ⟨.hbm, 661, rfl⟩
abbrev main_v470 : Ref sig .tc := ⟨.hbm, 662, rfl⟩
abbrev main_v471 : Ref sig .tc := ⟨.hbm, 663, rfl⟩
abbrev main_v472 : Ref sig .tc := ⟨.hbm, 664, rfl⟩
abbrev main_v473 : Ref sig .tc := ⟨.hbm, 665, rfl⟩
abbrev main_call21_cst : Ref sig .tc := ⟨.hbm, 666, rfl⟩
abbrev main_call21_v0 : Ref sig .tc := ⟨.hbm, 667, rfl⟩
abbrev main_v474 : Ref sig .tc := ⟨.hbm, 668, rfl⟩
abbrev main_v475 : Ref sig .tc := ⟨.hbm, 669, rfl⟩
abbrev main_v476 : Ref sig .tc := ⟨.hbm, 670, rfl⟩
abbrev main_v477 : Ref sig .tc := ⟨.hbm, 671, rfl⟩
abbrev main_v478 : Ref sig .tc := ⟨.hbm, 672, rfl⟩
abbrev main_v479 : Ref sig .tc := ⟨.hbm, 673, rfl⟩
abbrev main_v480 : Ref sig .tc := ⟨.hbm, 674, rfl⟩
abbrev main_v481 : Ref sig .tc := ⟨.hbm, 675, rfl⟩
abbrev main_v482 : Ref sig .tc := ⟨.hbm, 676, rfl⟩
abbrev main_call22_cst : Ref sig .tc := ⟨.hbm, 677, rfl⟩
abbrev main_call22_v0 : Ref sig .tc := ⟨.hbm, 678, rfl⟩
abbrev main_v483 : Ref sig .tc := ⟨.hbm, 679, rfl⟩
abbrev main_v484 : Ref sig .tc := ⟨.hbm, 680, rfl⟩
abbrev main_v485 : Ref sig .tc := ⟨.hbm, 681, rfl⟩
abbrev main_v486 : Ref sig .tc := ⟨.hbm, 682, rfl⟩
abbrev main_v487 : Ref sig .tc := ⟨.hbm, 683, rfl⟩
abbrev main_v488 : Ref sig .tc := ⟨.hbm, 684, rfl⟩
abbrev main_v489 : Ref sig .tc := ⟨.hbm, 685, rfl⟩
abbrev main_v490 : Ref sig .tc := ⟨.hbm, 686, rfl⟩
abbrev main_v491 : Ref sig .tc := ⟨.hbm, 687, rfl⟩
abbrev main_v492 : Ref sig .tc := ⟨.hbm, 688, rfl⟩
abbrev main_v493 : Ref sig .tc := ⟨.hbm, 689, rfl⟩
abbrev main_v494 : Ref sig .tc := ⟨.hbm, 690, rfl⟩
abbrev main_v495 : Ref sig .tc := ⟨.hbm, 691, rfl⟩
abbrev main_cst_105 : Ref sig .tc := ⟨.hbm, 692, rfl⟩
abbrev main_cst_106 : Ref sig .tc := ⟨.hbm, 693, rfl⟩
abbrev main_call23_v0 : Ref sig .tc := ⟨.hbm, 694, rfl⟩
abbrev main_call23_v1 : Ref sig .tc := ⟨.hbm, 695, rfl⟩
abbrev main_call23_v2 : Ref sig .tc := ⟨.hbm, 696, rfl⟩
abbrev main_call23_v3 : Ref sig .tc := ⟨.hbm, 697, rfl⟩
abbrev main_call23_v4 : Ref sig .tc := ⟨.hbm, 698, rfl⟩
abbrev main_v496 : Ref sig .tc := ⟨.hbm, 699, rfl⟩
abbrev main_v497 : Ref sig .tc := ⟨.hbm, 700, rfl⟩
abbrev main_v498 : Ref sig .tc := ⟨.hbm, 701, rfl⟩
abbrev main_v499 : Ref sig .tc := ⟨.hbm, 702, rfl⟩
abbrev main_v500 : Ref sig .tc := ⟨.hbm, 703, rfl⟩
abbrev main_v501 : Ref sig .tc := ⟨.hbm, 704, rfl⟩
abbrev main_v502 : Ref sig .tc := ⟨.hbm, 705, rfl⟩
abbrev main_cst_107 : Ref sig .tc := ⟨.hbm, 706, rfl⟩
abbrev main_v503 : Ref sig .tc := ⟨.hbm, 707, rfl⟩
abbrev main_v504 : Ref sig .tc := ⟨.hbm, 708, rfl⟩
abbrev main_cst_108 : Ref sig .tc := ⟨.hbm, 709, rfl⟩
abbrev main_v505 : Ref sig .tc := ⟨.hbm, 710, rfl⟩
abbrev main_v506 : Ref sig .tc := ⟨.hbm, 711, rfl⟩
abbrev main_v507 : Ref sig .tc := ⟨.hbm, 712, rfl⟩
abbrev main_v508 : Ref sig .tc := ⟨.hbm, 713, rfl⟩
abbrev main_cst_109 : Ref sig .tc := ⟨.hbm, 714, rfl⟩
abbrev main_v509 : Ref sig .tc := ⟨.hbm, 715, rfl⟩
abbrev main_v510 : Ref sig .tc := ⟨.hbm, 716, rfl⟩
abbrev main_v511 : Ref sig .tc := ⟨.hbm, 717, rfl⟩
abbrev main_cst_110 : Ref sig .tc := ⟨.hbm, 718, rfl⟩
abbrev main_v512 : Ref sig .tc := ⟨.hbm, 719, rfl⟩
abbrev main_v513 : Ref sig .tc := ⟨.hbm, 720, rfl⟩
abbrev main_v514 : Ref sig .tc := ⟨.hbm, 721, rfl⟩
abbrev main_cst_111 : Ref sig .tc := ⟨.hbm, 722, rfl⟩
abbrev main_v515 : Ref sig .tc := ⟨.hbm, 723, rfl⟩
abbrev main_v516 : Ref sig .tc := ⟨.hbm, 724, rfl⟩
abbrev main_cst_112 : Ref sig .tc := ⟨.hbm, 725, rfl⟩
abbrev main_v517 : Ref sig .tc := ⟨.hbm, 726, rfl⟩
abbrev main_c_113 : Ref sig .tc := ⟨.hbm, 727, rfl⟩
abbrev main_v518 : Ref sig .tc := ⟨.hbm, 728, rfl⟩
abbrev main_v519 : Ref sig .tc := ⟨.hbm, 729, rfl⟩
abbrev main_v520 : Ref sig .tc := ⟨.hbm, 730, rfl⟩
abbrev main_v521 : Ref sig .tc := ⟨.hbm, 731, rfl⟩
abbrev main_v522 : Ref sig .tc := ⟨.hbm, 732, rfl⟩
abbrev main_c_114 : Ref sig .tc := ⟨.hbm, 733, rfl⟩
abbrev main_v523 : Ref sig .tc := ⟨.hbm, 734, rfl⟩
abbrev main_v524 : Ref sig .tc := ⟨.hbm, 735, rfl⟩
abbrev main_v525 : Ref sig .tc := ⟨.hbm, 736, rfl⟩
abbrev main_v526 : Ref sig .tc := ⟨.hbm, 737, rfl⟩
abbrev main_v527 : Ref sig .tc := ⟨.hbm, 738, rfl⟩
abbrev main_v528 : Ref sig .tc := ⟨.hbm, 739, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  slices_S6x8_S1x8_0_0 : S6x8.Slices ![0, 0] S1x8
  shapeCasts_S1x8_S8 : S1x8.ShapeCasts S8
  bcast_S_S8 : S_.BroadcastsInDim S8 (![] : Fin 0 → Fin S8.rank)
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  reducesTo_S8_S_d0 : S8.ReducesTo [0] S_
  h_S_ : 0 < S_.numel
  bcast_S_S4 : S_.BroadcastsInDim S4 (![] : Fin 0 → Fin S4.rank)
  bcast_S4_S4x1_0 : S4.BroadcastsInDim S4x1 (![0] : Fin 1 → Fin S4x1.rank)
  slices_S6x4x128_S1x4x128_0_0_0 : S6x4x128.Slices ![0, 0, 0] S1x4x128
  shapeCasts_S1x4x128_S4x128 : S1x4x128.ShapeCasts S4x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S6x128x128_S1x128x128_0_0_0 : S6x128x128.Slices ![0, 0, 0] S1x128x128
  shapeCasts_S1x128x128_S128x128 : S1x128x128.ShapeCasts S128x128
  slices_S6x128x8_S1x128x8_0_0_0 : S6x128x8.Slices ![0, 0, 0] S1x128x8
  shapeCasts_S1x128x8_S128x8 : S1x128x8.ShapeCasts S128x8
  slices_S262144x8_S262144x4_0_0 : S262144x8.Slices ![0, 0] S262144x4
  slices_S262144x8_S262144x4_0_4 : S262144x8.Slices ![0, 4] S262144x4
  slices_S6x4_S1x4_0_0 : S6x4.Slices ![0, 0] S1x4
  shapeCasts_S1x4_S4 : S1x4.ShapeCasts S4
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  reducesTo_S262144x4_S262144_d1 : S262144x4.ReducesTo [1] S262144
  bcast_S_S262144x8 : S_.BroadcastsInDim S262144x8 (![] : Fin 0 → Fin S262144x8.rank)
  slices_S6x8_S1x8_1_0 : S6x8.Slices ![1, 0] S1x8
  slices_S6x4x128_S1x4x128_1_0_0 : S6x4x128.Slices ![1, 0, 0] S1x4x128
  slices_S6x128_S1x128_1_0 : S6x128.Slices ![1, 0] S1x128
  slices_S6x128x128_S1x128x128_1_0_0 : S6x128x128.Slices ![1, 0, 0] S1x128x128
  slices_S6x128x8_S1x128x8_1_0_0 : S6x128x8.Slices ![1, 0, 0] S1x128x8
  slices_S6x4_S1x4_1_0 : S6x4.Slices ![1, 0] S1x4
  slices_S6x8_S1x8_2_0 : S6x8.Slices ![2, 0] S1x8
  slices_S6x4x128_S1x4x128_2_0_0 : S6x4x128.Slices ![2, 0, 0] S1x4x128
  slices_S6x128_S1x128_2_0 : S6x128.Slices ![2, 0] S1x128
  slices_S6x128x128_S1x128x128_2_0_0 : S6x128x128.Slices ![2, 0, 0] S1x128x128
  slices_S6x128x8_S1x128x8_2_0_0 : S6x128x8.Slices ![2, 0, 0] S1x128x8
  slices_S6x4_S1x4_2_0 : S6x4.Slices ![2, 0] S1x4
  slices_S6x8_S1x8_3_0 : S6x8.Slices ![3, 0] S1x8
  slices_S6x4x128_S1x4x128_3_0_0 : S6x4x128.Slices ![3, 0, 0] S1x4x128
  slices_S6x128_S1x128_3_0 : S6x128.Slices ![3, 0] S1x128
  slices_S6x128x128_S1x128x128_3_0_0 : S6x128x128.Slices ![3, 0, 0] S1x128x128
  slices_S6x128x8_S1x128x8_3_0_0 : S6x128x8.Slices ![3, 0, 0] S1x128x8
  slices_S6x4_S1x4_3_0 : S6x4.Slices ![3, 0] S1x4
  slices_S6x8_S1x8_4_0 : S6x8.Slices ![4, 0] S1x8
  slices_S6x4x128_S1x4x128_4_0_0 : S6x4x128.Slices ![4, 0, 0] S1x4x128
  slices_S6x128_S1x128_4_0 : S6x128.Slices ![4, 0] S1x128
  slices_S6x128x128_S1x128x128_4_0_0 : S6x128x128.Slices ![4, 0, 0] S1x128x128
  slices_S6x128x8_S1x128x8_4_0_0 : S6x128x8.Slices ![4, 0, 0] S1x128x8
  slices_S6x4_S1x4_4_0 : S6x4.Slices ![4, 0] S1x4
  slices_S6x8_S1x8_5_0 : S6x8.Slices ![5, 0] S1x8
  slices_S6x4x128_S1x4x128_5_0_0 : S6x4x128.Slices ![5, 0, 0] S1x4x128
  slices_S6x128_S1x128_5_0 : S6x128.Slices ![5, 0] S1x128
  slices_S6x128x128_S1x128x128_5_0_0 : S6x128x128.Slices ![5, 0, 0] S1x128x128
  slices_S6x128x8_S1x128x8_5_0_0 : S6x128x8.Slices ![5, 0, 0] S1x128x8
  slices_S6x4_S1x4_5_0 : S6x4.Slices ![5, 0] S1x4
  gather_S262144x8_S4x1_S262144x4_0_1_n_n_1_1_2621441_wf : GatherDims.WF S262144x8 S4x1 S262144x4 [0] [1] [] [1] [] 1 ![262144, 1]
  dot_S262144x4_S4x128_S262144x128_1_0_0_1_n_n_wf : DotDims.WF S262144x4 S4x128 S262144x128 [1] [0] [0] [1] [] []
  dot_S262144x128_S128x128_S262144x128_1_0_0_1_n_n_wf : DotDims.WF S262144x128 S128x128 S262144x128 [1] [0] [0] [1] [] []
  dot_S262144x128_S128x8_S262144x8_1_0_0_1_n_n_wf : DotDims.WF S262144x128 S128x8 S262144x8 [1] [0] [0] [1] [] []
  scatter_S262144x8_S4x1_S262144x4_0_1_1_1_wf : ScatterDims.WF S262144x8 S4x1 S262144x4 [0] [1] [1] 1

variable [Facts₀]

def gather_S262144x8_S4x1_S262144x4_0_1_n_n_1_1_2621441 : GatherDims S262144x8 S4x1 S262144x4 where
  offsetDims := [0]
  collapsedSliceDims := [1]
  operandBatchingDims := []
  startIndicesBatchingDims := []
  startIndexMap := [1]
  indexVectorDim := 1
  sliceSizes := ![262144, 1]
  wf := gather_S262144x8_S4x1_S262144x4_0_1_n_n_1_1_2621441_wf
def dot_S262144x4_S4x128_S262144x128_1_0_0_1_n_n : DotDims S262144x4 S4x128 S262144x128 where
  lhsContracting := [1]
  rhsContracting := [0]
  lhsNonContracting := [0]
  rhsNonContracting := [1]
  lhsBatch := []
  rhsBatch := []
  wf := dot_S262144x4_S4x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x8_S262144x8_1_0_0_1_n_n : DotDims S262144x128 S128x8 S262144x8 where
  lhsContracting := [1]
  rhsContracting := [0]
  lhsNonContracting := [0]
  rhsNonContracting := [1]
  lhsBatch := []
  rhsBatch := []
  wf := dot_S262144x128_S128x8_S262144x8_1_0_0_1_n_n_wf
def scatter_S262144x8_S4x1_S262144x4_0_1_1_1 : ScatterDims S262144x8 S4x1 S262144x4 where
  updateWindowDims := [0]
  insertedWindowDims := [1]
  scatterDimsToOperandDims := [1]
  indexVectorDim := 1
  wf := scatter_S262144x8_S4x1_S262144x4_0_1_1_1_wf

class Facts : Prop extends Facts₀ where

variable [Facts]
-- ==== Proof.Flow.lean ====
/-
  One coupling layer of the normalizing flow, and the six layers in sequence, stated for ONE sample: a sample is a
  row of eight extended reals together with its accumulated log-determinant. Both programs act row by row, so each
  of them is this function applied to every row of the batch.

  Layer `i` (parameters indexed by the layer):
    * the clipped log-scale `ls d = min 5 (max (-5) (als i d))`; the row becomes `(z d + ab i d) * exp (ls d)`
      and the log-determinant gains `∑ d, ls d`;
    * the row splits into its fixed half `xf j` (columns of the parity of `i`) and its transformed half `xt j`
      (the other parity);
    * a three-layer perceptron of the fixed half gives eight numbers `h3`; the first four are the raw shift, the
      last four the raw scale;
    * `yt j = xt j * (1 + 0.6 tanh (scale_raw j)) + exp (clip (lg i j)) * tanh (shift_raw j)`, and the
      log-determinant gains `∑ j, log (|1 + 0.6 tanh (scale_raw j)| + 1e-8)`;
    * the halves go back to their columns and the row is reversed.
  The float literals are kept as their binary words (`Ideal.ofBits`), the same words in both programs.
-/
import Idealize.ShloMosaic.PureOps.Ideal
import Idealize.ShloMosaic.Lib.ValueIdx

noncomputable section

namespace Cert.Flow

open Idealize.ShloMosaic

/-- The parameters of the six layers, as plain functions of their coordinates. -/
structure Params where
  als : Fin 6 → Fin 8 → EReal
  ab : Fin 6 → Fin 8 → EReal
  W1 : Fin 6 → Fin 4 → Fin 128 → EReal
  b1 : Fin 6 → Fin 128 → EReal
  W2 : Fin 6 → Fin 128 → Fin 128 → EReal
  b2 : Fin 6 → Fin 128 → EReal
  W3 : Fin 6 → Fin 128 → Fin 8 → EReal
  b3 : Fin 6 → Fin 8 → EReal
  lg : Fin 6 → Fin 4 → EReal

/-- The literals of the two programs. -/
abbrev cM5 : EReal := Ideal.ofBits .f32 0xC0A00000#32
abbrev c5 : EReal := Ideal.ofBits .f32 0x40A00000#32
abbrev c0 : EReal := Ideal.ofBits .f32 0x00000000#32
abbrev c1 : EReal := Ideal.ofBits .f32 0x3F800000#32
abbrev cAlpha : EReal := Ideal.ofBits .f32 0x3F19999A#32
abbrev cEps : EReal := Ideal.ofBits .f32 0x322BCC77#32

/-- Clipping to [-5, 5]. -/
def clip (x : EReal) : EReal := min c5 (max cM5 x)

/-- Column `j` of the fixed half of layer `i`: `2 j` in an even layer, `2 j + 1` in an odd one. -/
def fixedCol (i : Fin 6) (j : Fin 4) : Fin 8 := ⟨2 * j.val + i.val % 2, by omega⟩
/-- Column `j` of the transformed half of layer `i`: the other parity. -/
def movedCol (i : Fin 6) (j : Fin 4) : Fin 8 := ⟨2 * j.val + (i.val + 1) % 2, by omega⟩
/-- The half-column a column belongs to. -/
def halfOf (d : Fin 8) : Fin 4 := ⟨d.val / 2, by omega⟩
/-- Reversal of the eight columns. -/
def rev8 (d : Fin 8) : Fin 8 := ⟨7 - d.val, by omega⟩
/-- The first four and the last four of eight. -/
def lo4 (j : Fin 4) : Fin 8 := ⟨j.val, by omega⟩
def hi4 (j : Fin 4) : Fin 8 := ⟨j.val + 4, by omega⟩

variable (P : Params)

/-- The clipped log-scale of layer `i`. -/
def ls (i : Fin 6) (d : Fin 8) : EReal := clip (P.als i d)
/-- The row after the affine normalization of layer `i`. -/
def norm (i : Fin 6) (z : Fin 8 → EReal) (d : Fin 8) : EReal := (z d + P.ab i d) * Ideal.exp (ls P i d)
/-- The perceptron of layer `i` on a fixed half. -/
def hid1 (i : Fin 6) (xf : Fin 4 → EReal) (n : Fin 128) : EReal := max (∑ j : Fin 4, xf j * P.W1 i j n + P.b1 i n) c0
def hid2 (i : Fin 6) (xf : Fin 4 → EReal) (n : Fin 128) : EReal := max (∑ k : Fin 128, hid1 P i xf k * P.W2 i k n + P.b2 i n) c0
def hid3 (i : Fin 6) (xf : Fin 4 → EReal) (e : Fin 8) : EReal := ∑ k : Fin 128, hid2 P i xf k * P.W3 i k e + P.b3 i e
/-- The scale factor minus one, and the shift, of layer `i` from a fixed half. -/
def scale (i : Fin 6) (xf : Fin 4 → EReal) (j : Fin 4) : EReal := cAlpha * Ideal.tanh (hid3 P i xf (hi4 j))
def shift (i : Fin 6) (xf : Fin 4 → EReal) (j : Fin 4) : EReal := Ideal.exp (clip (P.lg i j)) * Ideal.tanh (hid3 P i xf (lo4 j))
/-- The transformed half. -/
def moved (i : Fin 6) (xf xt : Fin 4 → EReal) (j : Fin 4) : EReal := xt j * (c1 + scale P i xf j) + shift P i xf j
/-- The log-determinant's gain from the coupling. -/
def gain (i : Fin 6) (xf : Fin 4 → EReal) : EReal := ∑ j : Fin 4, Ideal.log (max (c1 + scale P i xf j) (-(c1 + scale P i xf j)) + cEps)

/-- One layer on one sample. -/
def step (i : Fin 6) (s : (Fin 8 → EReal) × EReal) : (Fin 8 → EReal) × EReal :=
  let z1 := norm P i s.1
  let xf : Fin 4 → EReal := fun j => z1 (fixedCol i j)
  let xt : Fin 4 → EReal := fun j => z1 (movedCol i j)
  let mid : Fin 8 → EReal := fun d => if d.val % 2 = i.val % 2 then xf (halfOf d) else moved P i xf xt (halfOf d)
  (fun d => mid (rev8 d), (s.2 + ∑ d : Fin 8, ls P i d) + gain P i xf)

/-- The sample before layer `k` (all six layers done from `k = 6` on). -/
def upTo (s : (Fin 8 → EReal) × EReal) : ℕ → (Fin 8 → EReal) × EReal
  | 0 => s
  | k + 1 => if h : k < 6 then step P ⟨k, h⟩ (upTo s k) else upTo s k

/-- The flow: six layers from a zero log-determinant. -/
def flow (x : Fin 8 → EReal) : (Fin 8 → EReal) × EReal := upTo P (x, c0) 6

/-- The parameters read off the nine parameter arrays (layer first, then the array's own coordinates). -/
def Params.ofArrays (a1 a2 : (⟨2, ![6, 8]⟩ : Shape).Idx → EReal) (a3 : (⟨3, ![6, 4, 128]⟩ : Shape).Idx → EReal)
    (a4 : (⟨2, ![6, 128]⟩ : Shape).Idx → EReal) (a5 : (⟨3, ![6, 128, 128]⟩ : Shape).Idx → EReal)
    (a6 : (⟨2, ![6, 128]⟩ : Shape).Idx → EReal) (a7 : (⟨3, ![6, 128, 8]⟩ : Shape).Idx → EReal)
    (a8 : (⟨2, ![6, 8]⟩ : Shape).Idx → EReal) (a9 : (⟨2, ![6, 4]⟩ : Shape).Idx → EReal) : Params where
  als i d := a1 (ValueIdx.ix2 i d)
  ab i d := a2 (ValueIdx.ix2 i d)
  W1 i j n := a3 (ValueIdx.ix3 i j n)
  b1 i n := a4 (ValueIdx.ix2 i n)
  W2 i k n := a5 (ValueIdx.ix3 i k n)
  b2 i n := a6 (ValueIdx.ix2 i n)
  W3 i k e := a7 (ValueIdx.ix3 i k e)
  b3 i e := a8 (ValueIdx.ix2 i e)
  lg i j := a9 (ValueIdx.ix2 i j)

/-- The batch of rows after the flow: row `r` of the result is the flow of row `r` of the input. -/
def zOut {B : ℕ} (x : (⟨2, ![B, 8]⟩ : Shape).Idx → EReal) : (⟨2, ![B, 8]⟩ : Shape).Idx → EReal :=
  fun j => (flow P (fun d => x (ValueIdx.ix2 (j 0) d))).1 (j 1)
/-- The log-determinants after the flow, one per row. -/
def ldOut {B : ℕ} (x : (⟨2, ![B, 8]⟩ : Shape).Idx → EReal) : (⟨1, ![B]⟩ : Shape).Idx → EReal :=
  fun j => (flow P (fun d => x (ValueIdx.ix2 (j 0) d))).2

/-- One layer on a block of rows held as an [R, 8] array with an [R, 1] column of log-determinants. -/
def blockStep {R : ℕ} (k : ℕ) (hk : k < 6)
    (acc : ((⟨2, ![R, 8]⟩ : Shape).Idx → EReal) × ((⟨2, ![R, 1]⟩ : Shape).Idx → EReal)) :
    ((⟨2, ![R, 8]⟩ : Shape).Idx → EReal) × ((⟨2, ![R, 1]⟩ : Shape).Idx → EReal) :=
  (fun j => (step P ⟨k, hk⟩ (fun d => acc.1 (ValueIdx.ix2 (j 0) d), acc.2 (ValueIdx.ix2 (j 0) (0 : Fin 1)))).1 (j 1),
   fun j => (step P ⟨k, hk⟩ (fun d => acc.1 (ValueIdx.ix2 (j 0) d), acc.2 (ValueIdx.ix2 (j 0) (0 : Fin 1)))).2)

/-- One layer on the whole batch held as a [B, 8] array with a length-B vector of log-determinants. -/
def batchStep {B : ℕ} (i : Fin 6)
    (acc : ((⟨2, ![B, 8]⟩ : Shape).Idx → EReal) × ((⟨1, ![B]⟩ : Shape).Idx → EReal)) :
    ((⟨2, ![B, 8]⟩ : Shape).Idx → EReal) × ((⟨1, ![B]⟩ : Shape).Idx → EReal) :=
  (fun j => (step P i (fun d => acc.1 (ValueIdx.ix2 (j 0) d), acc.2 (ValueIdx.ix1 (j 0)))).1 (j 1),
   fun j => (step P i (fun d => acc.1 (ValueIdx.ix2 (j 0) d), acc.2 (ValueIdx.ix1 (j 0)))).2)

end Cert.Flow

end
-- ==== Proof.LibMidAxis.lean ====
/-
  A contraction spelt without a matrix product — `sum (x[:, :, None] * S[None, :, :], axis = 1)` — read at an index:
  the cast [a, b] → [a, b, 1], the broadcasts [a, b, 1] → [a, b, c] and [1, b, c] → [a, b, c], and the add-reduction
  over the middle axis of an [a, b, c] array (and over the last axis of an [a, b] array), at the exact values.
  Variable extents, any element type for the layout operations.
-/
import Idealize.ShloMosaic.Lib.Pipeline.Value
import Idealize.ShloMosaic.Lib.ValueIdx
import Idealize.ShloMosaic.PureOps.Ideal.Laws

noncomputable section

namespace Cert.Lib.MidAxis

open Idealize.ShloMosaic Idealize.ShloMosaic.ValueIdx
open scoped BigOperators

variable {a b c : Nat}

/-- An [a, b] array cast to [a, b, 1] reads, at (i, j, 0), the array at (i, j). -/
theorem castLast_apply {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- An [a, b, 1] array broadcast to [a, b, c] reads, at (i, j, k), the array at (i, j, 0). -/
theorem bcastLast_apply {α : Type} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, b, c] array broadcast to [a, b, c] reads, at (i, j, k), the array at (0, j, k). -/
theorem bcastFirst_apply {α : Type} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The add-reduction of an [a, b, c] array over its middle axis reads, at (i, k), the sum over j of the array at
    (i, j, k). -/
theorem sumMid_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (k : Fin c) :
    multiReduction .add [(1 : Fin 3)] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src ?_
  funext ax
  apply Fin.ext
  rw [h.lift_val]
  match ax with
  | ⟨0, _⟩ => rfl
  | ⟨1, _⟩ => rfl
  | ⟨2, _⟩ => rfl

/-- The add-reduction of an [a, b] array over its last axis reads, at i, the sum over j of the array at (i, j). -/
theorem sumLast_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  apply Fin.ext
  rw [h.lift_val]
  match ax with
  | ⟨0, _⟩ => rfl
  | ⟨1, _⟩ => rfl

end Cert.Lib.MidAxis

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.KernelPay.lean ====
/-
  The arithmetic of one trip of the kernel's loop over the layers, read at an index: each stage of the trip — the clipped
  log-scale, the affine normalization, the two halves taken by contracting with 0/1 selection tables, the perceptron, the
  coupling, the log-determinant's gains, and the scatter-and-flip by two more contractions — as a function of the
  entries of the stage's operands.
-/
import proofs.«135321_j73263552135281_2_alg».proof.Proof.Gen.KernelIdeal.Skeleton
import proofs.«135321_j73263552135281_2_alg».proof.Proof.Flow
import proofs.«135321_j73263552135281_2_alg».proof.Proof.LibMidAxis
import proofs.«135321_j73263552135281_2_alg».proof.Proof.LibPlainDot
import proofs.«135321_j73263552135281_2_alg».proof.Proof.LibColBroadcast
import Idealize.ShloMosaic.Lib.ValueLayout
import Idealize.ShloMosaic.Lib.IdealHost

set_option maxRecDepth 16384

noncomputable section

namespace Cert.KernelIdeal.FlowValue

open Idealize.ShloMosaic Idealize.ShloMosaic.ValueIdx
open Cert.KernelIdeal Cert.KernelIdeal.Gen Cert.Flow Cert.Lib.MidAxis
open scoped BigOperators

/-- Reading the one entry of a 1 × 1 array. -/
theorem extractAt00 {α : Type} (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) :=
  congrArg v (funext fun a => by match a with | ⟨0, _⟩ => rfl | ⟨1, _⟩ => rfl)

/-- The clipped log-scale row of a trip. -/
theorem pay5_apply (v8 : Vec Ideal S1x8 .f32) (d : Fin 8) :
    k0_pay5 (F := Ideal) v8 (ix1 d) = clip (v8 (ix2 (0 : Fin 1) d)) := by
  unfold k0_pay5
  show min c5 (max cM5 (shapeCast S8 v8 shapeCasts_S1x8_S8 (ix1 d))) = _
  rw [shapeCast_1a_a_apply]
  rfl

/-- The block after the affine normalization. -/
theorem pay6_apply (z : Vec Ideal S8192x8 .f32) (v8 v15 : Vec Ideal S1x8 .f32) (r : Fin 8192) (d : Fin 8) :
    k0_pay6 (F := Ideal) z v8 v15 (ix2 r d)
      = (z (ix2 r d) + v15 (ix2 (0 : Fin 1) d)) * Ideal.exp (clip (v8 (ix2 (0 : Fin 1) d))) := by
  unfold k0_pay6
  show (z (ix2 r d) + broadcastTo S8192x8 (shapeCast S1x8 (shapeCast S8 v15 shapeCasts_S1x8_S8) shapeCasts_S8_S1x8) broadcasts_S1x8_S8192x8 (ix2 r d))
      * broadcastTo S8192x8 (shapeCast S1x8 (exp (k0_pay5 (F := Ideal) v8)) shapeCasts_S8_S1x8) broadcasts_S1x8_S8192x8 (ix2 r d) = _
  rw [broadcastTo_1b_ab_apply, broadcastTo_1b_ab_apply, shapeCast_a_1a_apply, shapeCast_a_1a_apply, shapeCast_1a_a_apply]
  show _ * Ideal.exp (k0_pay5 (F := Ideal) v8 (ix1 d)) = _
  rw [pay5_apply]

/-- The log-determinant column after the normalization's gain. -/
theorem pay7_apply (ld : FVec Ideal S8192x1 .f32) (v8 : Vec Ideal S1x8 .f32) (r : Fin 8192) :
    k0_pay7 (F := Ideal) ld v8 (ix2 r (0 : Fin 1)) = ld (ix2 r (0 : Fin 1)) + ∑ d : Fin 8, clip (v8 (ix2 (0 : Fin 1) d)) := by
  unfold k0_pay7
  show ld (ix2 r (0 : Fin 1)) + extractAt ![0, 0] (shapeCast S1x1 (multiReduction .add [1] S1 (shapeCast S1x8 (k0_pay5 (F := Ideal) v8) shapeCasts_S8_S1x8) 0x00000000#32 reduces_S1x8_S1 (.inl rfl) rfl) shapeCasts_S1_S1x1) inpos_S1x1_p0_0 = _
  rw [extractAt00, shapeCast_a_1a_apply]
  refine congrArg (ld (ix2 r (0 : Fin 1)) + ·) ?_
  refine (sumLast_apply (a := 1) (b := 8) _ _ _ _ _ (0 : Fin 1)).trans ?_
  refine Finset.sum_congr rfl fun d _ => ?_
  rw [shapeCast_a_1a_apply, pay5_apply]

/-- The scatter tables of a trip, as 4 × 8 matrices. -/
theorem pay8_apply (v37 : Vec Ideal S1x4x8 .f32) (j : Fin 4) (d : Fin 8) :
    k0_pay8 (F := Ideal) v37 (ix2 j d) = v37 (ix3 (0 : Fin 1) j d) := by
  unfold k0_pay8
  exact shapeCast_1ab_ab_apply _ _ _ _
theorem pay9_apply (v40 : Vec Ideal S1x4x8 .f32) (j : Fin 4) (d : Fin 8) :
    k0_pay9 (F := Ideal) v40 (ix2 j d) = v40 (ix3 (0 : Fin 1) j d) := by
  unfold k0_pay9
  exact shapeCast_1ab_ab_apply _ _ _ _

/-- The fixed half: the normalized block contracted with the fixed half's selection table. -/
theorem pay10_apply (z : Vec Ideal S8192x8 .f32) (v8 v15 : Vec Ideal S1x8 .f32) (v31 : Vec Ideal S1x8x4 .f32) (r : Fin 8192) (j : Fin 4) :
    k0_pay10 (F := Ideal) z v8 v15 v31 (ix2 r j) = ∑ d : Fin 8, k0_pay6 (F := Ideal) z v8 v15 (ix2 r d) * v31 (ix3 (0 : Fin 1) d j) := by
  unfold k0_pay10
  refine (sumMid_apply (a := 8192) (b := 8) (c := 4) _ _ _ _ _ r j).trans ?_
  refine Finset.sum_congr rfl fun d _ => ?_
  show broadcastTo S8192x8x4 (shapeCast S8192x8x1 (k0_pay6 (F := Ideal) z v8 v15) shapeCasts_S8192x8_S8192x8x1) broadcasts_S8192x8x1_S8192x8x4 (ix3 r d j)
      * broadcastTo S8192x8x4 (shapeCast S1x8x4 (shapeCast S8x4 v31 shapeCasts_S1x8x4_S8x4) shapeCasts_S8x4_S1x8x4) broadcasts_S1x8x4_S8192x8x4 (ix3 r d j) = _
  rw [bcastLast_apply, castLast_apply, bcastFirst_apply, shapeCast_ab_1ab_apply, shapeCast_1ab_ab_apply]

/-- The normalized block and the moved half's selection table, spread for the contraction. -/
theorem pay11_apply (z : Vec Ideal S8192x8 .f32) (v8 v15 : Vec Ideal S1x8 .f32) (r : Fin 8192) (d : Fin 8) (j : Fin 4) :
    k0_pay11 (F := Ideal) z v8 v15 (ix3 r d j) = k0_pay6 (F := Ideal) z v8 v15 (ix2 r d) := by
  unfold k0_pay11
  show broadcastTo S8192x8x4 (shapeCast S8192x8x1 (k0_pay6 (F := Ideal) z v8 v15) shapeCasts_S8192x8_S8192x8x1) broadcasts_S8192x8x1_S8192x8x4 (ix3 r d j) = _
  rw [bcastLast_apply, castLast_apply]
theorem pay12_apply (v34 : Vec Ideal S1x8x4 .f32) (r : Fin 8192) (d : Fin 8) (j : Fin 4) :
    k0_pay12 (F := Ideal) v34 (ix3 r d j) = v34 (ix3 (0 : Fin 1) d j) := by
  unfold k0_pay12
  show broadcastTo S8192x8x4 (shapeCast S1x8x4 (shapeCast S8x4 v34 shapeCasts_S1x8x4_S8x4) shapeCasts_S8x4_S1x8x4) broadcasts_S1x8x4_S8192x8x4 (ix3 r d j) = _
  rw [bcastFirst_apply, shapeCast_ab_1ab_apply, shapeCast_1ab_ab_apply]

/-- The moved half: the contraction of the two spread arrays over the middle axis. -/
theorem pay13_apply (v50 v51 : FVec Ideal S8192x8x4 .f32) (r : Fin 8192) (j : Fin 4) :
    k0_pay13 (F := Ideal) v50 v51 (ix2 r j) = ∑ d : Fin 8, v50 (ix3 r d j) * v51 (ix3 r d j) := by
  unfold k0_pay13
  exact sumMid_apply (a := 8192) (b := 8) (c := 4) _ _ _ _ _ r j

/-- A dense layer of the perceptron: the product with the layer's weight slice (both rounded on the way in, which is the
    identity at the exact values) plus the bias row. -/
theorem lin_apply {a c b : Nat} (wf : DotDims.WF ⟨2, ![a, c]⟩ ⟨2, ![c, b]⟩ ⟨2, ![a, b]⟩ [1] [0] [0] [1] [] [])
    (lhs : FVec Ideal ⟨2, ![a, c]⟩ .f32) (W : FVec Ideal ⟨3, ![1, c, b]⟩ .f32) (bias : FVec Ideal ⟨2, ![1, b]⟩ .f32)
    (hW : (⟨3, ![1, c, b]⟩ : Shape).ShapeCasts ⟨2, ![c, b]⟩) (hb1 : (⟨2, ![1, b]⟩ : Shape).ShapeCasts ⟨1, ![b]⟩)
    (hb2 : (⟨1, ![b]⟩ : Shape).ShapeCasts ⟨2, ![1, b]⟩) (hb3 : (⟨2, ![1, b]⟩ : Shape).Broadcasts ⟨2, ![a, b]⟩)
    (hl : FTy.bf16.bits < FTy.f32.bits) (p : Fin a) (q : Fin b) :
    addf (matmul (Cert.Lib.PlainDot.dims wf) none (truncf .bf16 lhs hl) (truncf .bf16 (shapeCast ⟨2, ![c, b]⟩ W hW) hl)
        (constant ⟨2, ![a, b]⟩ .f32 0x00000000#32))
      (broadcastTo ⟨2, ![a, b]⟩ (shapeCast ⟨2, ![1, b]⟩ (shapeCast ⟨1, ![b]⟩ bias hb1) hb2) hb3) (ix2 p q)
    = ∑ k : Fin c, lhs (ix2 p k) * W (ix3 (0 : Fin 1) k q) + bias (ix2 (0 : Fin 1) q) := by
  show matmul (Cert.Lib.PlainDot.dims wf) none (truncf .bf16 lhs hl) (truncf .bf16 (shapeCast ⟨2, ![c, b]⟩ W hW) hl)
        (constant ⟨2, ![a, b]⟩ .f32 0x00000000#32) (ix2 p q)
      + broadcastTo ⟨2, ![a, b]⟩ (shapeCast ⟨2, ![1, b]⟩ (shapeCast ⟨1, ![b]⟩ bias hb1) hb2) hb3 (ix2 p q) = _
  rw [Cert.Lib.PlainDot.matmul_zero_apply, broadcastTo_1b_ab_apply, shapeCast_a_1a_apply, shapeCast_1a_a_apply]
  refine congrArg (· + bias (ix2 (0 : Fin 1) q)) (Finset.sum_congr rfl fun k _ => ?_)
  show lhs (ix2 p k) * shapeCast ⟨2, ![c, b]⟩ W hW (ix2 k q) = _
  rw [shapeCast_1ab_ab_apply]

/-- The perceptron's output row. -/
theorem pay14_apply (P : Params) (i : Fin 6) (v47 : FVec Ideal S8192x4 .f32) (v55 : Vec Ideal S1x4x128 .f32) (v58 : Vec Ideal S1x128 .f32)
    (v61 : Vec Ideal S1x128x128 .f32) (v64 : Vec Ideal S1x128 .f32) (v67 : Vec Ideal S1x128x8 .f32) (v70 : Vec Ideal S1x8 .f32)
    (hW1 : ∀ j n, v55 (ix3 (0 : Fin 1) j n) = P.W1 i j n) (hb1 : ∀ n, v58 (ix2 (0 : Fin 1) n) = P.b1 i n)
    (hW2 : ∀ k n, v61 (ix3 (0 : Fin 1) k n) = P.W2 i k n) (hb2 : ∀ n, v64 (ix2 (0 : Fin 1) n) = P.b2 i n)
    (hW3 : ∀ k e, v67 (ix3 (0 : Fin 1) k e) = P.W3 i k e) (hb3 : ∀ e, v70 (ix2 (0 : Fin 1) e) = P.b3 i e)
    (r : Fin 8192) (e : Fin 8) :
    k0_pay14 (F := Ideal) v47 v55 v58 v61 v64 v67 v70 (ix2 r e) = hid3 P i (fun j => v47 (ix2 r j)) e := by
  unfold k0_pay14
  refine (lin_apply dot_S8192x128_S128x8_S8192x8_1_0_0_1_n_n_wf _ _ _ _ _ _ _ _ r e).trans ?_
  unfold hid3
  rw [hb3]
  refine congrArg (· + P.b3 i e) (Finset.sum_congr rfl fun k _ => ?_)
  rw [hW3]
  refine congrArg (· * P.W3 i k e) ?_
  refine (congrArg (max · c0) (lin_apply dot_S8192x128_S128x128_S8192x128_1_0_0_1_n_n_wf _ _ _ _ _ _ _ _ r k)).trans ?_
  unfold hid2
  rw [hb2]
  refine congrArg (max · c0) (congrArg (· + P.b2 i k) (Finset.sum_congr rfl fun k' _ => ?_))
  rw [hW2]
  refine congrArg (· * P.W2 i k' k) ?_
  refine (congrArg (max · c0) (lin_apply dot_S8192x4_S4x128_S8192x128_1_0_0_1_n_n_wf _ _ _ _ _ _ _ _ r k')).trans ?_
  unfold hid1
  rw [hb1]
  refine congrArg (max · c0) (congrArg (· + P.b1 i k') (Finset.sum_congr rfl fun j _ => ?_))
  rw [hW1]

/-- The raw shift and the raw scale: the first and the last four columns of the perceptron's output. -/
theorem pay15_apply (v47 : FVec Ideal S8192x4 .f32) (v55 : Vec Ideal S1x4x128 .f32) (v58 : Vec Ideal S1x128 .f32)
    (v61 : Vec Ideal S1x128x128 .f32) (v64 : Vec Ideal S1x128 .f32) (v67 : Vec Ideal S1x128x8 .f32) (v70 : Vec Ideal S1x8 .f32)
    (r : Fin 8192) (j : Fin 4) :
    k0_pay15 (F := Ideal) v47 v55 v58 v61 v64 v67 v70 (ix2 r j) = k0_pay14 (F := Ideal) v47 v55 v58 v61 v64 v67 v70 (ix2 r (lo4 j)) := by
  unfold k0_pay15
  refine extractStridedSlice_apply _ _ _ _ (ix2 r (lo4 j)) fun ax => ?_
  match ax with
  | ⟨0, _⟩ => show r.val = 0 + r.val; omega
  | ⟨1, _⟩ => show j.val = 0 + j.val; omega
theorem pay16_apply (v47 : FVec Ideal S8192x4 .f32) (v55 : Vec Ideal S1x4x128 .f32) (v58 : Vec Ideal S1x128 .f32)
    (v61 : Vec Ideal S1x128x128 .f32) (v64 : Vec Ideal S1x128 .f32) (v67 : Vec Ideal S1x128x8 .f32) (v70 : Vec Ideal S1x8 .f32)
    (r : Fin 8192) (j : Fin 4) :
    k0_pay16 (F := Ideal) v47 v55 v58 v61 v64 v67 v70 (ix2 r j) = k0_pay14 (F := Ideal) v47 v55 v58 v61 v64 v67 v70 (ix2 r (hi4 j)) := by
  unfold k0_pay16
  refine extractStridedSlice_apply _ _ _ _ (ix2 r (hi4 j)) fun ax => ?_
  match ax with
  | ⟨0, _⟩ => show r.val = 0 + r.val; omega
  | ⟨1, _⟩ => show j.val + 4 = 4 + j.val; omega

/-- The scale factor minus one. -/
theorem pay2_apply (v95 : FVec Ideal S8192x4 .f32) (r : Fin 8192) (j : Fin 4) :
    k0_pay2 (F := Ideal) v95 (ix2 r j) = cAlpha * Ideal.tanh (v95 (ix2 r j)) := by
  unfold k0_pay2
  rfl

/-- The log-determinant column after the coupling's gain. -/
theorem pay3_apply (v29 : FVec Ideal S8192x1 .f32) (v95 : FVec Ideal S8192x4 .f32) (r : Fin 8192) :
    k0_pay3 (F := Ideal) v29 v95 (ix2 r (0 : Fin 1))
      = v29 (ix2 r (0 : Fin 1)) + ∑ j : Fin 4, Ideal.log (max (c1 + k0_pay2 (F := Ideal) v95 (ix2 r j)) (-(c1 + k0_pay2 (F := Ideal) v95 (ix2 r j))) + cEps) := by
  unfold k0_pay3
  refine congrArg (v29 (ix2 r (0 : Fin 1)) + ·) ?_
  refine (Cert.Lib.Cols.col_apply _ _ r).trans ?_
  exact sumLast_apply (a := 8192) (b := 4) _ _ _ _ _ r

/-- The block after the coupling: the two halves put back through the scatter tables, then the columns permuted by
    the last table. -/
theorem pay4_apply (v2 : Vec Ideal S8x8 .f32) (v38 v41 : FVec Ideal S4x8 .f32) (v47 v53 v94 v95 : FVec Ideal S8192x4 .f32)
    (v97 : Vec Ideal S1x4 .f32) (r : Fin 8192) (d' : Fin 8) :
    k0_pay4 (F := Ideal) v2 v38 v41 v47 v53 v94 v95 v97 (ix2 r d')
      = ∑ d : Fin 8, (∑ j : Fin 4, v47 (ix2 r j) * v38 (ix2 j d)
          + ∑ j : Fin 4, (v53 (ix2 r j) * (c1 + k0_pay2 (F := Ideal) v95 (ix2 r j))
              + Ideal.exp (clip (v97 (ix2 (0 : Fin 1) j))) * Ideal.tanh (v94 (ix2 r j))) * v41 (ix2 j d)) * v2 (ix2 d d') := by
  unfold k0_pay4
  refine (sumMid_apply (a := 8192) (b := 8) (c := 8) _ _ _ _ _ r d').trans ?_
  refine Finset.sum_congr rfl fun d _ => ?_
  refine (congrArg₂ (· * ·) ((bcastLast_apply _ _ r d d').trans (castLast_apply _ _ r d (0 : Fin 1))) ((bcastFirst_apply _ _ r d d').trans (shapeCast_ab_1ab_apply _ _ (0 : Fin 1) d d'))).trans ?_
  refine congrArg (· * v2 (ix2 d d')) ?_
  refine congrArg₂ (· + ·) ((sumMid_apply (a := 8192) (b := 4) (c := 8) _ _ _ _ _ r d).trans ?_) ((sumMid_apply (a := 8192) (b := 4) (c := 8) _ _ _ _ _ r d).trans ?_)
  · refine Finset.sum_congr rfl fun j _ => ?_
    exact congrArg₂ (· * ·) ((bcastLast_apply _ _ r j d).trans (castLast_apply _ _ r j (0 : Fin 1))) ((bcastFirst_apply _ _ r j d).trans (shapeCast_ab_1ab_apply _ _ (0 : Fin 1) j d))
  · refine Finset.sum_congr rfl fun j _ => ?_
    refine (congrArg₂ (· * ·) ((bcastLast_apply _ _ r j d).trans (castLast_apply _ _ r j (0 : Fin 1))) ((bcastFirst_apply _ _ r j d).trans (shapeCast_ab_1ab_apply _ _ (0 : Fin 1) j d))).trans ?_
    refine congrArg (· * v41 (ix2 j d)) ?_
    show v53 (ix2 r j) * (c1 + k0_pay2 (F := Ideal) v95 (ix2 r j)) + broadcastTo S8192x4 (shapeCast S1x4 (exp (minimumf (broadcast S4 (Scalar.ofBits .f32 0x40A00000#32)) (maximumf (broadcast S4 (Scalar.ofBits .f32 0xC0A00000#32)) (shapeCast S4 v97 shapeCasts_S1x4_S4)))) shapeCasts_S4_S1x4) broadcasts_S1x4_S8192x4 (ix2 r j) * Ideal.tanh (v94 (ix2 r j)) = _
    rw [broadcastTo_1b_ab_apply, shapeCast_a_1a_apply]
    show _ + Ideal.exp (min c5 (max cM5 (shapeCast S4 v97 shapeCasts_S1x4_S4 (ix1 j)))) * _ = _
    rw [shapeCast_1a_a_apply]
    rfl

end Cert.KernelIdeal.FlowValue

end
-- ==== Proof.Selection.lean ====
/-
  The 0/1 selection tables of the kernel and what contracting with them does: a table with a single one per column picks
  one entry of a row (x·1 = x, x·0 = 0 and x + 0 = x hold for every extended real, so no finiteness is needed).
  The five tables are the module's dense constants; their words are decided entry by entry.
-/
import proofs.«135321_j73263552135281_2_alg».proof.KernelIdeal
import proofs.«135321_j73263552135281_2_alg».proof.Proof.Gen.KernelIdeal
import proofs.«135321_j73263552135281_2_alg».proof.Proof.Flow
import Idealize.ShloMosaic.Lib.IdealHost
import Idealize.ShloMosaic.PureOps.Ideal.Laws

set_option maxRecDepth 16384

noncomputable section

namespace Cert.KernelIdeal.FlowValue

open Idealize.ShloMosaic Idealize.ShloMosaic.ValueIdx
open Cert.KernelIdeal Cert.Flow
open scoped BigOperators

/-- Contracting a row with a column that is one at `d0` and zero elsewhere picks the row's entry at `d0`. -/
theorem sum_pick {n : ℕ} (f s : Fin n → EReal) (d0 : Fin n) (h1 : s d0 = 1) (h0 : ∀ d, d ≠ d0 → s d = 0) :
    ∑ d : Fin n, f d * s d = f d0 := by
  rw [Finset.sum_eq_single d0 (fun d _ hd => by rw [h0 d hd, mul_zero]) (fun h => absurd (Finset.mem_univ _) h), h1, mul_one]

/-- Contracting a row with a zero column gives zero. -/
theorem sum_none {n : ℕ} (f s : Fin n → EReal) (h0 : ∀ d, s d = 0) : ∑ d : Fin n, f d * s d = 0 :=
  Finset.sum_eq_zero fun d _ => by rw [h0 d, mul_zero]

/-- The five selection tables as the region finds them: the literal words of the module's dense constants. -/
abbrev tab0 : Vec Ideal S6x8x4 .f32 := fun i => FloatOps.ofBits (F := Ideal) .f32 (lit0 (S6x8x4.rowMajor i))
abbrev tab1 : Vec Ideal S6x8x4 .f32 := fun i => FloatOps.ofBits (F := Ideal) .f32 (lit1 (S6x8x4.rowMajor i))
abbrev tab2 : Vec Ideal S6x4x8 .f32 := fun i => FloatOps.ofBits (F := Ideal) .f32 (lit2 (S6x4x8.rowMajor i))
abbrev tab3 : Vec Ideal S6x4x8 .f32 := fun i => FloatOps.ofBits (F := Ideal) .f32 (lit3 (S6x4x8.rowMajor i))
abbrev tab4 : Vec Ideal S8x8 .f32 := fun i => FloatOps.ofBits (F := Ideal) .f32 (lit4 (S8x8.rowMajor i))

theorem lit0_word : ∀ (i : Fin 6) (d : Fin 8) (j : Fin 4),
    lit0 (S6x8x4.rowMajor (ix3 i d j)) = if d = fixedCol i j then 0x3F800000#32 else 0x00000000#32 := by decide +kernel
theorem lit1_word : ∀ (i : Fin 6) (d : Fin 8) (j : Fin 4),
    lit1 (S6x8x4.rowMajor (ix3 i d j)) = if d = movedCol i j then 0x3F800000#32 else 0x00000000#32 := by decide +kernel
theorem lit2_word : ∀ (i : Fin 6) (j : Fin 4) (d : Fin 8),
    lit2 (S6x4x8.rowMajor (ix3 i j d)) = if d = fixedCol i j then 0x3F800000#32 else 0x00000000#32 := by decide +kernel
theorem lit3_word : ∀ (i : Fin 6) (j : Fin 4) (d : Fin 8),
    lit3 (S6x4x8.rowMajor (ix3 i j d)) = if d = movedCol i j then 0x3F800000#32 else 0x00000000#32 := by decide +kernel
theorem lit4_word : ∀ (d d' : Fin 8),
    lit4 (S8x8.rowMajor (ix2 d d')) = if d = rev8 d' then 0x3F800000#32 else 0x00000000#32 := by decide +kernel

theorem word_val (p : Prop) [Decidable p] :
    Ideal.ofBits .f32 (if p then 0x3F800000#32 else 0x00000000#32) = if p then (1 : EReal) else 0 := by
  split
  · exact Ideal.ofBits_one_f32
  · exact Ideal.ofBits_zero_f32

/-- The fixed half's selection table: one where the column is the half's column. -/
theorem tab0_apply (i : Fin 6) (d : Fin 8) (j : Fin 4) : tab0 (ix3 i d j) = if d = fixedCol i j then (1 : EReal) else 0 := by
  show Ideal.ofBits .f32 (lit0 (S6x8x4.rowMajor (ix3 i d j))) = _
  rw [lit0_word, word_val]
theorem tab1_apply (i : Fin 6) (d : Fin 8) (j : Fin 4) : tab1 (ix3 i d j) = if d = movedCol i j then (1 : EReal) else 0 := by
  show Ideal.ofBits .f32 (lit1 (S6x8x4.rowMajor (ix3 i d j))) = _
  rw [lit1_word, word_val]
theorem tab2_apply (i : Fin 6) (j : Fin 4) (d : Fin 8) : tab2 (ix3 i j d) = if d = fixedCol i j then (1 : EReal) else 0 := by
  show Ideal.ofBits .f32 (lit2 (S6x4x8.rowMajor (ix3 i j d))) = _
  rw [lit2_word, word_val]
theorem tab3_apply (i : Fin 6) (j : Fin 4) (d : Fin 8) : tab3 (ix3 i j d) = if d = movedCol i j then (1 : EReal) else 0 := by
  show Ideal.ofBits .f32 (lit3 (S6x4x8.rowMajor (ix3 i j d))) = _
  rw [lit3_word, word_val]
theorem tab4_apply (d d' : Fin 8) : tab4 (ix2 d d') = if d = rev8 d' then (1 : EReal) else 0 := by
  show Ideal.ofBits .f32 (lit4 (S8x8.rowMajor (ix2 d d'))) = _
  rw [lit4_word, word_val]

/-- The columns of a layer: a column is the fixed half's or the moved half's according to its parity. -/
theorem fixedCol_halfOf (i : Fin 6) (d : Fin 8) (h : d.val % 2 = i.val % 2) : fixedCol i (halfOf d) = d :=
  Fin.ext (by show 2 * (d.val / 2) + i.val % 2 = d.val; omega)
theorem movedCol_halfOf (i : Fin 6) (d : Fin 8) (h : ¬ d.val % 2 = i.val % 2) : movedCol i (halfOf d) = d :=
  Fin.ext (by show 2 * (d.val / 2) + (i.val + 1) % 2 = d.val; omega)
theorem fixedCol_parity (i : Fin 6) (j : Fin 4) : (fixedCol i j).val % 2 = i.val % 2 := by
  show (2 * j.val + i.val % 2) % 2 = i.val % 2; omega
theorem movedCol_parity (i : Fin 6) (j : Fin 4) : ¬ (movedCol i j).val % 2 = i.val % 2 := by
  show ¬ (2 * j.val + (i.val + 1) % 2) % 2 = i.val % 2; omega
theorem halfOf_fixedCol (i : Fin 6) (j : Fin 4) : halfOf (fixedCol i j) = j :=
  Fin.ext (by show (2 * j.val + i.val % 2) / 2 = j.val; omega)
theorem halfOf_movedCol (i : Fin 6) (j : Fin 4) : halfOf (movedCol i j) = j :=
  Fin.ext (by show (2 * j.val + (i.val + 1) % 2) / 2 = j.val; omega)

end Cert.KernelIdeal.FlowValue

end
-- ==== Proof.KernelRow.lean ====
/-
  One trip of the kernel's loop, on one row of the carried block, is one layer of the flow on that row: the two
  contractions with selection tables pick the fixed and the moved half, the contractions with the scatter tables put the
  halves back into their columns (each column receives exactly one entry, the other table contributing zero), and the
  contraction with the last table reverses the columns.
-/
import proofs.«135321_j73263552135281_2_alg».proof.Proof.KernelPay
import proofs.«135321_j73263552135281_2_alg».proof.Proof.Selection

set_option maxRecDepth 16384

noncomputable section

namespace Cert.KernelIdeal.FlowValue

open Idealize.ShloMosaic Idealize.ShloMosaic.ValueIdx
open Cert.KernelIdeal Cert.KernelIdeal.Gen Cert.Flow
open scoped BigOperators

section
variable (P : Params) (i : Fin 6) (z : Vec Ideal S8192x8 .f32) (ld : FVec Ideal S8192x1 .f32)
  (L2 L3 : Vec Ideal S1x8 .f32) (L4 : Vec Ideal S1x4x128 .f32) (L5 : Vec Ideal S1x128 .f32) (L6 : Vec Ideal S1x128x128 .f32)
  (L7 : Vec Ideal S1x128 .f32) (L8 : Vec Ideal S1x128x8 .f32) (L9 : Vec Ideal S1x8 .f32) (L10 : Vec Ideal S1x4 .f32)
  (L11 L12 : Vec Ideal S1x8x4 .f32) (L13 L14 : Vec Ideal S1x4x8 .f32) (V2 : Vec Ideal S8x8 .f32)
  (h2 : ∀ d, L2 (ix2 (0 : Fin 1) d) = P.als i d) (h3 : ∀ d, L3 (ix2 (0 : Fin 1) d) = P.ab i d)
  (hW1 : ∀ j n, L4 (ix3 (0 : Fin 1) j n) = P.W1 i j n) (hb1 : ∀ n, L5 (ix2 (0 : Fin 1) n) = P.b1 i n)
  (hW2 : ∀ k n, L6 (ix3 (0 : Fin 1) k n) = P.W2 i k n) (hb2 : ∀ n, L7 (ix2 (0 : Fin 1) n) = P.b2 i n)
  (hW3 : ∀ k e, L8 (ix3 (0 : Fin 1) k e) = P.W3 i k e) (hb3 : ∀ e, L9 (ix2 (0 : Fin 1) e) = P.b3 i e)
  (h10 : ∀ j, L10 (ix2 (0 : Fin 1) j) = P.lg i j)
  (h11 : ∀ d j, L11 (ix3 (0 : Fin 1) d j) = if d = fixedCol i j then (1 : EReal) else 0)
  (h12 : ∀ d j, L12 (ix3 (0 : Fin 1) d j) = if d = movedCol i j then (1 : EReal) else 0)
  (h13 : ∀ j d, L13 (ix3 (0 : Fin 1) j d) = if d = fixedCol i j then (1 : EReal) else 0)
  (h14 : ∀ j d, L14 (ix3 (0 : Fin 1) j d) = if d = movedCol i j then (1 : EReal) else 0)
  (hV2 : ∀ d d', V2 (ix2 d d') = if d = rev8 d' then (1 : EReal) else 0)
  (r : Fin 8192)

include h2 h3 in
theorem row_norm (d : Fin 8) : k0_pay6 (F := Ideal) z L2 L3 (ix2 r d) = norm P i (fun d => z (ix2 r d)) d := by
  rw [pay6_apply, h3, h2]; rfl

include h2 h3 h11 in
theorem row_fixed (j : Fin 4) :
    k0_pay10 (F := Ideal) z L2 L3 L11 (ix2 r j) = norm P i (fun d => z (ix2 r d)) (fixedCol i j) := by
  rw [pay10_apply]
  refine (Finset.sum_congr rfl fun d _ => by rw [row_norm P i z L2 L3 h2 h3 r d, h11 d j]).trans ?_
  exact sum_pick (norm P i fun d => z (ix2 r d)) (fun d => if d = fixedCol i j then (1 : EReal) else 0) (fixedCol i j)
    (if_pos rfl) (fun d hd => if_neg hd)

include h2 h3 h12 in
theorem row_moved (j : Fin 4) :
    k0_pay13 (F := Ideal) (k0_pay11 (F := Ideal) z L2 L3) (k0_pay12 (F := Ideal) L12) (ix2 r j)
      = norm P i (fun d => z (ix2 r d)) (movedCol i j) := by
  rw [pay13_apply]
  refine (Finset.sum_congr rfl fun d _ => by rw [pay11_apply, pay12_apply, row_norm P i z L2 L3 h2 h3 r d, h12 d j]).trans ?_
  exact sum_pick (norm P i fun d => z (ix2 r d)) (fun d => if d = movedCol i j then (1 : EReal) else 0) (movedCol i j)
    (if_pos rfl) (fun d hd => if_neg hd)

include h2 h3 h11 hW1 hb1 hW2 hb2 hW3 hb3 in
theorem row_hidden (e : Fin 8) :
    k0_pay14 (F := Ideal) (k0_pay10 (F := Ideal) z L2 L3 L11) L4 L5 L6 L7 L8 L9 (ix2 r e)
      = hid3 P i (fun j => norm P i (fun d => z (ix2 r d)) (fixedCol i j)) e := by
  rw [pay14_apply P i _ L4 L5 L6 L7 L8 L9 hW1 hb1 hW2 hb2 hW3 hb3 r e]
  exact congrArg (fun f => hid3 P i f e) (funext fun j => row_fixed P i z L2 L3 L11 h2 h3 h11 r j)

include h2 h3 h11 hW1 hb1 hW2 hb2 hW3 hb3 in
theorem row_scale (j : Fin 4) :
    k0_pay2 (F := Ideal) (k0_pay16 (F := Ideal) (k0_pay10 (F := Ideal) z L2 L3 L11) L4 L5 L6 L7 L8 L9) (ix2 r j)
      = scale P i (fun j => norm P i (fun d => z (ix2 r d)) (fixedCol i j)) j := by
  rw [pay2_apply, pay16_apply, row_hidden P i z L2 L3 L4 L5 L6 L7 L8 L9 L11 h2 h3 hW1 hb1 hW2 hb2 hW3 hb3 h11 r (hi4 j)]
  rfl

include h2 h3 h11 hW1 hb1 hW2 hb2 hW3 hb3 in
/-- The log-determinant of the row after the trip. -/
theorem row_logdet :
    k0_pay3 (F := Ideal) (k0_pay7 (F := Ideal) ld L2) (k0_pay16 (F := Ideal) (k0_pay10 (F := Ideal) z L2 L3 L11) L4 L5 L6 L7 L8 L9) (ix2 r (0 : Fin 1))
      = (step P i (fun d => z (ix2 r d), ld (ix2 r (0 : Fin 1)))).2 := by
  rw [pay3_apply, pay7_apply]
  refine congrArg₂ (· + ·) (congrArg (ld (ix2 r (0 : Fin 1)) + ·) (Finset.sum_congr rfl fun d _ => by rw [h2 d]; rfl)) ?_
  refine Finset.sum_congr rfl fun j _ => ?_
  rw [row_scale P i z L2 L3 L4 L5 L6 L7 L8 L9 L11 h2 h3 hW1 hb1 hW2 hb2 hW3 hb3 h11 r j]

include h2 h3 h11 h12 h13 h14 hV2 h10 hW1 hb1 hW2 hb2 hW3 hb3 in
/-- The row after the trip. -/
theorem row_next (d' : Fin 8) :
    k0_pay4 (F := Ideal) V2 (k0_pay8 (F := Ideal) L13) (k0_pay9 (F := Ideal) L14) (k0_pay10 (F := Ideal) z L2 L3 L11)
        (k0_pay13 (F := Ideal) (k0_pay11 (F := Ideal) z L2 L3) (k0_pay12 (F := Ideal) L12))
        (k0_pay15 (F := Ideal) (k0_pay10 (F := Ideal) z L2 L3 L11) L4 L5 L6 L7 L8 L9)
        (k0_pay16 (F := Ideal) (k0_pay10 (F := Ideal) z L2 L3 L11) L4 L5 L6 L7 L8 L9) L10 (ix2 r d')
      = (step P i (fun d => z (ix2 r d), ld (ix2 r (0 : Fin 1)))).1 d' := by
  rw [pay4_apply]
  -- the two halves
  set zr : Fin 8 → EReal := fun d => z (ix2 r d) with hzr
  set xf : Fin 4 → EReal := fun j => norm P i zr (fixedCol i j) with hxf
  set xt : Fin 4 → EReal := fun j => norm P i zr (movedCol i j) with hxt
  have hmv : ∀ j : Fin 4,
      k0_pay13 (F := Ideal) (k0_pay11 (F := Ideal) z L2 L3) (k0_pay12 (F := Ideal) L12) (ix2 r j)
          * (c1 + k0_pay2 (F := Ideal) (k0_pay16 (F := Ideal) (k0_pay10 (F := Ideal) z L2 L3 L11) L4 L5 L6 L7 L8 L9) (ix2 r j))
        + Ideal.exp (clip (L10 (ix2 (0 : Fin 1) j)))
          * Ideal.tanh (k0_pay15 (F := Ideal) (k0_pay10 (F := Ideal) z L2 L3 L11) L4 L5 L6 L7 L8 L9 (ix2 r j))
      = moved P i xf xt j := fun j => by
    rw [row_moved P i z L2 L3 L12 h2 h3 h12 r j, row_scale P i z L2 L3 L4 L5 L6 L7 L8 L9 L11 h2 h3 hW1 hb1 hW2 hb2 hW3 hb3 h11 r j,
      h10 j, pay15_apply, row_hidden P i z L2 L3 L4 L5 L6 L7 L8 L9 L11 h2 h3 hW1 hb1 hW2 hb2 hW3 hb3 h11 r (lo4 j)]
    rfl
  have hmid : ∀ d : Fin 8,
      (∑ j : Fin 4, k0_pay10 (F := Ideal) z L2 L3 L11 (ix2 r j) * k0_pay8 (F := Ideal) L13 (ix2 j d)
        + ∑ j : Fin 4, (k0_pay13 (F := Ideal) (k0_pay11 (F := Ideal) z L2 L3) (k0_pay12 (F := Ideal) L12) (ix2 r j)
              * (c1 + k0_pay2 (F := Ideal) (k0_pay16 (F := Ideal) (k0_pay10 (F := Ideal) z L2 L3 L11) L4 L5 L6 L7 L8 L9) (ix2 r j))
            + Ideal.exp (clip (L10 (ix2 (0 : Fin 1) j)))
              * Ideal.tanh (k0_pay15 (F := Ideal) (k0_pay10 (F := Ideal) z L2 L3 L11) L4 L5 L6 L7 L8 L9 (ix2 r j))) * k0_pay9 (F := Ideal) L14 (ix2 j d))
      = if d.val % 2 = i.val % 2 then xf (halfOf d) else moved P i xf xt (halfOf d) := fun d => by
    have e1 : ∀ j : Fin 4, k0_pay10 (F := Ideal) z L2 L3 L11 (ix2 r j) * k0_pay8 (F := Ideal) L13 (ix2 j d)
        = xf j * (if d = fixedCol i j then (1 : EReal) else 0) := fun j => by
      rw [row_fixed P i z L2 L3 L11 h2 h3 h11 r j, pay8_apply, h13 j d]
    have e2 : ∀ j : Fin 4, (k0_pay13 (F := Ideal) (k0_pay11 (F := Ideal) z L2 L3) (k0_pay12 (F := Ideal) L12) (ix2 r j)
              * (c1 + k0_pay2 (F := Ideal) (k0_pay16 (F := Ideal) (k0_pay10 (F := Ideal) z L2 L3 L11) L4 L5 L6 L7 L8 L9) (ix2 r j))
            + Ideal.exp (clip (L10 (ix2 (0 : Fin 1) j)))
              * Ideal.tanh (k0_pay15 (F := Ideal) (k0_pay10 (F := Ideal) z L2 L3 L11) L4 L5 L6 L7 L8 L9 (ix2 r j))) * k0_pay9 (F := Ideal) L14 (ix2 j d)
        = moved P i xf xt j * (if d = movedCol i j then (1 : EReal) else 0) := fun j => by
      rw [hmv j, pay9_apply, h14 j d]
    rw [Finset.sum_congr rfl fun j _ => e1 j, Finset.sum_congr rfl fun j _ => e2 j]
    by_cases hp : d.val % 2 = i.val % 2
    · rw [if_pos hp,
        sum_pick xf (fun j => if d = fixedCol i j then (1 : EReal) else 0) (halfOf d)
          (if_pos (fixedCol_halfOf i d hp).symm)
          (fun j hj => if_neg fun hd => hj (by rw [hd, halfOf_fixedCol])),
        sum_none (moved P i xf xt) (fun j => if d = movedCol i j then (1 : EReal) else 0)
          (fun j => if_neg fun hd => movedCol_parity i j (by rw [← hd]; exact hp)),
        add_zero]
    · rw [if_neg hp,
        sum_none xf (fun j => if d = fixedCol i j then (1 : EReal) else 0)
          (fun j => if_neg fun hd => hp (by rw [hd]; exact fixedCol_parity i j)),
        sum_pick (moved P i xf xt) (fun j => if d = movedCol i j then (1 : EReal) else 0) (halfOf d)
          (if_pos (movedCol_halfOf i d hp).symm)
          (fun j hj => if_neg fun hd => hj (by rw [hd, halfOf_movedCol])),
        zero_add]
  rw [Finset.sum_congr rfl fun d _ => by rw [hmid d, hV2 d d']]
  exact sum_pick (fun d => if d.val % 2 = i.val % 2 then xf (halfOf d) else moved P i xf xt (halfOf d))
    (fun d => if d = rev8 d' then (1 : EReal) else 0) (rev8 d') (if_pos rfl) (fun d hd => if_neg hd)

end

end Cert.KernelIdeal.FlowValue

end
-- ==== Proof.KernelTrip.lean ====
/-
  One trip of the kernel's loop over the layers is one layer of the flow on the block of rows it carries: the trip
  loads row `k` of each parameter array and of each selection table from buffers that hold those arrays whole, and what
  it computes from them is, row by row, the layer's function.
-/
import proofs.«135321_j73263552135281_2_alg».proof.Proof.Gen.KernelIdeal.Frame
import proofs.«135321_j73263552135281_2_alg».proof.Proof.KernelRow

set_option maxRecDepth 16384

noncomputable section

namespace Cert.KernelIdeal.FlowValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Flow

/-- The loop makes six trips. -/
theorem trip_lt (k : Fin k0_t1_loop.trips) : k.val < 6 := Nat.lt_of_lt_of_le k.isLt k0_t1_abs.2.1

/-- A load through a rectangle, from a buffer that holds an array whole, reads the array at the rectangle's indices. -/
theorem load_apply {S : Shape} (M : Memref sig .tc .vmem S .f32) (hM : M.IsWhole) (X : Vec Ideal S .f32) (rc : Rect S)
    (y : rc.shape.Idx) : View.readAt (Elt Ideal) M.view rc.toLoadRect (hM.unread X) y = X (rc.idx y) := by
  show View.ld (M.view.read (Elt Ideal) (hM.unread X)) rc y = _
  rw [hM.read_unread]

/-- Row `i` of an [n, b] array, loaded as a [1, b] rectangle at offsets (i, 0). -/
theorem load_row2 {n b : ℕ} (M : Memref sig .tc .vmem ⟨2, ![n, b]⟩ .f32) (hM : M.IsWhole) (X : Vec Ideal ⟨2, ![n, b]⟩ .f32)
    (off : Fin 2 → ℕ) (inb : ∀ a, off a + (![1, b] : Fin 2 → ℕ) a ≤ (⟨2, ![n, b]⟩ : Shape).size a) (i : Fin n)
    (hoff : off = ![i.val, 0]) (d : Fin b) :
    View.readAt (Elt Ideal) M.view (Rect.unit (s := ⟨2, ![n, b]⟩) off ![1, b] inb).toLoadRect (hM.unread X) (ix2 (0 : Fin 1) d)
      = X (ix2 i d) := by
  subst hoff
  refine (load_apply M hM X _ _).trans (congrArg X (funext fun a => Fin.ext ?_))
  match a with
  | ⟨0, _⟩ => show i.val + 1 * 0 = i.val; omega
  | ⟨1, _⟩ => show 0 + 1 * d.val = d.val; omega

/-- Slab `i` of an [n, a, b] array, loaded as a [1, a, b] rectangle at offsets (i, 0, 0). -/
theorem load_row3 {n a b : ℕ} (M : Memref sig .tc .vmem ⟨3, ![n, a, b]⟩ .f32) (hM : M.IsWhole) (X : Vec Ideal ⟨3, ![n, a, b]⟩ .f32)
    (off : Fin 3 → ℕ) (inb : ∀ ax, off ax + (![1, a, b] : Fin 3 → ℕ) ax ≤ (⟨3, ![n, a, b]⟩ : Shape).size ax) (i : Fin n)
    (hoff : off = ![i.val, 0, 0]) (p : Fin a) (q : Fin b) :
    View.readAt (Elt Ideal) M.view (Rect.unit (s := ⟨3, ![n, a, b]⟩) off ![1, a, b] inb).toLoadRect (hM.unread X) (ix3 (0 : Fin 1) p q)
      = X (ix3 i p q) := by
  subst hoff
  refine (load_apply M hM X _ _).trans (congrArg X (funext fun ax => Fin.ext ?_))
  match ax with
  | ⟨0, _⟩ => show i.val + 1 * 0 = i.val; omega
  | ⟨1, _⟩ => show 0 + 1 * p.val = p.val; omega
  | ⟨2, _⟩ => show 0 + 1 * q.val = q.val; omega

/-- The whole of an [a, b] array loaded at zero offsets. -/
theorem load_all2 {a b : ℕ} (M : Memref sig .tc .vmem ⟨2, ![a, b]⟩ .f32) (hM : M.IsWhole) (X : Vec Ideal ⟨2, ![a, b]⟩ .f32)
    (inb : ∀ ax, (![0, 0] : Fin 2 → ℕ) ax + (![a, b] : Fin 2 → ℕ) ax ≤ (⟨2, ![a, b]⟩ : Shape).size ax) (p : Fin a) (q : Fin b) :
    View.readAt (Elt Ideal) M.view (Rect.unit (s := ⟨2, ![a, b]⟩) ![0, 0] ![a, b] inb).toLoadRect (hM.unread X) (ix2 p q)
      = X (ix2 p q) := by
  refine (load_apply M hM X _ _).trans (congrArg X (funext fun ax => Fin.ext ?_))
  match ax with
  | ⟨0, _⟩ => show 0 + 1 * p.val = p.val; omega
  | ⟨1, _⟩ => show 0 + 1 * q.val = q.val; omega

/-- A trip of the loop, from the parameter arrays and the selection tables held whole in their staging buffers, is one
    layer of the flow applied to every row of the carried block. -/
theorem trip_eq (c : Dev nD) (i : grid0.Coords) (arg1 : Memref sig .tc .vmem S8192x8 .f32) (harg1 : arg1.IsWhole) (arg2 : Memref sig .tc .vmem S6x8 .f32) (harg2 : arg2.IsWhole) (arg3 : Memref sig .tc .vmem S6x8 .f32) (harg3 : arg3.IsWhole) (arg4 : Memref sig .tc .vmem S6x4x128 .f32) (harg4 : arg4.IsWhole) (arg5 : Memref sig .tc .vmem S6x128 .f32) (harg5 : arg5.IsWhole) (arg6 : Memref sig .tc .vmem S6x128x128 .f32) (harg6 : arg6.IsWhole) (arg7 : Memref sig .tc .vmem S6x128 .f32) (harg7 : arg7.IsWhole) (arg8 : Memref sig .tc .vmem S6x128x8 .f32) (harg8 : arg8.IsWhole) (arg9 : Memref sig .tc .vmem S6x8 .f32) (harg9 : arg9.IsWhole) (arg10 : Memref sig .tc .vmem S6x4 .f32) (harg10 : arg10.IsWhole) (arg11 : Memref sig .tc .vmem S6x8x4 .f32) (harg11 : arg11.IsWhole) (arg12 : Memref sig .tc .vmem S6x8x4 .f32) (harg12 : arg12.IsWhole) (arg13 : Memref sig .tc .vmem S6x4x8 .f32) (harg13 : arg13.IsWhole) (arg14 : Memref sig .tc .vmem S6x4x8 .f32) (harg14 : arg14.IsWhole) (arg15 : Memref sig .tc .vmem S8x8 .f32) (harg15 : arg15.IsWhole) (arg16 : Memref sig .tc .vmem S8192x8 .f32) (harg16 : arg16.IsWhole) (arg17 : Memref sig .tc .vmem S8192x1 .f32) (harg17 : arg17.IsWhole)
    (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32)
    (k : Fin k0_t1_loop.trips) (acc : Vec Ideal S8192x8 .f32 × FVec Ideal S8192x1 .f32) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (View.readAt (Elt Ideal) arg15.view (Rect.unit (s := S8x8) ![0, 0] S8x8.size inb_S8x8_S8x8_0_0).toLoadRect (harg15.unread tab4))
      (harg2.unread x1) (harg3.unread x2) (harg4.unread x3) (harg5.unread x4) (harg6.unread x5) (harg7.unread x6) (harg8.unread x7) (harg9.unread x8) (harg10.unread x9)
      (harg11.unread tab0) (harg12.unread tab1) (harg13.unread tab2) (harg14.unread tab3) k acc
    = Cert.Flow.blockStep (Cert.Flow.Params.ofArrays x1 x2 x3 x4 x5 x6 x7 x8 x9) k.val (trip_lt k) acc := by
  unfold tripR_k0_t1 trip_k0_t1
  dsimp only
  sl_unfold_words
  refine Prod.ext (funext fun j => ?_) (funext fun j => ?_)
  · obtain ⟨r, d', rfl⟩ : ∃ (r : Fin 8192) (d' : Fin 8), j = ix2 r d' := ⟨j 0, j 1, eq_ix2 j⟩
    refine row_next (Params.ofArrays x1 x2 x3 x4 x5 x6 x7 x8 x9) ⟨k.val, trip_lt k⟩ acc.1 acc.2 _ _ _ _ _ _ _ _ _ _ _ _ _ _
      ?_ ?_ ?_ ?_ ?_ ?_ ?_ ?_ ?_ ?_ ?_ ?_ ?_ ?_ r d'
    · exact fun d => load_row2 arg2 harg2 x1 _ _ ⟨k.val, trip_lt k⟩ (k0_off1_eq k) d
    · exact fun d => load_row2 arg3 harg3 x2 _ _ ⟨k.val, trip_lt k⟩ (k0_off1_eq k) d
    · exact fun p q => load_row3 arg4 harg4 x3 _ _ ⟨k.val, trip_lt k⟩ (k0_off4_eq k) p q
    · exact fun d => load_row2 arg5 harg5 x4 _ _ ⟨k.val, trip_lt k⟩ (k0_off5_eq k) d
    · exact fun p q => load_row3 arg6 harg6 x5 _ _ ⟨k.val, trip_lt k⟩ (k0_off6_eq k) p q
    · exact fun d => load_row2 arg7 harg7 x6 _ _ ⟨k.val, trip_lt k⟩ (k0_off5_eq k) d
    · exact fun p q => load_row3 arg8 harg8 x7 _ _ ⟨k.val, trip_lt k⟩ (k0_off7_eq k) p q
    · exact fun d => load_row2 arg9 harg9 x8 _ _ ⟨k.val, trip_lt k⟩ (k0_off1_eq k) d
    · exact fun d => load_row2 arg10 harg10 x9 _ _ ⟨k.val, trip_lt k⟩ (k0_off8_eq k) d
    · exact fun d j => (load_row3 arg11 harg11 tab0 _ _ ⟨k.val, trip_lt k⟩ (k0_off2_eq k) d j).trans (tab0_apply _ d j)
    · exact fun d j => (load_row3 arg12 harg12 tab1 _ _ ⟨k.val, trip_lt k⟩ (k0_off2_eq k) d j).trans (tab1_apply _ d j)
    · exact fun j d => (load_row3 arg13 harg13 tab2 _ _ ⟨k.val, trip_lt k⟩ (k0_off3_eq k) j d).trans (tab2_apply _ j d)
    · exact fun j d => (load_row3 arg14 harg14 tab3 _ _ ⟨k.val, trip_lt k⟩ (k0_off3_eq k) j d).trans (tab3_apply _ j d)
    · exact fun d d' => (load_all2 arg15 harg15 tab4 _ d d').trans (tab4_apply d d')
  · obtain ⟨r, u, rfl⟩ : ∃ (r : Fin 8192) (u : Fin 1), j = ix2 r u := ⟨j 0, j 1, eq_ix2 j⟩
    obtain rfl : u = 0 := Subsingleton.elim _ _
    refine row_logdet (Params.ofArrays x1 x2 x3 x4 x5 x6 x7 x8 x9) ⟨k.val, trip_lt k⟩ acc.1 acc.2 _ _ _ _ _ _ _ _ _
      ?_ ?_ ?_ ?_ ?_ ?_ ?_ ?_ ?_ r
    · exact fun d => load_row2 arg2 harg2 x1 _ _ ⟨k.val, trip_lt k⟩ (k0_off1_eq k) d
    · exact fun d => load_row2 arg3 harg3 x2 _ _ ⟨k.val, trip_lt k⟩ (k0_off1_eq k) d
    · exact fun p q => load_row3 arg4 harg4 x3 _ _ ⟨k.val, trip_lt k⟩ (k0_off4_eq k) p q
    · exact fun d => load_row2 arg5 harg5 x4 _ _ ⟨k.val, trip_lt k⟩ (k0_off5_eq k) d
    · exact fun p q => load_row3 arg6 harg6 x5 _ _ ⟨k.val, trip_lt k⟩ (k0_off6_eq k) p q
    · exact fun d => load_row2 arg7 harg7 x6 _ _ ⟨k.val, trip_lt k⟩ (k0_off5_eq k) d
    · exact fun p q => load_row3 arg8 harg8 x7 _ _ ⟨k.val, trip_lt k⟩ (k0_off7_eq k) p q
    · exact fun d => load_row2 arg9 harg9 x8 _ _ ⟨k.val, trip_lt k⟩ (k0_off1_eq k) d
    · exact fun d j => (load_row3 arg11 harg11 tab0 _ _ ⟨k.val, trip_lt k⟩ (k0_off2_eq k) d j).trans (tab0_apply _ d j)

end Cert.KernelIdeal.FlowValue

end
-- ==== Proof.FlowIter.lean ====
/-
  Iterating one layer over a whole batch, or over a block of its rows, is the flow of each row: the layers act on
  every row independently, so the batch (or block) after `k` layers holds, in each row, that row after `k` layers.
-/
import proofs.«135321_j73263552135281_2_alg».proof.Proof.Flow

noncomputable section

namespace Cert.Flow

open Idealize.ShloMosaic Idealize.ShloMosaic.ValueIdx

variable (P : Params)

/-- The batch before layer `k`. -/
def batchUpTo {B : ℕ} (acc : ((⟨2, ![B, 8]⟩ : Shape).Idx → EReal) × ((⟨1, ![B]⟩ : Shape).Idx → EReal)) :
    ℕ → ((⟨2, ![B, 8]⟩ : Shape).Idx → EReal) × ((⟨1, ![B]⟩ : Shape).Idx → EReal)
  | 0 => acc
  | k + 1 => if h : k < 6 then batchStep P ⟨k, h⟩ (batchUpTo acc k) else batchUpTo acc k

/-- The block before layer `k`. -/
def blockUpTo {R : ℕ} (acc : ((⟨2, ![R, 8]⟩ : Shape).Idx → EReal) × ((⟨2, ![R, 1]⟩ : Shape).Idx → EReal)) :
    ℕ → ((⟨2, ![R, 8]⟩ : Shape).Idx → EReal) × ((⟨2, ![R, 1]⟩ : Shape).Idx → EReal)
  | 0 => acc
  | k + 1 => if h : k < 6 then blockStep P k h (blockUpTo acc k) else blockUpTo acc k

theorem batchUpTo_succ {B : ℕ} (acc : ((⟨2, ![B, 8]⟩ : Shape).Idx → EReal) × ((⟨1, ![B]⟩ : Shape).Idx → EReal))
    (k : ℕ) (h : k < 6) : batchUpTo P acc (k + 1) = batchStep P ⟨k, h⟩ (batchUpTo P acc k) := by
  rw [batchUpTo]; exact dif_pos h

theorem blockUpTo_succ {R : ℕ} (acc : ((⟨2, ![R, 8]⟩ : Shape).Idx → EReal) × ((⟨2, ![R, 1]⟩ : Shape).Idx → EReal))
    (k : ℕ) (h : k < 6) : blockUpTo P acc (k + 1) = blockStep P k h (blockUpTo P acc k) := by
  rw [blockUpTo]; exact dif_pos h

/-- Row `r` of the batch before layer `k` is row `r` of the start before layer `k`. -/
theorem batchUpTo_row {B : ℕ} (acc : ((⟨2, ![B, 8]⟩ : Shape).Idx → EReal) × ((⟨1, ![B]⟩ : Shape).Idx → EReal))
    (k : ℕ) (r : Fin B) :
    ((fun d : Fin 8 => (batchUpTo P acc k).1 (ix2 r d)), (batchUpTo P acc k).2 (ix1 r))
      = upTo P ((fun d : Fin 8 => acc.1 (ix2 r d)), acc.2 (ix1 r)) k := by
  induction k with
  | zero => rfl
  | succ k ih =>
    by_cases h : k < 6
    · rw [batchUpTo_succ P acc k h]
      have e : upTo P ((fun d : Fin 8 => acc.1 (ix2 r d)), acc.2 (ix1 r)) (k + 1)
          = step P ⟨k, h⟩ (upTo P ((fun d : Fin 8 => acc.1 (ix2 r d)), acc.2 (ix1 r)) k) := by
        rw [upTo]; exact dif_pos h
      rw [e, ← ih]
      rfl
    · have e1 : batchUpTo P acc (k + 1) = batchUpTo P acc k := by rw [batchUpTo]; exact dif_neg h
      have e2 : upTo P ((fun d : Fin 8 => acc.1 (ix2 r d)), acc.2 (ix1 r)) (k + 1)
          = upTo P ((fun d : Fin 8 => acc.1 (ix2 r d)), acc.2 (ix1 r)) k := by rw [upTo]; exact dif_neg h
      rw [e1, e2]; exact ih

/-- Row `r` of the block before layer `k` is row `r` of the start before layer `k`. -/
theorem blockUpTo_row {R : ℕ} (acc : ((⟨2, ![R, 8]⟩ : Shape).Idx → EReal) × ((⟨2, ![R, 1]⟩ : Shape).Idx → EReal))
    (k : ℕ) (r : Fin R) :
    ((fun d : Fin 8 => (blockUpTo P acc k).1 (ix2 r d)), (blockUpTo P acc k).2 (ix2 r (0 : Fin 1)))
      = upTo P ((fun d : Fin 8 => acc.1 (ix2 r d)), acc.2 (ix2 r (0 : Fin 1))) k := by
  induction k with
  | zero => rfl
  | succ k ih =>
    by_cases h : k < 6
    · rw [blockUpTo_succ P acc k h]
      have e : upTo P ((fun d : Fin 8 => acc.1 (ix2 r d)), acc.2 (ix2 r (0 : Fin 1))) (k + 1)
          = step P ⟨k, h⟩ (upTo P ((fun d : Fin 8 => acc.1 (ix2 r d)), acc.2 (ix2 r (0 : Fin 1))) k) := by
        rw [upTo]; exact dif_pos h
      rw [e, ← ih]
      rfl
    · have e1 : blockUpTo P acc (k + 1) = blockUpTo P acc k := by rw [blockUpTo]; exact dif_neg h
      have e2 : upTo P ((fun d : Fin 8 => acc.1 (ix2 r d)), acc.2 (ix2 r (0 : Fin 1))) (k + 1)
          = upTo P ((fun d : Fin 8 => acc.1 (ix2 r d)), acc.2 (ix2 r (0 : Fin 1))) k := by rw [upTo]; exact dif_neg h
      rw [e1, e2]; exact ih

/-- Six layers over the whole batch from a zero log-determinant: the batch of flows. -/
theorem batch_six {B : ℕ} (x : (⟨2, ![B, 8]⟩ : Shape).Idx → EReal) :
    batchUpTo P (x, fun _ => c0) 6 = (zOut P x, ldOut P x) := by
  refine Prod.ext (funext fun j => ?_) (funext fun j => ?_)
  · obtain ⟨r, d, rfl⟩ : ∃ (r : Fin B) (d : Fin 8), j = ix2 r d := ⟨j 0, j 1, eq_ix2 j⟩
    exact congrFun (congrArg Prod.fst (batchUpTo_row P (x, fun _ => c0) 6 r)) d
  · obtain ⟨r, rfl⟩ : ∃ r : Fin B, j = ix1 r := ⟨j 0, eq_ix1 j⟩
    exact congrArg Prod.snd (batchUpTo_row P (x, fun _ => c0) 6 r)

/-- Six layers over a block of rows of a batch (row `r` of the block is row `ρ r` of the batch) from a zero
    column of log-determinants: those rows of the batch of flows. -/
theorem block_six {R B : ℕ} (x : (⟨2, ![B, 8]⟩ : Shape).Idx → EReal) (ρ : Fin R → Fin B)
    (xb : (⟨2, ![R, 8]⟩ : Shape).Idx → EReal) (hxb : ∀ (r : Fin R) (d : Fin 8), xb (ix2 r d) = x (ix2 (ρ r) d)) :
    (∀ (r : Fin R) (d : Fin 8), (blockUpTo P (xb, fun _ => c0) 6).1 (ix2 r d) = zOut P x (ix2 (ρ r) d))
    ∧ (∀ r : Fin R, (blockUpTo P (xb, fun _ => c0) 6).2 (ix2 r (0 : Fin 1)) = ldOut P x (ix1 (ρ r))) := by
  have hrow : ∀ r : Fin R, ((fun d : Fin 8 => xb (ix2 r d)), c0) = ((fun d : Fin 8 => x (ix2 (ρ r) d)), c0) := fun r => by
    rw [funext (hxb r)]
  refine ⟨fun r d => ?_, fun r => ?_⟩
  · have := congrFun (congrArg Prod.fst (blockUpTo_row P (xb, fun _ => c0) 6 r)) d
    refine this.trans ?_
    show (upTo P ((fun d : Fin 8 => xb (ix2 r d)), c0) 6).1 d = _
    rw [hrow r]; rfl
  · have := congrArg Prod.snd (blockUpTo_row P (xb, fun _ => c0) 6 r)
    refine this.trans ?_
    show (upTo P ((fun d : Fin 8 => xb (ix2 r d)), c0) 6).2 = _
    rw [hrow r]; rfl

end Cert.Flow

end
-- ==== Proof.KernelOut.lean ====
/-
  What one run of the kernel's body leaves in its two output buffers: the loop over the layers carries a block of
  rows and a column of log-determinants; each trip is one layer of the flow on every row, so after the six trips
  the buffers hold the block after six layers, started from the input block and a zero column.
-/
import proofs.«135321_j73263552135281_2_alg».proof.Proof.KernelTrip
import proofs.«135321_j73263552135281_2_alg».proof.Proof.FlowIter
import Idealize.ShloMosaic.Lib.Pipeline.Value

set_option maxRecDepth 16384

noncomputable section

namespace Cert.KernelIdeal.FlowValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

theorem hz2 : (![0, 0] : Fin 2 → Nat) = fun _ => 0 := funext fun a => by fin_cases a <;> rfl

theorem trips_eq : k0_t1_loop.trips = 6 := by decide

/-- The parameters of the flow from the nine parameter blocks. -/
abbrev PP (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32) : Cert.Flow.Params := Cert.Flow.Params.ofArrays x1 x2 x3 x4 x5 x6 x7 x8 x9

/-- The carried value before trip `n` is the block before layer `n`. -/
theorem st_eq (c : Dev nD) (i : grid0.Coords) (arg1 : Memref sig .tc .vmem S8192x8 .f32) (harg1 : arg1.IsWhole) (arg2 : Memref sig .tc .vmem S6x8 .f32) (harg2 : arg2.IsWhole) (arg3 : Memref sig .tc .vmem S6x8 .f32) (harg3 : arg3.IsWhole) (arg4 : Memref sig .tc .vmem S6x4x128 .f32) (harg4 : arg4.IsWhole) (arg5 : Memref sig .tc .vmem S6x128 .f32) (harg5 : arg5.IsWhole) (arg6 : Memref sig .tc .vmem S6x128x128 .f32) (harg6 : arg6.IsWhole) (arg7 : Memref sig .tc .vmem S6x128 .f32) (harg7 : arg7.IsWhole) (arg8 : Memref sig .tc .vmem S6x128x8 .f32) (harg8 : arg8.IsWhole) (arg9 : Memref sig .tc .vmem S6x8 .f32) (harg9 : arg9.IsWhole) (arg10 : Memref sig .tc .vmem S6x4 .f32) (harg10 : arg10.IsWhole) (arg11 : Memref sig .tc .vmem S6x8x4 .f32) (harg11 : arg11.IsWhole) (arg12 : Memref sig .tc .vmem S6x8x4 .f32) (harg12 : arg12.IsWhole) (arg13 : Memref sig .tc .vmem S6x4x8 .f32) (harg13 : arg13.IsWhole) (arg14 : Memref sig .tc .vmem S6x4x8 .f32) (harg14 : arg14.IsWhole) (arg15 : Memref sig .tc .vmem S8x8 .f32) (harg15 : arg15.IsWhole) (arg16 : Memref sig .tc .vmem S8192x8 .f32) (harg16 : arg16.IsWhole) (arg17 : Memref sig .tc .vmem S8192x1 .f32) (harg17 : arg17.IsWhole)
    (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32) (init : Vec Ideal S8192x8 .f32 × FVec Ideal S8192x1 .f32) :
    ∀ n : ℕ, n ≤ k0_t1_loop.trips →
    st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (View.readAt (Elt Ideal) arg15.view (Rect.unit (s := S8x8) ![0, 0] S8x8.size inb_S8x8_S8x8_0_0).toLoadRect (harg15.unread tab4))
      (harg2.unread x1) (harg3.unread x2) (harg4.unread x3) (harg5.unread x4) (harg6.unread x5) (harg7.unread x6) (harg8.unread x7) (harg9.unread x8) (harg10.unread x9) (harg11.unread tab0) (harg12.unread tab1) (harg13.unread tab2) (harg14.unread tab3) init n
    = Cert.Flow.blockUpTo (PP x1 x2 x3 x4 x5 x6 x7 x8 x9) init n
  | 0, _ => rfl
  | n + 1, hn => by
    have hlt : n < k0_t1_loop.trips := hn
    have h6 : n < 6 := trip_lt ⟨n, hlt⟩
    rw [Cert.Flow.blockUpTo_succ _ _ n h6, ← st_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 init n (Nat.le_of_lt hlt)]
    refine (st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (View.readAt (Elt Ideal) arg15.view (Rect.unit (s := S8x8) ![0, 0] S8x8.size inb_S8x8_S8x8_0_0).toLoadRect (harg15.unread tab4)) (harg2.unread x1) (harg3.unread x2) (harg4.unread x3) (harg5.unread x4) (harg6.unread x5) (harg7.unread x6) (harg8.unread x7) (harg9.unread x8) (harg10.unread x9) (harg11.unread tab0) (harg12.unread tab1) (harg13.unread tab2) (harg14.unread tab3) init ⟨n, hlt⟩).trans ?_
    exact trip_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 ⟨n, hlt⟩ _

/-- The initial log-determinant column of the loop is zero. -/
theorem pay1_eq : (k0_pay1 (F := Ideal) : FVec Ideal S8192x1 .f32) = fun _ => Cert.Flow.c0 := rfl

/-- The loop's carried value after its six trips, from the block `x0` and the zero column. -/
theorem loop_eq (c : Dev nD) (i : grid0.Coords) (arg1 : Memref sig .tc .vmem S8192x8 .f32) (harg1 : arg1.IsWhole) (arg2 : Memref sig .tc .vmem S6x8 .f32) (harg2 : arg2.IsWhole) (arg3 : Memref sig .tc .vmem S6x8 .f32) (harg3 : arg3.IsWhole) (arg4 : Memref sig .tc .vmem S6x4x128 .f32) (harg4 : arg4.IsWhole) (arg5 : Memref sig .tc .vmem S6x128 .f32) (harg5 : arg5.IsWhole) (arg6 : Memref sig .tc .vmem S6x128x128 .f32) (harg6 : arg6.IsWhole) (arg7 : Memref sig .tc .vmem S6x128 .f32) (harg7 : arg7.IsWhole) (arg8 : Memref sig .tc .vmem S6x128x8 .f32) (harg8 : arg8.IsWhole) (arg9 : Memref sig .tc .vmem S6x8 .f32) (harg9 : arg9.IsWhole) (arg10 : Memref sig .tc .vmem S6x4 .f32) (harg10 : arg10.IsWhole) (arg11 : Memref sig .tc .vmem S6x8x4 .f32) (harg11 : arg11.IsWhole) (arg12 : Memref sig .tc .vmem S6x8x4 .f32) (harg12 : arg12.IsWhole) (arg13 : Memref sig .tc .vmem S6x4x8 .f32) (harg13 : arg13.IsWhole) (arg14 : Memref sig .tc .vmem S6x4x8 .f32) (harg14 : arg14.IsWhole) (arg15 : Memref sig .tc .vmem S8x8 .f32) (harg15 : arg15.IsWhole) (arg16 : Memref sig .tc .vmem S8192x8 .f32) (harg16 : arg16.IsWhole) (arg17 : Memref sig .tc .vmem S8192x1 .f32) (harg17 : arg17.IsWhole)
    (x0 : Vec Ideal S8192x8 .f32) (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32) :
    st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (View.readAt (Elt Ideal) arg15.view (Rect.unit (s := S8x8) ![0, 0] S8x8.size inb_S8x8_S8x8_0_0).toLoadRect (harg15.unread tab4))
      (harg2.unread x1) (harg3.unread x2) (harg4.unread x3) (harg5.unread x4) (harg6.unread x5) (harg7.unread x6) (harg8.unread x7) (harg9.unread x8) (harg10.unread x9) (harg11.unread tab0) (harg12.unread tab1) (harg13.unread tab2) (harg14.unread tab3) (View.readAt (Elt Ideal) arg1.view (Rect.unit (s := S8192x8) ![0, 0] S8192x8.size inb_S8192x8_S8192x8_0_0).toLoadRect (harg1.unread x0), k0_pay1 (F := Ideal)) (Scf.trips (0#32) (Scalar.addi 0#32 6#32) 1#32)
      = Cert.Flow.blockUpTo (PP x1 x2 x3 x4 x5 x6 x7 x8 x9) (x0, fun _ => Cert.Flow.c0) 6 := by
  have hinit : View.readAt (Elt Ideal) arg1.view (Rect.unit (s := S8192x8) ![0, 0] S8192x8.size inb_S8192x8_S8192x8_0_0).toLoadRect (harg1.unread x0) = x0 := by
    rw [View.readAt_eq_ld, harg1.read_unread, View.ld_unit_zero hz2]
  rw [hinit, pay1_eq, show Scf.trips (0#32) (Scalar.addi 0#32 6#32) 1#32 = 6 from trips_eq]
  exact st_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 (x0, fun _ => Cert.Flow.c0) 6 (by rw [trips_eq])

/-- What the body leaves in the first output's staging buffer: the block of rows after the six layers. -/
theorem out15_eq (c : Dev nD) (i : grid0.Coords) (arg1 : Memref sig .tc .vmem S8192x8 .f32) (harg1 : arg1.IsWhole) (arg2 : Memref sig .tc .vmem S6x8 .f32) (harg2 : arg2.IsWhole) (arg3 : Memref sig .tc .vmem S6x8 .f32) (harg3 : arg3.IsWhole) (arg4 : Memref sig .tc .vmem S6x4x128 .f32) (harg4 : arg4.IsWhole) (arg5 : Memref sig .tc .vmem S6x128 .f32) (harg5 : arg5.IsWhole) (arg6 : Memref sig .tc .vmem S6x128x128 .f32) (harg6 : arg6.IsWhole) (arg7 : Memref sig .tc .vmem S6x128 .f32) (harg7 : arg7.IsWhole) (arg8 : Memref sig .tc .vmem S6x128x8 .f32) (harg8 : arg8.IsWhole) (arg9 : Memref sig .tc .vmem S6x8 .f32) (harg9 : arg9.IsWhole) (arg10 : Memref sig .tc .vmem S6x4 .f32) (harg10 : arg10.IsWhole) (arg11 : Memref sig .tc .vmem S6x8x4 .f32) (harg11 : arg11.IsWhole) (arg12 : Memref sig .tc .vmem S6x8x4 .f32) (harg12 : arg12.IsWhole) (arg13 : Memref sig .tc .vmem S6x4x8 .f32) (harg13 : arg13.IsWhole) (arg14 : Memref sig .tc .vmem S6x4x8 .f32) (harg14 : arg14.IsWhole) (arg15 : Memref sig .tc .vmem S8x8 .f32) (harg15 : arg15.IsWhole) (arg16 : Memref sig .tc .vmem S8192x8 .f32) (harg16 : arg16.IsWhole) (arg17 : Memref sig .tc .vmem S8192x1 .f32) (harg17 : arg17.IsWhole)
    (x0 : Vec Ideal S8192x8 .f32) (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 tab0 tab1 tab2 tab3 tab4
      = (Cert.Flow.blockUpTo (PP x1 x2 x3 x4 x5 x6 x7 x8 x9) (x0, fun _ => Cert.Flow.c0) 6).1 := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 tab0 tab1 tab2 tab3 tab4)]
  unfold kernelRun0_A
  dsimp only
  rw [View.canon_unit_zero hz2]
  exact congrArg Prod.fst (loop_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9)

/-- What the body leaves in the second output's staging buffer: the column of log-determinants after the six layers. -/
theorem out16_eq (c : Dev nD) (i : grid0.Coords) (arg1 : Memref sig .tc .vmem S8192x8 .f32) (harg1 : arg1.IsWhole) (arg2 : Memref sig .tc .vmem S6x8 .f32) (harg2 : arg2.IsWhole) (arg3 : Memref sig .tc .vmem S6x8 .f32) (harg3 : arg3.IsWhole) (arg4 : Memref sig .tc .vmem S6x4x128 .f32) (harg4 : arg4.IsWhole) (arg5 : Memref sig .tc .vmem S6x128 .f32) (harg5 : arg5.IsWhole) (arg6 : Memref sig .tc .vmem S6x128x128 .f32) (harg6 : arg6.IsWhole) (arg7 : Memref sig .tc .vmem S6x128 .f32) (harg7 : arg7.IsWhole) (arg8 : Memref sig .tc .vmem S6x128x8 .f32) (harg8 : arg8.IsWhole) (arg9 : Memref sig .tc .vmem S6x8 .f32) (harg9 : arg9.IsWhole) (arg10 : Memref sig .tc .vmem S6x4 .f32) (harg10 : arg10.IsWhole) (arg11 : Memref sig .tc .vmem S6x8x4 .f32) (harg11 : arg11.IsWhole) (arg12 : Memref sig .tc .vmem S6x8x4 .f32) (harg12 : arg12.IsWhole) (arg13 : Memref sig .tc .vmem S6x4x8 .f32) (harg13 : arg13.IsWhole) (arg14 : Memref sig .tc .vmem S6x4x8 .f32) (harg14 : arg14.IsWhole) (arg15 : Memref sig .tc .vmem S8x8 .f32) (harg15 : arg15.IsWhole) (arg16 : Memref sig .tc .vmem S8192x8 .f32) (harg16 : arg16.IsWhole) (arg17 : Memref sig .tc .vmem S8192x1 .f32) (harg17 : arg17.IsWhole)
    (x0 : Vec Ideal S8192x8 .f32) (x1 x2 : Vec Ideal S6x8 .f32) (x3 : Vec Ideal S6x4x128 .f32) (x4 : Vec Ideal S6x128 .f32) (x5 : Vec Ideal S6x128x128 .f32) (x6 : Vec Ideal S6x128 .f32) (x7 : Vec Ideal S6x128x8 .f32) (x8 : Vec Ideal S6x8 .f32) (x9 : Vec Ideal S6x4 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 tab0 tab1 tab2 tab3 tab4
      = (Cert.Flow.blockUpTo (PP x1 x2 x3 x4 x5 x6 x7 x8 x9) (x0, fun _ => Cert.Flow.c0) 6).2 := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 tab0 tab1 tab2 tab3 tab4)]
  unfold kernelRun0_A
  dsimp only
  rw [View.canon_unit_zero hz2]
  exact congrArg Prod.snd (loop_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9)

end Cert.KernelIdeal.FlowValue

end
-- ==== Proof.KernelBlocks.lean ====
/-
  The blocks the kernel's body is handed at a grid point, read off the arrays as the region finds them: the nine
  parameter arrays and the five selection tables are single-block windows (the block is the whole array at every
  point; the tables are the host constants written before the region), and the input's block at point `t` is the
  rows `8192 t, …, 8192 t + 8191` of the input.
-/
import proofs.«135321_j73263552135281_2_alg».proof.Proof.KernelOut

set_option maxRecDepth 16384

noncomputable section

namespace Cert.KernelIdeal.FlowValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

open Idealize.ShloMosaic.ValueIdx

variable (m : (ℓ : Loc nD τ sig) → Buf (Elt Ideal) ℓ)

/-! ## The selection tables as the region finds them: the host constants written before the region -/

theorem V_main_cst (c : Dev nD) : (V m c main_cst : Vec Ideal S6x8x4 .f32) = tab0 := by
  show StableHlo.after hostOps0 (fun b => m (c, b)) (Proc.devRef .tc main_cst) = _
  after_results
  rfl

theorem V_main_cst_0 (c : Dev nD) : (V m c main_cst_0 : Vec Ideal S6x8x4 .f32) = tab1 := by
  show StableHlo.after hostOps0 (fun b => m (c, b)) (Proc.devRef .tc main_cst_0) = _
  after_results
  rfl

theorem V_main_cst_1 (c : Dev nD) : (V m c main_cst_1 : Vec Ideal S6x4x8 .f32) = tab2 := by
  show StableHlo.after hostOps0 (fun b => m (c, b)) (Proc.devRef .tc main_cst_1) = _
  after_results
  rfl

theorem V_main_cst_2 (c : Dev nD) : (V m c main_cst_2 : Vec Ideal S6x4x8 .f32) = tab3 := by
  show StableHlo.after hostOps0 (fun b => m (c, b)) (Proc.devRef .tc main_cst_2) = _
  after_results
  rfl

theorem V_main_cst_3 (c : Dev nD) : (V m c main_cst_3 : Vec Ideal S8x8 .f32) = tab4 := by
  show StableHlo.after hostOps0 (fun b => m (c, b)) (Proc.devRef .tc main_cst_3) = _
  after_results
  rfl

/-! ## The single-block windows: the block at every point is the whole array -/

theorem idx1 : ∀ t : Fin cfg0.N, win0_1.index t (0 : Fin 2) = 0 ∧ win0_1.index t (1 : Fin 2) = 0 :=
  (by decide +kernel : ∀ t : Fin grid0.N, _)

theorem iblk1_eq (c : Dev nD) (t : Fin cfg0.N) :
    (iblk m c 1 t : Vec Ideal S6x8 .f32) = m ((c : Thread nD τ).loc main_arg1) := by
  obtain ⟨e0, e1⟩ := idx1 t
  funext j
  unfold iblk
  rw [View.read_apply]
  show (V m c main_arg1 : Vec Ideal S6x8 .f32) _ = _
  rw [V_main_arg1]
  congr 1
  funext a
  apply Fin.ext
  match a with
  | ⟨0, _⟩ => show win0_1.index t (0 : Fin 2) * 6 + 1 * (j 0).val = (j 0).val; omega
  | ⟨1, _⟩ => show win0_1.index t (1 : Fin 2) * 8 + 1 * (j 1).val = (j 1).val; omega

theorem idx2 : ∀ t : Fin cfg0.N, win0_2.index t (0 : Fin 2) = 0 ∧ win0_2.index t (1 : Fin 2) = 0 :=
  (by decide +kernel : ∀ t : Fin grid0.N, _)

theorem iblk2_eq (c : Dev nD) (t : Fin cfg0.N) :
    (iblk m c 2 t : Vec Ideal S6x8 .f32) = m ((c : Thread nD τ).loc main_arg2) := by
  obtain ⟨e0, e1⟩ := idx2 t
  funext j
  unfold iblk
  rw [View.read_apply]
  show (V m c main_arg2 : Vec Ideal S6x8 .f32) _ = _
  rw [V_main_arg2]
  congr 1
  funext a
  apply Fin.ext
  match a with
  | ⟨0, _⟩ => show win0_2.index t (0 : Fin 2) * 6 + 1 * (j 0).val = (j 0).val; omega
  | ⟨1, _⟩ => show win0_2.index t (1 : Fin 2) * 8 + 1 * (j 1).val = (j 1).val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem iblk3_eq (c : Dev nD) (t : Fin cfg0.N) :
    (iblk m c 3 t : Vec Ideal S6x4x128 .f32) = m ((c : Thread nD τ).loc main_arg3) := by
  obtain ⟨e0, e1, e2⟩ := idx3 t
  funext j
  unfold iblk
  rw [View.read_apply]
  show (V m c main_arg3 : Vec Ideal S6x4x128 .f32) _ = _
  rw [V_main_arg3]
  congr 1
  funext a
  apply Fin.ext
  match a with
  | ⟨0, _⟩ => show win0_3.index t (0 : Fin 3) * 6 + 1 * (j 0).val = (j 0).val; omega
  | ⟨1, _⟩ => show win0_3.index t (1 : Fin 3) * 4 + 1 * (j 1).val = (j 1).val; omega
  | ⟨2, _⟩ => show win0_3.index t (2 : Fin 3) * 128 + 1 * (j 2).val = (j 2).val; omega

theorem idx4 : ∀ t : Fin cfg0.N, win0_4.index t (0 : Fin 2) = 0 ∧ win0_4.index t (1 : Fin 2) = 0 :=
  (by decide +kernel : ∀ t : Fin grid0.N, _)

theorem iblk4_eq (c : Dev nD) (t : Fin cfg0.N) :
    (iblk m c 4 t : Vec Ideal S6x128 .f32) = m ((c : Thread nD τ).loc main_arg4) := by
  obtain ⟨e0, e1⟩ := idx4 t
  funext j
  unfold iblk
  rw [View.read_apply]
  show (V m c main_arg4 : Vec Ideal S6x128 .f32) _ = _
  rw [V_main_arg4]
  congr 1
  funext a
  apply Fin.ext
  match a with
  | ⟨0, _⟩ => show win0_4.index t (0 : Fin 2) * 6 + 1 * (j 0).val = (j 0).val; omega
  | ⟨1, _⟩ => show win0_4.index t (1 : Fin 2) * 128 + 1 * (j 1).val = (j 1).val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem iblk5_eq (c : Dev nD) (t : Fin cfg0.N) :
    (iblk m c 5 t : Vec Ideal S6x128x128 .f32) = m ((c : Thread nD τ).loc main_arg5) := by
  obtain ⟨e0, e1, e2⟩ := idx5 t
  funext j
  unfold iblk
  rw [View.read_apply]
  show (V m c main_arg5 : Vec Ideal S6x128x128 .f32) _ = _
  rw [V_main_arg5]
  congr 1
  funext a
  apply Fin.ext
  match a with
  | ⟨0, _⟩ => show win0_5.index t (0 : Fin 3) * 6 + 1 * (j 0).val = (j 0).val; omega
  | ⟨1, _⟩ => show win0_5.index t (1 : Fin 3) * 128 + 1 * (j 1).val = (j 1).val; omega
  | ⟨2, _⟩ => show win0_5.index t (2 : Fin 3) * 128 + 1 * (j 2).val = (j 2).val; omega

theorem idx6 : ∀ t : Fin cfg0.N, win0_6.index t (0 : Fin 2) = 0 ∧ win0_6.index t (1 : Fin 2) = 0 :=
  (by decide +kernel : ∀ t : Fin grid0.N, _)

theorem iblk6_eq (c : Dev nD) (t : Fin cfg0.N) :
    (iblk m c 6 t : Vec Ideal S6x128 .f32) = m ((c : Thread nD τ).loc main_arg6) := by
  obtain ⟨e0, e1⟩ := idx6 t
  funext j
  unfold iblk
  rw [View.read_apply]
  show (V m c main_arg6 : Vec Ideal S6x128 .f32) _ = _
  rw [V_main_arg6]
  congr 1
  funext a
  apply Fin.ext
  match a with
  | ⟨0, _⟩ => show win0_6.index t (0 : Fin 2) * 6 + 1 * (j 0).val = (j 0).val; omega
  | ⟨1, _⟩ => show win0_6.index t (1 : Fin 2) * 128 + 1 * (j 1).val = (j 1).val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem iblk7_eq (c : Dev nD) (t : Fin cfg0.N) :
    (iblk m c 7 t : Vec Ideal S6x128x8 .f32) = m ((c : Thread nD τ).loc main_arg7) := by
  obtain ⟨e0, e1, e2⟩ := idx7 t
  funext j
  unfold iblk
  rw [View.read_apply]
  show (V m c main_arg7 : Vec Ideal S6x128x8 .f32) _ = _
  rw [V_main_arg7]
  congr 1
  funext a
  apply Fin.ext
  match a with
  | ⟨0, _⟩ => show win0_7.index t (0 : Fin 3) * 6 + 1 * (j 0).val = (j 0).val; omega
  | ⟨1, _⟩ => show win0_7.index t (1 : Fin 3) * 128 + 1 * (j 1).val = (j 1).val; omega
  | ⟨2, _⟩ => show win0_7.index t (2 : Fin 3) * 8 + 1 * (j 2).val = (j 2).val; omega

theorem idx8 : ∀ t : Fin cfg0.N, win0_8.index t (0 : Fin 2) = 0 ∧ win0_8.index t (1 : Fin 2) = 0 :=
  (by decide +kernel : ∀ t : Fin grid0.N, _)

theorem iblk8_eq (c : Dev nD) (t : Fin cfg0.N) :
    (iblk m c 8 t : Vec Ideal S6x8 .f32) = m ((c : Thread nD τ).loc main_arg8) := by
  obtain ⟨e0, e1⟩ := idx8 t
  funext j
  unfold iblk
  rw [View.read_apply]
  show (V m c main_arg8 : Vec Ideal S6x8 .f32) _ = _
  rw [V_main_arg8]
  congr 1
  funext a
  apply Fin.ext
  match a with
  | ⟨0, _⟩ => show win0_8.index t (0 : Fin 2) * 6 + 1 * (j 0).val = (j 0).val; omega
  | ⟨1, _⟩ => show win0_8.index t (1 : Fin 2) * 8 + 1 * (j 1).val = (j 1).val; omega

theorem idx9 : ∀ t : Fin cfg0.N, win0_9.index t (0 : Fin 2) = 0 ∧ win0_9.index t (1 : Fin 2) = 0 :=
  (by decide +kernel : ∀ t : Fin grid0.N, _)

theorem iblk9_eq (c : Dev nD) (t : Fin cfg0.N) :
    (iblk m c 9 t : Vec Ideal S6x4 .f32) = m ((c : Thread nD τ).loc main_arg9) := by
  obtain ⟨e0, e1⟩ := idx9 t
  funext j
  unfold iblk
  rw [View.read_apply]
  show (V m c main_arg9 : Vec Ideal S6x4 .f32) _ = _
  rw [V_main_arg9]
  congr 1
  funext a
  apply Fin.ext
  match a with
  | ⟨0, _⟩ => show win0_9.index t (0 : Fin 2) * 6 + 1 * (j 0).val = (j 0).val; omega
  | ⟨1, _⟩ => show win0_9.index t (1 : Fin 2) * 4 + 1 * (j 1).val = (j 1).val; omega

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem iblk10_eq (c : Dev nD) (t : Fin cfg0.N) :
    (iblk m c 10 t : Vec Ideal S6x8x4 .f32) = tab0 := by
  obtain ⟨e0, e1, e2⟩ := idx10 t
  funext j
  unfold iblk
  rw [View.read_apply]
  show (V m c main_cst : Vec Ideal S6x8x4 .f32) _ = _
  rw [V_main_cst m c]
  congr 1
  funext a
  apply Fin.ext
  match a with
  | ⟨0, _⟩ => show win0_10.index t (0 : Fin 3) * 6 + 1 * (j 0).val = (j 0).val; omega
  | ⟨1, _⟩ => show win0_10.index t (1 : Fin 3) * 8 + 1 * (j 1).val = (j 1).val; omega
  | ⟨2, _⟩ => show win0_10.index t (2 : Fin 3) * 4 + 1 * (j 2).val = (j 2).val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem iblk11_eq (c : Dev nD) (t : Fin cfg0.N) :
    (iblk m c 11 t : Vec Ideal S6x8x4 .f32) = tab1 := by
  obtain ⟨e0, e1, e2⟩ := idx11 t
  funext j
  unfold iblk
  rw [View.read_apply]
  show (V m c main_cst_0 : Vec Ideal S6x8x4 .f32) _ = _
  rw [V_main_cst_0 m c]
  congr 1
  funext a
  apply Fin.ext
  match a with
  | ⟨0, _⟩ => show win0_11.index t (0 : Fin 3) * 6 + 1 * (j 0).val = (j 0).val; omega
  | ⟨1, _⟩ => show win0_11.index t (1 : Fin 3) * 8 + 1 * (j 1).val = (j 1).val; omega
  | ⟨2, _⟩ => show win0_11.index t (2 : Fin 3) * 4 + 1 * (j 2).val = (j 2).val; omega

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem iblk12_eq (c : Dev nD) (t : Fin cfg0.N) :
    (iblk m c 12 t : Vec Ideal S6x4x8 .f32) = tab2 := by
  obtain ⟨e0, e1, e2⟩ := idx12 t
  funext j
  unfold iblk
  rw [View.read_apply]
  show (V m c main_cst_1 : Vec Ideal S6x4x8 .f32) _ = _
  rw [V_main_cst_1 m c]
  congr 1
  funext a
  apply Fin.ext
  match a with
  | ⟨0, _⟩ => show win0_12.index t (0 : Fin 3) * 6 + 1 * (j 0).val = (j 0).val; omega
  | ⟨1, _⟩ => show win0_12.index t (1 : Fin 3) * 4 + 1 * (j 1).val = (j 1).val; omega
  | ⟨2, _⟩ => show win0_12.index t (2 : Fin 3) * 8 + 1 * (j 2).val = (j 2).val; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem iblk13_eq (c : Dev nD) (t : Fin cfg0.N) :
    (iblk m c 13 t : Vec Ideal S6x4x8 .f32) = tab3 := by
  obtain ⟨e0, e1, e2⟩ := idx13 t
  funext j
  unfold iblk
  rw [View.read_apply]
  show (V m c main_cst_2 : Vec Ideal S6x4x8 .f32) _ = _
  rw [V_main_cst_2 m c]
  congr 1
  funext a
  apply Fin.ext
  match a with
  | ⟨0, _⟩ => show win0_13.index t (0 : Fin 3) * 6 + 1 * (j 0).val = (j 0).val; omega
  | ⟨1, _⟩ => show win0_13.index t (1 : Fin 3) * 4 + 1 * (j 1).val = (j 1).val; omega
  | ⟨2, _⟩ => show win0_13.index t (2 : Fin 3) * 8 + 1 * (j 2).val = (j 2).val; omega

theorem idx14 : ∀ t : Fin cfg0.N, win0_14.index t (0 : Fin 2) = 0 ∧ win0_14.index t (1 : Fin 2) = 0 :=
  (by decide +kernel : ∀ t : Fin grid0.N, _)

theorem iblk14_eq (c : Dev nD) (t : Fin cfg0.N) :
    (iblk m c 14 t : Vec Ideal S8x8 .f32) = tab4 := by
  obtain ⟨e0, e1⟩ := idx14 t
  funext j
  unfold iblk
  rw [View.read_apply]
  show (V m c main_cst_3 : Vec Ideal S8x8 .f32) _ = _
  rw [V_main_cst_3 m c]
  congr 1
  funext a
  apply Fin.ext
  match a with
  | ⟨0, _⟩ => show win0_14.index t (0 : Fin 2) * 8 + 1 * (j 0).val = (j 0).val; omega
  | ⟨1, _⟩ => show win0_14.index t (1 : Fin 2) * 8 + 1 * (j 1).val = (j 1).val; omega

/-! ## The input window: the block at point `t` is rows `8192 t …` of the input -/

theorem idx0 : ∀ t : Fin cfg0.N, win0_0.index t (0 : Fin 2) = t.val ∧ win0_0.index t (1 : Fin 2) = 0 :=
  (by decide +kernel : ∀ t : Fin grid0.N, _)

theorem t_lt (t : Fin cfg0.N) : t.val < 32 := Nat.lt_of_lt_of_eq t.isLt N_0

/-- Row `r` of the block at point `t`, as a row of the whole batch. -/
def rowAt (t : Fin cfg0.N) (r : Fin 8192) : Fin 262144 := ⟨8192 * t.val + r.val, by have := t_lt t; have := r.isLt; omega⟩

theorem iblk0_eq (c : Dev nD) (t : Fin cfg0.N) (r : Fin 8192) (d : Fin 8) :
    (iblk m c 0 t : Vec Ideal S8192x8 .f32) (ix2 r d) = m ((c : Thread nD τ).loc main_arg0) (ix2 (rowAt t r) d) := by
  obtain ⟨e0, e1⟩ := idx0 t
  unfold iblk
  rw [View.read_apply]
  show (V m c main_arg0 : Vec Ideal S262144x8 .f32) _ = _
  rw [V_main_arg0]
  congr 1
  funext a
  apply Fin.ext
  match a with
  | ⟨0, _⟩ => show win0_0.index t (0 : Fin 2) * 8192 + 1 * r.val = 8192 * t.val + r.val; omega
  | ⟨1, _⟩ => show win0_0.index t (1 : Fin 2) * 8 + 1 * d.val = d.val; omega

end Cert.KernelIdeal.FlowValue

end
-- ==== Proof.KernelFlush.lean ====
/-
  From the blocks to the arrays. At grid point `t` the body is handed rows `8192 t …` of the input and the whole
  parameter arrays and selection tables, so what it leaves — six layers on that block from a zero column — is rows
  `8192 t …` of the batch of flows and of its log-determinants; point `t` writes exactly those rows back, and the 32
  points' blocks tile the two output arrays (row `r` belongs to point `r / 8192`).
-/
import proofs.«135321_j73263552135281_2_alg».proof.Proof.KernelBlocks

set_option maxRecDepth 16384

noncomputable section

namespace Cert.KernelIdeal.FlowValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

open Idealize.ShloMosaic.ValueIdx

variable (m : (ℓ : Loc nD τ sig) → Buf (Elt Ideal) ℓ)

/-- The parameters of the flow, read off the nine parameter arrays of the launch memory. -/
def paramsOf (c : Dev nD) : Cert.Flow.Params := Cert.Flow.Params.ofArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The log-determinants of the batch of flows as the [262144, 1] column the kernel writes. -/
def ldCol (c : Dev nD) : S262144x1.Idx → EReal :=
  fun j => Cert.Flow.ldOut (paramsOf m c) (m ((c : Thread nD τ).loc main_arg0)) (ix1 (j 0))

theorem idx15 : ∀ t : Fin cfg0.N, win0_15.index t (0 : Fin 2) = t.val ∧ win0_15.index t (1 : Fin 2) = 0 :=
  (by decide +kernel : ∀ t : Fin grid0.N, _)

theorem idx16 : ∀ t : Fin cfg0.N, win0_16.index t (0 : Fin 2) = t.val ∧ win0_16.index t (1 : Fin 2) = 0 :=
  (by decide +kernel : ∀ t : Fin grid0.N, _)

/-- What point `t` writes back to the first output is rows `8192 t …` of the batch of flows. -/
theorem flushed15_eq (c : Dev nD) (t : Fin cfg0.N) :
    (dats m 0 c).flushed 15 t = ((cfg0.win 15).blk t).view.read (Elt Ideal) (Cert.Flow.zOut (paramsOf m c) (m ((c : Thread nD τ).loc main_arg0))) := by
  show (cfg0.win 15).cut (grid0.coords t) ((dats m 0 c).after 15 t) = _
  rw [after0_15]
  unfold outsAt0
  dsimp only
  rw [iblk1_eq m c t, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t]
  refine (congrArg ((cfg0.win 15).cut (grid0.coords t)) (out15_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))).trans ?_
  refine funext fun (j : S8192x8.Idx) => ?_
  obtain ⟨r, d, rfl⟩ : ∃ (r : Fin 8192) (d : Fin 8), j = ix2 r d := ⟨j 0, j 1, eq_ix2 j⟩
  rw [View.read_apply]
  have hb := (Cert.Flow.block_six (paramsOf m c) (m ((c : Thread nD τ).loc main_arg0)) (rowAt t) (iblk m c 0 t) (iblk0_eq m c t)).1 r d
  refine hb.trans ?_
  obtain ⟨e0, e1⟩ := idx15 t
  show Cert.Flow.zOut (paramsOf m c) (m ((c : Thread nD τ).loc main_arg0)) _ = Cert.Flow.zOut (paramsOf m c) (m ((c : Thread nD τ).loc main_arg0)) _
  congr 1
  funext a
  apply Fin.ext
  match a with
  | ⟨0, _⟩ => show 8192 * t.val + r.val = win0_15.index t (0 : Fin 2) * 8192 + 1 * r.val; omega
  | ⟨1, _⟩ => show d.val = win0_15.index t (1 : Fin 2) * 8 + 1 * d.val; omega

/-- What point `t` writes back to the second output is rows `8192 t …` of the column of log-determinants. -/
theorem flushed16_eq (c : Dev nD) (t : Fin cfg0.N) :
    (dats m 0 c).flushed 16 t = ((cfg0.win 16).blk t).view.read (Elt Ideal) (ldCol m c) := by
  show (cfg0.win 16).cut (grid0.coords t) ((dats m 0 c).after 16 t) = _
  rw [after0_16]
  unfold outsAt0
  dsimp only
  rw [iblk1_eq m c t, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t]
  refine (congrArg ((cfg0.win 16).cut (grid0.coords t)) (out16_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))).trans ?_
  refine funext fun (j : S8192x1.Idx) => ?_
  obtain ⟨r, d, rfl⟩ : ∃ (r : Fin 8192) (d : Fin 1), j = ix2 r d := ⟨j 0, j 1, eq_ix2 j⟩
  obtain rfl : d = 0 := Subsingleton.elim _ _
  rw [View.read_apply]
  have hb := (Cert.Flow.block_six (paramsOf m c) (m ((c : Thread nD τ).loc main_arg0)) (rowAt t) (iblk m c 0 t) (iblk0_eq m c t)).2 r
  refine hb.trans ?_
  obtain ⟨e0, e1⟩ := idx16 t
  refine congrArg (fun q : Fin 262144 => Cert.Flow.ldOut (paramsOf m c) (m ((c : Thread nD τ).loc main_arg0)) (ix1 q)) (Fin.ext ?_)
  show 8192 * t.val + r.val = win0_16.index t (0 : Fin 2) * 8192 + 1 * r.val
  omega

/-- An index of the array is in point `t`'s block iff each coordinate is in the block's range on its axis. -/
theorem mem_blk15 (t : Fin cfg0.N) (i : S262144x8.Idx) :
    i ∈ ((cfg0.win 15).blk t).view.set ↔ ∀ a : Fin 2, win0_15.index t a * S8192x8.size a ≤ (i a).val ∧ (i a).val < win0_15.index t a * S8192x8.size a + S8192x8.size a := by
  show i ∈ ((View.whole main_v0_0).slice (win0_15.rect t)).set ↔ _
  rw [View.set_slice_whole, Rect.mem_set_unit]
  exact Iff.rfl

/-- Row `r` of the array is written back by point `r / 8192`. -/
theorem cover15 (i : S262144x8.Idx) :
    ∃ t : Fin cfg0.N, (cfg0.win 15).flush t = true ∧ i ∈ ((cfg0.win 15).blk t).view.set := by
  have hi0 : (i 0).val < 262144 := (i 0).isLt
  have hi1 : (i 1).val < 8 := (i 1).isLt
  have hq : (i 0).val / 8192 < cfg0.N := by rw [show cfg0.N = 32 from N_0]; omega
  refine ⟨⟨(i 0).val / 8192, hq⟩, flush0_15 _, ?_⟩
  rw [mem_blk15]
  obtain ⟨e0, e1⟩ := idx15 ⟨(i 0).val / 8192, hq⟩
  have e0' : win0_15.index ⟨(i 0).val / 8192, hq⟩ (0 : Fin 2) = (i 0).val / 8192 := e0
  intro a
  match a with
  | ⟨0, _⟩ => show win0_15.index _ (0 : Fin 2) * 8192 ≤ (i 0).val ∧ (i 0).val < win0_15.index _ (0 : Fin 2) * 8192 + 8192; omega
  | ⟨1, _⟩ => show win0_15.index _ (1 : Fin 2) * 8 ≤ (i 1).val ∧ (i 1).val < win0_15.index _ (1 : Fin 2) * 8 + 8; omega

/-- An index of the array is in point `t`'s block iff each coordinate is in the block's range on its axis. -/
theorem mem_blk16 (t : Fin cfg0.N) (i : S262144x1.Idx) :
    i ∈ ((cfg0.win 16).blk t).view.set ↔ ∀ a : Fin 2, win0_16.index t a * S8192x1.size a ≤ (i a).val ∧ (i a).val < win0_16.index t a * S8192x1.size a + S8192x1.size a := by
  show i ∈ ((View.whole main_v0_1).slice (win0_16.rect t)).set ↔ _
  rw [View.set_slice_whole, Rect.mem_set_unit]
  exact Iff.rfl

/-- Row `r` of the array is written back by point `r / 8192`. -/
theorem cover16 (i : S262144x1.Idx) :
    ∃ t : Fin cfg0.N, (cfg0.win 16).flush t = true ∧ i ∈ ((cfg0.win 16).blk t).view.set := by
  have hi0 : (i 0).val < 262144 := (i 0).isLt
  have hi1 : (i 1).val < 1 := (i 1).isLt
  have hq : (i 0).val / 8192 < cfg0.N := by rw [show cfg0.N = 32 from N_0]; omega
  refine ⟨⟨(i 0).val / 8192, hq⟩, flush0_16 _, ?_⟩
  rw [mem_blk16]
  obtain ⟨e0, e1⟩ := idx16 ⟨(i 0).val / 8192, hq⟩
  have e0' : win0_16.index ⟨(i 0).val / 8192, hq⟩ (0 : Fin 2) = (i 0).val / 8192 := e0
  intro a
  match a with
  | ⟨0, _⟩ => show win0_16.index _ (0 : Fin 2) * 8192 ≤ (i 0).val ∧ (i 0).val < win0_16.index _ (0 : Fin 2) * 8192 + 8192; omega
  | ⟨1, _⟩ => show win0_16.index _ (1 : Fin 2) * 1 ≤ (i 1).val ∧ (i 1).val < win0_16.index _ (1 : Fin 2) * 1 + 1; omega

/-- The first output array after the run: the batch of flows. -/
theorem final15 (c : Dev nD) : (dats m 0 c).arrAt 15 cfg0.N = Cert.Flow.zOut (paramsOf m c) (m ((c : Thread nD τ).loc main_arg0)) :=
  (dats m 0 c).arrAt_eq_of_cover 15 _ (fun t _ => flushed15_eq m c t) cover15

/-- The second output array after the run: the column of log-determinants. -/
theorem final16 (c : Dev nD) : (dats m 0 c).arrAt 16 cfg0.N = ldCol m c :=
  (dats m 0 c).arrAt_eq_of_cover 16 _ (fun t _ => flushed16_eq m c t) cover16

end Cert.KernelIdeal.FlowValue

end
-- ==== Proof.KernelRun.lean ====
/-
  The kernel's run, read off the generated frame run: the two output arrays end at what the library computes from
  the proof data, which the block lemmas identify as the batch of flows and the column of its log-determinants; the
  one host line after the region reshapes that column to a vector (entry `r` of the vector is entry `(r, 0)` of
  the column, the same row-major position); the ten arguments are inputs of the pipeline and are never written.
-/
import proofs.«135321_j73263552135281_2_alg».proof.Proof.KernelFlush

set_option maxRecDepth 16384

noncomputable section

namespace Cert.KernelIdeal.FlowValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

open Idealize.ShloMosaic.ValueIdx

variable (m : (ℓ : Loc nD τ sig) → Buf (Elt Ideal) ℓ) (ρ : Dev nD → PrngReg)

/-- The host line after the region reshapes the [262144, 1] column of log-determinants to the length-262144 vector. -/
theorem tail_v1 (c : Dev nD) :
    Pipeline.afterTail₀ cfgs (dats m) 0 (V0 m) [hostOps1] c main_v1
      = Cert.Flow.ldOut (paramsOf m c) (m ((c.tc : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0_1) = ldCol m c :=
    (Pipeline.withArrays_arr spec0 launch0.win.arr_inj c _ _ 16).trans (final16 m c)
  refine funext fun (j : S262144.Idx) => ?_
  obtain ⟨r, rfl⟩ : ∃ r : Fin 262144, j = ix1 r := ⟨j 0, eq_ix1 j⟩
  show shapeCast S262144 (Pipeline.withArrays (cfgs 0).spec c (V0 m c) (fun w => (dats m 0 c).arrAt w (cfgs 0).N) (Proc.devRef .tc main_v0_1)) shapeCasts_S262144x1_S262144 (ix1 r) = _
  rw [hw]
  refine (shapeCast_apply (ldCol m c) shapeCasts_S262144x1_S262144 (ix1 r) (ix2 r (0 : Fin 1)) ?_).trans rfl
  rw [Shape.rowMajor_val_two, Shape.rowMajor_val_one]
  show r.val * 1 + 0 = r.val
  omega

/-- THE KERNEL'S RUN: every fair execution ends with the first result at the batch of flows of the input, the second at
    its log-determinants, and the ten arguments unchanged. -/
theorem run : θ_run (defs (F := Ideal)) (onTc (τ := τ) (main (F := Ideal))) ⟨m, fun _ => 0, ρ⟩ (fun r => ∀ c : Dev nD,
      r.2.mem ((c.tc : Thread nD τ).loc main_v0_0) = Cert.Flow.zOut (paramsOf m c) (m ((c.tc : Thread nD τ).loc main_arg0))
      ∧ r.2.mem ((c.tc : Thread nD τ).loc main_v1) = Cert.Flow.ldOut (paramsOf m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 15).trans (final15 m c),
      ((h c).2 main_v1 (Pipeline.mem_restRefs_of main_v1 rfl (by decide))).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.FlowValue

end
-- ==== Proof.RefOpsA.lean ====
/-
  The reference program's @main as a line of host operations, part A: each printed statement is one operation, and a
  call of one of the three small functions (the two clips and the rectifier) is that function's operations written
  out over the call's own buffers. The line is cut at the printed windows and at the ends of the six layers, so
  that both the windows and the layers are concatenations of the pieces.
-/
import proofs.«135321_j73263552135281_2_alg».proof.Proof.Gen.ReferenceIdeal
import Idealize.ShloMosaic.Lib.StableHlo.Run

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- Operations 1 … 28 of @main's 730 (the called functions' operations written out at their calls). -/
abbrev p0 : List (HloOp τ sig (Elt F)) :=
  [ StableHlo.nullary main_c (fun i => lit0 (S4.rowMajor i)),
    StableHlo.nullary main_c_0 (constantI S4 1 0#1),
    StableHlo.nullary main_c_1 (fun i => lit1 (S4.rowMajor i)),
    StableHlo.nullary main_c_2 (constantI S4 1 0#1),
    StableHlo.nullary main_c_3 (constantI S4 1 0#1),
    StableHlo.nullary main_c_4 (constantI S4 1 0#1),
    StableHlo.nullary main_c_5 (constantI S4 1 0#1),
    StableHlo.nullary main_c_6 (constantI S4 1 0#1),
    StableHlo.nullary main_c_7 (constantI S4 1 0#1),
    StableHlo.nullary main_c_8 (constantI S4 1 0#1),
    StableHlo.nullary main_c_9 (constantI S4 1 0#1),
    StableHlo.nullary main_c_10 (constantI S4 1 0#1),
    StableHlo.nullary main_c_11 (constantI S4 1 0#1),
    StableHlo.nullary main_c_12 (constantI S4 1 0#1),
    StableHlo.nullary main_c_13 (constantI S4 1 0#1),
    StableHlo.nullary main_c_14 (constantI S4 1 0#1),
    StableHlo.nullary main_c_15 (constantI S4 1 0#1),
    StableHlo.nullary main_c_16 (constantI S4 1 0#1),
    StableHlo.nullary main_c_17 (constantI S4 1 0#1),
    StableHlo.nullary main_c_18 (constantI S4 1 0#1),
    StableHlo.nullary main_c_19 (constantI S4 1 0#1),
    StableHlo.nullary main_c_20 (constantI S4 1 0#1),
    StableHlo.nullary main_c_21 (constantI S4 1 0#1),
    StableHlo.nullary main_c_22 (constantI S4 1 0#1),
    StableHlo.nullary main_c_23 (constantI S4 1 0#1),
    StableHlo.nullary main_c_24 (constantI S4 1 0#1),
    StableHlo.nullary main_cst (constant S_ .f32 0x00000000#32),
    StableHlo.unary main_cst main_v0 (broadcastInDim S262144 ![] bcast_S_S262144 : (⟨S_, .f32⟩ : BufTy).Contents (Elt F) → (⟨S262144, .f32⟩ : BufTy).Contents (Elt F)) ]

theorem p0_sub : (p0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub .., nullary_bufs_sub .., nullary_bufs_sub ..,
    nullary_bufs_sub .., nullary_bufs_sub .., nullary_bufs_sub .., unary_bufs_sub ..⟩
theorem p0_fresh : (p0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- Operations 29 … 65 of @main's 730 (the called functions' operations written out at their calls). -/
abbrev p1 : List (HloOp τ sig (Elt F)) :=
  [ StableHlo.unary main_arg1 main_v1 ((extractStridedSlice S1x8 ![0, 0] · slices_S6x8_S1x8_0_0) : (⟨S6x8, .f32⟩ : BufTy).Contents (Elt F) → (⟨S1x8, .f32⟩ : BufTy).Contents (Elt F)),
    StableHlo.reshape main_v1 main_v2 rfl shapeCasts_S1x8_S8,
    StableHlo.nullary main_cst_25 (constant S_ .f32 0xC0A00000#32),
    StableHlo.nullary main_cst_26 (constant S_ .f32 0x40A00000#32),
    StableHlo.unary main_cst_25 main_call0_v0 (id : (⟨S_, .f32⟩ : BufTy).Contents (Elt F) → (⟨S_, .f32⟩ : BufTy).Contents (Elt F)),
    StableHlo.unary main_call0_v0 main_call0_v1 (broadcastInDim S8 ![] bcast_S_S8 : (⟨S_, .f32⟩ : BufTy).Contents (Elt F) → (⟨S8, .f32⟩ : BufTy).Contents (Elt F)),
    StableHlo.binary main_call0_v1 main_v2 main_call0_v2 (maximumf : (⟨S8, .f32⟩ : BufTy).Contents (Elt F) → (⟨S8, .f32⟩ : BufTy).Contents (Elt F) → (⟨S8, .f32⟩ : BufTy).Contents (Elt F)),
    StableHlo.unary main_cst_26 main_call0_v3 (id : (⟨S_, .f32⟩ : BufTy).Contents (Elt F) → (⟨S_, .f32⟩ : BufTy).Contents (Elt F)),
    StableHlo.unary main_call0_v3 main_call0_v4 (broadcastInDim S8 ![] bcast_S_S8 : (⟨S_, .f32⟩ : BufTy).Contents (Elt F) → (⟨S8, .f32⟩ : BufTy).Contents (Elt F)),
    StableHlo.binary main_call0_v4 main_call0_v2 main_v3 (minimumf : (⟨S8, .f32⟩ : BufTy).Contents (Elt F) → (⟨S8, .f32⟩ : BufTy).Contents (Elt F) → (⟨S8, .f32⟩ : BufTy).Contents (Elt F)),
    StableHlo.unary main_arg2 main_v4 ((extractStridedSlice S1x8 ![0, 0] · slices_S6x8_S1x8_0_0) : (⟨S6x8, .f32⟩ : BufTy).Contents (Elt F) → (⟨S1x8, .f32⟩ : BufTy).Contents (Elt F)),
    StableHlo.reshape main_v4 main_v5 rfl shapeCasts_S1x8_S8,
    StableHlo.unary main_v5 main_v6 (broadcastInDim S1x8 ![1] bcast_S8_S1x8_1 : (⟨S8, .f32⟩ : BufTy).Contents (Elt F) → (⟨S1x8, .f32⟩ : BufTy).Contents (Elt F)),
    StableHlo.unary main_v6 main_v7 (broadcastInDim S262144x8 ![0, 1] bcast_S1x8_S262144x8_0_1 : (⟨S1x8, .f32⟩ : BufTy).Contents (Elt F) → (⟨S262144x8, .f32⟩ : BufTy).Contents (Elt F)),
    StableHlo.binary main_arg0 main_v7 main_v8 (addf : (⟨S262144x8, .f32⟩ : BufTy).Contents (Elt F) → (⟨S262144x8, .f32⟩ : BufTy).Contents (Elt F) → (⟨S262144x8, .f32⟩ : BufTy).Contents (Elt F)),
    StableHlo.unary main_v3 main_v9 (Host.exp : (⟨S8, .f32⟩ : BufTy).Contents (Elt F) → (⟨S8, .f32⟩ : BufTy).Contents (Elt F)),
    StableHlo.unary main_v9 main_v10 (broadcastInDim S1x8 ![1] bcast_S8_S1x8_1 : (⟨S8, .f32⟩ : BufTy).Contents (Elt F) → (⟨S1x8, .f32⟩ : BufTy).Contents (Elt F)),
    StableHlo.unary main_v10 main_v11 (broadcastInDim S262144x8 ![0, 1] bcast_S1x8_S262144x8_0_1 : (⟨S1x8, .f32⟩ : BufTy).Contents (Elt F) → (⟨S262144x8, .f32⟩ : BufTy).Contents (Elt F)),
    StableHlo.binary main_v8 main_v11 main_v12 (mulf : (⟨S262144x8, .f32⟩ : BufTy).Contents (Elt F) → (⟨S262144x8, .f32⟩ : BufTy).Contents (Elt F) → (⟨S262144x8, .f32⟩ : BufTy).Contents (Elt F)),
    StableHlo.nullary main_cst_27 (constant S_ .f32 0x00000000#32),
    StableHlo.binary main_v3 main_cst_27 main_v13 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v13 main_v14 (broadcastInDim S262144 ![] bcast_S_S262144 : (⟨S_, .f32⟩ : BufTy).Contents (Elt F) → (⟨S262144, .f32⟩ : BufTy).Contents (Elt F)),
    StableHlo.binary main_v0 main_v14 main_v15 (addf : (⟨S262144, .f32⟩ : BufTy).Contents (Elt F) → (⟨S262144, .f32⟩ : BufTy).Contents (Elt F) → (⟨S262144, .f32⟩ : BufTy).Contents (Elt F)),
    StableHlo.nullary main_c_28 (constantI S_ 32 8#32),
    StableHlo.unary main_c_28 main_v16 (broadcastInDim S4 ![] bcast_S_S4 : (⟨S_, .i32⟩ : BufTy).Contents (Elt F) → (⟨S4, .i32⟩ : BufTy).Contents (Elt F)),
    StableHlo.binary main_c main_v16 main_v17 (addi : (⟨S4, .i32⟩ : BufTy).Contents (Elt F) → (⟨S4, .i32⟩ : BufTy).Contents (Elt F) → (⟨S4, .i32⟩ : BufTy).Contents (Elt F)),
    StableHlo.ternary main_c_0 main_v17 main_c main_v18 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v18 main_v19 (broadcastInDim S4x1 ![0] bcast_S4_S4x1_0 : (⟨S4, .i32⟩ : BufTy).Contents (Elt F) → (⟨S4x1, .i32⟩ : BufTy).Contents (Elt F)),
    StableHlo.binary main_v12 main_v19 main_v20 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_29 (constantI S_ 32 8#32),
    StableHlo.unary main_c_29 main_v21 (broadcastInDim S4 ![] bcast_S_S4 : (⟨S_, .i32⟩ : BufTy).Contents (Elt F) → (⟨S4, .i32⟩ : BufTy).Contents (Elt F)),
    StableHlo.binary main_c_1 main_v21 main_v22 (addi : (⟨S4, .i32⟩ : BufTy).Contents (Elt F) → (⟨S4, .i32⟩ : BufTy).Contents (Elt F) → (⟨S4, .i32⟩ : BufTy).Contents (Elt F)),
    StableHlo.ternary main_c_2 main_v22 main_c_1 main_v23 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v23 main_v24 (broadcastInDim S4x1 ![0] bcast_S4_S4x1_0 : (⟨S4, .i32⟩ : BufTy).Contents (Elt F) → (⟨S4x1, .i32⟩ : BufTy).Contents (Elt F)),
    StableHlo.binary main_v12 main_v24 main_v25 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v26 ((extractStridedSlice S1x4x128 ![0, 0, 0] · slices_S6x4x128_S1x4x128_0_0_0) : (⟨S6x4x128, .f32⟩ : BufTy).Contents (Elt F) → (⟨S1x4x128, .f32⟩ : BufTy).Contents (Elt F)),
    StableHlo.reshape main_v26 main_v27 rfl shapeCasts_S1x4x128_S4x128 ]

theorem p1_sub : (p1 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub .., binary_bufs_sub .., unary_bufs_sub ..,
    unary_bufs_sub .., unary_bufs_sub .., binary_bufs_sub .., nullary_bufs_sub .., binary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., binary_bufs_sub ..,
    ternary_bufs_sub .., unary_bufs_sub .., binary_bufs_sub .., unary_bufs_sub .., reshape_bufs_sub ..⟩
theorem p1_fresh : (p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

/-- Operations 66 … 134 of @main's 730 (the called functions' operations written out at their calls). -/
abbrev p2 : List (HloOp τ sig (Elt F)) :=
  [ StableHlo.binary main_v20 main_v27 main_v28 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v29 ((extractStridedSlice S1x128 ![0, 0] · slices_S6x128_S1x128_0_0) : (⟨S6x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S262144x128 ![0, 1] bcast_S1x128_S262144x128_0_1 : (⟨S1x128, .f32⟩ : BufTy).Contents (Elt F) → (⟨S262144x128, .f32⟩ : BufTy).Contents (Elt F)),
    StableHlo.binary main_v28 main_v32 main_v33 (addf : (⟨S262144x128, .f32⟩ : BufTy).Contents (Elt F) → (⟨S262144x128, .f32⟩ : BufTy).Contents (Elt F) → (⟨S262144x128, .f32⟩ : BufTy).Contents (Elt F)),
    StableHlo.nullary main_call1_cst (constant S_ .f32 0x00000000#32),
    StableHlo.unary main_call1_cst main_call1_v0 (broadcastInDim S262144x128 ![] bcast_S_S262144x128 : (⟨S_, .f32⟩ : BufTy).Contents (Elt F) → (⟨S262144x128, .f32⟩ : BufTy).Contents (Elt F)),
    StableHlo.binary main_v33 main_call1_v0 main_v34 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v35 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v35 main_v36 rfl shapeCasts_S1x128x128_S128x128,
    StableHlo.binary main_v34 main_v36 main_v37 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v38 ((extractStridedSlice S1x128 ![0, 0] · slices_S6x128_S1x128_0_0) : (⟨S6x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S262144x128 ![0, 1] bcast_S1x128_S262144x128_0_1 : (⟨S1x128, .f32⟩ : BufTy).Contents (Elt F) → (⟨S262144x128, .f32⟩ : BufTy).Contents (Elt F)),
    StableHlo.binary main_v37 main_v41 main_v42 (addf : (⟨S262144x128, .f32⟩ : BufTy).Contents (Elt F) → (⟨S262144x128, .f32⟩ : BufTy).Contents (Elt F) → (⟨S262144x128, .f32⟩ : BufTy).Contents (Elt F)),
    StableHlo.nullary main_call2_cst (constant S_ .f32 0x00000000#32),
    StableHlo.unary main_call2_cst main_call2_v0 (broadcastInDim S262144x128 ![] bcast_S_S262144x128 : (⟨S_, .f32⟩ : BufTy).Contents (Elt F) → (⟨S262144x128, .f32⟩ : BufTy).Contents (Elt F)),
    StableHlo.binary main_v42 main_call2_v0 main_v43 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v44 ((extractStridedSlice S1x128x8 ![0, 0, 0] · slices_S6x128x8_S1x128x8_0_0_0) : (⟨S6x128x8, .f32⟩ : BufTy).Contents (Elt F) → (⟨S1x128x8, .f32⟩ : BufTy).Contents (Elt F)),
    StableHlo.reshape main_v44 main_v45 rfl shapeCasts_S1x128x8_S128x8,
    StableHlo.binary main_v43 main_v45 main_v46 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v47 ((extractStridedSlice S1x8 ![0, 0] · slices_S6x8_S1x8_0_0) : (⟨S6x8, .f32⟩ : BufTy).Contents (Elt F) → (⟨S1x8, .f32⟩ : BufTy).Contents (Elt F)),
    StableHlo.reshape main_v47 main_v48 rfl shapeCasts_S1x8_S8,
    StableHlo.unary main_v48 main_v49 (broadcastInDim S1x8 ![1] bcast_S8_S1x8_1 : (⟨S8, .f32⟩ : BufTy).Contents (Elt F) → (⟨S1x8, .f32⟩ : BufTy).Contents (Elt F)),
    StableHlo.unary main_v49 main_v50 (broadcastInDim S262144x8 ![0, 1] bcast_S1x8_S262144x8_0_1 : (⟨S1x8, .f32⟩ : BufTy).Contents (Elt F) → (⟨S262144x8, .f32⟩ : BufTy).Contents (Elt F)),
    StableHlo.binary main_v46 main_v50 main_v51 (addf : (⟨S262144x8, .f32⟩ : BufTy).Contents (Elt F) → (⟨S262144x8, .f32⟩ : BufTy).Contents (Elt F) → (⟨S262144x8, .f32⟩ : BufTy).Contents (Elt F)),
    StableHlo.unary main_v51 main_v52 ((extractStridedSlice S262144x4 ![0, 0] · slices_S262144x8_S262144x4_0_0) : (⟨S262144x8, .f32⟩ : BufTy).Contents (Elt F) → (⟨S262144x4, .f32⟩ : BufTy).Contents (Elt F)),
    StableHlo.unary main_v51 main_v53 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v54 ((extractStridedSlice S1x4 ![0, 0] · slices_S6x4_S1x4_0_0) : (⟨S6x4, .f32⟩ : BufTy).Contents (Elt F) → (⟨S1x4, .f32⟩ : BufTy).Contents (Elt F)),
    StableHlo.reshape main_v54 main_v55 rfl shapeCasts_S1x4_S4,
    StableHlo.nullary main_cst_30 (constant S_ .f32 0xC0A00000#32),
    StableHlo.nullary main_cst_31 (constant S_ .f32 0x40A00000#32),
    StableHlo.unary main_cst_30 main_call3_v0 (id : (⟨S_, .f32⟩ : BufTy).Contents (Elt F) → (⟨S_, .f32⟩ : BufTy).Contents (Elt F)),
    StableHlo.unary main_call3_v0 main_call3_v1 (broadcastInDim S4 ![] bcast_S_S4 : (⟨S_, .f32⟩ : BufTy).Contents (Elt F) → (⟨S4, .f32⟩ : BufTy).Contents (Elt F)),
    StableHlo.binary main_call3_v1 main_v55 main_call3_v2 (maximumf : (⟨S4, .f32⟩ : BufTy).Contents (Elt F) → (⟨S4, .f32⟩ : BufTy).Contents (Elt F) → (⟨S4, .f32⟩ : BufTy).Contents (Elt F)),
    StableHlo.unary main_cst_31 main_call3_v3 (id : (⟨S_, .f32⟩ : BufTy).Contents (Elt F) → (⟨S_, .f32⟩ : BufTy).Contents (Elt F)),
    StableHlo.unary main_call3_v3 main_call3_v4 (broadcastInDim S4 ![] bcast_S_S4 : (⟨S_, .f32⟩ : BufTy).Contents (Elt F) → (⟨S4, .f32⟩ : BufTy).Contents (Elt F)),
    StableHlo.binary main_call3_v4 main_call3_v2 main_v56 (minimumf : (⟨S4, .f32⟩ : BufTy).Contents (Elt F) → (⟨S4, .f32⟩ : BufTy).Contents (Elt F) → (⟨S4, .f32⟩ : BufTy).Contents (Elt F)),
    StableHlo.unary main_v56 main_v57 (Host.exp : (⟨S4, .f32⟩ : BufTy).Contents (Elt F) → (⟨S4, .f32⟩ : BufTy).Contents (Elt F)),
    StableHlo.unary main_v52 main_v58 (Host.tanh : (⟨S262144x4, .f32⟩ : BufTy).Contents (Elt F) → (⟨S262144x4, .f32⟩ : BufTy).Contents (Elt F)),
    StableHlo.unary main_v57 main_v59 (broadcastInDim S1x4 ![1] bcast_S4_S1x4_1 : (⟨S4, .f32⟩ : BufTy).Contents (Elt F) → (⟨S1x4, .f32⟩ : BufTy).Contents (Elt F)),
    StableHlo.unary main_v59 main_v60 (broadcastInDim S262144x4 ![0, 1] bcast_S1x4_S262144x4_0_1 : (⟨S1x4, .f32⟩ : BufTy).Contents (Elt F) → (⟨S262144x4, .f32⟩ : BufTy).Contents (Elt F)),
    StableHlo.binary main_v60 main_v58 main_v61 (mulf : (⟨S262144x4, .f32⟩ : BufTy).Contents (Elt F) → (⟨S262144x4, .f32⟩ : BufTy).Contents (Elt F) → (⟨S262144x4, .f32⟩ : BufTy).Contents (Elt F)),
    StableHlo.unary main_v53 main_v62 (Host.tanh : (⟨S262144x4, .f32⟩ : BufTy).Contents (Elt F) → (⟨S262144x4, .f32⟩ : BufTy).Contents (Elt F)),
    StableHlo.nullary main_cst_32 (constant S_ .f32 0x3F19999A#32),
    StableHlo.unary main_cst_32 main_v63 (broadcastInDim S262144x4 ![] bcast_S_S262144x4 : (⟨S_, .f32⟩ : BufTy).Contents (Elt F) → (⟨S262144x4, .f32⟩ : BufTy).Contents (Elt F)),
    StableHlo.binary main_v63 main_v62 main_v64 (mulf : (⟨S262144x4, .f32⟩ : BufTy).Contents (Elt F) → (⟨S262144x4, .f32⟩ : BufTy).Contents (Elt F) → (⟨S262144x4, .f32⟩ : BufTy).Contents (Elt F)),
    StableHlo.nullary main_cst_33 (constant S_ .f32 0x3F800000#32),
    StableHlo.unary main_cst_33 main_v65 (broadcastInDim S262144x4 ![] bcast_S_S262144x4 : (⟨S_, .f32⟩ : BufTy).Contents (Elt F) → (⟨S262144x4, .f32⟩ : BufTy).Contents (Elt F)),
    StableHlo.binary main_v65 main_v64 main_v66 (addf : (⟨S262144x4, .f32⟩ : BufTy).Contents (Elt F) → (⟨S262144x4, .f32⟩ : BufTy).Contents (Elt F) → (⟨S262144x4, .f32⟩ : BufTy).Contents (Elt F)),
    StableHlo.binary main_v25 main_v66 main_v67 (mulf : (⟨S262144x4, .f32⟩ : BufTy).Contents (Elt F) → (⟨S262144x4, .f32⟩ : BufTy).Contents (Elt F) → (⟨S262144x4, .f32⟩ : BufTy).Contents (Elt F)),
    StableHlo.binary main_v67 main_v61 main_v68 (addf : (⟨S262144x4, .f32⟩ : BufTy).Contents (Elt F) → (⟨S262144x4, .f32⟩ : BufTy).Contents (Elt F) → (⟨S262144x4, .f32⟩ : BufTy).Contents (Elt F)),
    StableHlo.nullary main_cst_34 (constant S_ .f32 0x3F800000#32),
    StableHlo.unary main_cst_34 main_v69 (broadcastInDim S262144x4 ![] bcast_S_S262144x4 : (⟨S_, .f32⟩ : BufTy).Contents (Elt F) → (⟨S262144x4, .f32⟩ : BufTy).Contents (Elt F)),
    StableHlo.binary main_v69 main_v64 main_v70 (addf : (⟨S262144x4, .f32⟩ : BufTy).Contents (Elt F) → (⟨S262144x4, .f32⟩ : BufTy).Contents (Elt F) → (⟨S262144x4, .f32⟩ : BufTy).Contents (Elt F)),
    StableHlo.unary main_v70 main_v71 (Host.absf : (⟨S262144x4, .f32⟩ : BufTy).Contents (Elt F) → (⟨S262144x4, .f32⟩ : BufTy).Contents (Elt F)),
    StableHlo.nullary main_cst_35 (constant S_ .f32 0x322BCC77#32),
    StableHlo.unary main_cst_35 main_v72 (broadcastInDim S262144x4 ![] bcast_S_S262144x4 : (⟨S_, .f32⟩ : BufTy).Contents (Elt F) → (⟨S262144x4, .f32⟩ : BufTy).Contents (Elt F)),
    StableHlo.binary main_v71 main_v72 main_v73 (addf : (⟨S262144x4, .f32⟩ : BufTy).Contents (Elt F) → (⟨S262144x4, .f32⟩ : BufTy).Contents (Elt F) → (⟨S262144x4, .f32⟩ : BufTy).Contents (Elt F)),
    StableHlo.unary main_v73 main_v74 (Host.log : (⟨S262144x4, .f32⟩ : BufTy).Contents (Elt F) → (⟨S262144x4, .f32⟩ : BufTy).Contents (Elt F)),
    StableHlo.nullary main_cst_36 (constant S_ .f32 0x00000000#32),
    StableHlo.binary main_v74 main_cst_36 main_v75 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v15 main_v75 main_v76 (addf : (⟨S262144, .f32⟩ : BufTy).Contents (Elt F) → (⟨S262144, .f32⟩ : BufTy).Contents (Elt F) → (⟨S262144, .f32⟩ : BufTy).Contents (Elt F)),
    StableHlo.nullary main_cst_37 (constant S_ .f32 0x00000000#32),
    StableHlo.unary main_cst_37 main_v77 (broadcastInDim S262144x8 ![] bcast_S_S262144x8 : (⟨S_, .f32⟩ : BufTy).Contents (Elt F) → (⟨S262144x8, .f32⟩ : BufTy).Contents (Elt F)),
    StableHlo.nullary main_c_38 (constantI S_ 32 8#32),
    StableHlo.unary main_c_38 main_v78 (broadcastInDim S4 ![] bcast_S_S4 : (⟨S_, .i32⟩ : BufTy).Contents (Elt F) → (⟨S4, .i32⟩ : BufTy).Contents (Elt F)) ]

theorem p2_sub : (p2 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., unary_bufs_sub .., unary_bufs_sub .., reshape_bufs_sub ..,
    nullary_bufs_sub .., nullary_bufs_sub .., unary_bufs_sub .., unary_bufs_sub .., binary_bufs_sub .., unary_bufs_sub .., unary_bufs_sub .., binary_bufs_sub ..,
    unary_bufs_sub .., unary_bufs_sub .., unary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub .., nullary_bufs_sub .., unary_bufs_sub ..,
    binary_bufs_sub .., unary_bufs_sub .., nullary_bufs_sub .., unary_bufs_sub .., binary_bufs_sub .., unary_bufs_sub .., nullary_bufs_sub .., binary_bufs_sub ..,
    binary_bufs_sub .., nullary_bufs_sub .., unary_bufs_sub .., nullary_bufs_sub .., unary_bufs_sub ..⟩
theorem p2_fresh : (p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Operations 135 … 145 of @main's 730 (the called functions' operations written out at their calls). -/
abbrev p3 : List (HloOp τ sig (Elt F)) :=
  [ StableHlo.binary main_c main_v78 main_v79 (addi : (⟨S4, .i32⟩ : BufTy).Contents (Elt F) → (⟨S4, .i32⟩ : BufTy).Contents (Elt F) → (⟨S4, .i32⟩ : BufTy).Contents (Elt F)),
    StableHlo.ternary main_c_3 main_v79 main_c main_v80 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v80 main_v81 (broadcastInDim S4x1 ![0] bcast_S4_S4x1_0 : (⟨S4, .i32⟩ : BufTy).Contents (Elt F) → (⟨S4x1, .i32⟩ : BufTy).Contents (Elt F)),
    StableHlo.ternary main_v77 main_v81 main_v20 main_v82 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_39 (constantI S_ 32 8#32),
    StableHlo.unary main_c_39 main_v83 (broadcastInDim S4 ![] bcast_S_S4 : (⟨S_, .i32⟩ : BufTy).Contents (Elt F) → (⟨S4, .i32⟩ : BufTy).Contents (Elt F)),
    StableHlo.binary main_c_1 main_v83 main_v84 (addi : (⟨S4, .i32⟩ : BufTy).Contents (Elt F) → (⟨S4, .i32⟩ : BufTy).Contents (Elt F) → (⟨S4, .i32⟩ : BufTy).Contents (Elt F)),
    StableHlo.ternary main_c_4 main_v84 main_c_1 main_v85 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v85 main_v86 (broadcastInDim S4x1 ![0] bcast_S4_S4x1_0 : (⟨S4, .i32⟩ : BufTy).Contents (Elt F) → (⟨S4x1, .i32⟩ : BufTy).Contents (Elt F)),
    StableHlo.ternary main_v82 main_v86 main_v68 main_v87 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v87 main_v88 (Host.reverse [1] : (⟨S262144x8, .f32⟩ : BufTy).Contents (Elt F) → (⟨S262144x8, .f32⟩ : BufTy).Contents (Elt F)) ]

theorem p3_sub : (p3 : List (HloOp τ sig (Elt F))).Forall fun op => op.bufs ⊆ tcRefs τ sig :=
  ⟨binary_bufs_sub .., ternary_bufs_sub .., unary_bufs_sub .., ternary_bufs_sub .., nullary_bufs_sub .., unary_bufs_sub .., binary_bufs_sub .., ternary_bufs_sub ..,
    unary_bufs_sub .., ternary_bufs_sub .., unary_bufs_sub ..⟩
theorem p3_fresh : (p3 : List (HloOp τ sig (Elt F))).Forall fun op => op.fresh = ∅ :=
  ⟨rfl, rfl, rfl, rfl, rfl, rfl, rfl, rfl, rfl, rfl, rfl⟩

/-- Operations 146 … 203 of @main's 730 (the called functions' operations written out at their calls). -/
abbrev p4 : List (HloOp τ sig (Elt F)) :=
  [ StableHlo.unary main_arg1 main_v89 ((extractStridedSlice S1x8 ![1, 0] · slices_S6x8_S1x8_1_0) : (⟨S6x8, .f32⟩ : BufTy).Contents (Elt F) → (⟨S1x8, .f32⟩ : BufTy).Contents (Elt F)),
    StableHlo.reshape main_v89 main_v90 rfl shapeCasts_S1x8_S8,
    StableHlo.nullary main_cst_40 (constant S_ .f32 0xC0A00000#32),
    StableHlo.nullary main_cst_41 (constant S_ .f32 0x40A00000#32),
    StableHlo.unary main_cst_40 main_call4_v0 (id : (⟨S_, .f32⟩ : BufTy).Contents (Elt F) → (⟨S_, .f32⟩ : BufTy).Contents (Elt F)),
    StableHlo.unary main_call4_v0 main_call4_v1 (broadcastInDim S8 ![] bcast_S_S8 : (⟨S_, .f32⟩ : BufTy).Contents (Elt F) → (⟨S8, .f32⟩ : BufTy).Contents (Elt F)),
    StableHlo.binary main_call4_v1 main_v90 main_call4_v2 (maximumf : (⟨S8, .f32⟩ : BufTy).Contents (Elt F) → (⟨S8, .f32⟩ : BufTy).Contents (Elt F) → (⟨S8, .f32⟩ : BufTy).Contents (Elt F)),
    StableHlo.unary main_cst_41 main_call4_v3 (id : (⟨S_, .f32⟩ : BufTy).Contents (Elt F) → (⟨S_, .f32⟩ : BufTy).Contents (Elt F)),
    StableHlo.unary main_call4_v3 main_call4_v4 (broadcastInDim S8 ![] bcast_S_S8 : (⟨S_, .f32⟩ : BufTy).Contents (Elt F) → (⟨S8, .f32⟩ : BufTy).Contents (Elt F)),
    StableHlo.binary main_call4_v4 main_call4_v2 main_v91 (minimumf : (⟨S8, .f32⟩ : BufTy).Contents (Elt F) → (⟨S8, .f32⟩ : BufTy).Contents (Elt F) → (⟨S8, .f32⟩ : BufTy).Contents (Elt F)),
    StableHlo.unary main_arg2 main_v92 ((extractStridedSlice S1x8 ![1, 0] · slices_S6x8_S1x8_1_0) : (⟨S6x8, .f32⟩ : BufTy).Contents (Elt F) → (⟨S1x8, .f32⟩ : BufTy).Contents (Elt F)),
    StableHlo.reshape main_v92 main_v93 rfl shapeCasts_S1x8_S8,
    StableHlo.unary main_v93 main_v94 (broadcastInDim S1x8 ![1] bcast_S8_S1x8_1 : (⟨S8, .f32⟩ : BufTy).Contents (Elt F) → (⟨S1x8, .f32⟩ : BufTy).Contents (Elt F)),
    StableHlo.unary main_v94 main_v95 (broadcastInDim S262144x8 ![0, 1] bcast_S1x8_S262144x8_0_1 : (⟨S1x8, .f32⟩ : BufTy).Contents (Elt F) → (⟨S262144x8, .f32⟩ : BufTy).Contents (Elt F)),
    StableHlo.binary main_v88 main_v95 main_v96 (addf : (⟨S262144x8, .f32⟩ : BufTy).Contents (Elt F) → (⟨S262144x8, .f32⟩ : BufTy).Contents (Elt F) → (⟨S262144x8, .f32⟩ : BufTy).Contents (Elt F)),
    StableHlo.unary main_v91 main_v97 (Host.exp : (⟨S8, .f32⟩ : BufTy).Contents (Elt F) → (⟨S8, .f32⟩ : BufTy).Contents (Elt F)),
    StableHlo.unary main_v97 main_v98 (broadcastInDim S1x8 ![1] bcast_S8_S1x8_1 : (⟨S8, .f32⟩ : BufTy).Contents (Elt F) → (⟨S1x8, .f32⟩ : BufTy).Contents (Elt F)),
    StableHlo.unary main_v98 main_v99 (broadcastInDim S262144x8 ![0, 1] bcast_S1x8_S262144x8_0_1 : (⟨S1x8, .f32⟩ : BufTy).Contents (Elt F) → (⟨S262144x8, .f32⟩ : BufTy).Contents (Elt F)),
    StableHlo.binary main_v96 main_v99 main_v100 (mulf : (⟨S262144x8, .f32⟩ : BufTy).Contents (Elt F) → (⟨S262144x8, .f32⟩ : BufTy).Contents (Elt F) → (⟨S262144x8, .f32⟩ : BufTy).Contents (Elt F)),
    StableHlo.nullary main_cst_42 (constant S_ .f32 0x00000000#32),
    StableHlo.binary main_v91 main_cst_42 main_v101 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v101 main_v102 (broadcastInDim S262144 ![] bcast_S_S262144 : (⟨S_, .f32⟩ : BufTy).Contents (Elt F) → (⟨S262144, .f32⟩ : BufTy).Contents (Elt F)),
    StableHlo.binary main_v76 main_v102 main_v103 (addf : (⟨S262144, .f32⟩ : BufTy).Contents (Elt F) → (⟨S262144, .f32⟩ : BufTy).Contents (Elt F) → (⟨S262144, .f32⟩ : BufTy).Contents (Elt F)),
    StableHlo.nullary main_c_43 (constantI S_ 32 8#32),
    StableHlo.unary main_c_43 main_v104 (broadcastInDim S4 ![] bcast_S_S4 : (⟨S_, .i32⟩ : BufTy).Contents (Elt F) → (⟨S4, .i32⟩ : BufTy).Contents (Elt F)),
    StableHlo.binary main_c_1 main_v104 main_v105 (addi : (⟨S4, .i32⟩ : BufTy).Contents (Elt F) → (⟨S4, .i32⟩ : BufTy).Contents (Elt F) → (⟨S4, .i32⟩ : BufTy).Contents (Elt F)),
    StableHlo.ternary main_c_5 main_v105 main_c_1 main_v106 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v106 main_v107 (broadcastInDim S4x1 ![0] bcast_S4_S4x1_0 : (⟨S4, .i32⟩ : BufTy).Contents (Elt F) → (⟨S4x1, .i32⟩ : BufTy).Contents (Elt F)),
    StableHlo.binary main_v100 main_v107 main_v108 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_44 (constantI S_ 32 8#32),
    StableHlo.unary main_c_44 main_v109 (broadcastInDim S4 ![] bcast_S_S4 : (⟨S_, .i32⟩ : BufTy).Contents (Elt F) → (⟨S4, .i32⟩ : BufTy).Contents (Elt F)),
    StableHlo.binary main_c main_v109 main_v110 (addi : (⟨S4, .i32⟩ : BufTy).Contents (Elt F) → (⟨S4, .i32⟩ : BufTy).Contents (Elt F) → (⟨S4, .i32⟩ : BufTy).Contents (Elt F)),
    StableHlo.ternary main_c_6 main_v110 main_c main_v111 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v111 main_v112 (broadcastInDim S4x1 ![0] bcast_S4_S4x1_0 : (⟨S4, .i32⟩ : BufTy).Contents (Elt F) → (⟨S4x1, .i32⟩ : BufTy).Contents (Elt F)),
    StableHlo.binary main_v100 main_v112 main_v113 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v114 ((extractStridedSlice S1x4x128 ![1, 0, 0] · slices_S6x4x128_S1x4x128_1_0_0) : (⟨S6x4x128, .f32⟩ : BufTy).Contents (Elt F) → (⟨S1x4x128, .f32⟩ : BufTy).Contents (Elt F)),
    StableHlo.reshape main_v114 main_v115 rfl shapeCasts_S1x4x128_S4x128,
    StableHlo.binary main_v108 main_v115 main_v116 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v117 ((extractStridedSlice S1x128 ![1, 0] · slices_S6x128_S1x128_1_0) : (⟨S6x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S262144x128 ![0, 1] bcast_S1x128_S262144x128_0_1 : (⟨S1x128, .f32⟩ : BufTy).Contents (Elt F) → (⟨S262144x128, .f32⟩ : BufTy).Contents (Elt F)),
    StableHlo.binary main_v116 main_v120 main_v121 (addf : (⟨S262144x128, .f32⟩ : BufTy).Contents (Elt F) → (⟨S262144x128, .f32⟩ : BufTy).Contents (Elt F) → (⟨S262144x128, .f32⟩ : BufTy).Contents (Elt F)),
    StableHlo.nullary main_call5_cst (constant S_ .f32 0x00000000#32),
    StableHlo.unary main_call5_cst main_call5_v0 (broadcastInDim S262144x128 ![] bcast_S_S262144x128 : (⟨S_, .f32⟩ : BufTy).Contents (Elt F) → (⟨S262144x128, .f32⟩ : BufTy).Contents (Elt F)),
    StableHlo.binary main_v121 main_call5_v0 main_v122 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v123 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v123 main_v124 rfl shapeCasts_S1x128x128_S128x128,
    StableHlo.binary main_v122 main_v124 main_v125 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v126 ((extractStridedSlice S1x128 ![1, 0] · slices_S6x128_S1x128_1_0) : (⟨S6x128, .f32⟩ : BufTy).Contents (Elt F) → (⟨S1x128, .f32⟩ : BufTy).Contents (Elt F)),
    StableHlo.reshape main_v126 main_v127 rfl shapeCasts_S1x128_S128,
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S262144x128 ![0, 1] bcast_S1x128_S262144x128_0_1 : (⟨S1x128, .f32⟩ : BufTy).Contents (Elt F) → (⟨S262144x128, .f32⟩ : BufTy).Contents (Elt F)),
    StableHlo.binary main_v125 main_v129 main_v130 (addf : (⟨S262144x128, .f32⟩ : BufTy).Contents (Elt F) → (⟨S262144x128, .f32⟩ : BufTy).Contents (Elt F) → (⟨S262144x128, .f32⟩ : BufTy).Contents (Elt F)),
    StableHlo.nullary main_call6_cst (constant S_ .f32 0x00000000#32),
    StableHlo.unary main_call6_cst main_call6_v0 (broadcastInDim S262144x128 ![] bcast_S_S262144x128 : (⟨S_, .f32⟩ : BufTy).Contents (Elt F) → (⟨S262144x128, .f32⟩ : BufTy).Contents (Elt F)),
    StableHlo.binary main_v130 main_call6_v0 main_v131 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v132 ((extractStridedSlice S1x128x8 ![1, 0, 0] · slices_S6x128x8_S1x128x8_1_0_0) : (⟨S6x128x8, .f32⟩ : BufTy).Contents (Elt F) → (⟨S1x128x8, .f32⟩ : BufTy).Contents (Elt F)) ]

theorem p4_sub : (p4 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub .., binary_bufs_sub .., unary_bufs_sub ..,
    unary_bufs_sub .., unary_bufs_sub .., binary_bufs_sub .., nullary_bufs_sub .., binary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., nullary_bufs_sub .., unary_bufs_sub ..,
    binary_bufs_sub .., unary_bufs_sub ..⟩
theorem p4_fresh : (p4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl⟩

/-- Operations 204 … 262 of @main's 730 (the called functions' operations written out at their calls). -/
abbrev p5 : List (HloOp τ sig (Elt F)) :=
  [ StableHlo.reshape main_v132 main_v133 rfl shapeCasts_S1x128x8_S128x8,
    StableHlo.binary main_v131 main_v133 main_v134 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v135 ((extractStridedSlice S1x8 ![1, 0] · slices_S6x8_S1x8_1_0) : (⟨S6x8, .f32⟩ : BufTy).Contents (Elt F) → (⟨S1x8, .f32⟩ : BufTy).Contents (Elt F)),
    StableHlo.reshape main_v135 main_v136 rfl shapeCasts_S1x8_S8,
    StableHlo.unary main_v136 main_v137 (broadcastInDim S1x8 ![1] bcast_S8_S1x8_1 : (⟨S8, .f32⟩ : BufTy).Contents (Elt F) → (⟨S1x8, .f32⟩ : BufTy).Contents (Elt F)),
    StableHlo.unary main_v137 main_v138 (broadcastInDim S262144x8 ![0, 1] bcast_S1x8_S262144x8_0_1 : (⟨S1x8, .f32⟩ : BufTy).Contents (Elt F) → (⟨S262144x8, .f32⟩ : BufTy).Contents (Elt F)),
    StableHlo.binary main_v134 main_v138 main_v139 (addf : (⟨S262144x8, .f32⟩ : BufTy).Contents (Elt F) → (⟨S262144x8, .f32⟩ : BufTy).Contents (Elt F) → (⟨S262144x8, .f32⟩ : BufTy).Contents (Elt F)),
    StableHlo.unary main_v139 main_v140 ((extractStridedSlice S262144x4 ![0, 0] · slices_S262144x8_S262144x4_0_0) : (⟨S262144x8, .f32⟩ : BufTy).Contents (Elt F) → (⟨S262144x4, .f32⟩ : BufTy).Contents (Elt F)),
    StableHlo.unary main_v139 main_v141 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v142 ((extractStridedSlice S1x4 ![1, 0] · slices_S6x4_S1x4_1_0) : (⟨S6x4, .f32⟩ : BufTy).Contents (Elt F) → (⟨S1x4, .f32⟩ : BufTy).Contents (Elt F)),
    StableHlo.reshape main_v142 main_v143 rfl shapeCasts_S1x4_S4,
    StableHlo.nullary main_cst_45 (constant S_ .f32 0xC0A00000#32),
    StableHlo.nullary main_cst_46 (constant S_ .f32 0x40A00000#32),
    StableHlo.unary main_cst_45 main_call7_v0 (id : (⟨S_, .f32⟩ : BufTy).Contents (Elt F) → (⟨S_, .f32⟩ : BufTy).Contents (Elt F)),
    StableHlo.unary main_call7_v0 main_call7_v1 (broadcastInDim S4 ![] bcast_S_S4 : (⟨S_, .f32⟩ : BufTy).Contents (Elt F) → (⟨S4, .f32⟩ : BufTy).Contents (Elt F)),
    StableHlo.binary main_call7_v1 main_v143 main_call7_v2 (maximumf : (⟨S4, .f32⟩ : BufTy).Contents (Elt F) → (⟨S4, .f32⟩ : BufTy).Contents (Elt F) → (⟨S4, .f32⟩ : BufTy).Contents (Elt F)),
    StableHlo.unary main_cst_46 main_call7_v3 (id : (⟨S_, .f32⟩ : BufTy).Contents (Elt F) → (⟨S_, .f32⟩ : BufTy).Contents (Elt F)),
    StableHlo.unary main_call7_v3 main_call7_v4 (broadcastInDim S4 ![] bcast_S_S4 : (⟨S_, .f32⟩ : BufTy).Contents (Elt F) → (⟨S4, .f32⟩ : BufTy).Contents (Elt F)),
    StableHlo.binary main_call7_v4 main_call7_v2 main_v144 (minimumf : (⟨S4, .f32⟩ : BufTy).Contents (Elt F) → (⟨S4, .f32⟩ : BufTy).Contents (Elt F) → (⟨S4, .f32⟩ : BufTy).Contents (Elt F)),
    StableHlo.unary main_v144 main_v145 (Host.exp : (⟨S4, .f32⟩ : BufTy).Contents (Elt F) → (⟨S4, .f32⟩ : BufTy).Contents (Elt F)),
    StableHlo.unary main_v140 main_v146 (Host.tanh : (⟨S262144x4, .f32⟩ : BufTy).Contents (Elt F) → (⟨S262144x4, .f32⟩ : BufTy).Contents (Elt F)),
    StableHlo.unary main_v145 main_v147 (broadcastInDim S1x4 ![1] bcast_S4_S1x4_1 : (⟨S4, .f32⟩ : BufTy).Contents (Elt F) → (⟨S1x4, .f32⟩ : BufTy).Contents (Elt F)),
    StableHlo.unary main_v147 main_v148 (broadcastInDim S262144x4 ![0, 1] bcast_S1x4_S262144x4_0_1 : (⟨S1x4, .f32⟩ : BufTy).Contents (Elt F) → (⟨S262144x4, .f32⟩ : BufTy).Contents (Elt F)),
    StableHlo.binary main_v148 main_v146 main_v149 (mulf : (⟨S262144x4, .f32⟩ : BufTy).Contents (Elt F) → (⟨S262144x4, .f32⟩ : BufTy).Contents (Elt F) → (⟨S262144x4, .f32⟩ : BufTy).Contents (Elt F)),
    StableHlo.unary main_v141 main_v150 (Host.tanh : (⟨S262144x4, .f32⟩ : BufTy).Contents (Elt F) → (⟨S262144x4, .f32⟩ : BufTy).Contents (Elt F)),
    StableHlo.nullary main_cst_47 (constant S_ .f32 0x3F19999A#32),
    StableHlo.unary main_cst_47 main_v151 (broadcastInDim S262144x4 ![] bcast_S_S262144x4 : (⟨S_, .f32⟩ : BufTy).Contents (Elt F) → (⟨S262144x4, .f32⟩ : BufTy).Contents (Elt F)),
    StableHlo.binary main_v151 main_v150 main_v152 (mulf : (⟨S262144x4, .f32⟩ : BufTy).Contents (Elt F) → (⟨S262144x4, .f32⟩ : BufTy).Contents (Elt F) → (⟨S262144x4, .f32⟩ : BufTy).Contents (Elt F)),
    StableHlo.nullary main_cst_48 (constant S_ .f32 0x3F800000#32),
    StableHlo.unary main_cst_48 main_v153 (broadcastInDim S262144x4 ![] bcast_S_S262144x4 : (⟨S_, .f32⟩ : BufTy).Contents (Elt F) → (⟨S262144x4, .f32⟩ : BufTy).Contents (Elt F)),
    StableHlo.binary main_v153 main_v152 main_v154 (addf : (⟨S262144x4, .f32⟩ : BufTy).Contents (Elt F) → (⟨S262144x4, .f32⟩ : BufTy).Contents (Elt F) → (⟨S262144x4, .f32⟩ : BufTy).Contents (Elt F)),
    StableHlo.binary main_v113 main_v154 main_v155 (mulf : (⟨S262144x4, .f32⟩ : BufTy).Contents (Elt F) → (⟨S262144x4, .f32⟩ : BufTy).Contents (Elt F) → (⟨S262144x4, .f32⟩ : BufTy).Contents (Elt F)),
    StableHlo.binary main_v155 main_v149 main_v156 (addf : (⟨S262144x4, .f32⟩ : BufTy).Contents (Elt F) → (⟨S262144x4, .f32⟩ : BufTy).Contents (Elt F) → (⟨S262144x4, .f32⟩ : BufTy).Contents (Elt F)),
    StableHlo.nullary main_cst_49 (constant S_ .f32 0x3F800000#32),
    StableHlo.unary main_cst_49 main_v157 (broadcastInDim S262144x4 ![] bcast_S_S262144x4 : (⟨S_, .f32⟩ : BufTy).Contents (Elt F) → (⟨S262144x4, .f32⟩ : BufTy).Contents (Elt F)),
    StableHlo.binary main_v157 main_v152 main_v158 (addf : (⟨S262144x4, .f32⟩ : BufTy).Contents (Elt F) → (⟨S262144x4, .f32⟩ : BufTy).Contents (Elt F) → (⟨S262144x4, .f32⟩ : BufTy).Contents (Elt F)),
    StableHlo.unary main_v158 main_v159 (Host.absf : (⟨S262144x4, .f32⟩ : BufTy).Contents (Elt F) → (⟨S262144x4, .f32⟩ : BufTy).Contents (Elt F)),
    StableHlo.nullary main_cst_50 (constant S_ .f32 0x322BCC77#32),
    StableHlo.unary main_cst_50 main_v160 (broadcastInDim S262144x4 ![] bcast_S_S262144x4 : (⟨S_, .f32⟩ : BufTy).Contents (Elt F) → (⟨S262144x4, .f32⟩ : BufTy).Contents (Elt F)),
    StableHlo.binary main_v159 main_v160 main_v161 (addf : (⟨S262144x4, .f32⟩ : BufTy).Contents (Elt F) → (⟨S262144x4, .f32⟩ : BufTy).Contents (Elt F) → (⟨S262144x4, .f32⟩ : BufTy).Contents (Elt F)),
    StableHlo.unary main_v161 main_v162 (Host.log : (⟨S262144x4, .f32⟩ : BufTy).Contents (Elt F) → (⟨S262144x4, .f32⟩ : BufTy).Contents (Elt F)),
    StableHlo.nullary main_cst_51 (constant S_ .f32 0x00000000#32),
    StableHlo.binary main_v162 main_cst_51 main_v163 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v103 main_v163 main_v164 (addf : (⟨S262144, .f32⟩ : BufTy).Contents (Elt F) → (⟨S262144, .f32⟩ : BufTy).Contents (Elt F) → (⟨S262144, .f32⟩ : BufTy).Contents (Elt F)),
    StableHlo.nullary main_cst_52 (constant S_ .f32 0x00000000#32),
    StableHlo.unary main_cst_52 main_v165 (broadcastInDim S262144x8 ![] bcast_S_S262144x8 : (⟨S_, .f32⟩ : BufTy).Contents (Elt F) → (⟨S262144x8, .f32⟩ : BufTy).Contents (Elt F)),
    StableHlo.nullary main_c_53 (constantI S_ 32 8#32),
    StableHlo.unary main_c_53 main_v166 (broadcastInDim S4 ![] bcast_S_S4 : (⟨S_, .i32⟩ : BufTy).Contents (Elt F) → (⟨S4, .i32⟩ : BufTy).Contents (Elt F)),
    StableHlo.binary main_c_1 main_v166 main_v167 (addi : (⟨S4, .i32⟩ : BufTy).Contents (Elt F) → (⟨S4, .i32⟩ : BufTy).Contents (Elt F) → (⟨S4, .i32⟩ : BufTy).Contents (Elt F)),
    StableHlo.ternary main_c_7 main_v167 main_c_1 main_v168 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v168 main_v169 (broadcastInDim S4x1 ![0] bcast_S4_S4x1_0 : (⟨S4, .i32⟩ : BufTy).Contents (Elt F) → (⟨S4x1, .i32⟩ : BufTy).Contents (Elt F)),
    StableHlo.ternary main_v165 main_v169 main_v108 main_v170 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_54 (constantI S_ 32 8#32),
    StableHlo.unary main_c_54 main_v171 (broadcastInDim S4 ![] bcast_S_S4 : (⟨S_, .i32⟩ : BufTy).Contents (Elt F) → (⟨S4, .i32⟩ : BufTy).Contents (Elt F)),
    StableHlo.binary main_c main_v171 main_v172 (addi : (⟨S4, .i32⟩ : BufTy).Contents (Elt F) → (⟨S4, .i32⟩ : BufTy).Contents (Elt F) → (⟨S4, .i32⟩ : BufTy).Contents (Elt F)),
    StableHlo.ternary main_c_8 main_v172 main_c main_v173 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v173 main_v174 (broadcastInDim S4x1 ![0] bcast_S4_S4x1_0 : (⟨S4, .i32⟩ : BufTy).Contents (Elt F) → (⟨S4x1, .i32⟩ : BufTy).Contents (Elt F)),
    StableHlo.ternary main_v170 main_v174 main_v156 main_v175 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v175 main_v176 (Host.reverse [1] : (⟨S262144x8, .f32⟩ : BufTy).Contents (Elt F) → (⟨S262144x8, .f32⟩ : BufTy).Contents (Elt F)) ]

theorem p5_sub : (p5 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub ..,
    unary_bufs_sub .., unary_bufs_sub .., reshape_bufs_sub .., nullary_bufs_sub .., nullary_bufs_sub .., unary_bufs_sub .., unary_bufs_sub .., binary_bufs_sub ..,
    unary_bufs_sub .., unary_bufs_sub .., binary_bufs_sub .., unary_bufs_sub .., unary_bufs_sub .., unary_bufs_sub .., unary_bufs_sub .., binary_bufs_sub ..,
    unary_bufs_sub .., nullary_bufs_sub .., unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., nullary_bufs_sub .., unary_bufs_sub .., binary_bufs_sub ..,
    unary_bufs_sub .., nullary_bufs_sub .., binary_bufs_sub .., binary_bufs_sub .., nullary_bufs_sub .., unary_bufs_sub .., nullary_bufs_sub .., unary_bufs_sub ..,
    binary_bufs_sub .., ternary_bufs_sub .., unary_bufs_sub .., ternary_bufs_sub .., nullary_bufs_sub .., unary_bufs_sub .., binary_bufs_sub .., ternary_bufs_sub ..,
    unary_bufs_sub .., ternary_bufs_sub .., unary_bufs_sub ..⟩
theorem p5_fresh : (p5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 263 … 273 of @main's 730 (the called functions' operations written out at their calls). -/
abbrev p6 : List (HloOp τ sig (Elt F)) :=
  [ StableHlo.unary main_arg1 main_v177 ((extractStridedSlice S1x8 ![2, 0] · slices_S6x8_S1x8_2_0) : (⟨S6x8, .f32⟩ : BufTy).Contents (Elt F) → (⟨S1x8, .f32⟩ : BufTy).Contents (Elt F)),
    StableHlo.reshape main_v177 main_v178 rfl shapeCasts_S1x8_S8,
    StableHlo.nullary main_cst_55 (constant S_ .f32 0xC0A00000#32),
    StableHlo.nullary main_cst_56 (constant S_ .f32 0x40A00000#32),
    StableHlo.unary main_cst_55 main_call8_v0 (id : (⟨S_, .f32⟩ : BufTy).Contents (Elt F) → (⟨S_, .f32⟩ : BufTy).Contents (Elt F)),
    StableHlo.unary main_call8_v0 main_call8_v1 (broadcastInDim S8 ![] bcast_S_S8 : (⟨S_, .f32⟩ : BufTy).Contents (Elt F) → (⟨S8, .f32⟩ : BufTy).Contents (Elt F)),
    StableHlo.binary main_call8_v1 main_v178 main_call8_v2 (maximumf : (⟨S8, .f32⟩ : BufTy).Contents (Elt F) → (⟨S8, .f32⟩ : BufTy).Contents (Elt F) → (⟨S8, .f32⟩ : BufTy).Contents (Elt F)),
    StableHlo.unary main_cst_56 main_call8_v3 (id : (⟨S_, .f32⟩ : BufTy).Contents (Elt F) → (⟨S_, .f32⟩ : BufTy).Contents (Elt F)),
    StableHlo.unary main_call8_v3 main_call8_v4 (broadcastInDim S8 ![] bcast_S_S8 : (⟨S_, .f32⟩ : BufTy).Contents (Elt F) → (⟨S8, .f32⟩ : BufTy).Contents (Elt F)),
    StableHlo.binary main_call8_v4 main_call8_v2 main_v179 (minimumf : (⟨S8, .f32⟩ : BufTy).Contents (Elt F) → (⟨S8, .f32⟩ : BufTy).Contents (Elt F) → (⟨S8, .f32⟩ : BufTy).Contents (Elt F)),
    StableHlo.unary main_arg2 main_v180 ((extractStridedSlice S1x8 ![2, 0] · slices_S6x8_S1x8_2_0) : (⟨S6x8, .f32⟩ : BufTy).Contents (Elt F) → (⟨S1x8, .f32⟩ : BufTy).Contents (Elt F)) ]

theorem p6_sub : (p6 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub ..⟩
theorem p6_fresh : (p6 : List (HloOp τ sig (Elt F))).Forall fun op => op.fresh = ∅ :=
  ⟨rfl, rfl, rfl, rfl, rfl, rfl, rfl, rfl, rfl, rfl, rfl⟩

set_option maxRecDepth 8192 in
/-- Window 0 of @main is that line of operations: the called functions unfold at their calls. -/
theorem part0_eq (c : Dev nD) : main_part0 (F := F) c = seq (p0 ++ (p1)) := rfl

set_option maxRecDepth 8192 in
/-- Window 1 of @main is that line of operations: the called functions unfold at their calls. -/
theorem part1_eq (c : Dev nD) : main_part1 (F := F) c = seq (p2) := rfl

set_option maxRecDepth 8192 in
/-- Window 2 of @main is that line of operations: the called functions unfold at their calls. -/
theorem part2_eq (c : Dev nD) : main_part2 (F := F) c = seq (p3 ++ (p4)) := rfl

set_option maxRecDepth 8192 in
/-- Window 3 of @main is that line of operations: the called functions unfold at their calls. -/
theorem part3_eq (c : Dev nD) : main_part3 (F := F) c = seq (p5 ++ (p6)) := rfl

end Cert.ReferenceIdeal.FlowValue

end
-- ==== Proof.RefOpsB.lean ====
/-
  The reference program's @main as a line of host operations, part B: each printed statement is one operation, and a
  call of one of the three small functions (the two clips and the rectifier) is that function's operations written
  out over the call's own buffers. The line is cut at the printed windows and at the ends of the six layers, so
  that both the windows and the layers are concatenations of the pieces.
-/
import proofs.«135321_j73263552135281_2_alg».proof.Proof.Gen.ReferenceIdeal
import Idealize.ShloMosaic.Lib.StableHlo.Run

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- Operations 274 … 342 of @main's 730 (the called functions' operations written out at their calls). -/
abbrev p7 : List (HloOp τ sig (Elt F)) :=
  [ StableHlo.reshape main_v180 main_v181 rfl shapeCasts_S1x8_S8,
    StableHlo.unary main_v181 main_v182 (broadcastInDim S1x8 ![1] bcast_S8_S1x8_1 : (⟨S8, .f32⟩ : BufTy).Contents (Elt F) → (⟨S1x8, .f32⟩ : BufTy).Contents (Elt F)),
    StableHlo.unary main_v182 main_v183 (broadcastInDim S262144x8 ![0, 1] bcast_S1x8_S262144x8_0_1 : (⟨S1x8, .f32⟩ : BufTy).Contents (Elt F) → (⟨S262144x8, .f32⟩ : BufTy).Contents (Elt F)),
    StableHlo.binary main_v176 main_v183 main_v184 (addf : (⟨S262144x8, .f32⟩ : BufTy).Contents (Elt F) → (⟨S262144x8, .f32⟩ : BufTy).Contents (Elt F) → (⟨S262144x8, .f32⟩ : BufTy).Contents (Elt F)),
    StableHlo.unary main_v179 main_v185 (Host.exp : (⟨S8, .f32⟩ : BufTy).Contents (Elt F) → (⟨S8, .f32⟩ : BufTy).Contents (Elt F)),
    StableHlo.unary main_v185 main_v186 (broadcastInDim S1x8 ![1] bcast_S8_S1x8_1 : (⟨S8, .f32⟩ : BufTy).Contents (Elt F) → (⟨S1x8, .f32⟩ : BufTy).Contents (Elt F)),
    StableHlo.unary main_v186 main_v187 (broadcastInDim S262144x8 ![0, 1] bcast_S1x8_S262144x8_0_1 : (⟨S1x8, .f32⟩ : BufTy).Contents (Elt F) → (⟨S262144x8, .f32⟩ : BufTy).Contents (Elt F)),
    StableHlo.binary main_v184 main_v187 main_v188 (mulf : (⟨S262144x8, .f32⟩ : BufTy).Contents (Elt F) → (⟨S262144x8, .f32⟩ : BufTy).Contents (Elt F) → (⟨S262144x8, .f32⟩ : BufTy).Contents (Elt F)),
    StableHlo.nullary main_cst_57 (constant S_ .f32 0x00000000#32),
    StableHlo.binary main_v179 main_cst_57 main_v189 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v189 main_v190 (broadcastInDim S262144 ![] bcast_S_S262144 : (⟨S_, .f32⟩ : BufTy).Contents (Elt F) → (⟨S262144, .f32⟩ : BufTy).Contents (Elt F)),
    StableHlo.binary main_v164 main_v190 main_v191 (addf : (⟨S262144, .f32⟩ : BufTy).Contents (Elt F) → (⟨S262144, .f32⟩ : BufTy).Contents (Elt F) → (⟨S262144, .f32⟩ : BufTy).Contents (Elt F)),
    StableHlo.nullary main_c_58 (constantI S_ 32 8#32),
    StableHlo.unary main_c_58 main_v192 (broadcastInDim S4 ![] bcast_S_S4 : (⟨S_, .i32⟩ : BufTy).Contents (Elt F) → (⟨S4, .i32⟩ : BufTy).Contents (Elt F)),
    StableHlo.binary main_c main_v192 main_v193 (addi : (⟨S4, .i32⟩ : BufTy).Contents (Elt F) → (⟨S4, .i32⟩ : BufTy).Contents (Elt F) → (⟨S4, .i32⟩ : BufTy).Contents (Elt F)),
    StableHlo.ternary main_c_9 main_v193 main_c main_v194 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v194 main_v195 (broadcastInDim S4x1 ![0] bcast_S4_S4x1_0 : (⟨S4, .i32⟩ : BufTy).Contents (Elt F) → (⟨S4x1, .i32⟩ : BufTy).Contents (Elt F)),
    StableHlo.binary main_v188 main_v195 main_v196 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_59 (constantI S_ 32 8#32),
    StableHlo.unary main_c_59 main_v197 (broadcastInDim S4 ![] bcast_S_S4 : (⟨S_, .i32⟩ : BufTy).Contents (Elt F) → (⟨S4, .i32⟩ : BufTy).Contents (Elt F)),
    StableHlo.binary main_c_1 main_v197 main_v198 (addi : (⟨S4, .i32⟩ : BufTy).Contents (Elt F) → (⟨S4, .i32⟩ : BufTy).Contents (Elt F) → (⟨S4, .i32⟩ : BufTy).Contents (Elt F)),
    StableHlo.ternary main_c_10 main_v198 main_c_1 main_v199 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v199 main_v200 (broadcastInDim S4x1 ![0] bcast_S4_S4x1_0 : (⟨S4, .i32⟩ : BufTy).Contents (Elt F) → (⟨S4x1, .i32⟩ : BufTy).Contents (Elt F)),
    StableHlo.binary main_v188 main_v200 main_v201 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v202 ((extractStridedSlice S1x4x128 ![2, 0, 0] · slices_S6x4x128_S1x4x128_2_0_0) : (⟨S6x4x128, .f32⟩ : BufTy).Contents (Elt F) → (⟨S1x4x128, .f32⟩ : BufTy).Contents (Elt F)),
    StableHlo.reshape main_v202 main_v203 rfl shapeCasts_S1x4x128_S4x128,
    StableHlo.binary main_v196 main_v203 main_v204 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v205 ((extractStridedSlice S1x128 ![2, 0] · slices_S6x128_S1x128_2_0) : (⟨S6x128, .f32⟩ : BufTy).Contents (Elt F) → (⟨S1x128, .f32⟩ : BufTy).Contents (Elt F)),
    StableHlo.reshape main_v205 main_v206 rfl shapeCasts_S1x128_S128,
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S262144x128 ![0, 1] bcast_S1x128_S262144x128_0_1 : (⟨S1x128, .f32⟩ : BufTy).Contents (Elt F) → (⟨S262144x128, .f32⟩ : BufTy).Contents (Elt F)),
    StableHlo.binary main_v204 main_v208 main_v209 (addf : (⟨S262144x128, .f32⟩ : BufTy).Contents (Elt F) → (⟨S262144x128, .f32⟩ : BufTy).Contents (Elt F) → (⟨S262144x128, .f32⟩ : BufTy).Contents (Elt F)),
    StableHlo.nullary main_call9_cst (constant S_ .f32 0x00000000#32),
    StableHlo.unary main_call9_cst main_call9_v0 (broadcastInDim S262144x128 ![] bcast_S_S262144x128 : (⟨S_, .f32⟩ : BufTy).Contents (Elt F) → (⟨S262144x128, .f32⟩ : BufTy).Contents (Elt F)),
    StableHlo.binary main_v209 main_call9_v0 main_v210 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v211 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v211 main_v212 rfl shapeCasts_S1x128x128_S128x128,
    StableHlo.binary main_v210 main_v212 main_v213 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v214 ((extractStridedSlice S1x128 ![2, 0] · slices_S6x128_S1x128_2_0) : (⟨S6x128, .f32⟩ : BufTy).Contents (Elt F) → (⟨S1x128, .f32⟩ : BufTy).Contents (Elt F)),
    StableHlo.reshape main_v214 main_v215 rfl shapeCasts_S1x128_S128,
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S262144x128 ![0, 1] bcast_S1x128_S262144x128_0_1 : (⟨S1x128, .f32⟩ : BufTy).Contents (Elt F) → (⟨S262144x128, .f32⟩ : BufTy).Contents (Elt F)),
    StableHlo.binary main_v213 main_v217 main_v218 (addf : (⟨S262144x128, .f32⟩ : BufTy).Contents (Elt F) → (⟨S262144x128, .f32⟩ : BufTy).Contents (Elt F) → (⟨S262144x128, .f32⟩ : BufTy).Contents (Elt F)),
    StableHlo.nullary main_call10_cst (constant S_ .f32 0x00000000#32),
    StableHlo.unary main_call10_cst main_call10_v0 (broadcastInDim S262144x128 ![] bcast_S_S262144x128 : (⟨S_, .f32⟩ : BufTy).Contents (Elt F) → (⟨S262144x128, .f32⟩ : BufTy).Contents (Elt F)),
    StableHlo.binary main_v218 main_call10_v0 main_v219 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v220 ((extractStridedSlice S1x128x8 ![2, 0, 0] · slices_S6x128x8_S1x128x8_2_0_0) : (⟨S6x128x8, .f32⟩ : BufTy).Contents (Elt F) → (⟨S1x128x8, .f32⟩ : BufTy).Contents (Elt F)),
    StableHlo.reshape main_v220 main_v221 rfl shapeCasts_S1x128x8_S128x8,
    StableHlo.binary main_v219 main_v221 main_v222 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v223 ((extractStridedSlice S1x8 ![2, 0] · slices_S6x8_S1x8_2_0) : (⟨S6x8, .f32⟩ : BufTy).Contents (Elt F) → (⟨S1x8, .f32⟩ : BufTy).Contents (Elt F)),
    StableHlo.reshape main_v223 main_v224 rfl shapeCasts_S1x8_S8,
    StableHlo.unary main_v224 main_v225 (broadcastInDim S1x8 ![1] bcast_S8_S1x8_1 : (⟨S8, .f32⟩ : BufTy).Contents (Elt F) → (⟨S1x8, .f32⟩ : BufTy).Contents (Elt F)),
    StableHlo.unary main_v225 main_v226 (broadcastInDim S262144x8 ![0, 1] bcast_S1x8_S262144x8_0_1 : (⟨S1x8, .f32⟩ : BufTy).Contents (Elt F) → (⟨S262144x8, .f32⟩ : BufTy).Contents (Elt F)),
    StableHlo.binary main_v222 main_v226 main_v227 (addf : (⟨S262144x8, .f32⟩ : BufTy).Contents (Elt F) → (⟨S262144x8, .f32⟩ : BufTy).Contents (Elt F) → (⟨S262144x8, .f32⟩ : BufTy).Contents (Elt F)),
    StableHlo.unary main_v227 main_v228 ((extractStridedSlice S262144x4 ![0, 0] · slices_S262144x8_S262144x4_0_0) : (⟨S262144x8, .f32⟩ : BufTy).Contents (Elt F) → (⟨S262144x4, .f32⟩ : BufTy).Contents (Elt F)),
    StableHlo.unary main_v227 main_v229 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v230 ((extractStridedSlice S1x4 ![2, 0] · slices_S6x4_S1x4_2_0) : (⟨S6x4, .f32⟩ : BufTy).Contents (Elt F) → (⟨S1x4, .f32⟩ : BufTy).Contents (Elt F)),
    StableHlo.reshape main_v230 main_v231 rfl shapeCasts_S1x4_S4,
    StableHlo.nullary main_cst_60 (constant S_ .f32 0xC0A00000#32),
    StableHlo.nullary main_cst_61 (constant S_ .f32 0x40A00000#32),
    StableHlo.unary main_cst_60 main_call11_v0 (id : (⟨S_, .f32⟩ : BufTy).Contents (Elt F) → (⟨S_, .f32⟩ : BufTy).Contents (Elt F)),
    StableHlo.unary main_call11_v0 main_call11_v1 (broadcastInDim S4 ![] bcast_S_S4 : (⟨S_, .f32⟩ : BufTy).Contents (Elt F) → (⟨S4, .f32⟩ : BufTy).Contents (Elt F)),
    StableHlo.binary main_call11_v1 main_v231 main_call11_v2 (maximumf : (⟨S4, .f32⟩ : BufTy).Contents (Elt F) → (⟨S4, .f32⟩ : BufTy).Contents (Elt F) → (⟨S4, .f32⟩ : BufTy).Contents (Elt F)),
    StableHlo.unary main_cst_61 main_call11_v3 (id : (⟨S_, .f32⟩ : BufTy).Contents (Elt F) → (⟨S_, .f32⟩ : BufTy).Contents (Elt F)),
    StableHlo.unary main_call11_v3 main_call11_v4 (broadcastInDim S4 ![] bcast_S_S4 : (⟨S_, .f32⟩ : BufTy).Contents (Elt F) → (⟨S4, .f32⟩ : BufTy).Contents (Elt F)),
    StableHlo.binary main_call11_v4 main_call11_v2 main_v232 (minimumf : (⟨S4, .f32⟩ : BufTy).Contents (Elt F) → (⟨S4, .f32⟩ : BufTy).Contents (Elt F) → (⟨S4, .f32⟩ : BufTy).Contents (Elt F)),
    StableHlo.unary main_v232 main_v233 (Host.exp : (⟨S4, .f32⟩ : BufTy).Contents (Elt F) → (⟨S4, .f32⟩ : BufTy).Contents (Elt F)),
    StableHlo.unary main_v228 main_v234 (Host.tanh : (⟨S262144x4, .f32⟩ : BufTy).Contents (Elt F) → (⟨S262144x4, .f32⟩ : BufTy).Contents (Elt F)),
    StableHlo.unary main_v233 main_v235 (broadcastInDim S1x4 ![1] bcast_S4_S1x4_1 : (⟨S4, .f32⟩ : BufTy).Contents (Elt F) → (⟨S1x4, .f32⟩ : BufTy).Contents (Elt F)) ]

theorem p7_sub : (p7 : List (HloOp τ sig (Elt F))).Forall fun op => op.bufs ⊆ tcRefs τ sig :=
  ⟨reshape_bufs_sub .., unary_bufs_sub .., unary_bufs_sub .., binary_bufs_sub .., unary_bufs_sub .., unary_bufs_sub .., unary_bufs_sub .., binary_bufs_sub ..,
    nullary_bufs_sub .., binary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., ternary_bufs_sub .., unary_bufs_sub .., binary_bufs_sub ..,
    unary_bufs_sub .., reshape_bufs_sub .., binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., unary_bufs_sub .., unary_bufs_sub ..,
    unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., unary_bufs_sub .., unary_bufs_sub ..⟩
theorem p7_fresh : (p7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Operations 343 … 379 of @main's 730 (the called functions' operations written out at their calls). -/
abbrev p8 : List (HloOp τ sig (Elt F)) :=
  [ StableHlo.unary main_v235 main_v236 (broadcastInDim S262144x4 ![0, 1] bcast_S1x4_S262144x4_0_1 : (⟨S1x4, .f32⟩ : BufTy).Contents (Elt F) → (⟨S262144x4, .f32⟩ : BufTy).Contents (Elt F)),
    StableHlo.binary main_v236 main_v234 main_v237 (mulf : (⟨S262144x4, .f32⟩ : BufTy).Contents (Elt F) → (⟨S262144x4, .f32⟩ : BufTy).Contents (Elt F) → (⟨S262144x4, .f32⟩ : BufTy).Contents (Elt F)),
    StableHlo.unary main_v229 main_v238 (Host.tanh : (⟨S262144x4, .f32⟩ : BufTy).Contents (Elt F) → (⟨S262144x4, .f32⟩ : BufTy).Contents (Elt F)),
    StableHlo.nullary main_cst_62 (constant S_ .f32 0x3F19999A#32),
    StableHlo.unary main_cst_62 main_v239 (broadcastInDim S262144x4 ![] bcast_S_S262144x4 : (⟨S_, .f32⟩ : BufTy).Contents (Elt F) → (⟨S262144x4, .f32⟩ : BufTy).Contents (Elt F)),
    StableHlo.binary main_v239 main_v238 main_v240 (mulf : (⟨S262144x4, .f32⟩ : BufTy).Contents (Elt F) → (⟨S262144x4, .f32⟩ : BufTy).Contents (Elt F) → (⟨S262144x4, .f32⟩ : BufTy).Contents (Elt F)),
    StableHlo.nullary main_cst_63 (constant S_ .f32 0x3F800000#32),
    StableHlo.unary main_cst_63 main_v241 (broadcastInDim S262144x4 ![] bcast_S_S262144x4 : (⟨S_, .f32⟩ : BufTy).Contents (Elt F) → (⟨S262144x4, .f32⟩ : BufTy).Contents (Elt F)),
    StableHlo.binary main_v241 main_v240 main_v242 (addf : (⟨S262144x4, .f32⟩ : BufTy).Contents (Elt F) → (⟨S262144x4, .f32⟩ : BufTy).Contents (Elt F) → (⟨S262144x4, .f32⟩ : BufTy).Contents (Elt F)),
    StableHlo.binary main_v201 main_v242 main_v243 (mulf : (⟨S262144x4, .f32⟩ : BufTy).Contents (Elt F) → (⟨S262144x4, .f32⟩ : BufTy).Contents (Elt F) → (⟨S262144x4, .f32⟩ : BufTy).Contents (Elt F)),
    StableHlo.binary main_v243 main_v237 main_v244 (addf : (⟨S262144x4, .f32⟩ : BufTy).Contents (Elt F) → (⟨S262144x4, .f32⟩ : BufTy).Contents (Elt F) → (⟨S262144x4, .f32⟩ : BufTy).Contents (Elt F)),
    StableHlo.nullary main_cst_64 (constant S_ .f32 0x3F800000#32),
    StableHlo.unary main_cst_64 main_v245 (broadcastInDim S262144x4 ![] bcast_S_S262144x4 : (⟨S_, .f32⟩ : BufTy).Contents (Elt F) → (⟨S262144x4, .f32⟩ : BufTy).Contents (Elt F)),
    StableHlo.binary main_v245 main_v240 main_v246 (addf : (⟨S262144x4, .f32⟩ : BufTy).Contents (Elt F) → (⟨S262144x4, .f32⟩ : BufTy).Contents (Elt F) → (⟨S262144x4, .f32⟩ : BufTy).Contents (Elt F)),
    StableHlo.unary main_v246 main_v247 (Host.absf : (⟨S262144x4, .f32⟩ : BufTy).Contents (Elt F) → (⟨S262144x4, .f32⟩ : BufTy).Contents (Elt F)),
    StableHlo.nullary main_cst_65 (constant S_ .f32 0x322BCC77#32),
    StableHlo.unary main_cst_65 main_v248 (broadcastInDim S262144x4 ![] bcast_S_S262144x4 : (⟨S_, .f32⟩ : BufTy).Contents (Elt F) → (⟨S262144x4, .f32⟩ : BufTy).Contents (Elt F)),
    StableHlo.binary main_v247 main_v248 main_v249 (addf : (⟨S262144x4, .f32⟩ : BufTy).Contents (Elt F) → (⟨S262144x4, .f32⟩ : BufTy).Contents (Elt F) → (⟨S262144x4, .f32⟩ : BufTy).Contents (Elt F)),
    StableHlo.unary main_v249 main_v250 (Host.log : (⟨S262144x4, .f32⟩ : BufTy).Contents (Elt F) → (⟨S262144x4, .f32⟩ : BufTy).Contents (Elt F)),
    StableHlo.nullary main_cst_66 (constant S_ .f32 0x00000000#32),
    StableHlo.binary main_v250 main_cst_66 main_v251 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v191 main_v251 main_v252 (addf : (⟨S262144, .f32⟩ : BufTy).Contents (Elt F) → (⟨S262144, .f32⟩ : BufTy).Contents (Elt F) → (⟨S262144, .f32⟩ : BufTy).Contents (Elt F)),
    StableHlo.nullary main_cst_67 (constant S_ .f32 0x00000000#32),
    StableHlo.unary main_cst_67 main_v253 (broadcastInDim S262144x8 ![] bcast_S_S262144x8 : (⟨S_, .f32⟩ : BufTy).Contents (Elt F) → (⟨S262144x8, .f32⟩ : BufTy).Contents (Elt F)),
    StableHlo.nullary main_c_68 (constantI S_ 32 8#32),
    StableHlo.unary main_c_68 main_v254 (broadcastInDim S4 ![] bcast_S_S4 : (⟨S_, .i32⟩ : BufTy).Contents (Elt F) → (⟨S4, .i32⟩ : BufTy).Contents (Elt F)),
    StableHlo.binary main_c main_v254 main_v255 (addi : (⟨S4, .i32⟩ : BufTy).Contents (Elt F) → (⟨S4, .i32⟩ : BufTy).Contents (Elt F) → (⟨S4, .i32⟩ : BufTy).Contents (Elt F)),
    StableHlo.ternary main_c_11 main_v255 main_c main_v256 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v256 main_v257 (broadcastInDim S4x1 ![0] bcast_S4_S4x1_0 : (⟨S4, .i32⟩ : BufTy).Contents (Elt F) → (⟨S4x1, .i32⟩ : BufTy).Contents (Elt F)),
    StableHlo.ternary main_v253 main_v257 main_v196 main_v258 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_69 (constantI S_ 32 8#32),
    StableHlo.unary main_c_69 main_v259 (broadcastInDim S4 ![] bcast_S_S4 : (⟨S_, .i32⟩ : BufTy).Contents (Elt F) → (⟨S4, .i32⟩ : BufTy).Contents (Elt F)),
    StableHlo.binary main_c_1 main_v259 main_v260 (addi : (⟨S4, .i32⟩ : BufTy).Contents (Elt F) → (⟨S4, .i32⟩ : BufTy).Contents (Elt F) → (⟨S4, .i32⟩ : BufTy).Contents (Elt F)),
    StableHlo.ternary main_c_12 main_v260 main_c_1 main_v261 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v261 main_v262 (broadcastInDim S4x1 ![0] bcast_S4_S4x1_0 : (⟨S4, .i32⟩ : BufTy).Contents (Elt F) → (⟨S4x1, .i32⟩ : BufTy).Contents (Elt F)),
    StableHlo.ternary main_v258 main_v262 main_v244 main_v263 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v263 main_v264 (Host.reverse [1] : (⟨S262144x8, .f32⟩ : BufTy).Contents (Elt F) → (⟨S262144x8, .f32⟩ : BufTy).Contents (Elt F)) ]

theorem p8_sub : (p8 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub .., unary_bufs_sub .., nullary_bufs_sub ..,
    unary_bufs_sub .., binary_bufs_sub .., unary_bufs_sub .., nullary_bufs_sub .., binary_bufs_sub .., binary_bufs_sub .., nullary_bufs_sub .., unary_bufs_sub ..,
    nullary_bufs_sub .., unary_bufs_sub .., binary_bufs_sub .., ternary_bufs_sub .., unary_bufs_sub .., ternary_bufs_sub .., nullary_bufs_sub .., unary_bufs_sub ..,
    binary_bufs_sub .., ternary_bufs_sub .., unary_bufs_sub .., ternary_bufs_sub .., unary_bufs_sub ..⟩
theorem p8_fresh : (p8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

/-- Operations 380 … 407 of @main's 730 (the called functions' operations written out at their calls). -/
abbrev p9 : List (HloOp τ sig (Elt F)) :=
  [ StableHlo.unary main_arg1 main_v265 ((extractStridedSlice S1x8 ![3, 0] · slices_S6x8_S1x8_3_0) : (⟨S6x8, .f32⟩ : BufTy).Contents (Elt F) → (⟨S1x8, .f32⟩ : BufTy).Contents (Elt F)),
    StableHlo.reshape main_v265 main_v266 rfl shapeCasts_S1x8_S8,
    StableHlo.nullary main_cst_70 (constant S_ .f32 0xC0A00000#32),
    StableHlo.nullary main_cst_71 (constant S_ .f32 0x40A00000#32),
    StableHlo.unary main_cst_70 main_call12_v0 (id : (⟨S_, .f32⟩ : BufTy).Contents (Elt F) → (⟨S_, .f32⟩ : BufTy).Contents (Elt F)),
    StableHlo.unary main_call12_v0 main_call12_v1 (broadcastInDim S8 ![] bcast_S_S8 : (⟨S_, .f32⟩ : BufTy).Contents (Elt F) → (⟨S8, .f32⟩ : BufTy).Contents (Elt F)),
    StableHlo.binary main_call12_v1 main_v266 main_call12_v2 (maximumf : (⟨S8, .f32⟩ : BufTy).Contents (Elt F) → (⟨S8, .f32⟩ : BufTy).Contents (Elt F) → (⟨S8, .f32⟩ : BufTy).Contents (Elt F)),
    StableHlo.unary main_cst_71 main_call12_v3 (id : (⟨S_, .f32⟩ : BufTy).Contents (Elt F) → (⟨S_, .f32⟩ : BufTy).Contents (Elt F)),
    StableHlo.unary main_call12_v3 main_call12_v4 (broadcastInDim S8 ![] bcast_S_S8 : (⟨S_, .f32⟩ : BufTy).Contents (Elt F) → (⟨S8, .f32⟩ : BufTy).Contents (Elt F)),
    StableHlo.binary main_call12_v4 main_call12_v2 main_v267 (minimumf : (⟨S8, .f32⟩ : BufTy).Contents (Elt F) → (⟨S8, .f32⟩ : BufTy).Contents (Elt F) → (⟨S8, .f32⟩ : BufTy).Contents (Elt F)),
    StableHlo.unary main_arg2 main_v268 ((extractStridedSlice S1x8 ![3, 0] · slices_S6x8_S1x8_3_0) : (⟨S6x8, .f32⟩ : BufTy).Contents (Elt F) → (⟨S1x8, .f32⟩ : BufTy).Contents (Elt F)),
    StableHlo.reshape main_v268 main_v269 rfl shapeCasts_S1x8_S8,
    StableHlo.unary main_v269 main_v270 (broadcastInDim S1x8 ![1] bcast_S8_S1x8_1 : (⟨S8, .f32⟩ : BufTy).Contents (Elt F) → (⟨S1x8, .f32⟩ : BufTy).Contents (Elt F)),
    StableHlo.unary main_v270 main_v271 (broadcastInDim S262144x8 ![0, 1] bcast_S1x8_S262144x8_0_1 : (⟨S1x8, .f32⟩ : BufTy).Contents (Elt F) → (⟨S262144x8, .f32⟩ : BufTy).Contents (Elt F)),
    StableHlo.binary main_v264 main_v271 main_v272 (addf : (⟨S262144x8, .f32⟩ : BufTy).Contents (Elt F) → (⟨S262144x8, .f32⟩ : BufTy).Contents (Elt F) → (⟨S262144x8, .f32⟩ : BufTy).Contents (Elt F)),
    StableHlo.unary main_v267 main_v273 (Host.exp : (⟨S8, .f32⟩ : BufTy).Contents (Elt F) → (⟨S8, .f32⟩ : BufTy).Contents (Elt F)),
    StableHlo.unary main_v273 main_v274 (broadcastInDim S1x8 ![1] bcast_S8_S1x8_1 : (⟨S8, .f32⟩ : BufTy).Contents (Elt F) → (⟨S1x8, .f32⟩ : BufTy).Contents (Elt F)),
    StableHlo.unary main_v274 main_v275 (broadcastInDim S262144x8 ![0, 1] bcast_S1x8_S262144x8_0_1 : (⟨S1x8, .f32⟩ : BufTy).Contents (Elt F) → (⟨S262144x8, .f32⟩ : BufTy).Contents (Elt F)),
    StableHlo.binary main_v272 main_v275 main_v276 (mulf : (⟨S262144x8, .f32⟩ : BufTy).Contents (Elt F) → (⟨S262144x8, .f32⟩ : BufTy).Contents (Elt F) → (⟨S262144x8, .f32⟩ : BufTy).Contents (Elt F)),
    StableHlo.nullary main_cst_72 (constant S_ .f32 0x00000000#32),
    StableHlo.binary main_v267 main_cst_72 main_v277 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v277 main_v278 (broadcastInDim S262144 ![] bcast_S_S262144 : (⟨S_, .f32⟩ : BufTy).Contents (Elt F) → (⟨S262144, .f32⟩ : BufTy).Contents (Elt F)),
    StableHlo.binary main_v252 main_v278 main_v279 (addf : (⟨S262144, .f32⟩ : BufTy).Contents (Elt F) → (⟨S262144, .f32⟩ : BufTy).Contents (Elt F) → (⟨S262144, .f32⟩ : BufTy).Contents (Elt F)),
    StableHlo.nullary main_c_73 (constantI S_ 32 8#32),
    StableHlo.unary main_c_73 main_v280 (broadcastInDim S4 ![] bcast_S_S4 : (⟨S_, .i32⟩ : BufTy).Contents (Elt F) → (⟨S4, .i32⟩ : BufTy).Contents (Elt F)),
    StableHlo.binary main_c_1 main_v280 main_v281 (addi : (⟨S4, .i32⟩ : BufTy).Contents (Elt F) → (⟨S4, .i32⟩ : BufTy).Contents (Elt F) → (⟨S4, .i32⟩ : BufTy).Contents (Elt F)),
    StableHlo.ternary main_c_13 main_v281 main_c_1 main_v282 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v282 main_v283 (broadcastInDim S4x1 ![0] bcast_S4_S4x1_0 : (⟨S4, .i32⟩ : BufTy).Contents (Elt F) → (⟨S4x1, .i32⟩ : BufTy).Contents (Elt F)) ]

theorem p9_sub : (p9 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub .., binary_bufs_sub .., unary_bufs_sub ..,
    unary_bufs_sub .., unary_bufs_sub .., binary_bufs_sub .., nullary_bufs_sub .., binary_bufs_sub .., unary_bufs_sub .., binary_bufs_sub .., nullary_bufs_sub ..,
    unary_bufs_sub .., binary_bufs_sub .., ternary_bufs_sub .., unary_bufs_sub ..⟩
theorem p9_fresh : (p9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- Operations 408 … 476 of @main's 730 (the called functions' operations written out at their calls). -/
abbrev p10 : List (HloOp τ sig (Elt F)) :=
  [ StableHlo.binary main_v276 main_v283 main_v284 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_74 (constantI S_ 32 8#32),
    StableHlo.unary main_c_74 main_v285 (broadcastInDim S4 ![] bcast_S_S4 : (⟨S_, .i32⟩ : BufTy).Contents (Elt F) → (⟨S4, .i32⟩ : BufTy).Contents (Elt F)),
    StableHlo.binary main_c main_v285 main_v286 (addi : (⟨S4, .i32⟩ : BufTy).Contents (Elt F) → (⟨S4, .i32⟩ : BufTy).Contents (Elt F) → (⟨S4, .i32⟩ : BufTy).Contents (Elt F)),
    StableHlo.ternary main_c_14 main_v286 main_c main_v287 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v287 main_v288 (broadcastInDim S4x1 ![0] bcast_S4_S4x1_0 : (⟨S4, .i32⟩ : BufTy).Contents (Elt F) → (⟨S4x1, .i32⟩ : BufTy).Contents (Elt F)),
    StableHlo.binary main_v276 main_v288 main_v289 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v290 ((extractStridedSlice S1x4x128 ![3, 0, 0] · slices_S6x4x128_S1x4x128_3_0_0) : (⟨S6x4x128, .f32⟩ : BufTy).Contents (Elt F) → (⟨S1x4x128, .f32⟩ : BufTy).Contents (Elt F)),
    StableHlo.reshape main_v290 main_v291 rfl shapeCasts_S1x4x128_S4x128,
    StableHlo.binary main_v284 main_v291 main_v292 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v293 ((extractStridedSlice S1x128 ![3, 0] · slices_S6x128_S1x128_3_0) : (⟨S6x128, .f32⟩ : BufTy).Contents (Elt F) → (⟨S1x128, .f32⟩ : BufTy).Contents (Elt F)),
    StableHlo.reshape main_v293 main_v294 rfl shapeCasts_S1x128_S128,
    StableHlo.unary main_v294 main_v295 (broadcastInDim S1x128 ![1] bcast_S128_S1x128_1 : (⟨S128, .f32⟩ : BufTy).Contents (Elt F) → (⟨S1x128, .f32⟩ : BufTy).Contents (Elt F)),
    StableHlo.unary main_v295 main_v296 (broadcastInDim S262144x128 ![0, 1] bcast_S1x128_S262144x128_0_1 : (⟨S1x128, .f32⟩ : BufTy).Contents (Elt F) → (⟨S262144x128, .f32⟩ : BufTy).Contents (Elt F)),
    StableHlo.binary main_v292 main_v296 main_v297 (addf : (⟨S262144x128, .f32⟩ : BufTy).Contents (Elt F) → (⟨S262144x128, .f32⟩ : BufTy).Contents (Elt F) → (⟨S262144x128, .f32⟩ : BufTy).Contents (Elt F)),
    StableHlo.nullary main_call13_cst (constant S_ .f32 0x00000000#32),
    StableHlo.unary main_call13_cst main_call13_v0 (broadcastInDim S262144x128 ![] bcast_S_S262144x128 : (⟨S_, .f32⟩ : BufTy).Contents (Elt F) → (⟨S262144x128, .f32⟩ : BufTy).Contents (Elt F)),
    StableHlo.binary main_v297 main_call13_v0 main_v298 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v299 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v299 main_v300 rfl shapeCasts_S1x128x128_S128x128,
    StableHlo.binary main_v298 main_v300 main_v301 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v302 ((extractStridedSlice S1x128 ![3, 0] · slices_S6x128_S1x128_3_0) : (⟨S6x128, .f32⟩ : BufTy).Contents (Elt F) → (⟨S1x128, .f32⟩ : BufTy).Contents (Elt F)),
    StableHlo.reshape main_v302 main_v303 rfl shapeCasts_S1x128_S128,
    StableHlo.unary main_v303 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S262144x128 ![0, 1] bcast_S1x128_S262144x128_0_1 : (⟨S1x128, .f32⟩ : BufTy).Contents (Elt F) → (⟨S262144x128, .f32⟩ : BufTy).Contents (Elt F)),
    StableHlo.binary main_v301 main_v305 main_v306 (addf : (⟨S262144x128, .f32⟩ : BufTy).Contents (Elt F) → (⟨S262144x128, .f32⟩ : BufTy).Contents (Elt F) → (⟨S262144x128, .f32⟩ : BufTy).Contents (Elt F)),
    StableHlo.nullary main_call14_cst (constant S_ .f32 0x00000000#32),
    StableHlo.unary main_call14_cst main_call14_v0 (broadcastInDim S262144x128 ![] bcast_S_S262144x128 : (⟨S_, .f32⟩ : BufTy).Contents (Elt F) → (⟨S262144x128, .f32⟩ : BufTy).Contents (Elt F)),
    StableHlo.binary main_v306 main_call14_v0 main_v307 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v308 ((extractStridedSlice S1x128x8 ![3, 0, 0] · slices_S6x128x8_S1x128x8_3_0_0) : (⟨S6x128x8, .f32⟩ : BufTy).Contents (Elt F) → (⟨S1x128x8, .f32⟩ : BufTy).Contents (Elt F)),
    StableHlo.reshape main_v308 main_v309 rfl shapeCasts_S1x128x8_S128x8,
    StableHlo.binary main_v307 main_v309 main_v310 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v311 ((extractStridedSlice S1x8 ![3, 0] · slices_S6x8_S1x8_3_0) : (⟨S6x8, .f32⟩ : BufTy).Contents (Elt F) → (⟨S1x8, .f32⟩ : BufTy).Contents (Elt F)),
    StableHlo.reshape main_v311 main_v312 rfl shapeCasts_S1x8_S8,
    StableHlo.unary main_v312 main_v313 (broadcastInDim S1x8 ![1] bcast_S8_S1x8_1 : (⟨S8, .f32⟩ : BufTy).Contents (Elt F) → (⟨S1x8, .f32⟩ : BufTy).Contents (Elt F)),
    StableHlo.unary main_v313 main_v314 (broadcastInDim S262144x8 ![0, 1] bcast_S1x8_S262144x8_0_1 : (⟨S1x8, .f32⟩ : BufTy).Contents (Elt F) → (⟨S262144x8, .f32⟩ : BufTy).Contents (Elt F)),
    StableHlo.binary main_v310 main_v314 main_v315 (addf : (⟨S262144x8, .f32⟩ : BufTy).Contents (Elt F) → (⟨S262144x8, .f32⟩ : BufTy).Contents (Elt F) → (⟨S262144x8, .f32⟩ : BufTy).Contents (Elt F)),
    StableHlo.unary main_v315 main_v316 ((extractStridedSlice S262144x4 ![0, 0] · slices_S262144x8_S262144x4_0_0) : (⟨S262144x8, .f32⟩ : BufTy).Contents (Elt F) → (⟨S262144x4, .f32⟩ : BufTy).Contents (Elt F)),
    StableHlo.unary main_v315 main_v317 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v318 ((extractStridedSlice S1x4 ![3, 0] · slices_S6x4_S1x4_3_0) : (⟨S6x4, .f32⟩ : BufTy).Contents (Elt F) → (⟨S1x4, .f32⟩ : BufTy).Contents (Elt F)),
    StableHlo.reshape main_v318 main_v319 rfl shapeCasts_S1x4_S4,
    StableHlo.nullary main_cst_75 (constant S_ .f32 0xC0A00000#32),
    StableHlo.nullary main_cst_76 (constant S_ .f32 0x40A00000#32),
    StableHlo.unary main_cst_75 main_call15_v0 (id : (⟨S_, .f32⟩ : BufTy).Contents (Elt F) → (⟨S_, .f32⟩ : BufTy).Contents (Elt F)),
    StableHlo.unary main_call15_v0 main_call15_v1 (broadcastInDim S4 ![] bcast_S_S4 : (⟨S_, .f32⟩ : BufTy).Contents (Elt F) → (⟨S4, .f32⟩ : BufTy).Contents (Elt F)),
    StableHlo.binary main_call15_v1 main_v319 main_call15_v2 (maximumf : (⟨S4, .f32⟩ : BufTy).Contents (Elt F) → (⟨S4, .f32⟩ : BufTy).Contents (Elt F) → (⟨S4, .f32⟩ : BufTy).Contents (Elt F)),
    StableHlo.unary main_cst_76 main_call15_v3 (id : (⟨S_, .f32⟩ : BufTy).Contents (Elt F) → (⟨S_, .f32⟩ : BufTy).Contents (Elt F)),
    StableHlo.unary main_call15_v3 main_call15_v4 (broadcastInDim S4 ![] bcast_S_S4 : (⟨S_, .f32⟩ : BufTy).Contents (Elt F) → (⟨S4, .f32⟩ : BufTy).Contents (Elt F)),
    StableHlo.binary main_call15_v4 main_call15_v2 main_v320 (minimumf : (⟨S4, .f32⟩ : BufTy).Contents (Elt F) → (⟨S4, .f32⟩ : BufTy).Contents (Elt F) → (⟨S4, .f32⟩ : BufTy).Contents (Elt F)),
    StableHlo.unary main_v320 main_v321 (Host.exp : (⟨S4, .f32⟩ : BufTy).Contents (Elt F) → (⟨S4, .f32⟩ : BufTy).Contents (Elt F)),
    StableHlo.unary main_v316 main_v322 (Host.tanh : (⟨S262144x4, .f32⟩ : BufTy).Contents (Elt F) → (⟨S262144x4, .f32⟩ : BufTy).Contents (Elt F)),
    StableHlo.unary main_v321 main_v323 (broadcastInDim S1x4 ![1] bcast_S4_S1x4_1 : (⟨S4, .f32⟩ : BufTy).Contents (Elt F) → (⟨S1x4, .f32⟩ : BufTy).Contents (Elt F)),
    StableHlo.unary main_v323 main_v324 (broadcastInDim S262144x4 ![0, 1] bcast_S1x4_S262144x4_0_1 : (⟨S1x4, .f32⟩ : BufTy).Contents (Elt F) → (⟨S262144x4, .f32⟩ : BufTy).Contents (Elt F)),
    StableHlo.binary main_v324 main_v322 main_v325 (mulf : (⟨S262144x4, .f32⟩ : BufTy).Contents (Elt F) → (⟨S262144x4, .f32⟩ : BufTy).Contents (Elt F) → (⟨S262144x4, .f32⟩ : BufTy).Contents (Elt F)),
    StableHlo.unary main_v317 main_v326 (Host.tanh : (⟨S262144x4, .f32⟩ : BufTy).Contents (Elt F) → (⟨S262144x4, .f32⟩ : BufTy).Contents (Elt F)),
    StableHlo.nullary main_cst_77 (constant S_ .f32 0x3F19999A#32),
    StableHlo.unary main_cst_77 main_v327 (broadcastInDim S262144x4 ![] bcast_S_S262144x4 : (⟨S_, .f32⟩ : BufTy).Contents (Elt F) → (⟨S262144x4, .f32⟩ : BufTy).Contents (Elt F)),
    StableHlo.binary main_v327 main_v326 main_v328 (mulf : (⟨S262144x4, .f32⟩ : BufTy).Contents (Elt F) → (⟨S262144x4, .f32⟩ : BufTy).Contents (Elt F) → (⟨S262144x4, .f32⟩ : BufTy).Contents (Elt F)),
    StableHlo.nullary main_cst_78 (constant S_ .f32 0x3F800000#32),
    StableHlo.unary main_cst_78 main_v329 (broadcastInDim S262144x4 ![] bcast_S_S262144x4 : (⟨S_, .f32⟩ : BufTy).Contents (Elt F) → (⟨S262144x4, .f32⟩ : BufTy).Contents (Elt F)),
    StableHlo.binary main_v329 main_v328 main_v330 (addf : (⟨S262144x4, .f32⟩ : BufTy).Contents (Elt F) → (⟨S262144x4, .f32⟩ : BufTy).Contents (Elt F) → (⟨S262144x4, .f32⟩ : BufTy).Contents (Elt F)),
    StableHlo.binary main_v289 main_v330 main_v331 (mulf : (⟨S262144x4, .f32⟩ : BufTy).Contents (Elt F) → (⟨S262144x4, .f32⟩ : BufTy).Contents (Elt F) → (⟨S262144x4, .f32⟩ : BufTy).Contents (Elt F)),
    StableHlo.binary main_v331 main_v325 main_v332 (addf : (⟨S262144x4, .f32⟩ : BufTy).Contents (Elt F) → (⟨S262144x4, .f32⟩ : BufTy).Contents (Elt F) → (⟨S262144x4, .f32⟩ : BufTy).Contents (Elt F)),
    StableHlo.nullary main_cst_79 (constant S_ .f32 0x3F800000#32),
    StableHlo.unary main_cst_79 main_v333 (broadcastInDim S262144x4 ![] bcast_S_S262144x4 : (⟨S_, .f32⟩ : BufTy).Contents (Elt F) → (⟨S262144x4, .f32⟩ : BufTy).Contents (Elt F)),
    StableHlo.binary main_v333 main_v328 main_v334 (addf : (⟨S262144x4, .f32⟩ : BufTy).Contents (Elt F) → (⟨S262144x4, .f32⟩ : BufTy).Contents (Elt F) → (⟨S262144x4, .f32⟩ : BufTy).Contents (Elt F)),
    StableHlo.unary main_v334 main_v335 (Host.absf : (⟨S262144x4, .f32⟩ : BufTy).Contents (Elt F) → (⟨S262144x4, .f32⟩ : BufTy).Contents (Elt F)),
    StableHlo.nullary main_cst_80 (constant S_ .f32 0x322BCC77#32),
    StableHlo.unary main_cst_80 main_v336 (broadcastInDim S262144x4 ![] bcast_S_S262144x4 : (⟨S_, .f32⟩ : BufTy).Contents (Elt F) → (⟨S262144x4, .f32⟩ : BufTy).Contents (Elt F)) ]

theorem p10_sub : (p10 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub ..,
    reshape_bufs_sub .., binary_bufs_sub .., unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub .., unary_bufs_sub .., unary_bufs_sub ..,
    reshape_bufs_sub .., nullary_bufs_sub .., nullary_bufs_sub .., unary_bufs_sub .., unary_bufs_sub .., binary_bufs_sub .., unary_bufs_sub .., unary_bufs_sub ..,
    binary_bufs_sub .., unary_bufs_sub .., unary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., binary_bufs_sub .., binary_bufs_sub .., nullary_bufs_sub ..,
    unary_bufs_sub .., binary_bufs_sub .., unary_bufs_sub .., nullary_bufs_sub .., unary_bufs_sub ..⟩
theorem p10_fresh : (p10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Operations 477 … 496 of @main's 730 (the called functions' operations written out at their calls). -/
abbrev p11 : List (HloOp τ sig (Elt F)) :=
  [ StableHlo.binary main_v335 main_v336 main_v337 (addf : (⟨S262144x4, .f32⟩ : BufTy).Contents (Elt F) → (⟨S262144x4, .f32⟩ : BufTy).Contents (Elt F) → (⟨S262144x4, .f32⟩ : BufTy).Contents (Elt F)),
    StableHlo.unary main_v337 main_v338 (Host.log : (⟨S262144x4, .f32⟩ : BufTy).Contents (Elt F) → (⟨S262144x4, .f32⟩ : BufTy).Contents (Elt F)),
    StableHlo.nullary main_cst_81 (constant S_ .f32 0x00000000#32),
    StableHlo.binary main_v338 main_cst_81 main_v339 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v279 main_v339 main_v340 (addf : (⟨S262144, .f32⟩ : BufTy).Contents (Elt F) → (⟨S262144, .f32⟩ : BufTy).Contents (Elt F) → (⟨S262144, .f32⟩ : BufTy).Contents (Elt F)),
    StableHlo.nullary main_cst_82 (constant S_ .f32 0x00000000#32),
    StableHlo.unary main_cst_82 main_v341 (broadcastInDim S262144x8 ![] bcast_S_S262144x8 : (⟨S_, .f32⟩ : BufTy).Contents (Elt F) → (⟨S262144x8, .f32⟩ : BufTy).Contents (Elt F)),
    StableHlo.nullary main_c_83 (constantI S_ 32 8#32),
    StableHlo.unary main_c_83 main_v342 (broadcastInDim S4 ![] bcast_S_S4 : (⟨S_, .i32⟩ : BufTy).Contents (Elt F) → (⟨S4, .i32⟩ : BufTy).Contents (Elt F)),
    StableHlo.binary main_c_1 main_v342 main_v343 (addi : (⟨S4, .i32⟩ : BufTy).Contents (Elt F) → (⟨S4, .i32⟩ : BufTy).Contents (Elt F) → (⟨S4, .i32⟩ : BufTy).Contents (Elt F)),
    StableHlo.ternary main_c_15 main_v343 main_c_1 main_v344 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v344 main_v345 (broadcastInDim S4x1 ![0] bcast_S4_S4x1_0 : (⟨S4, .i32⟩ : BufTy).Contents (Elt F) → (⟨S4x1, .i32⟩ : BufTy).Contents (Elt F)),
    StableHlo.ternary main_v341 main_v345 main_v284 main_v346 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_84 (constantI S_ 32 8#32),
    StableHlo.unary main_c_84 main_v347 (broadcastInDim S4 ![] bcast_S_S4 : (⟨S_, .i32⟩ : BufTy).Contents (Elt F) → (⟨S4, .i32⟩ : BufTy).Contents (Elt F)),
    StableHlo.binary main_c main_v347 main_v348 (addi : (⟨S4, .i32⟩ : BufTy).Contents (Elt F) → (⟨S4, .i32⟩ : BufTy).Contents (Elt F) → (⟨S4, .i32⟩ : BufTy).Contents (Elt F)),
    StableHlo.ternary main_c_16 main_v348 main_c main_v349 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v349 main_v350 (broadcastInDim S4x1 ![0] bcast_S4_S4x1_0 : (⟨S4, .i32⟩ : BufTy).Contents (Elt F) → (⟨S4x1, .i32⟩ : BufTy).Contents (Elt F)),
    StableHlo.ternary main_v346 main_v350 main_v332 main_v351 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v351 main_v352 (Host.reverse [1] : (⟨S262144x8, .f32⟩ : BufTy).Contents (Elt F) → (⟨S262144x8, .f32⟩ : BufTy).Contents (Elt F)) ]

theorem p11_sub : (p11 : List (HloOp τ sig (Elt F))).Forall fun op => op.bufs ⊆ tcRefs τ sig :=
  ⟨binary_bufs_sub .., unary_bufs_sub .., nullary_bufs_sub .., binary_bufs_sub .., binary_bufs_sub .., nullary_bufs_sub .., unary_bufs_sub .., nullary_bufs_sub ..,
    unary_bufs_sub .., binary_bufs_sub .., ternary_bufs_sub .., unary_bufs_sub .., ternary_bufs_sub .., nullary_bufs_sub .., unary_bufs_sub .., binary_bufs_sub ..,
    ternary_bufs_sub .., unary_bufs_sub .., ternary_bufs_sub .., unary_bufs_sub ..⟩
theorem p11_fresh : (p11 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Operations 497 … 543 of @main's 730 (the called functions' operations written out at their calls). -/
abbrev p12 : List (HloOp τ sig (Elt F)) :=
  [ StableHlo.unary main_arg1 main_v353 ((extractStridedSlice S1x8 ![4, 0] · slices_S6x8_S1x8_4_0) : (⟨S6x8, .f32⟩ : BufTy).Contents (Elt F) → (⟨S1x8, .f32⟩ : BufTy).Contents (Elt F)),
    StableHlo.reshape main_v353 main_v354 rfl shapeCasts_S1x8_S8,
    StableHlo.nullary main_cst_85 (constant S_ .f32 0xC0A00000#32),
    StableHlo.nullary main_cst_86 (constant S_ .f32 0x40A00000#32),
    StableHlo.unary main_cst_85 main_call16_v0 (id : (⟨S_, .f32⟩ : BufTy).Contents (Elt F) → (⟨S_, .f32⟩ : BufTy).Contents (Elt F)),
    StableHlo.unary main_call16_v0 main_call16_v1 (broadcastInDim S8 ![] bcast_S_S8 : (⟨S_, .f32⟩ : BufTy).Contents (Elt F) → (⟨S8, .f32⟩ : BufTy).Contents (Elt F)),
    StableHlo.binary main_call16_v1 main_v354 main_call16_v2 (maximumf : (⟨S8, .f32⟩ : BufTy).Contents (Elt F) → (⟨S8, .f32⟩ : BufTy).Contents (Elt F) → (⟨S8, .f32⟩ : BufTy).Contents (Elt F)),
    StableHlo.unary main_cst_86 main_call16_v3 (id : (⟨S_, .f32⟩ : BufTy).Contents (Elt F) → (⟨S_, .f32⟩ : BufTy).Contents (Elt F)),
    StableHlo.unary main_call16_v3 main_call16_v4 (broadcastInDim S8 ![] bcast_S_S8 : (⟨S_, .f32⟩ : BufTy).Contents (Elt F) → (⟨S8, .f32⟩ : BufTy).Contents (Elt F)),
    StableHlo.binary main_call16_v4 main_call16_v2 main_v355 (minimumf : (⟨S8, .f32⟩ : BufTy).Contents (Elt F) → (⟨S8, .f32⟩ : BufTy).Contents (Elt F) → (⟨S8, .f32⟩ : BufTy).Contents (Elt F)),
    StableHlo.unary main_arg2 main_v356 ((extractStridedSlice S1x8 ![4, 0] · slices_S6x8_S1x8_4_0) : (⟨S6x8, .f32⟩ : BufTy).Contents (Elt F) → (⟨S1x8, .f32⟩ : BufTy).Contents (Elt F)),
    StableHlo.reshape main_v356 main_v357 rfl shapeCasts_S1x8_S8,
    StableHlo.unary main_v357 main_v358 (broadcastInDim S1x8 ![1] bcast_S8_S1x8_1 : (⟨S8, .f32⟩ : BufTy).Contents (Elt F) → (⟨S1x8, .f32⟩ : BufTy).Contents (Elt F)),
    StableHlo.unary main_v358 main_v359 (broadcastInDim S262144x8 ![0, 1] bcast_S1x8_S262144x8_0_1 : (⟨S1x8, .f32⟩ : BufTy).Contents (Elt F) → (⟨S262144x8, .f32⟩ : BufTy).Contents (Elt F)),
    StableHlo.binary main_v352 main_v359 main_v360 (addf : (⟨S262144x8, .f32⟩ : BufTy).Contents (Elt F) → (⟨S262144x8, .f32⟩ : BufTy).Contents (Elt F) → (⟨S262144x8, .f32⟩ : BufTy).Contents (Elt F)),
    StableHlo.unary main_v355 main_v361 (Host.exp : (⟨S8, .f32⟩ : BufTy).Contents (Elt F) → (⟨S8, .f32⟩ : BufTy).Contents (Elt F)),
    StableHlo.unary main_v361 main_v362 (broadcastInDim S1x8 ![1] bcast_S8_S1x8_1 : (⟨S8, .f32⟩ : BufTy).Contents (Elt F) → (⟨S1x8, .f32⟩ : BufTy).Contents (Elt F)),
    StableHlo.unary main_v362 main_v363 (broadcastInDim S262144x8 ![0, 1] bcast_S1x8_S262144x8_0_1 : (⟨S1x8, .f32⟩ : BufTy).Contents (Elt F) → (⟨S262144x8, .f32⟩ : BufTy).Contents (Elt F)),
    StableHlo.binary main_v360 main_v363 main_v364 (mulf : (⟨S262144x8, .f32⟩ : BufTy).Contents (Elt F) → (⟨S262144x8, .f32⟩ : BufTy).Contents (Elt F) → (⟨S262144x8, .f32⟩ : BufTy).Contents (Elt F)),
    StableHlo.nullary main_cst_87 (constant S_ .f32 0x00000000#32),
    StableHlo.binary main_v355 main_cst_87 main_v365 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v365 main_v366 (broadcastInDim S262144 ![] bcast_S_S262144 : (⟨S_, .f32⟩ : BufTy).Contents (Elt F) → (⟨S262144, .f32⟩ : BufTy).Contents (Elt F)),
    StableHlo.binary main_v340 main_v366 main_v367 (addf : (⟨S262144, .f32⟩ : BufTy).Contents (Elt F) → (⟨S262144, .f32⟩ : BufTy).Contents (Elt F) → (⟨S262144, .f32⟩ : BufTy).Contents (Elt F)),
    StableHlo.nullary main_c_88 (constantI S_ 32 8#32),
    StableHlo.unary main_c_88 main_v368 (broadcastInDim S4 ![] bcast_S_S4 : (⟨S_, .i32⟩ : BufTy).Contents (Elt F) → (⟨S4, .i32⟩ : BufTy).Contents (Elt F)),
    StableHlo.binary main_c main_v368 main_v369 (addi : (⟨S4, .i32⟩ : BufTy).Contents (Elt F) → (⟨S4, .i32⟩ : BufTy).Contents (Elt F) → (⟨S4, .i32⟩ : BufTy).Contents (Elt F)),
    StableHlo.ternary main_c_17 main_v369 main_c main_v370 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v370 main_v371 (broadcastInDim S4x1 ![0] bcast_S4_S4x1_0 : (⟨S4, .i32⟩ : BufTy).Contents (Elt F) → (⟨S4x1, .i32⟩ : BufTy).Contents (Elt F)),
    StableHlo.binary main_v364 main_v371 main_v372 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_89 (constantI S_ 32 8#32),
    StableHlo.unary main_c_89 main_v373 (broadcastInDim S4 ![] bcast_S_S4 : (⟨S_, .i32⟩ : BufTy).Contents (Elt F) → (⟨S4, .i32⟩ : BufTy).Contents (Elt F)),
    StableHlo.binary main_c_1 main_v373 main_v374 (addi : (⟨S4, .i32⟩ : BufTy).Contents (Elt F) → (⟨S4, .i32⟩ : BufTy).Contents (Elt F) → (⟨S4, .i32⟩ : BufTy).Contents (Elt F)),
    StableHlo.ternary main_c_18 main_v374 main_c_1 main_v375 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v375 main_v376 (broadcastInDim S4x1 ![0] bcast_S4_S4x1_0 : (⟨S4, .i32⟩ : BufTy).Contents (Elt F) → (⟨S4x1, .i32⟩ : BufTy).Contents (Elt F)),
    StableHlo.binary main_v364 main_v376 main_v377 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v378 ((extractStridedSlice S1x4x128 ![4, 0, 0] · slices_S6x4x128_S1x4x128_4_0_0) : (⟨S6x4x128, .f32⟩ : BufTy).Contents (Elt F) → (⟨S1x4x128, .f32⟩ : BufTy).Contents (Elt F)),
    StableHlo.reshape main_v378 main_v379 rfl shapeCasts_S1x4x128_S4x128,
    StableHlo.binary main_v372 main_v379 main_v380 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v381 ((extractStridedSlice S1x128 ![4, 0] · slices_S6x128_S1x128_4_0) : (⟨S6x128, .f32⟩ : BufTy).Contents (Elt F) → (⟨S1x128, .f32⟩ : BufTy).Contents (Elt F)),
    StableHlo.reshape main_v381 main_v382 rfl shapeCasts_S1x128_S128,
    StableHlo.unary main_v382 main_v383 (broadcastInDim S1x128 ![1] bcast_S128_S1x128_1 : (⟨S128, .f32⟩ : BufTy).Contents (Elt F) → (⟨S1x128, .f32⟩ : BufTy).Contents (Elt F)),
    StableHlo.unary main_v383 main_v384 (broadcastInDim S262144x128 ![0, 1] bcast_S1x128_S262144x128_0_1 : (⟨S1x128, .f32⟩ : BufTy).Contents (Elt F) → (⟨S262144x128, .f32⟩ : BufTy).Contents (Elt F)),
    StableHlo.binary main_v380 main_v384 main_v385 (addf : (⟨S262144x128, .f32⟩ : BufTy).Contents (Elt F) → (⟨S262144x128, .f32⟩ : BufTy).Contents (Elt F) → (⟨S262144x128, .f32⟩ : BufTy).Contents (Elt F)),
    StableHlo.nullary main_call17_cst (constant S_ .f32 0x00000000#32),
    StableHlo.unary main_call17_cst main_call17_v0 (broadcastInDim S262144x128 ![] bcast_S_S262144x128 : (⟨S_, .f32⟩ : BufTy).Contents (Elt F) → (⟨S262144x128, .f32⟩ : BufTy).Contents (Elt F)),
    StableHlo.binary main_v385 main_call17_v0 main_v386 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v387 ((extractStridedSlice S1x128x128 ![4, 0, 0] · slices_S6x128x128_S1x128x128_4_0_0) : (⟨S6x128x128, .f32⟩ : BufTy).Contents (Elt F) → (⟨S1x128x128, .f32⟩ : BufTy).Contents (Elt F)) ]

theorem p12_sub : (p12 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub .., binary_bufs_sub .., unary_bufs_sub ..,
    unary_bufs_sub .., unary_bufs_sub .., binary_bufs_sub .., nullary_bufs_sub .., binary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub .., unary_bufs_sub ..⟩
theorem p12_fresh : (p12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

set_option maxRecDepth 8192 in
/-- Window 4 of @main is that line of operations: the called functions unfold at their calls. -/
theorem part4_eq (c : Dev nD) : main_part4 (F := F) c = seq (p7) := rfl

set_option maxRecDepth 8192 in
/-- Window 5 of @main is that line of operations: the called functions unfold at their calls. -/
theorem part5_eq (c : Dev nD) : main_part5 (F := F) c = seq (p8 ++ (p9)) := rfl

set_option maxRecDepth 8192 in
/-- Window 6 of @main is that line of operations: the called functions unfold at their calls. -/
theorem part6_eq (c : Dev nD) : main_part6 (F := F) c = seq (p10) := rfl

set_option maxRecDepth 8192 in
/-- Window 7 of @main is that line of operations: the called functions unfold at their calls. -/
theorem part7_eq (c : Dev nD) : main_part7 (F := F) c = seq (p11 ++ (p12)) := rfl

end Cert.ReferenceIdeal.FlowValue

end
-- ==== Proof.RefOpsC.lean ====
/-
  The reference program's @main as a line of host operations, part C: each printed statement is one operation, and a
  call of one of the three small functions (the two clips and the rectifier) is that function's operations written
  out over the call's own buffers. The line is cut at the printed windows and at the ends of the six layers, so
  that both the windows and the layers are concatenations of the pieces.
-/
import proofs.«135321_j73263552135281_2_alg».proof.Proof.Gen.ReferenceIdeal
import Idealize.ShloMosaic.Lib.StableHlo.Run

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- Operations 544 … 610 of @main's 730 (the called functions' operations written out at their calls). -/
abbrev p13 : List (HloOp τ sig (Elt F)) :=
  [ StableHlo.reshape main_v387 main_v388 rfl shapeCasts_S1x128x128_S128x128,
    StableHlo.binary main_v386 main_v388 main_v389 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v390 ((extractStridedSlice S1x128 ![4, 0] · slices_S6x128_S1x128_4_0) : (⟨S6x128, .f32⟩ : BufTy).Contents (Elt F) → (⟨S1x128, .f32⟩ : BufTy).Contents (Elt F)),
    StableHlo.reshape main_v390 main_v391 rfl shapeCasts_S1x128_S128,
    StableHlo.unary main_v391 main_v392 (broadcastInDim S1x128 ![1] bcast_S128_S1x128_1 : (⟨S128, .f32⟩ : BufTy).Contents (Elt F) → (⟨S1x128, .f32⟩ : BufTy).Contents (Elt F)),
    StableHlo.unary main_v392 main_v393 (broadcastInDim S262144x128 ![0, 1] bcast_S1x128_S262144x128_0_1 : (⟨S1x128, .f32⟩ : BufTy).Contents (Elt F) → (⟨S262144x128, .f32⟩ : BufTy).Contents (Elt F)),
    StableHlo.binary main_v389 main_v393 main_v394 (addf : (⟨S262144x128, .f32⟩ : BufTy).Contents (Elt F) → (⟨S262144x128, .f32⟩ : BufTy).Contents (Elt F) → (⟨S262144x128, .f32⟩ : BufTy).Contents (Elt F)),
    StableHlo.nullary main_call18_cst (constant S_ .f32 0x00000000#32),
    StableHlo.unary main_call18_cst main_call18_v0 (broadcastInDim S262144x128 ![] bcast_S_S262144x128 : (⟨S_, .f32⟩ : BufTy).Contents (Elt F) → (⟨S262144x128, .f32⟩ : BufTy).Contents (Elt F)),
    StableHlo.binary main_v394 main_call18_v0 main_v395 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v396 ((extractStridedSlice S1x128x8 ![4, 0, 0] · slices_S6x128x8_S1x128x8_4_0_0) : (⟨S6x128x8, .f32⟩ : BufTy).Contents (Elt F) → (⟨S1x128x8, .f32⟩ : BufTy).Contents (Elt F)),
    StableHlo.reshape main_v396 main_v397 rfl shapeCasts_S1x128x8_S128x8,
    StableHlo.binary main_v395 main_v397 main_v398 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v399 ((extractStridedSlice S1x8 ![4, 0] · slices_S6x8_S1x8_4_0) : (⟨S6x8, .f32⟩ : BufTy).Contents (Elt F) → (⟨S1x8, .f32⟩ : BufTy).Contents (Elt F)),
    StableHlo.reshape main_v399 main_v400 rfl shapeCasts_S1x8_S8,
    StableHlo.unary main_v400 main_v401 (broadcastInDim S1x8 ![1] bcast_S8_S1x8_1 : (⟨S8, .f32⟩ : BufTy).Contents (Elt F) → (⟨S1x8, .f32⟩ : BufTy).Contents (Elt F)),
    StableHlo.unary main_v401 main_v402 (broadcastInDim S262144x8 ![0, 1] bcast_S1x8_S262144x8_0_1 : (⟨S1x8, .f32⟩ : BufTy).Contents (Elt F) → (⟨S262144x8, .f32⟩ : BufTy).Contents (Elt F)),
    StableHlo.binary main_v398 main_v402 main_v403 (addf : (⟨S262144x8, .f32⟩ : BufTy).Contents (Elt F) → (⟨S262144x8, .f32⟩ : BufTy).Contents (Elt F) → (⟨S262144x8, .f32⟩ : BufTy).Contents (Elt F)),
    StableHlo.unary main_v403 main_v404 ((extractStridedSlice S262144x4 ![0, 0] · slices_S262144x8_S262144x4_0_0) : (⟨S262144x8, .f32⟩ : BufTy).Contents (Elt F) → (⟨S262144x4, .f32⟩ : BufTy).Contents (Elt F)),
    StableHlo.unary main_v403 main_v405 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v406 ((extractStridedSlice S1x4 ![4, 0] · slices_S6x4_S1x4_4_0) : (⟨S6x4, .f32⟩ : BufTy).Contents (Elt F) → (⟨S1x4, .f32⟩ : BufTy).Contents (Elt F)),
    StableHlo.reshape main_v406 main_v407 rfl shapeCasts_S1x4_S4,
    StableHlo.nullary main_cst_90 (constant S_ .f32 0xC0A00000#32),
    StableHlo.nullary main_cst_91 (constant S_ .f32 0x40A00000#32),
    StableHlo.unary main_cst_90 main_call19_v0 (id : (⟨S_, .f32⟩ : BufTy).Contents (Elt F) → (⟨S_, .f32⟩ : BufTy).Contents (Elt F)),
    StableHlo.unary main_call19_v0 main_call19_v1 (broadcastInDim S4 ![] bcast_S_S4 : (⟨S_, .f32⟩ : BufTy).Contents (Elt F) → (⟨S4, .f32⟩ : BufTy).Contents (Elt F)),
    StableHlo.binary main_call19_v1 main_v407 main_call19_v2 (maximumf : (⟨S4, .f32⟩ : BufTy).Contents (Elt F) → (⟨S4, .f32⟩ : BufTy).Contents (Elt F) → (⟨S4, .f32⟩ : BufTy).Contents (Elt F)),
    StableHlo.unary main_cst_91 main_call19_v3 (id : (⟨S_, .f32⟩ : BufTy).Contents (Elt F) → (⟨S_, .f32⟩ : BufTy).Contents (Elt F)),
    StableHlo.unary main_call19_v3 main_call19_v4 (broadcastInDim S4 ![] bcast_S_S4 : (⟨S_, .f32⟩ : BufTy).Contents (Elt F) → (⟨S4, .f32⟩ : BufTy).Contents (Elt F)),
    StableHlo.binary main_call19_v4 main_call19_v2 main_v408 (minimumf : (⟨S4, .f32⟩ : BufTy).Contents (Elt F) → (⟨S4, .f32⟩ : BufTy).Contents (Elt F) → (⟨S4, .f32⟩ : BufTy).Contents (Elt F)),
    StableHlo.unary main_v408 main_v409 (Host.exp : (⟨S4, .f32⟩ : BufTy).Contents (Elt F) → (⟨S4, .f32⟩ : BufTy).Contents (Elt F)),
    StableHlo.unary main_v404 main_v410 (Host.tanh : (⟨S262144x4, .f32⟩ : BufTy).Contents (Elt F) → (⟨S262144x4, .f32⟩ : BufTy).Contents (Elt F)),
    StableHlo.unary main_v409 main_v411 (broadcastInDim S1x4 ![1] bcast_S4_S1x4_1 : (⟨S4, .f32⟩ : BufTy).Contents (Elt F) → (⟨S1x4, .f32⟩ : BufTy).Contents (Elt F)),
    StableHlo.unary main_v411 main_v412 (broadcastInDim S262144x4 ![0, 1] bcast_S1x4_S262144x4_0_1 : (⟨S1x4, .f32⟩ : BufTy).Contents (Elt F) → (⟨S262144x4, .f32⟩ : BufTy).Contents (Elt F)),
    StableHlo.binary main_v412 main_v410 main_v413 (mulf : (⟨S262144x4, .f32⟩ : BufTy).Contents (Elt F) → (⟨S262144x4, .f32⟩ : BufTy).Contents (Elt F) → (⟨S262144x4, .f32⟩ : BufTy).Contents (Elt F)),
    StableHlo.unary main_v405 main_v414 (Host.tanh : (⟨S262144x4, .f32⟩ : BufTy).Contents (Elt F) → (⟨S262144x4, .f32⟩ : BufTy).Contents (Elt F)),
    StableHlo.nullary main_cst_92 (constant S_ .f32 0x3F19999A#32),
    StableHlo.unary main_cst_92 main_v415 (broadcastInDim S262144x4 ![] bcast_S_S262144x4 : (⟨S_, .f32⟩ : BufTy).Contents (Elt F) → (⟨S262144x4, .f32⟩ : BufTy).Contents (Elt F)),
    StableHlo.binary main_v415 main_v414 main_v416 (mulf : (⟨S262144x4, .f32⟩ : BufTy).Contents (Elt F) → (⟨S262144x4, .f32⟩ : BufTy).Contents (Elt F) → (⟨S262144x4, .f32⟩ : BufTy).Contents (Elt F)),
    StableHlo.nullary main_cst_93 (constant S_ .f32 0x3F800000#32),
    StableHlo.unary main_cst_93 main_v417 (broadcastInDim S262144x4 ![] bcast_S_S262144x4 : (⟨S_, .f32⟩ : BufTy).Contents (Elt F) → (⟨S262144x4, .f32⟩ : BufTy).Contents (Elt F)),
    StableHlo.binary main_v417 main_v416 main_v418 (addf : (⟨S262144x4, .f32⟩ : BufTy).Contents (Elt F) → (⟨S262144x4, .f32⟩ : BufTy).Contents (Elt F) → (⟨S262144x4, .f32⟩ : BufTy).Contents (Elt F)),
    StableHlo.binary main_v377 main_v418 main_v419 (mulf : (⟨S262144x4, .f32⟩ : BufTy).Contents (Elt F) → (⟨S262144x4, .f32⟩ : BufTy).Contents (Elt F) → (⟨S262144x4, .f32⟩ : BufTy).Contents (Elt F)),
    StableHlo.binary main_v419 main_v413 main_v420 (addf : (⟨S262144x4, .f32⟩ : BufTy).Contents (Elt F) → (⟨S262144x4, .f32⟩ : BufTy).Contents (Elt F) → (⟨S262144x4, .f32⟩ : BufTy).Contents (Elt F)),
    StableHlo.nullary main_cst_94 (constant S_ .f32 0x3F800000#32),
    StableHlo.unary main_cst_94 main_v421 (broadcastInDim S262144x4 ![] bcast_S_S262144x4 : (⟨S_, .f32⟩ : BufTy).Contents (Elt F) → (⟨S262144x4, .f32⟩ : BufTy).Contents (Elt F)),
    StableHlo.binary main_v421 main_v416 main_v422 (addf : (⟨S262144x4, .f32⟩ : BufTy).Contents (Elt F) → (⟨S262144x4, .f32⟩ : BufTy).Contents (Elt F) → (⟨S262144x4, .f32⟩ : BufTy).Contents (Elt F)),
    StableHlo.unary main_v422 main_v423 (Host.absf : (⟨S262144x4, .f32⟩ : BufTy).Contents (Elt F) → (⟨S262144x4, .f32⟩ : BufTy).Contents (Elt F)),
    StableHlo.nullary main_cst_95 (constant S_ .f32 0x322BCC77#32),
    StableHlo.unary main_cst_95 main_v424 (broadcastInDim S262144x4 ![] bcast_S_S262144x4 : (⟨S_, .f32⟩ : BufTy).Contents (Elt F) → (⟨S262144x4, .f32⟩ : BufTy).Contents (Elt F)),
    StableHlo.binary main_v423 main_v424 main_v425 (addf : (⟨S262144x4, .f32⟩ : BufTy).Contents (Elt F) → (⟨S262144x4, .f32⟩ : BufTy).Contents (Elt F) → (⟨S262144x4, .f32⟩ : BufTy).Contents (Elt F)),
    StableHlo.unary main_v425 main_v426 (Host.log : (⟨S262144x4, .f32⟩ : BufTy).Contents (Elt F) → (⟨S262144x4, .f32⟩ : BufTy).Contents (Elt F)),
    StableHlo.nullary main_cst_96 (constant S_ .f32 0x00000000#32),
    StableHlo.binary main_v426 main_cst_96 main_v427 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v367 main_v427 main_v428 (addf : (⟨S262144, .f32⟩ : BufTy).Contents (Elt F) → (⟨S262144, .f32⟩ : BufTy).Contents (Elt F) → (⟨S262144, .f32⟩ : BufTy).Contents (Elt F)),
    StableHlo.nullary main_cst_97 (constant S_ .f32 0x00000000#32),
    StableHlo.unary main_cst_97 main_v429 (broadcastInDim S262144x8 ![] bcast_S_S262144x8 : (⟨S_, .f32⟩ : BufTy).Contents (Elt F) → (⟨S262144x8, .f32⟩ : BufTy).Contents (Elt F)),
    StableHlo.nullary main_c_98 (constantI S_ 32 8#32),
    StableHlo.unary main_c_98 main_v430 (broadcastInDim S4 ![] bcast_S_S4 : (⟨S_, .i32⟩ : BufTy).Contents (Elt F) → (⟨S4, .i32⟩ : BufTy).Contents (Elt F)),
    StableHlo.binary main_c main_v430 main_v431 (addi : (⟨S4, .i32⟩ : BufTy).Contents (Elt F) → (⟨S4, .i32⟩ : BufTy).Contents (Elt F) → (⟨S4, .i32⟩ : BufTy).Contents (Elt F)),
    StableHlo.ternary main_c_19 main_v431 main_c main_v432 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v432 main_v433 (broadcastInDim S4x1 ![0] bcast_S4_S4x1_0 : (⟨S4, .i32⟩ : BufTy).Contents (Elt F) → (⟨S4x1, .i32⟩ : BufTy).Contents (Elt F)),
    StableHlo.ternary main_v429 main_v433 main_v372 main_v434 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_99 (constantI S_ 32 8#32),
    StableHlo.unary main_c_99 main_v435 (broadcastInDim S4 ![] bcast_S_S4 : (⟨S_, .i32⟩ : BufTy).Contents (Elt F) → (⟨S4, .i32⟩ : BufTy).Contents (Elt F)),
    StableHlo.binary main_c_1 main_v435 main_v436 (addi : (⟨S4, .i32⟩ : BufTy).Contents (Elt F) → (⟨S4, .i32⟩ : BufTy).Contents (Elt F) → (⟨S4, .i32⟩ : BufTy).Contents (Elt F)),
    StableHlo.ternary main_c_20 main_v436 main_c_1 main_v437 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ]

theorem p13_sub : (p13 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub .., reshape_bufs_sub .., unary_bufs_sub ..,
    unary_bufs_sub .., binary_bufs_sub .., unary_bufs_sub .., unary_bufs_sub .., unary_bufs_sub .., reshape_bufs_sub .., nullary_bufs_sub .., nullary_bufs_sub ..,
    unary_bufs_sub .., unary_bufs_sub .., binary_bufs_sub .., unary_bufs_sub .., unary_bufs_sub .., binary_bufs_sub .., unary_bufs_sub .., unary_bufs_sub ..,
    unary_bufs_sub .., unary_bufs_sub .., binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub .., binary_bufs_sub .., unary_bufs_sub ..,
    nullary_bufs_sub .., unary_bufs_sub .., binary_bufs_sub .., unary_bufs_sub .., nullary_bufs_sub .., binary_bufs_sub .., binary_bufs_sub .., nullary_bufs_sub ..,
    unary_bufs_sub .., nullary_bufs_sub .., unary_bufs_sub .., binary_bufs_sub .., ternary_bufs_sub .., unary_bufs_sub .., ternary_bufs_sub .., nullary_bufs_sub ..,
    unary_bufs_sub .., binary_bufs_sub .., ternary_bufs_sub ..⟩
theorem p13_fresh : (p13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

/-- Operations 611 … 613 of @main's 730 (the called functions' operations written out at their calls). -/
abbrev p14 : List (HloOp τ sig (Elt F)) :=
  [ StableHlo.unary main_v437 main_v438 (broadcastInDim S4x1 ![0] bcast_S4_S4x1_0 : (⟨S4, .i32⟩ : BufTy).Contents (Elt F) → (⟨S4x1, .i32⟩ : BufTy).Contents (Elt F)),
    StableHlo.ternary main_v434 main_v438 main_v420 main_v439 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v439 main_v440 (Host.reverse [1] : (⟨S262144x8, .f32⟩ : BufTy).Contents (Elt F) → (⟨S262144x8, .f32⟩ : BufTy).Contents (Elt F)) ]

theorem p14_sub : (p14 : List (HloOp τ sig (Elt F))).Forall fun op => op.bufs ⊆ tcRefs τ sig :=
  ⟨unary_bufs_sub .., ternary_bufs_sub .., unary_bufs_sub ..⟩
theorem p14_fresh : (p14 : List (HloOp τ sig (Elt F))).Forall fun op => op.fresh = ∅ :=
  ⟨rfl, rfl, rfl⟩

/-- Operations 614 … 679 of @main's 730 (the called functions' operations written out at their calls). -/
abbrev p15 : List (HloOp τ sig (Elt F)) :=
  [ StableHlo.unary main_arg1 main_v441 ((extractStridedSlice S1x8 ![5, 0] · slices_S6x8_S1x8_5_0) : (⟨S6x8, .f32⟩ : BufTy).Contents (Elt F) → (⟨S1x8, .f32⟩ : BufTy).Contents (Elt F)),
    StableHlo.reshape main_v441 main_v442 rfl shapeCasts_S1x8_S8,
    StableHlo.nullary main_cst_100 (constant S_ .f32 0xC0A00000#32),
    StableHlo.nullary main_cst_101 (constant S_ .f32 0x40A00000#32),
    StableHlo.unary main_cst_100 main_call20_v0 (id : (⟨S_, .f32⟩ : BufTy).Contents (Elt F) → (⟨S_, .f32⟩ : BufTy).Contents (Elt F)),
    StableHlo.unary main_call20_v0 main_call20_v1 (broadcastInDim S8 ![] bcast_S_S8 : (⟨S_, .f32⟩ : BufTy).Contents (Elt F) → (⟨S8, .f32⟩ : BufTy).Contents (Elt F)),
    StableHlo.binary main_call20_v1 main_v442 main_call20_v2 (maximumf : (⟨S8, .f32⟩ : BufTy).Contents (Elt F) → (⟨S8, .f32⟩ : BufTy).Contents (Elt F) → (⟨S8, .f32⟩ : BufTy).Contents (Elt F)),
    StableHlo.unary main_cst_101 main_call20_v3 (id : (⟨S_, .f32⟩ : BufTy).Contents (Elt F) → (⟨S_, .f32⟩ : BufTy).Contents (Elt F)),
    StableHlo.unary main_call20_v3 main_call20_v4 (broadcastInDim S8 ![] bcast_S_S8 : (⟨S_, .f32⟩ : BufTy).Contents (Elt F) → (⟨S8, .f32⟩ : BufTy).Contents (Elt F)),
    StableHlo.binary main_call20_v4 main_call20_v2 main_v443 (minimumf : (⟨S8, .f32⟩ : BufTy).Contents (Elt F) → (⟨S8, .f32⟩ : BufTy).Contents (Elt F) → (⟨S8, .f32⟩ : BufTy).Contents (Elt F)),
    StableHlo.unary main_arg2 main_v444 ((extractStridedSlice S1x8 ![5, 0] · slices_S6x8_S1x8_5_0) : (⟨S6x8, .f32⟩ : BufTy).Contents (Elt F) → (⟨S1x8, .f32⟩ : BufTy).Contents (Elt F)),
    StableHlo.reshape main_v444 main_v445 rfl shapeCasts_S1x8_S8,
    StableHlo.unary main_v445 main_v446 (broadcastInDim S1x8 ![1] bcast_S8_S1x8_1 : (⟨S8, .f32⟩ : BufTy).Contents (Elt F) → (⟨S1x8, .f32⟩ : BufTy).Contents (Elt F)),
    StableHlo.unary main_v446 main_v447 (broadcastInDim S262144x8 ![0, 1] bcast_S1x8_S262144x8_0_1 : (⟨S1x8, .f32⟩ : BufTy).Contents (Elt F) → (⟨S262144x8, .f32⟩ : BufTy).Contents (Elt F)),
    StableHlo.binary main_v440 main_v447 main_v448 (addf : (⟨S262144x8, .f32⟩ : BufTy).Contents (Elt F) → (⟨S262144x8, .f32⟩ : BufTy).Contents (Elt F) → (⟨S262144x8, .f32⟩ : BufTy).Contents (Elt F)),
    StableHlo.unary main_v443 main_v449 (Host.exp : (⟨S8, .f32⟩ : BufTy).Contents (Elt F) → (⟨S8, .f32⟩ : BufTy).Contents (Elt F)),
    StableHlo.unary main_v449 main_v450 (broadcastInDim S1x8 ![1] bcast_S8_S1x8_1 : (⟨S8, .f32⟩ : BufTy).Contents (Elt F) → (⟨S1x8, .f32⟩ : BufTy).Contents (Elt F)),
    StableHlo.unary main_v450 main_v451 (broadcastInDim S262144x8 ![0, 1] bcast_S1x8_S262144x8_0_1 : (⟨S1x8, .f32⟩ : BufTy).Contents (Elt F) → (⟨S262144x8, .f32⟩ : BufTy).Contents (Elt F)),
    StableHlo.binary main_v448 main_v451 main_v452 (mulf : (⟨S262144x8, .f32⟩ : BufTy).Contents (Elt F) → (⟨S262144x8, .f32⟩ : BufTy).Contents (Elt F) → (⟨S262144x8, .f32⟩ : BufTy).Contents (Elt F)),
    StableHlo.nullary main_cst_102 (constant S_ .f32 0x00000000#32),
    StableHlo.binary main_v443 main_cst_102 main_v453 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.unary main_v453 main_v454 (broadcastInDim S262144 ![] bcast_S_S262144 : (⟨S_, .f32⟩ : BufTy).Contents (Elt F) → (⟨S262144, .f32⟩ : BufTy).Contents (Elt F)),
    StableHlo.binary main_v428 main_v454 main_v455 (addf : (⟨S262144, .f32⟩ : BufTy).Contents (Elt F) → (⟨S262144, .f32⟩ : BufTy).Contents (Elt F) → (⟨S262144, .f32⟩ : BufTy).Contents (Elt F)),
    StableHlo.nullary main_c_103 (constantI S_ 32 8#32),
    StableHlo.unary main_c_103 main_v456 (broadcastInDim S4 ![] bcast_S_S4 : (⟨S_, .i32⟩ : BufTy).Contents (Elt F) → (⟨S4, .i32⟩ : BufTy).Contents (Elt F)),
    StableHlo.binary main_c_1 main_v456 main_v457 (addi : (⟨S4, .i32⟩ : BufTy).Contents (Elt F) → (⟨S4, .i32⟩ : BufTy).Contents (Elt F) → (⟨S4, .i32⟩ : BufTy).Contents (Elt F)),
    StableHlo.ternary main_c_21 main_v457 main_c_1 main_v458 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v458 main_v459 (broadcastInDim S4x1 ![0] bcast_S4_S4x1_0 : (⟨S4, .i32⟩ : BufTy).Contents (Elt F) → (⟨S4x1, .i32⟩ : BufTy).Contents (Elt F)),
    StableHlo.binary main_v452 main_v459 main_v460 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.nullary main_c_104 (constantI S_ 32 8#32),
    StableHlo.unary main_c_104 main_v461 (broadcastInDim S4 ![] bcast_S_S4 : (⟨S_, .i32⟩ : BufTy).Contents (Elt F) → (⟨S4, .i32⟩ : BufTy).Contents (Elt F)),
    StableHlo.binary main_c main_v461 main_v462 (addi : (⟨S4, .i32⟩ : BufTy).Contents (Elt F) → (⟨S4, .i32⟩ : BufTy).Contents (Elt F) → (⟨S4, .i32⟩ : BufTy).Contents (Elt F)),
    StableHlo.ternary main_c_22 main_v462 main_c main_v463 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v463 main_v464 (broadcastInDim S4x1 ![0] bcast_S4_S4x1_0 : (⟨S4, .i32⟩ : BufTy).Contents (Elt F) → (⟨S4x1, .i32⟩ : BufTy).Contents (Elt F)),
    StableHlo.binary main_v452 main_v464 main_v465 ((fun x i => Host.gather gather_S262144x8_S4x1_S262144x4_0_1_n_n_1_1_2621441 x i) : (⟨S262144x8, .f32⟩ : BufTy).Contents (Elt F) → (⟨S4x1, .i32⟩ : BufTy).Contents (Elt F) → (⟨S262144x4, .f32⟩ : BufTy).Contents (Elt F)),
    StableHlo.unary main_arg3 main_v466 ((extractStridedSlice S1x4x128 ![5, 0, 0] · slices_S6x4x128_S1x4x128_5_0_0) : (⟨S6x4x128, .f32⟩ : BufTy).Contents (Elt F) → (⟨S1x4x128, .f32⟩ : BufTy).Contents (Elt F)),
    StableHlo.reshape main_v466 main_v467 rfl shapeCasts_S1x4x128_S4x128,
    StableHlo.binary main_v460 main_v467 main_v468 ((fun l r => Host.dotGeneral dot_S262144x4_S4x128_S262144x128_1_0_0_1_n_n none l r) : (⟨S262144x4, .f32⟩ : BufTy).Contents (Elt F) → (⟨S4x128, .f32⟩ : BufTy).Contents (Elt F) → (⟨S262144x128, .f32⟩ : BufTy).Contents (Elt F)),
    StableHlo.unary main_arg4 main_v469 ((extractStridedSlice S1x128 ![5, 0] · slices_S6x128_S1x128_5_0) : (⟨S6x128, .f32⟩ : BufTy).Contents (Elt F) → (⟨S1x128, .f32⟩ : BufTy).Contents (Elt F)),
    StableHlo.reshape main_v469 main_v470 rfl shapeCasts_S1x128_S128,
    StableHlo.unary main_v470 main_v471 (broadcastInDim S1x128 ![1] bcast_S128_S1x128_1 : (⟨S128, .f32⟩ : BufTy).Contents (Elt F) → (⟨S1x128, .f32⟩ : BufTy).Contents (Elt F)),
    StableHlo.unary main_v471 main_v472 (broadcastInDim S262144x128 ![0, 1] bcast_S1x128_S262144x128_0_1 : (⟨S1x128, .f32⟩ : BufTy).Contents (Elt F) → (⟨S262144x128, .f32⟩ : BufTy).Contents (Elt F)),
    StableHlo.binary main_v468 main_v472 main_v473 (addf : (⟨S262144x128, .f32⟩ : BufTy).Contents (Elt F) → (⟨S262144x128, .f32⟩ : BufTy).Contents (Elt F) → (⟨S262144x128, .f32⟩ : BufTy).Contents (Elt F)),
    StableHlo.nullary main_call21_cst (constant S_ .f32 0x00000000#32),
    StableHlo.unary main_call21_cst main_call21_v0 (broadcastInDim S262144x128 ![] bcast_S_S262144x128 : (⟨S_, .f32⟩ : BufTy).Contents (Elt F) → (⟨S262144x128, .f32⟩ : BufTy).Contents (Elt F)),
    StableHlo.binary main_v473 main_call21_v0 main_v474 (maximumf : (⟨S262144x128, .f32⟩ : BufTy).Contents (Elt F) → (⟨S262144x128, .f32⟩ : BufTy).Contents (Elt F) → (⟨S262144x128, .f32⟩ : BufTy).Contents (Elt F)),
    StableHlo.unary main_arg5 main_v475 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v475 main_v476 rfl shapeCasts_S1x128x128_S128x128,
    StableHlo.binary main_v474 main_v476 main_v477 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.unary main_arg6 main_v478 ((extractStridedSlice S1x128 ![5, 0] · slices_S6x128_S1x128_5_0) : (⟨S6x128, .f32⟩ : BufTy).Contents (Elt F) → (⟨S1x128, .f32⟩ : BufTy).Contents (Elt F)),
    StableHlo.reshape main_v478 main_v479 rfl shapeCasts_S1x128_S128,
    StableHlo.unary main_v479 main_v480 (broadcastInDim S1x128 ![1] bcast_S128_S1x128_1 : (⟨S128, .f32⟩ : BufTy).Contents (Elt F) → (⟨S1x128, .f32⟩ : BufTy).Contents (Elt F)),
    StableHlo.unary main_v480 main_v481 (broadcastInDim S262144x128 ![0, 1] bcast_S1x128_S262144x128_0_1 : (⟨S1x128, .f32⟩ : BufTy).Contents (Elt F) → (⟨S262144x128, .f32⟩ : BufTy).Contents (Elt F)),
    StableHlo.binary main_v477 main_v481 main_v482 (addf : (⟨S262144x128, .f32⟩ : BufTy).Contents (Elt F) → (⟨S262144x128, .f32⟩ : BufTy).Contents (Elt F) → (⟨S262144x128, .f32⟩ : BufTy).Contents (Elt F)),
    StableHlo.nullary main_call22_cst (constant S_ .f32 0x00000000#32),
    StableHlo.unary main_call22_cst main_call22_v0 (broadcastInDim S262144x128 ![] bcast_S_S262144x128 : (⟨S_, .f32⟩ : BufTy).Contents (Elt F) → (⟨S262144x128, .f32⟩ : BufTy).Contents (Elt F)),
    StableHlo.binary main_v482 main_call22_v0 main_v483 (maximumf : (⟨S262144x128, .f32⟩ : BufTy).Contents (Elt F) → (⟨S262144x128, .f32⟩ : BufTy).Contents (Elt F) → (⟨S262144x128, .f32⟩ : BufTy).Contents (Elt F)),
    StableHlo.unary main_arg7 main_v484 ((extractStridedSlice S1x128x8 ![5, 0, 0] · slices_S6x128x8_S1x128x8_5_0_0) : (⟨S6x128x8, .f32⟩ : BufTy).Contents (Elt F) → (⟨S1x128x8, .f32⟩ : BufTy).Contents (Elt F)),
    StableHlo.reshape main_v484 main_v485 rfl shapeCasts_S1x128x8_S128x8,
    StableHlo.binary main_v483 main_v485 main_v486 ((fun l r => Host.dotGeneral dot_S262144x128_S128x8_S262144x8_1_0_0_1_n_n none l r) : (⟨S262144x128, .f32⟩ : BufTy).Contents (Elt F) → (⟨S128x8, .f32⟩ : BufTy).Contents (Elt F) → (⟨S262144x8, .f32⟩ : BufTy).Contents (Elt F)),
    StableHlo.unary main_arg8 main_v487 ((extractStridedSlice S1x8 ![5, 0] · slices_S6x8_S1x8_5_0) : (⟨S6x8, .f32⟩ : BufTy).Contents (Elt F) → (⟨S1x8, .f32⟩ : BufTy).Contents (Elt F)),
    StableHlo.reshape main_v487 main_v488 rfl shapeCasts_S1x8_S8,
    StableHlo.unary main_v488 main_v489 (broadcastInDim S1x8 ![1] bcast_S8_S1x8_1 : (⟨S8, .f32⟩ : BufTy).Contents (Elt F) → (⟨S1x8, .f32⟩ : BufTy).Contents (Elt F)),
    StableHlo.unary main_v489 main_v490 (broadcastInDim S262144x8 ![0, 1] bcast_S1x8_S262144x8_0_1 : (⟨S1x8, .f32⟩ : BufTy).Contents (Elt F) → (⟨S262144x8, .f32⟩ : BufTy).Contents (Elt F)),
    StableHlo.binary main_v486 main_v490 main_v491 (addf : (⟨S262144x8, .f32⟩ : BufTy).Contents (Elt F) → (⟨S262144x8, .f32⟩ : BufTy).Contents (Elt F) → (⟨S262144x8, .f32⟩ : BufTy).Contents (Elt F)),
    StableHlo.unary main_v491 main_v492 ((extractStridedSlice S262144x4 ![0, 0] · slices_S262144x8_S262144x4_0_0) : (⟨S262144x8, .f32⟩ : BufTy).Contents (Elt F) → (⟨S262144x4, .f32⟩ : BufTy).Contents (Elt F)) ]

theorem p15_sub : (p15 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub ..,
    unary_bufs_sub .., binary_bufs_sub .., unary_bufs_sub .., reshape_bufs_sub .., unary_bufs_sub .., unary_bufs_sub .., binary_bufs_sub .., unary_bufs_sub ..,
    unary_bufs_sub .., unary_bufs_sub .., binary_bufs_sub .., nullary_bufs_sub .., binary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub .., unary_bufs_sub .., unary_bufs_sub ..,
    binary_bufs_sub .., unary_bufs_sub ..⟩
theorem p15_fresh : (p15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩

/-- Operations 680 … 730 of @main's 730 (the called functions' operations written out at their calls). -/
abbrev p16 : List (HloOp τ sig (Elt F)) :=
  [ StableHlo.unary main_v491 main_v493 ((extractStridedSlice S262144x4 ![0, 4] · slices_S262144x8_S262144x4_0_4) : (⟨S262144x8, .f32⟩ : BufTy).Contents (Elt F) → (⟨S262144x4, .f32⟩ : BufTy).Contents (Elt F)),
    StableHlo.unary main_arg9 main_v494 ((extractStridedSlice S1x4 ![5, 0] · slices_S6x4_S1x4_5_0) : (⟨S6x4, .f32⟩ : BufTy).Contents (Elt F) → (⟨S1x4, .f32⟩ : BufTy).Contents (Elt F)),
    StableHlo.reshape main_v494 main_v495 rfl shapeCasts_S1x4_S4,
    StableHlo.nullary main_cst_105 (constant S_ .f32 0xC0A00000#32),
    StableHlo.nullary main_cst_106 (constant S_ .f32 0x40A00000#32),
    StableHlo.unary main_cst_105 main_call23_v0 (id : (⟨S_, .f32⟩ : BufTy).Contents (Elt F) → (⟨S_, .f32⟩ : BufTy).Contents (Elt F)),
    StableHlo.unary main_call23_v0 main_call23_v1 (broadcastInDim S4 ![] bcast_S_S4 : (⟨S_, .f32⟩ : BufTy).Contents (Elt F) → (⟨S4, .f32⟩ : BufTy).Contents (Elt F)),
    StableHlo.binary main_call23_v1 main_v495 main_call23_v2 (maximumf : (⟨S4, .f32⟩ : BufTy).Contents (Elt F) → (⟨S4, .f32⟩ : BufTy).Contents (Elt F) → (⟨S4, .f32⟩ : BufTy).Contents (Elt F)),
    StableHlo.unary main_cst_106 main_call23_v3 (id : (⟨S_, .f32⟩ : BufTy).Contents (Elt F) → (⟨S_, .f32⟩ : BufTy).Contents (Elt F)),
    StableHlo.unary main_call23_v3 main_call23_v4 (broadcastInDim S4 ![] bcast_S_S4 : (⟨S_, .f32⟩ : BufTy).Contents (Elt F) → (⟨S4, .f32⟩ : BufTy).Contents (Elt F)),
    StableHlo.binary main_call23_v4 main_call23_v2 main_v496 (minimumf : (⟨S4, .f32⟩ : BufTy).Contents (Elt F) → (⟨S4, .f32⟩ : BufTy).Contents (Elt F) → (⟨S4, .f32⟩ : BufTy).Contents (Elt F)),
    StableHlo.unary main_v496 main_v497 (Host.exp : (⟨S4, .f32⟩ : BufTy).Contents (Elt F) → (⟨S4, .f32⟩ : BufTy).Contents (Elt F)),
    StableHlo.unary main_v492 main_v498 (Host.tanh : (⟨S262144x4, .f32⟩ : BufTy).Contents (Elt F) → (⟨S262144x4, .f32⟩ : BufTy).Contents (Elt F)),
    StableHlo.unary main_v497 main_v499 (broadcastInDim S1x4 ![1] bcast_S4_S1x4_1 : (⟨S4, .f32⟩ : BufTy).Contents (Elt F) → (⟨S1x4, .f32⟩ : BufTy).Contents (Elt F)),
    StableHlo.unary main_v499 main_v500 (broadcastInDim S262144x4 ![0, 1] bcast_S1x4_S262144x4_0_1 : (⟨S1x4, .f32⟩ : BufTy).Contents (Elt F) → (⟨S262144x4, .f32⟩ : BufTy).Contents (Elt F)),
    StableHlo.binary main_v500 main_v498 main_v501 (mulf : (⟨S262144x4, .f32⟩ : BufTy).Contents (Elt F) → (⟨S262144x4, .f32⟩ : BufTy).Contents (Elt F) → (⟨S262144x4, .f32⟩ : BufTy).Contents (Elt F)),
    StableHlo.unary main_v493 main_v502 (Host.tanh : (⟨S262144x4, .f32⟩ : BufTy).Contents (Elt F) → (⟨S262144x4, .f32⟩ : BufTy).Contents (Elt F)),
    StableHlo.nullary main_cst_107 (constant S_ .f32 0x3F19999A#32),
    StableHlo.unary main_cst_107 main_v503 (broadcastInDim S262144x4 ![] bcast_S_S262144x4 : (⟨S_, .f32⟩ : BufTy).Contents (Elt F) → (⟨S262144x4, .f32⟩ : BufTy).Contents (Elt F)),
    StableHlo.binary main_v503 main_v502 main_v504 (mulf : (⟨S262144x4, .f32⟩ : BufTy).Contents (Elt F) → (⟨S262144x4, .f32⟩ : BufTy).Contents (Elt F) → (⟨S262144x4, .f32⟩ : BufTy).Contents (Elt F)),
    StableHlo.nullary main_cst_108 (constant S_ .f32 0x3F800000#32),
    StableHlo.unary main_cst_108 main_v505 (broadcastInDim S262144x4 ![] bcast_S_S262144x4 : (⟨S_, .f32⟩ : BufTy).Contents (Elt F) → (⟨S262144x4, .f32⟩ : BufTy).Contents (Elt F)),
    StableHlo.binary main_v505 main_v504 main_v506 (addf : (⟨S262144x4, .f32⟩ : BufTy).Contents (Elt F) → (⟨S262144x4, .f32⟩ : BufTy).Contents (Elt F) → (⟨S262144x4, .f32⟩ : BufTy).Contents (Elt F)),
    StableHlo.binary main_v465 main_v506 main_v507 (mulf : (⟨S262144x4, .f32⟩ : BufTy).Contents (Elt F) → (⟨S262144x4, .f32⟩ : BufTy).Contents (Elt F) → (⟨S262144x4, .f32⟩ : BufTy).Contents (Elt F)),
    StableHlo.binary main_v507 main_v501 main_v508 (addf : (⟨S262144x4, .f32⟩ : BufTy).Contents (Elt F) → (⟨S262144x4, .f32⟩ : BufTy).Contents (Elt F) → (⟨S262144x4, .f32⟩ : BufTy).Contents (Elt F)),
    StableHlo.nullary main_cst_109 (constant S_ .f32 0x3F800000#32),
    StableHlo.unary main_cst_109 main_v509 (broadcastInDim S262144x4 ![] bcast_S_S262144x4 : (⟨S_, .f32⟩ : BufTy).Contents (Elt F) → (⟨S262144x4, .f32⟩ : BufTy).Contents (Elt F)),
    StableHlo.binary main_v509 main_v504 main_v510 (addf : (⟨S262144x4, .f32⟩ : BufTy).Contents (Elt F) → (⟨S262144x4, .f32⟩ : BufTy).Contents (Elt F) → (⟨S262144x4, .f32⟩ : BufTy).Contents (Elt F)),
    StableHlo.unary main_v510 main_v511 (Host.absf : (⟨S262144x4, .f32⟩ : BufTy).Contents (Elt F) → (⟨S262144x4, .f32⟩ : BufTy).Contents (Elt F)),
    StableHlo.nullary main_cst_110 (constant S_ .f32 0x322BCC77#32),
    StableHlo.unary main_cst_110 main_v512 (broadcastInDim S262144x4 ![] bcast_S_S262144x4 : (⟨S_, .f32⟩ : BufTy).Contents (Elt F) → (⟨S262144x4, .f32⟩ : BufTy).Contents (Elt F)),
    StableHlo.binary main_v511 main_v512 main_v513 (addf : (⟨S262144x4, .f32⟩ : BufTy).Contents (Elt F) → (⟨S262144x4, .f32⟩ : BufTy).Contents (Elt F) → (⟨S262144x4, .f32⟩ : BufTy).Contents (Elt F)),
    StableHlo.unary main_v513 main_v514 (Host.log : (⟨S262144x4, .f32⟩ : BufTy).Contents (Elt F) → (⟨S262144x4, .f32⟩ : BufTy).Contents (Elt F)),
    StableHlo.nullary main_cst_111 (constant S_ .f32 0x00000000#32),
    StableHlo.binary main_v514 main_cst_111 main_v515 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    StableHlo.binary main_v455 main_v515 main_v516 (addf : (⟨S262144, .f32⟩ : BufTy).Contents (Elt F) → (⟨S262144, .f32⟩ : BufTy).Contents (Elt F) → (⟨S262144, .f32⟩ : BufTy).Contents (Elt F)),
    StableHlo.nullary main_cst_112 (constant S_ .f32 0x00000000#32),
    StableHlo.unary main_cst_112 main_v517 (broadcastInDim S262144x8 ![] bcast_S_S262144x8 : (⟨S_, .f32⟩ : BufTy).Contents (Elt F) → (⟨S262144x8, .f32⟩ : BufTy).Contents (Elt F)),
    StableHlo.nullary main_c_113 (constantI S_ 32 8#32),
    StableHlo.unary main_c_113 main_v518 (broadcastInDim S4 ![] bcast_S_S4 : (⟨S_, .i32⟩ : BufTy).Contents (Elt F) → (⟨S4, .i32⟩ : BufTy).Contents (Elt F)),
    StableHlo.binary main_c_1 main_v518 main_v519 (addi : (⟨S4, .i32⟩ : BufTy).Contents (Elt F) → (⟨S4, .i32⟩ : BufTy).Contents (Elt F) → (⟨S4, .i32⟩ : BufTy).Contents (Elt F)),
    StableHlo.ternary main_c_23 main_v519 main_c_1 main_v520 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v520 main_v521 (broadcastInDim S4x1 ![0] bcast_S4_S4x1_0 : (⟨S4, .i32⟩ : BufTy).Contents (Elt F) → (⟨S4x1, .i32⟩ : BufTy).Contents (Elt F)),
    StableHlo.ternary main_v517 main_v521 main_v460 main_v522 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.nullary main_c_114 (constantI S_ 32 8#32),
    StableHlo.unary main_c_114 main_v523 (broadcastInDim S4 ![] bcast_S_S4 : (⟨S_, .i32⟩ : BufTy).Contents (Elt F) → (⟨S4, .i32⟩ : BufTy).Contents (Elt F)),
    StableHlo.binary main_c main_v523 main_v524 (addi : (⟨S4, .i32⟩ : BufTy).Contents (Elt F) → (⟨S4, .i32⟩ : BufTy).Contents (Elt F) → (⟨S4, .i32⟩ : BufTy).Contents (Elt F)),
    StableHlo.ternary main_c_24 main_v524 main_c main_v525 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v525 main_v526 (broadcastInDim S4x1 ![0] bcast_S4_S4x1_0 : (⟨S4, .i32⟩ : BufTy).Contents (Elt F) → (⟨S4x1, .i32⟩ : BufTy).Contents (Elt F)),
    StableHlo.ternary main_v522 main_v526 main_v508 main_v527 ((fun x i u => Host.scatter scatter_S262144x8_S4x1_S262144x4_0_1_1_1 (fun _ b => b) x i u) : (⟨S262144x8, .f32⟩ : BufTy).Contents (Elt F) → (⟨S4x1, .i32⟩ : BufTy).Contents (Elt F) → (⟨S262144x4, .f32⟩ : BufTy).Contents (Elt F) → (⟨S262144x8, .f32⟩ : BufTy).Contents (Elt F)),
    StableHlo.unary main_v527 main_v528 (Host.reverse [1] : (⟨S262144x8, .f32⟩ : BufTy).Contents (Elt F) → (⟨S262144x8, .f32⟩ : BufTy).Contents (Elt F)) ]

theorem p16_sub : (p16 : List (HloOp τ sig (Elt F))).Forall fun op => op.bufs ⊆ tcRefs τ sig :=
  ⟨unary_bufs_sub .., unary_bufs_sub .., reshape_bufs_sub .., nullary_bufs_sub .., nullary_bufs_sub .., unary_bufs_sub .., unary_bufs_sub .., binary_bufs_sub ..,
    unary_bufs_sub .., unary_bufs_sub .., binary_bufs_sub .., unary_bufs_sub .., unary_bufs_sub .., unary_bufs_sub .., unary_bufs_sub .., binary_bufs_sub ..,
    unary_bufs_sub .., nullary_bufs_sub .., unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., nullary_bufs_sub .., unary_bufs_sub .., binary_bufs_sub ..,
    unary_bufs_sub .., nullary_bufs_sub .., binary_bufs_sub .., binary_bufs_sub .., nullary_bufs_sub .., unary_bufs_sub .., nullary_bufs_sub .., unary_bufs_sub ..,
    binary_bufs_sub .., ternary_bufs_sub .., unary_bufs_sub .., ternary_bufs_sub .., nullary_bufs_sub .., unary_bufs_sub .., binary_bufs_sub .., ternary_bufs_sub ..,
    unary_bufs_sub .., ternary_bufs_sub .., unary_bufs_sub ..⟩
theorem p16_fresh : (p16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

set_option maxRecDepth 8192 in
/-- Window 8 of @main is that line of operations: the called functions unfold at their calls. -/
theorem part8_eq (c : Dev nD) : main_part8 (F := F) c = seq (p13) := rfl

set_option maxRecDepth 8192 in
/-- Window 9 of @main is that line of operations: the called functions unfold at their calls. -/
theorem part9_eq (c : Dev nD) : main_part9 (F := F) c = seq (p14 ++ (p15)) := rfl

set_option maxRecDepth 8192 in
/-- Window 10 of @main is that line of operations: the called functions unfold at their calls. -/
theorem part10_eq (c : Dev nD) : main_part10 (F := F) c = seq (p16) := rfl

end Cert.ReferenceIdeal.FlowValue

end
-- ==== Proof.RefOps.lean ====
/-
  The reference program's @main as ONE line of host operations (the pieces of the three parts in order), and its run:
  every weakly fair execution terminates with every buffer at the fold of the operations over the launch contents.
-/
import proofs.«135321_j73263552135281_2_alg».proof.Proof.RefOpsA
import proofs.«135321_j73263552135281_2_alg».proof.Proof.RefOpsB
import proofs.«135321_j73263552135281_2_alg».proof.Proof.RefOpsC

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]

/-- @main's 730 operations in order. -/
abbrev ops : List (HloOp τ sig (Elt F)) := p0 ++ (p1 ++ (p2 ++ (p3 ++ (p4 ++ (p5 ++ (p6 ++ (p7 ++ (p8 ++ (p9 ++ (p10 ++ (p11 ++ (p12 ++ (p13 ++ (p14 ++ (p15 ++ (p16))))))))))))))))

/-- @main runs its windows in order, so it is the whole line. -/
theorem main_eq (c : Dev nD) : main (F := F) c = seq ops := by
  simp only [main, part0_eq, part1_eq, part2_eq, part3_eq, part4_eq, part5_eq, part6_eq, part7_eq, part8_eq, part9_eq, part10_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h
    exacts [List.forall_iff_forall_mem.mp p0_sub op h, List.forall_iff_forall_mem.mp p1_sub op h, List.forall_iff_forall_mem.mp p2_sub op h, List.forall_iff_forall_mem.mp p3_sub op h, List.forall_iff_forall_mem.mp p4_sub op h, List.forall_iff_forall_mem.mp p5_sub op h, List.forall_iff_forall_mem.mp p6_sub op h, List.forall_iff_forall_mem.mp p7_sub op h, List.forall_iff_forall_mem.mp p8_sub op h, List.forall_iff_forall_mem.mp p9_sub op h, List.forall_iff_forall_mem.mp p10_sub op h, List.forall_iff_forall_mem.mp p11_sub op h, List.forall_iff_forall_mem.mp p12_sub op h, List.forall_iff_forall_mem.mp p13_sub op h, List.forall_iff_forall_mem.mp p14_sub op h, List.forall_iff_forall_mem.mp p15_sub op h, List.forall_iff_forall_mem.mp p16_sub op h]

theorem ops_fresh : ∀ op ∈ (ops : List (HloOp τ sig (Elt F))), op.fresh = ∅ := fun op h => by
  simp only [ops, List.mem_append] at h
  rcases h with h | h | h | h | h | h | h | h | h | h | h | h | h | h | h | h | h
  exacts [List.forall_iff_forall_mem.mp p0_fresh op h, List.forall_iff_forall_mem.mp p1_fresh op h, List.forall_iff_forall_mem.mp p2_fresh op h, List.forall_iff_forall_mem.mp p3_fresh op h, List.forall_iff_forall_mem.mp p4_fresh op h, List.forall_iff_forall_mem.mp p5_fresh op h, List.forall_iff_forall_mem.mp p6_fresh op h, List.forall_iff_forall_mem.mp p7_fresh op h, List.forall_iff_forall_mem.mp p8_fresh op h, List.forall_iff_forall_mem.mp p9_fresh op h, List.forall_iff_forall_mem.mp p10_fresh op h, List.forall_iff_forall_mem.mp p11_fresh op h, List.forall_iff_forall_mem.mp p12_fresh op h, List.forall_iff_forall_mem.mp p13_fresh op h, List.forall_iff_forall_mem.mp p14_fresh op h, List.forall_iff_forall_mem.mp p15_fresh op h, List.forall_iff_forall_mem.mp p16_fresh op h]

/-- Two lines of operations one after the other: the contents after the second from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, from any memory with zero counters: every weakly fair execution of @main terminates, and every
    buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.FlowValue

end
-- ==== Proof.RefInv.lean ====
/-
  What the reference's line of operations sets once, in its first stretch, and never writes again: the ten arguments stay
  at the launch contents, the two index vectors are the literals [0, 2, 4, 6] and [1, 3, 5, 7], and the twenty-four masks
  are all false. A line of operations that writes none of these buffers keeps all of it.
-/
import proofs.«135321_j73263552135281_2_alg».proof.Proof.RefOps
import Idealize.ShloMosaic.PureOps.Ideal

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The buffers the first stretch sets for good (the arguments it only reads). -/
abbrev kept : List (Ref sig .tc) := [main_arg0, main_arg1, main_arg2, main_arg3, main_arg4, main_arg5, main_arg6, main_arg7, main_arg8, main_arg9, main_c, main_c_1, main_c_0, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24]

/-- The contents `V` agree with the launch contents `V0` on the arguments, and hold the literals in the index vectors and
    the masks. -/
structure Inv (V0 V : Valuation τ sig (Elt Ideal)) : Prop where
  a0 : V (main_arg0 : DevRef τ sig) = V0 (main_arg0 : DevRef τ sig)
  a1 : V (main_arg1 : DevRef τ sig) = V0 (main_arg1 : DevRef τ sig)
  a2 : V (main_arg2 : DevRef τ sig) = V0 (main_arg2 : DevRef τ sig)
  a3 : V (main_arg3 : DevRef τ sig) = V0 (main_arg3 : DevRef τ sig)
  a4 : V (main_arg4 : DevRef τ sig) = V0 (main_arg4 : DevRef τ sig)
  a5 : V (main_arg5 : DevRef τ sig) = V0 (main_arg5 : DevRef τ sig)
  a6 : V (main_arg6 : DevRef τ sig) = V0 (main_arg6 : DevRef τ sig)
  a7 : V (main_arg7 : DevRef τ sig) = V0 (main_arg7 : DevRef τ sig)
  a8 : V (main_arg8 : DevRef τ sig) = V0 (main_arg8 : DevRef τ sig)
  a9 : V (main_arg9 : DevRef τ sig) = V0 (main_arg9 : DevRef τ sig)
  c : V (main_c : DevRef τ sig) = fun i => lit0 (S4.rowMajor i)
  c1 : V (main_c_1 : DevRef τ sig) = fun i => lit1 (S4.rowMajor i)
  m0 : V (main_c_0 : DevRef τ sig) = constantI S4 1 0#1
  m2 : V (main_c_2 : DevRef τ sig) = constantI S4 1 0#1
  m3 : V (main_c_3 : DevRef τ sig) = constantI S4 1 0#1
  m4 : V (main_c_4 : DevRef τ sig) = constantI S4 1 0#1
  m5 : V (main_c_5 : DevRef τ sig) = constantI S4 1 0#1
  m6 : V (main_c_6 : DevRef τ sig) = constantI S4 1 0#1
  m7 : V (main_c_7 : DevRef τ sig) = constantI S4 1 0#1
  m8 : V (main_c_8 : DevRef τ sig) = constantI S4 1 0#1
  m9 : V (main_c_9 : DevRef τ sig) = constantI S4 1 0#1
  m10 : V (main_c_10 : DevRef τ sig) = constantI S4 1 0#1
  m11 : V (main_c_11 : DevRef τ sig) = constantI S4 1 0#1
  m12 : V (main_c_12 : DevRef τ sig) = constantI S4 1 0#1
  m13 : V (main_c_13 : DevRef τ sig) = constantI S4 1 0#1
  m14 : V (main_c_14 : DevRef τ sig) = constantI S4 1 0#1
  m15 : V (main_c_15 : DevRef τ sig) = constantI S4 1 0#1
  m16 : V (main_c_16 : DevRef τ sig) = constantI S4 1 0#1
  m17 : V (main_c_17 : DevRef τ sig) = constantI S4 1 0#1
  m18 : V (main_c_18 : DevRef τ sig) = constantI S4 1 0#1
  m19 : V (main_c_19 : DevRef τ sig) = constantI S4 1 0#1
  m20 : V (main_c_20 : DevRef τ sig) = constantI S4 1 0#1
  m21 : V (main_c_21 : DevRef τ sig) = constantI S4 1 0#1
  m22 : V (main_c_22 : DevRef τ sig) = constantI S4 1 0#1
  m23 : V (main_c_23 : DevRef τ sig) = constantI S4 1 0#1
  m24 : V (main_c_24 : DevRef τ sig) = constantI S4 1 0#1

/-- A line of operations that writes none of those buffers keeps the agreement. -/
theorem Inv.step {V0 V : Valuation τ sig (Elt Ideal)} (h : Inv V0 V) (l : List (HloOp τ sig (Elt Ideal))) (W : List (Ref sig .tc))
    (hW : l.Forall fun op => op.writes ⊆ (W.map (Proc.devRef (τ := τ) .tc)).toFinset)
    (hk : ∀ r ∈ kept, r ∉ W) : Inv V0 (after l V) where
  a0 := (after_of_writes_sub l V hW (hk main_arg0 (List.mem_of_elem_eq_true rfl))).trans h.a0
  a1 := (after_of_writes_sub l V hW (hk main_arg1 (List.mem_of_elem_eq_true rfl))).trans h.a1
  a2 := (after_of_writes_sub l V hW (hk main_arg2 (List.mem_of_elem_eq_true rfl))).trans h.a2
  a3 := (after_of_writes_sub l V hW (hk main_arg3 (List.mem_of_elem_eq_true rfl))).trans h.a3
  a4 := (after_of_writes_sub l V hW (hk main_arg4 (List.mem_of_elem_eq_true rfl))).trans h.a4
  a5 := (after_of_writes_sub l V hW (hk main_arg5 (List.mem_of_elem_eq_true rfl))).trans h.a5
  a6 := (after_of_writes_sub l V hW (hk main_arg6 (List.mem_of_elem_eq_true rfl))).trans h.a6
  a7 := (after_of_writes_sub l V hW (hk main_arg7 (List.mem_of_elem_eq_true rfl))).trans h.a7
  a8 := (after_of_writes_sub l V hW (hk main_arg8 (List.mem_of_elem_eq_true rfl))).trans h.a8
  a9 := (after_of_writes_sub l V hW (hk main_arg9 (List.mem_of_elem_eq_true rfl))).trans h.a9
  c := (after_of_writes_sub l V hW (hk main_c (List.mem_of_elem_eq_true rfl))).trans h.c
  c1 := (after_of_writes_sub l V hW (hk main_c_1 (List.mem_of_elem_eq_true rfl))).trans h.c1
  m0 := (after_of_writes_sub l V hW (hk main_c_0 (List.mem_of_elem_eq_true rfl))).trans h.m0
  m2 := (after_of_writes_sub l V hW (hk main_c_2 (List.mem_of_elem_eq_true rfl))).trans h.m2
  m3 := (after_of_writes_sub l V hW (hk main_c_3 (List.mem_of_elem_eq_true rfl))).trans h.m3
  m4 := (after_of_writes_sub l V hW (hk main_c_4 (List.mem_of_elem_eq_true rfl))).trans h.m4
  m5 := (after_of_writes_sub l V hW (hk main_c_5 (List.mem_of_elem_eq_true rfl))).trans h.m5
  m6 := (after_of_writes_sub l V hW (hk main_c_6 (List.mem_of_elem_eq_true rfl))).trans h.m6
  m7 := (after_of_writes_sub l V hW (hk main_c_7 (List.mem_of_elem_eq_true rfl))).trans h.m7
  m8 := (after_of_writes_sub l V hW (hk main_c_8 (List.mem_of_elem_eq_true rfl))).trans h.m8
  m9 := (after_of_writes_sub l V hW (hk main_c_9 (List.mem_of_elem_eq_true rfl))).trans h.m9
  m10 := (after_of_writes_sub l V hW (hk main_c_10 (List.mem_of_elem_eq_true rfl))).trans h.m10
  m11 := (after_of_writes_sub l V hW (hk main_c_11 (List.mem_of_elem_eq_true rfl))).trans h.m11
  m12 := (after_of_writes_sub l V hW (hk main_c_12 (List.mem_of_elem_eq_true rfl))).trans h.m12
  m13 := (after_of_writes_sub l V hW (hk main_c_13 (List.mem_of_elem_eq_true rfl))).trans h.m13
  m14 := (after_of_writes_sub l V hW (hk main_c_14 (List.mem_of_elem_eq_true rfl))).trans h.m14
  m15 := (after_of_writes_sub l V hW (hk main_c_15 (List.mem_of_elem_eq_true rfl))).trans h.m15
  m16 := (after_of_writes_sub l V hW (hk main_c_16 (List.mem_of_elem_eq_true rfl))).trans h.m16
  m17 := (after_of_writes_sub l V hW (hk main_c_17 (List.mem_of_elem_eq_true rfl))).trans h.m17
  m18 := (after_of_writes_sub l V hW (hk main_c_18 (List.mem_of_elem_eq_true rfl))).trans h.m18
  m19 := (after_of_writes_sub l V hW (hk main_c_19 (List.mem_of_elem_eq_true rfl))).trans h.m19
  m20 := (after_of_writes_sub l V hW (hk main_c_20 (List.mem_of_elem_eq_true rfl))).trans h.m20
  m21 := (after_of_writes_sub l V hW (hk main_c_21 (List.mem_of_elem_eq_true rfl))).trans h.m21
  m22 := (after_of_writes_sub l V hW (hk main_c_22 (List.mem_of_elem_eq_true rfl))).trans h.m22
  m23 := (after_of_writes_sub l V hW (hk main_c_23 (List.mem_of_elem_eq_true rfl))).trans h.m23
  m24 := (after_of_writes_sub l V hW (hk main_c_24 (List.mem_of_elem_eq_true rfl))).trans h.m24

end Cert.ReferenceIdeal.FlowValue

end
-- ==== Proof.RefKeepA.lean ====
/-
  Which buffers each piece of the reference's line of operations writes (part A); a buffer outside that list keeps its
  contents through the piece.
-/
import proofs.«135321_j73263552135281_2_alg».proof.Proof.RefOpsA

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- The buffers piece 0 writes. -/
abbrev p0_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_cst, main_v0]
theorem p0_writes : (p0 : List (HloOp τ sig (Elt F))).Forall fun op => op.writes ⊆ (p0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 0 does not write keeps its contents through it. -/
theorem p0_keep (V : Valuation τ sig (Elt F)) (r : Ref sig .tc) (h : r ∉ p0_W) :
    after p0 V (Proc.devRef .tc r) = V (Proc.devRef .tc r) :=
  after_of_writes_sub p0 V p0_writes h

/-- The buffers piece 1 writes. -/
abbrev p1_W : List (Ref sig .tc) := [main_v1, main_v2, main_cst_25, main_cst_26, main_call0_v0, main_call0_v1, main_call0_v2, main_call0_v3, main_call0_v4, main_v3, main_v4, main_v5, main_v6, main_v7, main_v8, main_v9, main_v10, main_v11, main_v12, main_cst_27, main_v13, main_v14, main_v15, main_c_28, main_v16, main_v17, main_v18, main_v19, main_v20, main_c_29, main_v21, main_v22, main_v23, main_v24, main_v25, main_v26, main_v27]
theorem p1_writes : (p1 : List (HloOp τ sig (Elt F))).Forall fun op => op.writes ⊆ (p1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 1 does not write keeps its contents through it. -/
theorem p1_keep (V : Valuation τ sig (Elt F)) (r : Ref sig .tc) (h : r ∉ p1_W) :
    after p1 V (Proc.devRef .tc r) = V (Proc.devRef .tc r) :=
  after_of_writes_sub p1 V p1_writes h

/-- The buffers piece 2 writes. -/
abbrev p2_W : List (Ref sig .tc) := [main_v28, main_v29, main_v30, main_v31, main_v32, main_v33, main_call1_cst, main_call1_v0, main_v34, main_v35, main_v36, main_v37, main_v38, main_v39, main_v40, main_v41, main_v42, main_call2_cst, main_call2_v0, main_v43, main_v44, main_v45, main_v46, main_v47, main_v48, main_v49, main_v50, main_v51, main_v52, main_v53, main_v54, main_v55, main_cst_30, main_cst_31, main_call3_v0, main_call3_v1, main_call3_v2, main_call3_v3, main_call3_v4, main_v56, main_v57, main_v58, main_v59, main_v60, main_v61, main_v62, main_cst_32, main_v63, main_v64, main_cst_33, main_v65, main_v66, main_v67, main_v68, main_cst_34, main_v69, main_v70, main_v71, main_cst_35, main_v72, main_v73, main_v74, main_cst_36, main_v75, main_v76, main_cst_37, main_v77, main_c_38, main_v78]
theorem p2_writes : (p2 : List (HloOp τ sig (Elt F))).Forall fun op => op.writes ⊆ (p2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 2 does not write keeps its contents through it. -/
theorem p2_keep (V : Valuation τ sig (Elt F)) (r : Ref sig .tc) (h : r ∉ p2_W) :
    after p2 V (Proc.devRef .tc r) = V (Proc.devRef .tc r) :=
  after_of_writes_sub p2 V p2_writes h

/-- The buffers piece 3 writes. -/
abbrev p3_W : List (Ref sig .tc) := [main_v79, main_v80, main_v81, main_v82, main_c_39, main_v83, main_v84, main_v85, main_v86, main_v87, main_v88]
theorem p3_writes : (p3 : List (HloOp τ sig (Elt F))).Forall fun op => op.writes ⊆ (p3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 3 does not write keeps its contents through it. -/
theorem p3_keep (V : Valuation τ sig (Elt F)) (r : Ref sig .tc) (h : r ∉ p3_W) :
    after p3 V (Proc.devRef .tc r) = V (Proc.devRef .tc r) :=
  after_of_writes_sub p3 V p3_writes h

/-- The buffers piece 4 writes. -/
abbrev p4_W : List (Ref sig .tc) := [main_v89, main_v90, main_cst_40, main_cst_41, main_call4_v0, main_call4_v1, main_call4_v2, main_call4_v3, main_call4_v4, main_v91, main_v92, main_v93, main_v94, main_v95, main_v96, main_v97, main_v98, main_v99, main_v100, main_cst_42, main_v101, main_v102, main_v103, main_c_43, main_v104, main_v105, main_v106, main_v107, main_v108, main_c_44, main_v109, main_v110, main_v111, main_v112, main_v113, main_v114, main_v115, main_v116, main_v117, main_v118, main_v119, main_v120, main_v121, main_call5_cst, main_call5_v0, main_v122, main_v123, main_v124, main_v125, main_v126, main_v127, main_v128, main_v129, main_v130, main_call6_cst, main_call6_v0, main_v131, main_v132]
theorem p4_writes : (p4 : List (HloOp τ sig (Elt F))).Forall fun op => op.writes ⊆ (p4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 4 does not write keeps its contents through it. -/
theorem p4_keep (V : Valuation τ sig (Elt F)) (r : Ref sig .tc) (h : r ∉ p4_W) :
    after p4 V (Proc.devRef .tc r) = V (Proc.devRef .tc r) :=
  after_of_writes_sub p4 V p4_writes h

/-- The buffers piece 5 writes. -/
abbrev p5_W : List (Ref sig .tc) := [main_v133, main_v134, main_v135, main_v136, main_v137, main_v138, main_v139, main_v140, main_v141, main_v142, main_v143, main_cst_45, main_cst_46, main_call7_v0, main_call7_v1, main_call7_v2, main_call7_v3, main_call7_v4, main_v144, main_v145, main_v146, main_v147, main_v148, main_v149, main_v150, main_cst_47, main_v151, main_v152, main_cst_48, main_v153, main_v154, main_v155, main_v156, main_cst_49, main_v157, main_v158, main_v159, main_cst_50, main_v160, main_v161, main_v162, main_cst_51, main_v163, main_v164, main_cst_52, main_v165, main_c_53, main_v166, main_v167, main_v168, main_v169, main_v170, main_c_54, main_v171, main_v172, main_v173, main_v174, main_v175, main_v176]
theorem p5_writes : (p5 : List (HloOp τ sig (Elt F))).Forall fun op => op.writes ⊆ (p5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 5 does not write keeps its contents through it. -/
theorem p5_keep (V : Valuation τ sig (Elt F)) (r : Ref sig .tc) (h : r ∉ p5_W) :
    after p5 V (Proc.devRef .tc r) = V (Proc.devRef .tc r) :=
  after_of_writes_sub p5 V p5_writes h

/-- The buffers piece 6 writes. -/
abbrev p6_W : List (Ref sig .tc) := [main_v177, main_v178, main_cst_55, main_cst_56, main_call8_v0, main_call8_v1, main_call8_v2, main_call8_v3, main_call8_v4, main_v179, main_v180]
theorem p6_writes : (p6 : List (HloOp τ sig (Elt F))).Forall fun op => op.writes ⊆ (p6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 6 does not write keeps its contents through it. -/
theorem p6_keep (V : Valuation τ sig (Elt F)) (r : Ref sig .tc) (h : r ∉ p6_W) :
    after p6 V (Proc.devRef .tc r) = V (Proc.devRef .tc r) :=
  after_of_writes_sub p6 V p6_writes h

end Cert.ReferenceIdeal.FlowValue

end
-- ==== Proof.RefInvP0.lean ====
/-
  After the first stretch of the reference's line (the literals and the zero log-determinants) the arguments are still the
  launch contents, the index vectors and the masks hold their literals, and the log-determinants are zero.
-/
import proofs.«135321_j73263552135281_2_alg».proof.Proof.RefInv
import proofs.«135321_j73263552135281_2_alg».proof.Proof.RefKeepA

noncomputable section

namespace Cert.ReferenceIdeal.FlowValue

open Cert.ReferenceIdeal Cert.ReferenceIdeal.Gen Idealize.ShloMosaic Idealize.ShloMosaic.TcCoe Idealize.SL.Sem Idealize.ShloMosaic.StableHlo

set_option maxHeartbeats 1000000 in
/-- After the first stretch the agreement holds. -/
theorem inv_p0 (V0 : Valuation τ sig (Elt Ideal)) : Inv V0 (after p0 V0) where
  a0 := p0_keep V0 main_arg0 (by decide)
  a1 := p0_keep V0 main_arg1 (by decide)
  a2 := p0_keep V0 main_arg2 (by decide)
  a3 := p0_keep V0 main_arg3 (by decide)
  a4 := p0_keep V0 main_arg4 (by decide)
  a5 := p0_keep V0 main_arg5 (by decide)
  a6 := p0_keep V0 main_arg6 (by decide)
  a7 := p0_keep V0 main_arg7 (by decide)
  a8 := p0_keep V0 main_arg8 (by decide)
  a9 := p0_keep V0 main_arg9 (by decide)
  c := by simp only [p0]; after_results_simp; rfl
  c1 := by simp only [p0]; after_results_simp; rfl
  m0 := by simp only [p0]; after_results_simp
  m2 := by simp only [p0]; after_results_simp
  m3 := by simp only [p0]; after_results_simp
  m4 := by simp only [p0]; after_results_simp
  m5 := by simp only [p0]; after_results_simp
  m6 := by simp only [p0]; after_results_simp
  m7 := by simp only [p0]; after_results_simp
  m8 := by simp only [p0]; after_results_simp
  m9 := by simp only [p0]; after_results_simp
  m10 := by simp only [p0]; after_results_simp
  m11 := by simp only [p0]; after_results_simp
  m12 := by simp only [p0]; after_results_simp
  m13 := by simp only [p0]; after_results_simp
  m14 := by simp only [p0]; after_results_simp
  m15 := by simp only [p0]; after_results_simp
  m16 := by simp only [p0]; after_results_simp
  m17 := by simp only [p0]; after_results_simp
  m18 := by simp only [p0]; after_results_simp
  m19 := by simp only [p0]; after_results_simp
  m20 := by simp only [p0]; after_results_simp
  m21 := by simp only [p0]; after_results_simp
  m22 := by simp only [p0]; after_results_simp
  m23 := by simp only [p0]; after_results_simp
  m24 := by simp only [p0]; after_results_simp

/-- The log-determinants start at zero. -/
theorem p0_zero (V0 : Valuation τ sig (Elt Ideal)) :
    after p0 V0 (main_v0 : DevRef τ sig) = broadcastInDim S262144 ![] bcast_S_S262144 (constant (F := Ideal) S_ .f32 0x00000000#32) := by
  simp only [p0]; after_results_simp

end Cert.ReferenceIdeal.FlowValue

end
-- ==== Proof.RefKeptA.lean ====
/-
  None of the buffers the first stretch sets for good is written by a later piece of the line (part A).
-/
import proofs.«135321_j73263552135281_2_alg».proof.Proof.RefInv
import proofs.«135321_j73263552135281_2_alg».proof.Proof.RefKeepA

noncomputable section

namespace Cert.ReferenceIdeal.FlowValue

open Cert.ReferenceIdeal Cert.ReferenceIdeal.Gen Idealize.ShloMosaic Idealize.ShloMosaic.TcCoe Idealize.SL.Sem Idealize.ShloMosaic.StableHlo

theorem kept_p1 : ∀ r ∈ kept, r ∉ p1_W := by decide
theorem kept_p2 : ∀ r ∈ kept, r ∉ p2_W := by decide
theorem kept_p3 : ∀ r ∈ kept, r ∉ p3_W := by decide
theorem kept_p4 : ∀ r ∈ kept, r ∉ p4_W := by decide
theorem kept_p5 : ∀ r ∈ kept, r ∉ p5_W := by decide
theorem kept_p6 : ∀ r ∈ kept, r ∉ p6_W := by decide

end Cert.ReferenceIdeal.FlowValue

end
-- ==== Proof.RefKeepB.lean ====
/-
  Which buffers each piece of the reference's line of operations writes (part B); a buffer outside that list keeps its
  contents through the piece.
-/
import proofs.«135321_j73263552135281_2_alg».proof.Proof.RefOpsB

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- The buffers piece 7 writes. -/
abbrev p7_W : List (Ref sig .tc) := [main_v181, main_v182, main_v183, main_v184, main_v185, main_v186, main_v187, main_v188, main_cst_57, main_v189, main_v190, main_v191, main_c_58, main_v192, main_v193, main_v194, main_v195, main_v196, main_c_59, main_v197, main_v198, main_v199, main_v200, main_v201, main_v202, main_v203, main_v204, main_v205, main_v206, main_v207, main_v208, main_v209, main_call9_cst, main_call9_v0, main_v210, main_v211, main_v212, main_v213, main_v214, main_v215, main_v216, main_v217, main_v218, main_call10_cst, main_call10_v0, main_v219, main_v220, main_v221, main_v222, main_v223, main_v224, main_v225, main_v226, main_v227, main_v228, main_v229, main_v230, main_v231, main_cst_60, main_cst_61, main_call11_v0, main_call11_v1, main_call11_v2, main_call11_v3, main_call11_v4, main_v232, main_v233, main_v234, main_v235]
theorem p7_writes : (p7 : List (HloOp τ sig (Elt F))).Forall fun op => op.writes ⊆ (p7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 7 does not write keeps its contents through it. -/
theorem p7_keep (V : Valuation τ sig (Elt F)) (r : Ref sig .tc) (h : r ∉ p7_W) :
    after p7 V (Proc.devRef .tc r) = V (Proc.devRef .tc r) :=
  after_of_writes_sub p7 V p7_writes h

/-- The buffers piece 8 writes. -/
abbrev p8_W : List (Ref sig .tc) := [main_v236, main_v237, main_v238, main_cst_62, main_v239, main_v240, main_cst_63, main_v241, main_v242, main_v243, main_v244, main_cst_64, main_v245, main_v246, main_v247, main_cst_65, main_v248, main_v249, main_v250, main_cst_66, main_v251, main_v252, main_cst_67, main_v253, main_c_68, main_v254, main_v255, main_v256, main_v257, main_v258, main_c_69, main_v259, main_v260, main_v261, main_v262, main_v263, main_v264]
theorem p8_writes : (p8 : List (HloOp τ sig (Elt F))).Forall fun op => op.writes ⊆ (p8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 8 does not write keeps its contents through it. -/
theorem p8_keep (V : Valuation τ sig (Elt F)) (r : Ref sig .tc) (h : r ∉ p8_W) :
    after p8 V (Proc.devRef .tc r) = V (Proc.devRef .tc r) :=
  after_of_writes_sub p8 V p8_writes h

/-- The buffers piece 9 writes. -/
abbrev p9_W : List (Ref sig .tc) := [main_v265, main_v266, main_cst_70, main_cst_71, main_call12_v0, main_call12_v1, main_call12_v2, main_call12_v3, main_call12_v4, main_v267, main_v268, main_v269, main_v270, main_v271, main_v272, main_v273, main_v274, main_v275, main_v276, main_cst_72, main_v277, main_v278, main_v279, main_c_73, main_v280, main_v281, main_v282, main_v283]
theorem p9_writes : (p9 : List (HloOp τ sig (Elt F))).Forall fun op => op.writes ⊆ (p9_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 9 does not write keeps its contents through it. -/
theorem p9_keep (V : Valuation τ sig (Elt F)) (r : Ref sig .tc) (h : r ∉ p9_W) :
    after p9 V (Proc.devRef .tc r) = V (Proc.devRef .tc r) :=
  after_of_writes_sub p9 V p9_writes h

/-- The buffers piece 10 writes. -/
abbrev p10_W : List (Ref sig .tc) := [main_v284, main_c_74, main_v285, main_v286, main_v287, main_v288, main_v289, main_v290, main_v291, main_v292, main_v293, main_v294, main_v295, main_v296, main_v297, main_call13_cst, main_call13_v0, main_v298, main_v299, main_v300, main_v301, main_v302, main_v303, main_v304, main_v305, main_v306, main_call14_cst, main_call14_v0, main_v307, main_v308, main_v309, main_v310, main_v311, main_v312, main_v313, main_v314, main_v315, main_v316, main_v317, main_v318, main_v319, main_cst_75, main_cst_76, main_call15_v0, main_call15_v1, main_call15_v2, main_call15_v3, main_call15_v4, main_v320, main_v321, main_v322, main_v323, main_v324, main_v325, main_v326, main_cst_77, main_v327, main_v328, main_cst_78, main_v329, main_v330, main_v331, main_v332, main_cst_79, main_v333, main_v334, main_v335, main_cst_80, main_v336]
theorem p10_writes : (p10 : List (HloOp τ sig (Elt F))).Forall fun op => op.writes ⊆ (p10_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 10 does not write keeps its contents through it. -/
theorem p10_keep (V : Valuation τ sig (Elt F)) (r : Ref sig .tc) (h : r ∉ p10_W) :
    after p10 V (Proc.devRef .tc r) = V (Proc.devRef .tc r) :=
  after_of_writes_sub p10 V p10_writes h

/-- The buffers piece 11 writes. -/
abbrev p11_W : List (Ref sig .tc) := [main_v337, main_v338, main_cst_81, main_v339, main_v340, main_cst_82, main_v341, main_c_83, main_v342, main_v343, main_v344, main_v345, main_v346, main_c_84, main_v347, main_v348, main_v349, main_v350, main_v351, main_v352]
theorem p11_writes : (p11 : List (HloOp τ sig (Elt F))).Forall fun op => op.writes ⊆ (p11_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 11 does not write keeps its contents through it. -/
theorem p11_keep (V : Valuation τ sig (Elt F)) (r : Ref sig .tc) (h : r ∉ p11_W) :
    after p11 V (Proc.devRef .tc r) = V (Proc.devRef .tc r) :=
  after_of_writes_sub p11 V p11_writes h

/-- The buffers piece 12 writes. -/
abbrev p12_W : List (Ref sig .tc) := [main_v353, main_v354, main_cst_85, main_cst_86, main_call16_v0, main_call16_v1, main_call16_v2, main_call16_v3, main_call16_v4, main_v355, main_v356, main_v357, main_v358, main_v359, main_v360, main_v361, main_v362, main_v363, main_v364, main_cst_87, main_v365, main_v366, main_v367, main_c_88, main_v368, main_v369, main_v370, main_v371, main_v372, main_c_89, main_v373, main_v374, main_v375, main_v376, main_v377, main_v378, main_v379, main_v380, main_v381, main_v382, main_v383, main_v384, main_v385, main_call17_cst, main_call17_v0, main_v386, main_v387]
theorem p12_writes : (p12 : List (HloOp τ sig (Elt F))).Forall fun op => op.writes ⊆ (p12_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 12 does not write keeps its contents through it. -/
theorem p12_keep (V : Valuation τ sig (Elt F)) (r : Ref sig .tc) (h : r ∉ p12_W) :
    after p12 V (Proc.devRef .tc r) = V (Proc.devRef .tc r) :=
  after_of_writes_sub p12 V p12_writes h

end Cert.ReferenceIdeal.FlowValue

end
-- ==== Proof.RefKeptB.lean ====
/-
  None of the buffers the first stretch sets for good is written by a later piece of the line (part B).
-/
import proofs.«135321_j73263552135281_2_alg».proof.Proof.RefInv
import proofs.«135321_j73263552135281_2_alg».proof.Proof.RefKeepB

noncomputable section

namespace Cert.ReferenceIdeal.FlowValue

open Cert.ReferenceIdeal Cert.ReferenceIdeal.Gen Idealize.ShloMosaic Idealize.ShloMosaic.TcCoe Idealize.SL.Sem Idealize.ShloMosaic.StableHlo

theorem kept_p7 : ∀ r ∈ kept, r ∉ p7_W := by decide
theorem kept_p8 : ∀ r ∈ kept, r ∉ p8_W := by decide
theorem kept_p9 : ∀ r ∈ kept, r ∉ p9_W := by decide
theorem kept_p10 : ∀ r ∈ kept, r ∉ p10_W := by decide
theorem kept_p11 : ∀ r ∈ kept, r ∉ p11_W := by decide
theorem kept_p12 : ∀ r ∈ kept, r ∉ p12_W := by decide

end Cert.ReferenceIdeal.FlowValue

end
-- ==== Proof.RefKeepC.lean ====
/-
  Which buffers each piece of the reference's line of operations writes (part C); a buffer outside that list keeps its
  contents through the piece.
-/
import proofs.«135321_j73263552135281_2_alg».proof.Proof.RefOpsC

noncomputable section

namespace Cert.ReferenceIdeal.FlowValue

open Cert.ReferenceIdeal Cert.ReferenceIdeal.Gen Idealize.ShloMosaic Idealize.ShloMosaic.TcCoe Idealize.SL.Sem Idealize.ShloMosaic.StableHlo

variable {F : FTy → Type} [FloatOps F]
/-- The buffers piece 13 writes. -/
abbrev p13_W : List (Ref sig .tc) := [main_v388, main_v389, main_v390, main_v391, main_v392, main_v393, main_v394, main_call18_cst, main_call18_v0, main_v395, main_v396, main_v397, main_v398, main_v399, main_v400, main_v401, main_v402, main_v403, main_v404, main_v405, main_v406, main_v407, main_cst_90, main_cst_91, main_call19_v0, main_call19_v1, main_call19_v2, main_call19_v3, main_call19_v4, main_v408, main_v409, main_v410, main_v411, main_v412, main_v413, main_v414, main_cst_92, main_v415, main_v416, main_cst_93, main_v417, main_v418, main_v419, main_v420, main_cst_94, main_v421, main_v422, main_v423, main_cst_95, main_v424, main_v425, main_v426, main_cst_96, main_v427, main_v428, main_cst_97, main_v429, main_c_98, main_v430, main_v431, main_v432, main_v433, main_v434, main_c_99, main_v435, main_v436, main_v437]
theorem p13_writes : (p13 : List (HloOp τ sig (Elt F))).Forall fun op => op.writes ⊆ (p13_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 13 does not write keeps its contents through it. -/
theorem p13_keep (V : Valuation τ sig (Elt F)) (r : Ref sig .tc) (h : r ∉ p13_W) :
    after p13 V (Proc.devRef .tc r) = V (Proc.devRef .tc r) :=
  after_of_writes_sub p13 V p13_writes h

/-- The buffers piece 14 writes. -/
abbrev p14_W : List (Ref sig .tc) := [main_v438, main_v439, main_v440]
theorem p14_writes : (p14 : List (HloOp τ sig (Elt F))).Forall fun op => op.writes ⊆ (p14_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 14 does not write keeps its contents through it. -/
theorem p14_keep (V : Valuation τ sig (Elt F)) (r : Ref sig .tc) (h : r ∉ p14_W) :
    after p14 V (Proc.devRef .tc r) = V (Proc.devRef .tc r) :=
  after_of_writes_sub p14 V p14_writes h

/-- The buffers piece 15 writes. -/
abbrev p15_W : List (Ref sig .tc) := [main_v441, main_v442, main_cst_100, main_cst_101, main_call20_v0, main_call20_v1, main_call20_v2, main_call20_v3, main_call20_v4, main_v443, main_v444, main_v445, main_v446, main_v447, main_v448, main_v449, main_v450, main_v451, main_v452, main_cst_102, main_v453, main_v454, main_v455, main_c_103, main_v456, main_v457, main_v458, main_v459, main_v460, main_c_104, main_v461, main_v462, main_v463, main_v464, main_v465, main_v466, main_v467, main_v468, main_v469, main_v470, main_v471, main_v472, main_v473, main_call21_cst, main_call21_v0, main_v474, main_v475, main_v476, main_v477, main_v478, main_v479, main_v480, main_v481, main_v482, main_call22_cst, main_call22_v0, main_v483, main_v484, main_v485, main_v486, main_v487, main_v488, main_v489, main_v490, main_v491, main_v492]
theorem p15_writes : (p15 : List (HloOp τ sig (Elt F))).Forall fun op => op.writes ⊆ (p15_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 15 does not write keeps its contents through it. -/
theorem p15_keep (V : Valuation τ sig (Elt F)) (r : Ref sig .tc) (h : r ∉ p15_W) :
    after p15 V (Proc.devRef .tc r) = V (Proc.devRef .tc r) :=
  after_of_writes_sub p15 V p15_writes h

/-- The buffers piece 16 writes. -/
abbrev p16_W : List (Ref sig .tc) := [main_v493, main_v494, main_v495, main_cst_105, main_cst_106, main_call23_v0, main_call23_v1, main_call23_v2, main_call23_v3, main_call23_v4, main_v496, main_v497, main_v498, main_v499, main_v500, main_v501, main_v502, main_cst_107, main_v503, main_v504, main_cst_108, main_v505, main_v506, main_v507, main_v508, main_cst_109, main_v509, main_v510, main_v511, main_cst_110, main_v512, main_v513, main_v514, main_cst_111, main_v515, main_v516, main_cst_112, main_v517, main_c_113, main_v518, main_v519, main_v520, main_v521, main_v522, main_c_114, main_v523, main_v524, main_v525, main_v526, main_v527, main_v528]
theorem p16_writes : (p16 : List (HloOp τ sig (Elt F))).Forall fun op => op.writes ⊆ (p16_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer piece 16 does not write keeps its contents through it. -/
theorem p16_keep (V : Valuation τ sig (Elt F)) (r : Ref sig .tc) (h : r ∉ p16_W) :
    after p16 V (Proc.devRef .tc r) = V (Proc.devRef .tc r) :=
  after_of_writes_sub p16 V p16_writes h

end Cert.ReferenceIdeal.FlowValue

end
-- ==== Proof.RefKeptC.lean ====
/-
  None of the buffers the first stretch sets for good is written by a later piece of the line (part C).
-/
import proofs.«135321_j73263552135281_2_alg».proof.Proof.RefInv
import proofs.«135321_j73263552135281_2_alg».proof.Proof.RefKeepC

noncomputable section

namespace Cert.ReferenceIdeal.FlowValue

open Cert.ReferenceIdeal Cert.ReferenceIdeal.Gen Idealize.ShloMosaic Idealize.ShloMosaic.TcCoe Idealize.SL.Sem Idealize.ShloMosaic.StableHlo

theorem kept_p13 : ∀ r ∈ kept, r ∉ p13_W := by decide
theorem kept_p14 : ∀ r ∈ kept, r ∉ p14_W := by decide
theorem kept_p15 : ∀ r ∈ kept, r ∉ p15_W := by decide
theorem kept_p16 : ∀ r ∈ kept, r ∉ p16_W := by decide

end Cert.ReferenceIdeal.FlowValue

end
-- ==== Proof.RefLayer.lean ====
/-
  One layer of the reference, as the composed term of its operations on the layer's sliced parameter rows, the two index
  vectors and the carried pair (the batch and its log-determinants); and the proof that it is one layer of the flow
  applied to every row of the batch.
-/
import proofs.«135321_j73263552135281_2_alg».proof.ReferenceIdeal
import proofs.«135321_j73263552135281_2_alg».proof.Proof.Flow
import Idealize.ShloMosaic.Lib.ValueIdx
import Idealize.ShloMosaic.Lib.IdealHost

set_option maxRecDepth 16384

noncomputable section

namespace Cert.ReferenceIdeal.FlowValue

open Idealize.ShloMosaic
open Cert.ReferenceIdeal

variable [Facts]
open Facts₀ Facts

/-! ## The layer as the program's operations -/

/-- An index vector as the gather and the scatter take it: a negative entry would be raised by eight (none is: the mask
    is all false), then the vector becomes a [4, 1] column. The vector is taken as the program's literal, before this. -/
def idxCol (v : IVec S4 32) : IVec S4x1 32 :=
  broadcastInDim S4x1 ![0] bcast_S4_S4x1_0
    (select (constantI S4 1 0#1) (addi v (broadcastInDim S4 ![] bcast_S_S4 (constantI S_ 32 8#32))) v)

/-- Clipping a length-8 vector to [-5, 5]. -/
def clip8 (x : FVec Ideal S8 .f32) : FVec Ideal S8 .f32 :=
  minimumf (broadcastInDim S8 ![] bcast_S_S8 (id (constant (F := Ideal) S_ .f32 0x40A00000#32)))
    (maximumf (broadcastInDim S8 ![] bcast_S_S8 (id (constant (F := Ideal) S_ .f32 0xC0A00000#32))) x)

/-- Clipping a length-4 vector to [-5, 5]. -/
def clip4 (x : FVec Ideal S4 .f32) : FVec Ideal S4 .f32 :=
  minimumf (broadcastInDim S4 ![] bcast_S_S4 (id (constant (F := Ideal) S_ .f32 0x40A00000#32)))
    (maximumf (broadcastInDim S4 ![] bcast_S_S4 (id (constant (F := Ideal) S_ .f32 0xC0A00000#32))) x)

/-- A length-8 vector as every row of a [262144, 8] array. -/
def rows8 (v : FVec Ideal S8 .f32) : FVec Ideal S262144x8 .f32 :=
  broadcastInDim S262144x8 ![0, 1] bcast_S1x8_S262144x8_0_1 (broadcastInDim S1x8 ![1] bcast_S8_S1x8_1 v)

/-- A length-128 vector as every row of a [262144, 128] array. -/
def rows128 (v : FVec Ideal S128 .f32) : FVec Ideal S262144x128 .f32 :=
  broadcastInDim S262144x128 ![0, 1] bcast_S1x128_S262144x128_0_1 (broadcastInDim S1x128 ![1] bcast_S128_S1x128_1 v)

/-- A length-4 vector as every row of a [262144, 4] array. -/
def rows4 (v : FVec Ideal S4 .f32) : FVec Ideal S262144x4 .f32 :=
  broadcastInDim S262144x4 ![0, 1] bcast_S1x4_S262144x4_0_1 (broadcastInDim S1x4 ![1] bcast_S4_S1x4_1 v)

/-- max(x, 0) on a [262144, 128] array. -/
def relu (x : FVec Ideal S262144x128 .f32) : FVec Ideal S262144x128 .f32 :=
  maximumf x (broadcastInDim S262144x128 ![] bcast_S_S262144x128 (constant (F := Ideal) S_ .f32 0x00000000#32))

/-- The clipped log-scale of the layer. -/
def lsV (s1 : FVec Ideal S1x8 .f32) : FVec Ideal S8 .f32 := clip8 (shapeCast S8 s1 shapeCasts_S1x8_S8)

/-- The batch after the affine normalization. -/
def normV (s1 s2 : FVec Ideal S1x8 .f32) (z : FVec Ideal S262144x8 .f32) : FVec Ideal S262144x8 .f32 :=
  mulf (addf z (rows8 (shapeCast S8 s2 shapeCasts_S1x8_S8))) (rows8 (Host.exp (lsV s1)))

/-- The log-determinants after the normalization. -/
def ldNormV (s1 : FVec Ideal S1x8 .f32) (ld : FVec Ideal S262144 .f32) : FVec Ideal S262144 .f32 :=
  addf ld (broadcastInDim S262144 ![] bcast_S_S262144
    (Host.reduceAdd (F := Ideal) (lsV s1) (constant (F := Ideal) S_ .f32 0x00000000#32) reducesTo_S8_S_d0 h_S_))

/-- The columns an index vector names. -/
def colsV (z1 : FVec Ideal S262144x8 .f32) (v : IVec S4 32) : FVec Ideal S262144x4 .f32 :=
  Host.gather gather_S262144x8_S4x1_S262144x4_0_1_n_n_1_1_2621441 z1 (idxCol v)

/-- The three-layer perceptron on the fixed half. -/
def mlpV (s3 : FVec Ideal S1x4x128 .f32) (s4 : FVec Ideal S1x128 .f32) (s5 : FVec Ideal S1x128x128 .f32)
    (s6 : FVec Ideal S1x128 .f32) (s7 : FVec Ideal S1x128x8 .f32) (s8 : FVec Ideal S1x8 .f32)
    (xf : FVec Ideal S262144x4 .f32) : FVec Ideal S262144x8 .f32 :=
  addf
    (Host.dotGeneral (F := Ideal) dot_S262144x128_S128x8_S262144x8_1_0_0_1_n_n none
      (relu (addf
        (Host.dotGeneral (F := Ideal) dot_S262144x128_S128x128_S262144x128_1_0_0_1_n_n none
          (relu (addf
            (Host.dotGeneral (F := Ideal) dot_S262144x4_S4x128_S262144x128_1_0_0_1_n_n none xf
              (shapeCast S4x128 s3 shapeCasts_S1x4x128_S4x128))
            (rows128 (shapeCast S128 s4 shapeCasts_S1x128_S128))))
          (shapeCast S128x128 s5 shapeCasts_S1x128x128_S128x128))
        (rows128 (shapeCast S128 s6 shapeCasts_S1x128_S128))))
      (shapeCast S128x8 s7 shapeCasts_S1x128x8_S128x8))
    (rows8 (shapeCast S8 s8 shapeCasts_S1x8_S8))

/-- The shift: exp of the clipped log-gain times tanh of the first four outputs. -/
def shiftV (s9 : FVec Ideal S1x4 .f32) (h : FVec Ideal S262144x8 .f32) : FVec Ideal S262144x4 .f32 :=
  mulf (rows4 (Host.exp (clip4 (shapeCast S4 s9 shapeCasts_S1x4_S4))))
    (Host.tanh (extractStridedSlice S262144x4 ![0, 0] h slices_S262144x8_S262144x4_0_0))

/-- The scale minus one: 0.6 times tanh of the last four outputs. -/
def scaleV (h : FVec Ideal S262144x8 .f32) : FVec Ideal S262144x4 .f32 :=
  mulf (broadcastInDim S262144x4 ![] bcast_S_S262144x4 (constant (F := Ideal) S_ .f32 0x3F19999A#32))
    (Host.tanh (extractStridedSlice S262144x4 ![0, 4] h slices_S262144x8_S262144x4_0_4))

/-- One plus the scale. -/
def onePlusV (h : FVec Ideal S262144x8 .f32) : FVec Ideal S262144x4 .f32 :=
  addf (broadcastInDim S262144x4 ![] bcast_S_S262144x4 (constant (F := Ideal) S_ .f32 0x3F800000#32)) (scaleV h)

/-- The transformed half. -/
def movedV (s9 : FVec Ideal S1x4 .f32) (h : FVec Ideal S262144x8 .f32) (xt : FVec Ideal S262144x4 .f32) :
    FVec Ideal S262144x4 .f32 :=
  addf (mulf xt (onePlusV h)) (shiftV s9 h)

/-- The coupling's gain of the log-determinants. -/
def gainV (h : FVec Ideal S262144x8 .f32) : FVec Ideal S262144 .f32 :=
  Host.reduceAdd (F := Ideal)
    (Host.log (addf (Host.absf (onePlusV h))
      (broadcastInDim S262144x4 ![] bcast_S_S262144x4 (constant (F := Ideal) S_ .f32 0x322BCC77#32))))
    (constant (F := Ideal) S_ .f32 0x00000000#32) reducesTo_S262144x4_S262144_d1 h_S_

/-- The two halves written back into a zero array at their columns, then the columns reversed. -/
def putV (fixed moved : IVec S4 32) (xf yt : FVec Ideal S262144x4 .f32) : FVec Ideal S262144x8 .f32 :=
  Host.reverse [1]
    (Host.scatter scatter_S262144x8_S4x1_S262144x4_0_1_1_1 (fun _ b => b)
      (Host.scatter scatter_S262144x8_S4x1_S262144x4_0_1_1_1 (fun _ b => b)
        (broadcastInDim S262144x8 ![] bcast_S_S262144x8 (constant (F := Ideal) S_ .f32 0x00000000#32))
        (idxCol fixed) xf)
      (idxCol moved) yt)

/-- One layer of the reference: the layer's rows of the nine parameter arrays (as the slices the program takes, before
    their reshapes), the two index vectors as the program's literals (before the raise-negatives step, which idxCol
    applies), and the carried batch and log-determinants. -/
def layerV (s1 s2 : FVec Ideal S1x8 .f32) (s3 : FVec Ideal S1x4x128 .f32) (s4 : FVec Ideal S1x128 .f32)
    (s5 : FVec Ideal S1x128x128 .f32) (s6 : FVec Ideal S1x128 .f32) (s7 : FVec Ideal S1x128x8 .f32)
    (s8 : FVec Ideal S1x8 .f32) (s9 : FVec Ideal S1x4 .f32) (fixed moved : IVec S4 32)
    (acc : FVec Ideal S262144x8 .f32 × FVec Ideal S262144 .f32) :
    FVec Ideal S262144x8 .f32 × FVec Ideal S262144 .f32 :=
  (putV fixed moved (colsV (normV s1 s2 acc.1) fixed)
      (movedV s9 (mlpV s3 s4 s5 s6 s7 s8 (colsV (normV s1 s2 acc.1) fixed)) (colsV (normV s1 s2 acc.1) moved)),
   addf (ldNormV s1 acc.2) (gainV (mlpV s3 s4 s5 s6 s7 s8 (colsV (normV s1 s2 acc.1) fixed))))

end Cert.ReferenceIdeal.FlowValue

end
-- ==== Proof.RefL0.lean ====
/-
  Layer 0 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 0. -/
abbrev L0 : List (HloOp τ sig (Elt Ideal)) := p1 ++ (p2 ++ (p3))

attribute [local irreducible] Host.scatter Host.gather Host.reverse Host.reduceAdd in
set_option maxHeartbeats 4000000 in
set_option maxRecDepth 16384 in
/-- The batch after layer 0. -/
theorem layer0_z (V : Valuation τ sig (Elt Ideal)) (h0 : V (main_c_0 : DevRef τ sig) = constantI S4 1 0#1) (h1 : V (main_c_2 : DevRef τ sig) = constantI S4 1 0#1) (h2 : V (main_c_3 : DevRef τ sig) = constantI S4 1 0#1) (h3 : V (main_c_4 : DevRef τ sig) = constantI S4 1 0#1) :
    after L0 V (main_v88 : DevRef τ sig) =
      (layerV (extractStridedSlice S1x8 ![0, 0] (V (main_arg1 : DevRef τ sig)) slices_S6x8_S1x8_0_0)
        (extractStridedSlice S1x8 ![0, 0] (V (main_arg2 : DevRef τ sig)) slices_S6x8_S1x8_0_0)
        (extractStridedSlice S1x4x128 ![0, 0, 0] (V (main_arg3 : DevRef τ sig)) slices_S6x4x128_S1x4x128_0_0_0)
        (extractStridedSlice S1x128 ![0, 0] (V (main_arg4 : DevRef τ sig)) slices_S6x128_S1x128_0_0)
        (extractStridedSlice S1x128x128 ![0, 0, 0] (V (main_arg5 : DevRef τ sig)) slices_S6x128x128_S1x128x128_0_0_0)
        (extractStridedSlice S1x128 ![0, 0] (V (main_arg6 : DevRef τ sig)) slices_S6x128_S1x128_0_0)
        (extractStridedSlice S1x128x8 ![0, 0, 0] (V (main_arg7 : DevRef τ sig)) slices_S6x128x8_S1x128x8_0_0_0)
        (extractStridedSlice S1x8 ![0, 0] (V (main_arg8 : DevRef τ sig)) slices_S6x8_S1x8_0_0)
        (extractStridedSlice S1x4 ![0, 0] (V (main_arg9 : DevRef τ sig)) slices_S6x4_S1x4_0_0)
        (V (main_c : DevRef τ sig)) (V (main_c_1 : DevRef τ sig)) (V (main_arg0 : DevRef τ sig), V (main_v0 : DevRef τ sig))).1 := by
  simp only [L0, after_append, p1, p2, p3]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 0. -/
theorem layer0_ld (V : Valuation τ sig (Elt Ideal)) (h0 : V (main_c_0 : DevRef τ sig) = constantI S4 1 0#1) (h1 : V (main_c_2 : DevRef τ sig) = constantI S4 1 0#1) (h2 : V (main_c_3 : DevRef τ sig) = constantI S4 1 0#1) (h3 : V (main_c_4 : DevRef τ sig) = constantI S4 1 0#1) :
    after L0 V (main_v76 : DevRef τ sig) =
      (layerV (extractStridedSlice S1x8 ![0, 0] (V (main_arg1 : DevRef τ sig)) slices_S6x8_S1x8_0_0)
        (extractStridedSlice S1x8 ![0, 0] (V (main_arg2 : DevRef τ sig)) slices_S6x8_S1x8_0_0)
        (extractStridedSlice S1x4x128 ![0, 0, 0] (V (main_arg3 : DevRef τ sig)) slices_S6x4x128_S1x4x128_0_0_0)
        (extractStridedSlice S1x128 ![0, 0] (V (main_arg4 : DevRef τ sig)) slices_S6x128_S1x128_0_0)
        (extractStridedSlice S1x128x128 ![0, 0, 0] (V (main_arg5 : DevRef τ sig)) slices_S6x128x128_S1x128x128_0_0_0)
        (extractStridedSlice S1x128 ![0, 0] (V (main_arg6 : DevRef τ sig)) slices_S6x128_S1x128_0_0)
        (extractStridedSlice S1x128x8 ![0, 0, 0] (V (main_arg7 : DevRef τ sig)) slices_S6x128x8_S1x128x8_0_0_0)
        (extractStridedSlice S1x8 ![0, 0] (V (main_arg8 : DevRef τ sig)) slices_S6x8_S1x8_0_0)
        (extractStridedSlice S1x4 ![0, 0] (V (main_arg9 : DevRef τ sig)) slices_S6x4_S1x4_0_0)
        (V (main_c : DevRef τ sig)) (V (main_c_1 : DevRef τ sig)) (V (main_arg0 : DevRef τ sig), V (main_v0 : DevRef τ sig))).2 := by
  simp only [L0, after_append, p1, p2, p3]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.RefL1.lean ====
/-
  Layer 1 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 1. -/
abbrev L1 : List (HloOp τ sig (Elt Ideal)) := p4 ++ (p5)

attribute [local irreducible] Host.scatter Host.gather Host.reverse Host.reduceAdd in
set_option maxHeartbeats 4000000 in
set_option maxRecDepth 16384 in
/-- The batch after layer 1. -/
theorem layer1_z (V : Valuation τ sig (Elt Ideal)) (h0 : V (main_c_5 : DevRef τ sig) = constantI S4 1 0#1) (h1 : V (main_c_6 : DevRef τ sig) = constantI S4 1 0#1) (h2 : V (main_c_7 : DevRef τ sig) = constantI S4 1 0#1) (h3 : V (main_c_8 : DevRef τ sig) = constantI S4 1 0#1) :
    after L1 V (main_v176 : DevRef τ sig) =
      (layerV (extractStridedSlice S1x8 ![1, 0] (V (main_arg1 : DevRef τ sig)) slices_S6x8_S1x8_1_0)
        (extractStridedSlice S1x8 ![1, 0] (V (main_arg2 : DevRef τ sig)) slices_S6x8_S1x8_1_0)
        (extractStridedSlice S1x4x128 ![1, 0, 0] (V (main_arg3 : DevRef τ sig)) slices_S6x4x128_S1x4x128_1_0_0)
        (extractStridedSlice S1x128 ![1, 0] (V (main_arg4 : DevRef τ sig)) slices_S6x128_S1x128_1_0)
        (extractStridedSlice S1x128x128 ![1, 0, 0] (V (main_arg5 : DevRef τ sig)) slices_S6x128x128_S1x128x128_1_0_0)
        (extractStridedSlice S1x128 ![1, 0] (V (main_arg6 : DevRef τ sig)) slices_S6x128_S1x128_1_0)
        (extractStridedSlice S1x128x8 ![1, 0, 0] (V (main_arg7 : DevRef τ sig)) slices_S6x128x8_S1x128x8_1_0_0)
        (extractStridedSlice S1x8 ![1, 0] (V (main_arg8 : DevRef τ sig)) slices_S6x8_S1x8_1_0)
        (extractStridedSlice S1x4 ![1, 0] (V (main_arg9 : DevRef τ sig)) slices_S6x4_S1x4_1_0)
        (V (main_c_1 : DevRef τ sig)) (V (main_c : DevRef τ sig)) (V (main_v88 : DevRef τ sig), V (main_v76 : DevRef τ sig))).1 := by
  simp only [L1, after_append, p4, p5]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 1. -/
theorem layer1_ld (V : Valuation τ sig (Elt Ideal)) (h0 : V (main_c_5 : DevRef τ sig) = constantI S4 1 0#1) (h1 : V (main_c_6 : DevRef τ sig) = constantI S4 1 0#1) (h2 : V (main_c_7 : DevRef τ sig) = constantI S4 1 0#1) (h3 : V (main_c_8 : DevRef τ sig) = constantI S4 1 0#1) :
    after L1 V (main_v164 : DevRef τ sig) =
      (layerV (extractStridedSlice S1x8 ![1, 0] (V (main_arg1 : DevRef τ sig)) slices_S6x8_S1x8_1_0)
        (extractStridedSlice S1x8 ![1, 0] (V (main_arg2 : DevRef τ sig)) slices_S6x8_S1x8_1_0)
        (extractStridedSlice S1x4x128 ![1, 0, 0] (V (main_arg3 : DevRef τ sig)) slices_S6x4x128_S1x4x128_1_0_0)
        (extractStridedSlice S1x128 ![1, 0] (V (main_arg4 : DevRef τ sig)) slices_S6x128_S1x128_1_0)
        (extractStridedSlice S1x128x128 ![1, 0, 0] (V (main_arg5 : DevRef τ sig)) slices_S6x128x128_S1x128x128_1_0_0)
        (extractStridedSlice S1x128 ![1, 0] (V (main_arg6 : DevRef τ sig)) slices_S6x128_S1x128_1_0)
        (extractStridedSlice S1x128x8 ![1, 0, 0] (V (main_arg7 : DevRef τ sig)) slices_S6x128x8_S1x128x8_1_0_0)
        (extractStridedSlice S1x8 ![1, 0] (V (main_arg8 : DevRef τ sig)) slices_S6x8_S1x8_1_0)
        (extractStridedSlice S1x4 ![1, 0] (V (main_arg9 : DevRef τ sig)) slices_S6x4_S1x4_1_0)
        (V (main_c_1 : DevRef τ sig)) (V (main_c : DevRef τ sig)) (V (main_v88 : DevRef τ sig), V (main_v76 : DevRef τ sig))).2 := by
  simp only [L1, after_append, p4, p5]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.RefL2.lean ====
/-
  Layer 2 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 2. -/
abbrev L2 : List (HloOp τ sig (Elt Ideal)) := p6 ++ (p7 ++ (p8))

attribute [local irreducible] Host.scatter Host.gather Host.reverse Host.reduceAdd in
set_option maxHeartbeats 4000000 in
set_option maxRecDepth 16384 in
/-- The batch after layer 2. -/
theorem layer2_z (V : Valuation τ sig (Elt Ideal)) (h0 : V (main_c_9 : DevRef τ sig) = constantI S4 1 0#1) (h1 : V (main_c_10 : DevRef τ sig) = constantI S4 1 0#1) (h2 : V (main_c_11 : DevRef τ sig) = constantI S4 1 0#1) (h3 : V (main_c_12 : DevRef τ sig) = constantI S4 1 0#1) :
    after L2 V (main_v264 : DevRef τ sig) =
      (layerV (extractStridedSlice S1x8 ![2, 0] (V (main_arg1 : DevRef τ sig)) slices_S6x8_S1x8_2_0)
        (extractStridedSlice S1x8 ![2, 0] (V (main_arg2 : DevRef τ sig)) slices_S6x8_S1x8_2_0)
        (extractStridedSlice S1x4x128 ![2, 0, 0] (V (main_arg3 : DevRef τ sig)) slices_S6x4x128_S1x4x128_2_0_0)
        (extractStridedSlice S1x128 ![2, 0] (V (main_arg4 : DevRef τ sig)) slices_S6x128_S1x128_2_0)
        (extractStridedSlice S1x128x128 ![2, 0, 0] (V (main_arg5 : DevRef τ sig)) slices_S6x128x128_S1x128x128_2_0_0)
        (extractStridedSlice S1x128 ![2, 0] (V (main_arg6 : DevRef τ sig)) slices_S6x128_S1x128_2_0)
        (extractStridedSlice S1x128x8 ![2, 0, 0] (V (main_arg7 : DevRef τ sig)) slices_S6x128x8_S1x128x8_2_0_0)
        (extractStridedSlice S1x8 ![2, 0] (V (main_arg8 : DevRef τ sig)) slices_S6x8_S1x8_2_0)
        (extractStridedSlice S1x4 ![2, 0] (V (main_arg9 : DevRef τ sig)) slices_S6x4_S1x4_2_0)
        (V (main_c : DevRef τ sig)) (V (main_c_1 : DevRef τ sig)) (V (main_v176 : DevRef τ sig), V (main_v164 : DevRef τ sig))).1 := by
  simp only [L2, after_append, p6, p7, p8]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 2. -/
theorem layer2_ld (V : Valuation τ sig (Elt Ideal)) (h0 : V (main_c_9 : DevRef τ sig) = constantI S4 1 0#1) (h1 : V (main_c_10 : DevRef τ sig) = constantI S4 1 0#1) (h2 : V (main_c_11 : DevRef τ sig) = constantI S4 1 0#1) (h3 : V (main_c_12 : DevRef τ sig) = constantI S4 1 0#1) :
    after L2 V (main_v252 : DevRef τ sig) =
      (layerV (extractStridedSlice S1x8 ![2, 0] (V (main_arg1 : DevRef τ sig)) slices_S6x8_S1x8_2_0)
        (extractStridedSlice S1x8 ![2, 0] (V (main_arg2 : DevRef τ sig)) slices_S6x8_S1x8_2_0)
        (extractStridedSlice S1x4x128 ![2, 0, 0] (V (main_arg3 : DevRef τ sig)) slices_S6x4x128_S1x4x128_2_0_0)
        (extractStridedSlice S1x128 ![2, 0] (V (main_arg4 : DevRef τ sig)) slices_S6x128_S1x128_2_0)
        (extractStridedSlice S1x128x128 ![2, 0, 0] (V (main_arg5 : DevRef τ sig)) slices_S6x128x128_S1x128x128_2_0_0)
        (extractStridedSlice S1x128 ![2, 0] (V (main_arg6 : DevRef τ sig)) slices_S6x128_S1x128_2_0)
        (extractStridedSlice S1x128x8 ![2, 0, 0] (V (main_arg7 : DevRef τ sig)) slices_S6x128x8_S1x128x8_2_0_0)
        (extractStridedSlice S1x8 ![2, 0] (V (main_arg8 : DevRef τ sig)) slices_S6x8_S1x8_2_0)
        (extractStridedSlice S1x4 ![2, 0] (V (main_arg9 : DevRef τ sig)) slices_S6x4_S1x4_2_0)
        (V (main_c : DevRef τ sig)) (V (main_c_1 : DevRef τ sig)) (V (main_v176 : DevRef τ sig), V (main_v164 : DevRef τ sig))).2 := by
  simp only [L2, after_append, p6, p7, p8]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.RefL3.lean ====
/-
  Layer 3 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 3. -/
abbrev L3 : List (HloOp τ sig (Elt Ideal)) := p9 ++ (p10 ++ (p11))

attribute [local irreducible] Host.scatter Host.gather Host.reverse Host.reduceAdd in
set_option maxHeartbeats 4000000 in
set_option maxRecDepth 16384 in
/-- The batch after layer 3. -/
theorem layer3_z (V : Valuation τ sig (Elt Ideal)) (h0 : V (main_c_13 : DevRef τ sig) = constantI S4 1 0#1) (h1 : V (main_c_14 : DevRef τ sig) = constantI S4 1 0#1) (h2 : V (main_c_15 : DevRef τ sig) = constantI S4 1 0#1) (h3 : V (main_c_16 : DevRef τ sig) = constantI S4 1 0#1) :
    after L3 V (main_v352 : DevRef τ sig) =
      (layerV (extractStridedSlice S1x8 ![3, 0] (V (main_arg1 : DevRef τ sig)) slices_S6x8_S1x8_3_0)
        (extractStridedSlice S1x8 ![3, 0] (V (main_arg2 : DevRef τ sig)) slices_S6x8_S1x8_3_0)
        (extractStridedSlice S1x4x128 ![3, 0, 0] (V (main_arg3 : DevRef τ sig)) slices_S6x4x128_S1x4x128_3_0_0)
        (extractStridedSlice S1x128 ![3, 0] (V (main_arg4 : DevRef τ sig)) slices_S6x128_S1x128_3_0)
        (extractStridedSlice S1x128x128 ![3, 0, 0] (V (main_arg5 : DevRef τ sig)) slices_S6x128x128_S1x128x128_3_0_0)
        (extractStridedSlice S1x128 ![3, 0] (V (main_arg6 : DevRef τ sig)) slices_S6x128_S1x128_3_0)
        (extractStridedSlice S1x128x8 ![3, 0, 0] (V (main_arg7 : DevRef τ sig)) slices_S6x128x8_S1x128x8_3_0_0)
        (extractStridedSlice S1x8 ![3, 0] (V (main_arg8 : DevRef τ sig)) slices_S6x8_S1x8_3_0)
        (extractStridedSlice S1x4 ![3, 0] (V (main_arg9 : DevRef τ sig)) slices_S6x4_S1x4_3_0)
        (V (main_c_1 : DevRef τ sig)) (V (main_c : DevRef τ sig)) (V (main_v264 : DevRef τ sig), V (main_v252 : DevRef τ sig))).1 := by
  simp only [L3, after_append, p9, p10, p11]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 3. -/
theorem layer3_ld (V : Valuation τ sig (Elt Ideal)) (h0 : V (main_c_13 : DevRef τ sig) = constantI S4 1 0#1) (h1 : V (main_c_14 : DevRef τ sig) = constantI S4 1 0#1) (h2 : V (main_c_15 : DevRef τ sig) = constantI S4 1 0#1) (h3 : V (main_c_16 : DevRef τ sig) = constantI S4 1 0#1) :
    after L3 V (main_v340 : DevRef τ sig) =
      (layerV (extractStridedSlice S1x8 ![3, 0] (V (main_arg1 : DevRef τ sig)) slices_S6x8_S1x8_3_0)
        (extractStridedSlice S1x8 ![3, 0] (V (main_arg2 : DevRef τ sig)) slices_S6x8_S1x8_3_0)
        (extractStridedSlice S1x4x128 ![3, 0, 0] (V (main_arg3 : DevRef τ sig)) slices_S6x4x128_S1x4x128_3_0_0)
        (extractStridedSlice S1x128 ![3, 0] (V (main_arg4 : DevRef τ sig)) slices_S6x128_S1x128_3_0)
        (extractStridedSlice S1x128x128 ![3, 0, 0] (V (main_arg5 : DevRef τ sig)) slices_S6x128x128_S1x128x128_3_0_0)
        (extractStridedSlice S1x128 ![3, 0] (V (main_arg6 : DevRef τ sig)) slices_S6x128_S1x128_3_0)
        (extractStridedSlice S1x128x8 ![3, 0, 0] (V (main_arg7 : DevRef τ sig)) slices_S6x128x8_S1x128x8_3_0_0)
        (extractStridedSlice S1x8 ![3, 0] (V (main_arg8 : DevRef τ sig)) slices_S6x8_S1x8_3_0)
        (extractStridedSlice S1x4 ![3, 0] (V (main_arg9 : DevRef τ sig)) slices_S6x4_S1x4_3_0)
        (V (main_c_1 : DevRef τ sig)) (V (main_c : DevRef τ sig)) (V (main_v264 : DevRef τ sig), V (main_v252 : DevRef τ sig))).2 := by
  simp only [L3, after_append, p9, p10, p11]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.RefL4.lean ====
/-
  Layer 4 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 4. -/
abbrev L4 : List (HloOp τ sig (Elt Ideal)) := p12 ++ (p13 ++ (p14))

attribute [local irreducible] Host.scatter Host.gather Host.reverse Host.reduceAdd in
set_option maxHeartbeats 4000000 in
set_option maxRecDepth 16384 in
/-- The batch after layer 4. -/
theorem layer4_z (V : Valuation τ sig (Elt Ideal)) (h0 : V (main_c_17 : DevRef τ sig) = constantI S4 1 0#1) (h1 : V (main_c_18 : DevRef τ sig) = constantI S4 1 0#1) (h2 : V (main_c_19 : DevRef τ sig) = constantI S4 1 0#1) (h3 : V (main_c_20 : DevRef τ sig) = constantI S4 1 0#1) :
    after L4 V (main_v440 : DevRef τ sig) =
      (layerV (extractStridedSlice S1x8 ![4, 0] (V (main_arg1 : DevRef τ sig)) slices_S6x8_S1x8_4_0)
        (extractStridedSlice S1x8 ![4, 0] (V (main_arg2 : DevRef τ sig)) slices_S6x8_S1x8_4_0)
        (extractStridedSlice S1x4x128 ![4, 0, 0] (V (main_arg3 : DevRef τ sig)) slices_S6x4x128_S1x4x128_4_0_0)
        (extractStridedSlice S1x128 ![4, 0] (V (main_arg4 : DevRef τ sig)) slices_S6x128_S1x128_4_0)
        (extractStridedSlice S1x128x128 ![4, 0, 0] (V (main_arg5 : DevRef τ sig)) slices_S6x128x128_S1x128x128_4_0_0)
        (extractStridedSlice S1x128 ![4, 0] (V (main_arg6 : DevRef τ sig)) slices_S6x128_S1x128_4_0)
        (extractStridedSlice S1x128x8 ![4, 0, 0] (V (main_arg7 : DevRef τ sig)) slices_S6x128x8_S1x128x8_4_0_0)
        (extractStridedSlice S1x8 ![4, 0] (V (main_arg8 : DevRef τ sig)) slices_S6x8_S1x8_4_0)
        (extractStridedSlice S1x4 ![4, 0] (V (main_arg9 : DevRef τ sig)) slices_S6x4_S1x4_4_0)
        (V (main_c : DevRef τ sig)) (V (main_c_1 : DevRef τ sig)) (V (main_v352 : DevRef τ sig), V (main_v340 : DevRef τ sig))).1 := by
  simp only [L4, after_append, p12, p13, p14]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 4. -/
theorem layer4_ld (V : Valuation τ sig (Elt Ideal)) (h0 : V (main_c_17 : DevRef τ sig) = constantI S4 1 0#1) (h1 : V (main_c_18 : DevRef τ sig) = constantI S4 1 0#1) (h2 : V (main_c_19 : DevRef τ sig) = constantI S4 1 0#1) (h3 : V (main_c_20 : DevRef τ sig) = constantI S4 1 0#1) :
    after L4 V (main_v428 : DevRef τ sig) =
      (layerV (extractStridedSlice S1x8 ![4, 0] (V (main_arg1 : DevRef τ sig)) slices_S6x8_S1x8_4_0)
        (extractStridedSlice S1x8 ![4, 0] (V (main_arg2 : DevRef τ sig)) slices_S6x8_S1x8_4_0)
        (extractStridedSlice S1x4x128 ![4, 0, 0] (V (main_arg3 : DevRef τ sig)) slices_S6x4x128_S1x4x128_4_0_0)
        (extractStridedSlice S1x128 ![4, 0] (V (main_arg4 : DevRef τ sig)) slices_S6x128_S1x128_4_0)
        (extractStridedSlice S1x128x128 ![4, 0, 0] (V (main_arg5 : DevRef τ sig)) slices_S6x128x128_S1x128x128_4_0_0)
        (extractStridedSlice S1x128 ![4, 0] (V (main_arg6 : DevRef τ sig)) slices_S6x128_S1x128_4_0)
        (extractStridedSlice S1x128x8 ![4, 0, 0] (V (main_arg7 : DevRef τ sig)) slices_S6x128x8_S1x128x8_4_0_0)
        (extractStridedSlice S1x8 ![4, 0] (V (main_arg8 : DevRef τ sig)) slices_S6x8_S1x8_4_0)
        (extractStridedSlice S1x4 ![4, 0] (V (main_arg9 : DevRef τ sig)) slices_S6x4_S1x4_4_0)
        (V (main_c : DevRef τ sig)) (V (main_c_1 : DevRef τ sig)) (V (main_v352 : DevRef τ sig), V (main_v340 : DevRef τ sig))).2 := by
  simp only [L4, after_append, p12, p13, p14]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.RefL5.lean ====
/-
  Layer 5 of the reference's line of operations, read as one function of what it finds: from any contents in which the
  layer's four masks are all false, the batch and the log-determinants it leaves are the one-layer function of the layer's
  rows of the parameter arrays, the two index vectors, and the batch and log-determinants it found. Both sides are the
  same operations in the same order once the one-layer function is unfolded.
-/
import proofs.«135321_j73263552135281_2_alg».proof.Proof.RefOps
import proofs.«135321_j73263552135281_2_alg».proof.Proof.RefLayer

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The operations of layer 5. -/
abbrev L5 : List (HloOp τ sig (Elt Ideal)) := p15 ++ (p16)

attribute [local irreducible] Host.scatter Host.gather Host.reverse Host.reduceAdd in
set_option maxHeartbeats 4000000 in
set_option maxRecDepth 16384 in
/-- The batch after layer 5. -/
theorem layer5_z (V : Valuation τ sig (Elt Ideal)) (h0 : V (main_c_21 : DevRef τ sig) = constantI S4 1 0#1) (h1 : V (main_c_22 : DevRef τ sig) = constantI S4 1 0#1) (h2 : V (main_c_23 : DevRef τ sig) = constantI S4 1 0#1) (h3 : V (main_c_24 : DevRef τ sig) = constantI S4 1 0#1) :
    after L5 V (main_v528 : DevRef τ sig) =
      (layerV (extractStridedSlice S1x8 ![5, 0] (V (main_arg1 : DevRef τ sig)) slices_S6x8_S1x8_5_0)
        (extractStridedSlice S1x8 ![5, 0] (V (main_arg2 : DevRef τ sig)) slices_S6x8_S1x8_5_0)
        (extractStridedSlice S1x4x128 ![5, 0, 0] (V (main_arg3 : DevRef τ sig)) slices_S6x4x128_S1x4x128_5_0_0)
        (extractStridedSlice S1x128 ![5, 0] (V (main_arg4 : DevRef τ sig)) slices_S6x128_S1x128_5_0)
        (extractStridedSlice S1x128x128 ![5, 0, 0] (V (main_arg5 : DevRef τ sig)) slices_S6x128x128_S1x128x128_5_0_0)
        (extractStridedSlice S1x128 ![5, 0] (V (main_arg6 : DevRef τ sig)) slices_S6x128_S1x128_5_0)
        (extractStridedSlice S1x128x8 ![5, 0, 0] (V (main_arg7 : DevRef τ sig)) slices_S6x128x8_S1x128x8_5_0_0)
        (extractStridedSlice S1x8 ![5, 0] (V (main_arg8 : DevRef τ sig)) slices_S6x8_S1x8_5_0)
        (extractStridedSlice S1x4 ![5, 0] (V (main_arg9 : DevRef τ sig)) slices_S6x4_S1x4_5_0)
        (V (main_c_1 : DevRef τ sig)) (V (main_c : DevRef τ sig)) (V (main_v440 : DevRef τ sig), V (main_v428 : DevRef τ sig))).1 := by
  simp only [L5, after_append, p15, p16]
  after_results_simp
  simp only [h0, h1, h2, h3, layerV, putV, colsV, normV, movedV, mlpV, shiftV, scaleV, onePlusV, gainV, ldNormV, lsV, relu, rows8, rows128, rows4, clip8, clip4, idxCol]
  rfl

attribute [local irreducible] Host.scatter Host.gather Host.reverse Host.reduceAdd in
set_option maxHeartbeats 4000000 in
set_option maxRecDepth 16384 in
/-- The log-determinants after layer 5. -/
theorem layer5_ld (V : Valuation τ sig (Elt Ideal)) (h0 : V (main_c_21 : DevRef τ sig) = constantI S4 1 0#1) (h1 : V (main_c_22 : DevRef τ sig) = constantI S4 1 0#1) (h2 : V (main_c_23 : DevRef τ sig) = constantI S4 1 0#1) (h3 : V (main_c_24 : DevRef τ sig) = constantI S4 1 0#1) :
    after L5 V (main_v516 : DevRef τ sig) =
      (layerV (extractStridedSlice S1x8 ![5, 0] (V (main_arg1 : DevRef τ sig)) slices_S6x8_S1x8_5_0)
        (extractStridedSlice S1x8 ![5, 0] (V (main_arg2 : DevRef τ sig)) slices_S6x8_S1x8_5_0)
        (extractStridedSlice S1x4x128 ![5, 0, 0] (V (main_arg3 : DevRef τ sig)) slices_S6x4x128_S1x4x128_5_0_0)
        (extractStridedSlice S1x128 ![5, 0] (V (main_arg4 : DevRef τ sig)) slices_S6x128_S1x128_5_0)
        (extractStridedSlice S1x128x128 ![5, 0, 0] (V (main_arg5 : DevRef τ sig)) slices_S6x128x128_S1x128x128_5_0_0)
        (extractStridedSlice S1x128 ![5, 0] (V (main_arg6 : DevRef τ sig)) slices_S6x128_S1x128_5_0)
        (extractStridedSlice S1x128x8 ![5, 0, 0] (V (main_arg7 : DevRef τ sig)) slices_S6x128x8_S1x128x8_5_0_0)
        (extractStridedSlice S1x8 ![5, 0] (V (main_arg8 : DevRef τ sig)) slices_S6x8_S1x8_5_0)
        (extractStridedSlice S1x4 ![5, 0] (V (main_arg9 : DevRef τ sig)) slices_S6x4_S1x4_5_0)
        (V (main_c_1 : DevRef τ sig)) (V (main_c : DevRef τ sig)) (V (main_v440 : DevRef τ sig), V (main_v428 : DevRef τ sig))).2 := by
  simp only [L5, after_append, p15, p16]
  after_results_simp
  simp only [h0, h1, h2, h3, layerV, putV, colsV, normV, movedV, mlpV, shiftV, scaleV, onePlusV, gainV, ldNormV, lsV, relu, rows8, rows128, rows4, clip8, clip4, idxCol]
  rfl

end Cert.ReferenceIdeal.FlowValue

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibScatterSet.lean ====
/-
  A scatter that overwrites (its body returns the update), read at an index, when every update lands inside the operand
  at a position given by an injective function of the update's index: at such a position the result is the update, and
  at a position no update lands on it is the operand. The scatter is a left fold of single-position overwrites over the
  update indices; with distinct landing positions each position is written at most once, so the order does not matter.
  For any dimension numbers, shapes and element type.
-/
import Idealize.ShloMosaic.PureOps.ShapeOps

noncomputable section

namespace Cert.Lib.ScatterSet

open Idealize.ShloMosaic

variable {α : Type} {s si u : Shape} {w : Nat}

/-- The fold of overwrites leaves a position that no listed update lands on as it was. -/
theorem foldl_of_forall_ne (g : u.Idx → s.Idx) (upd : u.Idx → α) (i' : s.Idx) :
    ∀ (L : List (Fin u.numel)) (x : s.Idx → α), (∀ n ∈ L, g (u.rowMajor.symm n) ≠ i') →
      L.foldl (fun r n => fun k => if k = g (u.rowMajor.symm n) then upd (u.rowMajor.symm n) else r k) x i' = x i'
  | [], _, _ => rfl
  | n :: L, x, h => by
    rw [List.foldl_cons, foldl_of_forall_ne g upd i' L _ (fun m hm => h m (List.mem_cons_of_mem _ hm))]
    exact if_neg (fun e => h n List.mem_cons_self e.symm)

/-- The fold of overwrites holds, at the landing position of a listed update, that update (distinct landing positions,
    no update listed twice). -/
theorem foldl_of_mem (g : u.Idx → s.Idx) (hg : Function.Injective g) (upd : u.Idx → α) (j : u.Idx) :
    ∀ (L : List (Fin u.numel)) (x : s.Idx → α), L.Nodup → u.rowMajor j ∈ L →
      L.foldl (fun r n => fun k => if k = g (u.rowMajor.symm n) then upd (u.rowMajor.symm n) else r k) x (g j) = upd j
  | [], _, _, h => absurd h List.not_mem_nil
  | n :: L, x, hnd, hm => by
    rw [List.foldl_cons]
    by_cases e : n = u.rowMajor j
    · subst e
      rw [foldl_of_forall_ne g upd (g j) L _ (fun m hm' e2 => by
        have h1 : u.rowMajor.symm m = j := hg e2
        have h2 : m = u.rowMajor j := by rw [← h1, Equiv.apply_symm_apply]
        exact (List.nodup_cons.1 hnd).1 (h2 ▸ hm'))]
      rw [Equiv.symm_apply_apply, if_pos rfl]
    · exact foldl_of_mem g hg upd j L _ (List.nodup_cons.1 hnd).2 ((List.mem_cons.1 hm).resolve_left (Ne.symm e))

/-- The scatter as that fold, when every update lands inside the operand at g of its index. -/
theorem scatter_eq_foldl (d : ScatterDims s si u) (x : s.Idx → α) (idx : IVec si w) (upd : u.Idx → α) (g : u.Idx → s.Idx)
    (hres : ∀ j, d.resultIdx? j idx = some (g j)) :
    Host.scatter d (fun _ b => b) x idx upd
      = (List.finRange u.numel).foldl
          (fun r n => fun k => if k = g (u.rowMajor.symm n) then upd (u.rowMajor.symm n) else r k) x := by
  unfold Host.scatter
  congr 1
  funext r n
  rw [hres]

/-- At the landing position of update j the scatter holds that update. -/
theorem scatter_apply_of_eq (d : ScatterDims s si u) (x : s.Idx → α) (idx : IVec si w) (upd : u.Idx → α) (g : u.Idx → s.Idx)
    (hres : ∀ j, d.resultIdx? j idx = some (g j)) (hg : Function.Injective g) (j : u.Idx) :
    Host.scatter d (fun _ b => b) x idx upd (g j) = upd j := by
  rw [scatter_eq_foldl d x idx upd g hres]
  exact foldl_of_mem g hg upd j _ x (List.nodup_finRange _) (List.mem_finRange _)

/-- At a position no update lands on the scatter holds the operand. -/
theorem scatter_apply_of_ne (d : ScatterDims s si u) (x : s.Idx → α) (idx : IVec si w) (upd : u.Idx → α) (g : u.Idx → s.Idx)
    (hres : ∀ j, d.resultIdx? j idx = some (g j)) (i' : s.Idx) (h : ∀ j, g j ≠ i') :
    Host.scatter d (fun _ b => b) x idx upd i' = x i' := by
  rw [scatter_eq_foldl d x idx upd g hres]
  exact foldl_of_forall_ne g upd i' _ x (fun n _ => h _)

end Cert.Lib.ScatterSet

end
-- ==== Proof.RefLayerOps.lean ====
/-
  The reference layer's operations read at an index: the gather of four columns, the overwriting scatter of four columns,
  the parameter rows' slices and reshapes, the row broadcasts, the clips, the column slices and the reversal.
-/
import proofs.«135321_j73263552135281_2_alg».proof.Proof.RefLayer
import Idealize.ShloMosaic.Lib.Pipeline.Value
import proofs.«135321_j73263552135281_2_alg».proof.Proof.LibRowBroadcasts
import proofs.«135321_j73263552135281_2_alg».proof.Proof.LibScatterSet
import proofs.«135321_j73263552135281_2_alg».proof.Proof.LibPlainDot

set_option maxRecDepth 16384

noncomputable section
namespace Cert.ReferenceIdeal.FlowValue
open Idealize.ShloMosaic Idealize.ShloMosaic.ValueIdx
open Cert.ReferenceIdeal
variable [Facts]
open Facts₀ Facts

theorem fin2_cases (a : Fin 2) : a = 0 ∨ a = 1 := by
  rcases a with ⟨v, hv⟩
  interval_cases v
  · exact Or.inl rfl
  · exact Or.inr rfl

abbrev gD := gather_S262144x8_S4x1_S262144x4_0_1_n_n_1_1_2621441

theorem gD_siIdx (r : Fin 262144) (q : Fin 4) (c : Fin gD.startIndexMap.length) :
    gD.siIdx (ix2 r q) c = ix2 q (0 : Fin 1) := by
  have hc : c.val < 1 := c.isLt
  funext b
  refine Fin.ext ?_
  rcases fin2_cases b with rfl | rfl
  · rfl
  · show c.val = 0
    omega

theorem gather_cols_apply {α : Type} (x : S262144x8.Idx → α) (idx : IVec S4x1 32) (r : Fin 262144) (q : Fin 4) :
    Host.gather gD x idx (ix2 r q)
      = x (ix2 r ⟨min (idx (ix2 q (0 : Fin 1))).toInt.toNat 7, by omega⟩) := by
  unfold Host.gather
  congr 1
  funext a
  refine Fin.ext ?_
  rcases fin2_cases a with rfl | rfl
  · show GatherDims.start _ _ _ _ + GatherDims.batchCoord _ _ _ + GatherDims.offCoord _ _ _ = r.val
    rw [GatherDims.batchCoord_eq_zero _ _ _ List.not_mem_nil]
    unfold GatherDims.start
    rw [dif_neg (show (0 : Fin S262144x8.rank) ∉ gD.startIndexMap from (by decide : (0 : Fin 2) ∉ ([1] : List (Fin 2))))]
    unfold GatherDims.offCoord
    rw [dif_pos (show (0 : Fin S262144x8.rank) ∈ gD.sKept from (by decide : (0 : Fin 2) ∈ ([0] : List (Fin 2))))]
    simp only [Nat.zero_add]
    rfl
  · show GatherDims.start _ _ _ _ + GatherDims.batchCoord _ _ _ + GatherDims.offCoord _ _ _ = _
    rw [GatherDims.batchCoord_eq_zero _ _ _ List.not_mem_nil]
    unfold GatherDims.offCoord
    rw [dif_neg (show (1 : Fin S262144x8.rank) ∉ gD.sKept from (by decide : (1 : Fin 2) ∉ ([0] : List (Fin 2))))]
    unfold GatherDims.start
    rw [dif_pos (show (1 : Fin S262144x8.rank) ∈ gD.startIndexMap from (by decide : (1 : Fin 2) ∈ ([1] : List (Fin 2))))]
    rw [gD_siIdx]
    rfl

abbrev sD := scatter_S262144x8_S4x1_S262144x4_0_1_1_1

theorem sD_siIdx (r : Fin 262144) (q : Fin 4) (c : Fin sD.scatterDimsToOperandDims.length) :
    sD.siIdx (ix2 r q) c = ix2 q (0 : Fin 1) := by
  have hc : c.val < 1 := c.isLt
  funext b
  refine Fin.ext ?_
  rcases fin2_cases b with rfl | rfl
  · rfl
  · show c.val = 0
    omega

theorem sD_pos0 (idx : IVec S4x1 32) (r : Fin 262144) (q : Fin 4) :
    sD.start (ix2 r q) idx 0 + sD.window (ix2 r q) 0 = (r.val : Int) := by
  unfold ScatterDims.start
  rw [dif_neg (show (0 : Fin S262144x8.rank) ∉ sD.scatterDimsToOperandDims from (by decide : (0 : Fin 2) ∉ ([1] : List (Fin 2))))]
  unfold ScatterDims.window
  rw [dif_pos (show (0 : Fin S262144x8.rank) ∈ sD.sKept from (by decide : (0 : Fin 2) ∈ ([0] : List (Fin 2))))]
  rw [Int.zero_add]
  rfl

theorem sD_pos1 (idx : IVec S4x1 32) (r : Fin 262144) (q : Fin 4) :
    sD.start (ix2 r q) idx 1 + sD.window (ix2 r q) 1 = (idx (ix2 q (0 : Fin 1))).toInt := by
  unfold ScatterDims.start
  rw [dif_pos (show (1 : Fin S262144x8.rank) ∈ sD.scatterDimsToOperandDims from (by decide : (1 : Fin 2) ∈ ([1] : List (Fin 2))))]
  unfold ScatterDims.window
  rw [dif_neg (show (1 : Fin S262144x8.rank) ∉ sD.sKept from (by decide : (1 : Fin 2) ∉ ([0] : List (Fin 2))))]
  rw [sD_siIdx]
  simp

theorem sD_resultIdx (idx : IVec S4x1 32) (col : Fin 4 → Fin 8) (hcol : ∀ q, (idx (ix2 q (0 : Fin 1))).toInt = ((col q).val : Int))
    (j : S262144x4.Idx) : sD.resultIdx? j idx = some (ix2 (j 0) (col (j 1))) := by
  obtain ⟨r, q, rfl⟩ : ∃ (r : Fin 262144) (q : Fin 4), j = ix2 r q := ⟨j 0, j 1, eq_ix2 j⟩
  have h0 := sD_pos0 idx r q
  have h1 := (sD_pos1 idx r q).trans (hcol q)
  unfold ScatterDims.resultIdx?
  rw [dif_pos (fun a => by
    rcases fin2_cases a with rfl | rfl
    · rw [h0]; exact ⟨Int.natCast_nonneg _, by exact_mod_cast r.isLt⟩
    · rw [h1]; exact ⟨Int.natCast_nonneg _, by exact_mod_cast (col q).isLt⟩)]
  congr 1
  funext a
  refine Fin.ext ?_
  rcases fin2_cases a with rfl | rfl
  · show (sD.start (ix2 r q) idx 0 + sD.window (ix2 r q) 0).toNat = r.val
    rw [h0]; exact Int.toNat_natCast _
  · show (sD.start (ix2 r q) idx 1 + sD.window (ix2 r q) 1).toNat = (col q).val
    rw [h1]; exact Int.toNat_natCast _

/-! ## The small shape operations at an index -/

/-- Row i of a [6, n] array, as the [1, n] slice at offset (i, 0), read at (0, d). -/
theorem sliceRow2_apply {α : Type} {n : Nat} (a : (⟨2, ![6, n]⟩ : Shape).Idx → α) (i : Fin 6)
    (h : (⟨2, ![6, n]⟩ : Shape).Slices ![i.val, 0] ⟨2, ![1, n]⟩) (d : Fin n) :
    extractStridedSlice ⟨2, ![1, n]⟩ ![i.val, 0] a h (ix2 (0 : Fin 1) d) = a (ix2 i d) :=
  extractStridedSlice_apply _ a h _ (ix2 i d) fun ax => by
    rcases fin2_cases ax with rfl | rfl
    · rfl
    · show d.val = 0 + d.val
      omega

theorem fin3_cases (a : Fin 3) : a = 0 ∨ a = 1 ∨ a = 2 := by
  rcases a with ⟨v, hv⟩
  interval_cases v
  · exact Or.inl rfl
  · exact Or.inr (Or.inl rfl)
  · exact Or.inr (Or.inr rfl)

/-- Row i of a [6, m, n] array, as the [1, m, n] slice at offset (i, 0, 0), read at (0, p, q). -/
theorem sliceRow3_apply {α : Type} {m n : Nat} (a : (⟨3, ![6, m, n]⟩ : Shape).Idx → α) (i : Fin 6)
    (h : (⟨3, ![6, m, n]⟩ : Shape).Slices ![i.val, 0, 0] ⟨3, ![1, m, n]⟩) (p : Fin m) (q : Fin n) :
    extractStridedSlice ⟨3, ![1, m, n]⟩ ![i.val, 0, 0] a h (ix3 (0 : Fin 1) p q) = a (ix3 i p q) :=
  extractStridedSlice_apply _ a h _ (ix3 i p q) fun ax => by
    rcases fin3_cases ax with rfl | rfl | rfl
    · rfl
    · show p.val = 0 + p.val
      omega
    · show q.val = 0 + q.val
      omega

/-- A [1, n] row reshaped to a length-n vector reads, at d, the row at (0, d). -/
theorem castRow2_apply {α : Type} {n : Nat} (s : (⟨2, ![1, n]⟩ : Shape).Idx → α)
    (h : (⟨2, ![1, n]⟩ : Shape).ShapeCasts ⟨1, ![n]⟩) (d : Fin n) :
    shapeCast ⟨1, ![n]⟩ s h (ix1 d) = s (ix2 (0 : Fin 1) d) :=
  shapeCast_apply s h _ _ (by
    rw [Shape.rowMajor_val_two, Shape.rowMajor_val_one]
    show 0 * n + d.val = d.val
    omega)

/-- A [1, m, n] block reshaped to [m, n] reads, at (p, q), the block at (0, p, q). -/
theorem castRow3_apply {α : Type} {m n : Nat} (s : (⟨3, ![1, m, n]⟩ : Shape).Idx → α)
    (h : (⟨3, ![1, m, n]⟩ : Shape).ShapeCasts ⟨2, ![m, n]⟩) (p : Fin m) (q : Fin n) :
    shapeCast ⟨2, ![m, n]⟩ s h (ix2 p q) = s (ix3 (0 : Fin 1) p q) :=
  shapeCast_apply s h _ _ (by
    rw [Shape.rowMajor_val_two, Shape.rowMajor_val_three]
    show (0 * m + p.val) * n + q.val = p.val * n + q.val
    rw [Nat.zero_mul, Nat.zero_add])

/-- A length-b vector broadcast along dimension 1 to a [1, b] row, then down a rows, reads at (p, q) the vector at q. -/
theorem vecRows_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  rw [Cert.Lib.Rows.dimRow_apply]
  exact broadcastInDim_apply _ h1 v (ix2 (0 : Fin 1) q) (ix1 q) fun ax => by
    obtain rfl : ax = 0 := Subsingleton.elim _ _
    show q.val = if b = 1 then 0 else q.val
    split
    · have := q.isLt; omega
    · rfl

theorem rows8_apply (v : FVec Ideal S8 .f32) (r : Fin 262144) (d : Fin 8) : rows8 v (ix2 r d) = v (ix1 d) :=
  vecRows_apply v _ _ r d
theorem rows128_apply (v : FVec Ideal S128 .f32) (r : Fin 262144) (d : Fin 128) : rows128 v (ix2 r d) = v (ix1 d) :=
  vecRows_apply v _ _ r d
theorem rows4_apply (v : FVec Ideal S4 .f32) (r : Fin 262144) (d : Fin 4) : rows4 v (ix2 r d) = v (ix1 d) :=
  vecRows_apply v _ _ r d

/-- The index column at (q, 0) is the index vector at q (the mask is all false). -/
theorem idxCol_apply (v : IVec S4 32) (q : Fin 4) : idxCol v (ix2 q (0 : Fin 1)) = v (ix1 q) := by
  unfold idxCol
  rw [broadcastInDim_apply _ _ _ (ix2 q (0 : Fin 1)) (ix1 q) (fun ax => by
    obtain rfl : ax = 0 := Subsingleton.elim _ _
    rfl)]
  rfl

/-- Clipping at an index. -/
theorem clip8_apply (x : FVec Ideal S8 .f32) (d : Fin 8) : clip8 x (ix1 d) = Cert.Flow.clip (x (ix1 d)) := by
  unfold clip8 Cert.Flow.clip
  rw [minimumf_apply, maximumf_apply, broadcastInDim_scalar_apply, broadcastInDim_scalar_apply]
  rfl
theorem clip4_apply (x : FVec Ideal S4 .f32) (d : Fin 4) : clip4 x (ix1 d) = Cert.Flow.clip (x (ix1 d)) := by
  unfold clip4 Cert.Flow.clip
  rw [minimumf_apply, maximumf_apply, broadcastInDim_scalar_apply, broadcastInDim_scalar_apply]
  rfl

/-- The first four and the last four columns of a [262144, 8] array. -/
theorem sliceLo_apply {α : Type} (h : S262144x8.Idx → α) (r : Fin 262144) (j : Fin 4) :
    extractStridedSlice S262144x4 ![0, 0] h slices_S262144x8_S262144x4_0_0 (ix2 r j) = h (ix2 r (Cert.Flow.lo4 j)) :=
  extractStridedSlice_apply _ h _ _ (ix2 r (Cert.Flow.lo4 j)) fun ax => by
    rcases fin2_cases ax with rfl | rfl
    · show r.val = 0 + r.val
      omega
    · show j.val = 0 + j.val
      omega
theorem sliceHi_apply {α : Type} (h : S262144x8.Idx → α) (r : Fin 262144) (j : Fin 4) :
    extractStridedSlice S262144x4 ![0, 4] h slices_S262144x8_S262144x4_0_4 (ix2 r j) = h (ix2 r (Cert.Flow.hi4 j)) :=
  extractStridedSlice_apply _ h _ _ (ix2 r (Cert.Flow.hi4 j)) fun ax => by
    rcases fin2_cases ax with rfl | rfl
    · show r.val = 0 + r.val
      omega
    · show j.val + 4 = 4 + j.val
      omega

/-- The columns reversed. -/
theorem reverse_apply {α : Type} (x : S262144x8.Idx → α) (r : Fin 262144) (d : Fin 8) :
    Host.reverse [1] x (ix2 r d) = x (ix2 r (Cert.Flow.rev8 d)) := by
  unfold Host.reverse
  congr 1
  funext a
  rcases fin2_cases a with rfl | rfl
  · rfl
  · refine Fin.ext ?_
    show (d.rev).val = 7 - d.val
    rw [Fin.val_rev]
    omega

end Cert.ReferenceIdeal.FlowValue
end
-- ==== Proof.RefLayerEq.lean ====
/-
  One layer of the reference is one layer of the flow applied to every row of the batch.
-/
import proofs.«135321_j73263552135281_2_alg».proof.Proof.RefLayerOps

set_option maxRecDepth 16384

noncomputable section
namespace Cert.ReferenceIdeal.FlowValue
open Idealize.ShloMosaic Idealize.ShloMosaic.ValueIdx
open Cert.ReferenceIdeal
open scoped BigOperators
variable [Facts]
open Facts₀ Facts

/-! ## The pointwise host operations at an index -/

theorem hostExp_apply {s : Shape} (x : FVec Ideal s .f32) (j : s.Idx) : Host.exp x j = Ideal.exp (x j) := rfl
theorem hostTanh_apply {s : Shape} (x : FVec Ideal s .f32) (j : s.Idx) : Host.tanh x j = Ideal.tanh (x j) := rfl
theorem hostLog_apply {s : Shape} (x : FVec Ideal s .f32) (j : s.Idx) : Host.log x j = Ideal.log (x j) := rfl
theorem hostAbsf_apply {s : Shape} (x : FVec Ideal s .f32) (j : s.Idx) : Host.absf x j = max (x j) (-(x j)) := rfl

theorem relu_apply (x : FVec Ideal S262144x128 .f32) (j : S262144x128.Idx) : relu x j = max (x j) Cert.Flow.c0 := by
  unfold relu
  rw [maximumf_apply, broadcastInDim_scalar_apply]
  rfl

/-- A small column number as a 32-bit word reads back, signed, as itself. -/
theorem toInt_ofNat_col (n : Fin 8) : (BitVec.ofNat 32 n.val).toInt = (n.val : Int) := by
  fin_cases n <;> rfl

/-! ## The three products -/

theorem dot1_apply (l : FVec Ideal S262144x4 .f32) (w : FVec Ideal S4x128 .f32) (r : Fin 262144) (n : Fin 128) :
    Host.dotGeneral (F := Ideal) dot_S262144x4_S4x128_S262144x128_1_0_0_1_n_n none l w (ix2 r n)
      = ∑ k : Fin 4, l (ix2 r k) * w (ix2 k n) :=
  Cert.Lib.PlainDot.dotGeneral_apply dot_S262144x4_S4x128_S262144x128_1_0_0_1_n_n_wf none l w r n
theorem dot2_apply (l : FVec Ideal S262144x128 .f32) (w : FVec Ideal S128x128 .f32) (r : Fin 262144) (n : Fin 128) :
    Host.dotGeneral (F := Ideal) dot_S262144x128_S128x128_S262144x128_1_0_0_1_n_n none l w (ix2 r n)
      = ∑ k : Fin 128, l (ix2 r k) * w (ix2 k n) :=
  Cert.Lib.PlainDot.dotGeneral_apply dot_S262144x128_S128x128_S262144x128_1_0_0_1_n_n_wf none l w r n
theorem dot3_apply (l : FVec Ideal S262144x128 .f32) (w : FVec Ideal S128x8 .f32) (r : Fin 262144) (n : Fin 8) :
    Host.dotGeneral (F := Ideal) dot_S262144x128_S128x8_S262144x8_1_0_0_1_n_n none l w (ix2 r n)
      = ∑ k : Fin 128, l (ix2 r k) * w (ix2 k n) :=
  Cert.Lib.PlainDot.dotGeneral_apply dot_S262144x128_S128x8_S262144x8_1_0_0_1_n_n_wf none l w r n

/-! ## The layer's pieces against the flow's -/

section Layer

variable (a1 a2 : FVec Ideal S6x8 .f32) (a3 : FVec Ideal S6x4x128 .f32) (a4 : FVec Ideal S6x128 .f32)
  (a5 : FVec Ideal S6x128x128 .f32) (a6 : FVec Ideal S6x128 .f32) (a7 : FVec Ideal S6x128x8 .f32)
  (a8 : FVec Ideal S6x8 .f32) (a9 : FVec Ideal S6x4 .f32) (i : Fin 6)

local notation "PP" => Cert.Flow.Params.ofArrays a1 a2 a3 a4 a5 a6 a7 a8 a9

theorem lsV_apply (h1 : S6x8.Slices ![i.val, 0] S1x8) (d : Fin 8) :
    lsV (extractStridedSlice S1x8 ![i.val, 0] a1 h1) (ix1 d) = Cert.Flow.ls PP i d := by
  unfold lsV Cert.Flow.ls
  rw [clip8_apply, castRow2_apply, sliceRow2_apply]
  rfl

theorem normV_apply (h1 h2 : S6x8.Slices ![i.val, 0] S1x8) (z : FVec Ideal S262144x8 .f32) (r : Fin 262144) (d : Fin 8) :
    normV (extractStridedSlice S1x8 ![i.val, 0] a1 h1) (extractStridedSlice S1x8 ![i.val, 0] a2 h2) z (ix2 r d)
      = Cert.Flow.norm PP i (fun d => z (ix2 r d)) d := by
  unfold normV Cert.Flow.norm
  rw [mulf_apply, addf_apply, rows8_apply, rows8_apply, castRow2_apply, sliceRow2_apply, hostExp_apply, lsV_apply]
  rfl

end Layer

/-- A rank-1 index set is its one coordinate's range, so a sum over it is the sum over the coordinate. -/
def idxEquiv1 {n : Nat} : (⟨1, ![n]⟩ : Shape).Idx ≃ Fin n where
  toFun i := i 0
  invFun := ix1
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Layer2

variable (a1 a2 : FVec Ideal S6x8 .f32) (a3 : FVec Ideal S6x4x128 .f32) (a4 : FVec Ideal S6x128 .f32)
  (a5 : FVec Ideal S6x128x128 .f32) (a6 : FVec Ideal S6x128 .f32) (a7 : FVec Ideal S6x128x8 .f32)
  (a8 : FVec Ideal S6x8 .f32) (a9 : FVec Ideal S6x4 .f32) (i : Fin 6)

local notation "PP" => Cert.Flow.Params.ofArrays a1 a2 a3 a4 a5 a6 a7 a8 a9

theorem ldNormV_apply (h1 : S6x8.Slices ![i.val, 0] S1x8) (ld : FVec Ideal S262144 .f32) (r : Fin 262144) :
    ldNormV (extractStridedSlice S1x8 ![i.val, 0] a1 h1) ld (ix1 r) = ld (ix1 r) + ∑ d : Fin 8, Cert.Flow.ls PP i d := by
  unfold ldNormV
  rw [addf_apply, broadcastInDim_scalar_apply, hostReduceAdd_apply,
    Ideal.hostReduceAdd_total _ (fun b => b.elim0)]
  congr 1
  rw [constant_apply, Ideal.ofBits_zero_f32, zero_add, sum_idx1]
  refine Finset.sum_congr rfl fun k _ => ?_
  rw [lsV_apply]

/-- The gathered columns. -/
theorem colsV_apply (z1 : FVec Ideal S262144x8 .f32) (v : IVec S4 32) (col : Fin 4 → Fin 8)
    (hv : ∀ q : Fin 4, v (ix1 q) = BitVec.ofNat 32 (col q).val) (r : Fin 262144) (q : Fin 4) :
    colsV z1 v (ix2 r q) = z1 (ix2 r (col q)) := by
  unfold colsV
  rw [gather_cols_apply]
  congr 2
  refine Fin.ext ?_
  show min (idxCol v (ix2 q (0 : Fin 1))).toInt.toNat 7 = (col q).val
  rw [idxCol_apply, hv, toInt_ofNat_col, Int.toNat_natCast]
  have := (col q).isLt
  omega

theorem layer1_apply (h3 : S6x4x128.Slices ![i.val, 0, 0] S1x4x128) (h4 : S6x128.Slices ![i.val, 0] S1x128)
    (xf : FVec Ideal S262144x4 .f32) (r : Fin 262144) (n : Fin 128) :
    relu (addf
      (Host.dotGeneral (F := Ideal) dot_S262144x4_S4x128_S262144x128_1_0_0_1_n_n none xf
        (shapeCast S4x128 (extractStridedSlice S1x4x128 ![i.val, 0, 0] a3 h3) shapeCasts_S1x4x128_S4x128))
      (rows128 (shapeCast S128 (extractStridedSlice S1x128 ![i.val, 0] a4 h4) shapeCasts_S1x128_S128))) (ix2 r n)
      = Cert.Flow.hid1 PP i (fun j => xf (ix2 r j)) n := by
  unfold Cert.Flow.hid1
  rw [relu_apply, addf_apply, dot1_apply, rows128_apply, castRow2_apply, sliceRow2_apply]
  congr 2
  refine Finset.sum_congr rfl fun k _ => ?_
  rw [castRow3_apply, sliceRow3_apply]
  rfl

theorem layer2_apply (h5 : S6x128x128.Slices ![i.val, 0, 0] S1x128x128) (h6 : S6x128.Slices ![i.val, 0] S1x128)
    (H1 : FVec Ideal S262144x128 .f32) (xfr : Fin 4 → EReal) (r : Fin 262144)
    (hH : ∀ k : Fin 128, H1 (ix2 r k) = Cert.Flow.hid1 PP i xfr k) (n : Fin 128) :
    relu (addf
      (Host.dotGeneral (F := Ideal) dot_S262144x128_S128x128_S262144x128_1_0_0_1_n_n none H1
        (shapeCast S128x128 (extractStridedSlice S1x128x128 ![i.val, 0, 0] a5 h5) shapeCasts_S1x128x128_S128x128))
      (rows128 (shapeCast S128 (extractStridedSlice S1x128 ![i.val, 0] a6 h6) shapeCasts_S1x128_S128))) (ix2 r n)
      = Cert.Flow.hid2 PP i xfr n := by
  unfold Cert.Flow.hid2
  rw [relu_apply, addf_apply, dot2_apply, rows128_apply, castRow2_apply, sliceRow2_apply]
  congr 2
  refine Finset.sum_congr rfl fun k _ => ?_
  rw [castRow3_apply, sliceRow3_apply, hH]
  rfl

theorem layer3_apply (h7 : S6x128x8.Slices ![i.val, 0, 0] S1x128x8) (h8 : S6x8.Slices ![i.val, 0] S1x8)
    (H2 : FVec Ideal S262144x128 .f32) (xfr : Fin 4 → EReal) (r : Fin 262144)
    (hH : ∀ k : Fin 128, H2 (ix2 r k) = Cert.Flow.hid2 PP i xfr k) (e : Fin 8) :
    addf
      (Host.dotGeneral (F := Ideal) dot_S262144x128_S128x8_S262144x8_1_0_0_1_n_n none H2
        (shapeCast S128x8 (extractStridedSlice S1x128x8 ![i.val, 0, 0] a7 h7) shapeCasts_S1x128x8_S128x8))
      (rows8 (shapeCast S8 (extractStridedSlice S1x8 ![i.val, 0] a8 h8) shapeCasts_S1x8_S8)) (ix2 r e)
      = Cert.Flow.hid3 PP i xfr e := by
  unfold Cert.Flow.hid3
  rw [addf_apply, dot3_apply, rows8_apply, castRow2_apply, sliceRow2_apply]
  congr 1
  refine Finset.sum_congr rfl fun k _ => ?_
  rw [castRow3_apply, sliceRow3_apply, hH]
  rfl

/-- The perceptron on a row's fixed half. -/
theorem mlpV_apply (h3 : S6x4x128.Slices ![i.val, 0, 0] S1x4x128) (h4 : S6x128.Slices ![i.val, 0] S1x128)
    (h5 : S6x128x128.Slices ![i.val, 0, 0] S1x128x128) (h6 : S6x128.Slices ![i.val, 0] S1x128)
    (h7 : S6x128x8.Slices ![i.val, 0, 0] S1x128x8) (h8 : S6x8.Slices ![i.val, 0] S1x8)
    (xf : FVec Ideal S262144x4 .f32) (r : Fin 262144) (e : Fin 8) :
    mlpV (extractStridedSlice S1x4x128 ![i.val, 0, 0] a3 h3) (extractStridedSlice S1x128 ![i.val, 0] a4 h4)
      (extractStridedSlice S1x128x128 ![i.val, 0, 0] a5 h5) (extractStridedSlice S1x128 ![i.val, 0] a6 h6)
      (extractStridedSlice S1x128x8 ![i.val, 0, 0] a7 h7) (extractStridedSlice S1x8 ![i.val, 0] a8 h8) xf (ix2 r e)
      = Cert.Flow.hid3 PP i (fun j => xf (ix2 r j)) e := by
  unfold mlpV
  exact layer3_apply a1 a2 a3 a4 a5 a6 a7 a8 a9 i h7 h8 _ _ r
    (fun k => layer2_apply a1 a2 a3 a4 a5 a6 a7 a8 a9 i h5 h6 _ _ r
      (fun k' => layer1_apply a1 a2 a3 a4 a5 a6 a7 a8 a9 i h3 h4 xf r k') k) e

end Layer2

/-! ## The scatter of four columns at an index -/

theorem colsInj (col : Fin 4 → Fin 8) (hc : Function.Injective col) :
    Function.Injective (fun j : S262144x4.Idx => (ix2 (j 0) (col (j 1)) : S262144x8.Idx)) := by
  intro j j' h
  have h0 : j 0 = j' 0 := congrFun h 0
  have h1 : col (j 1) = col (j' 1) := congrFun h 1
  rw [eq_ix2 j, eq_ix2 j', h0, hc h1]

theorem scatterCols_of_eq (x : FVec Ideal S262144x8 .f32) (v : IVec S4 32) (col : Fin 4 → Fin 8)
    (hc : Function.Injective col) (hv : ∀ q : Fin 4, v (ix1 q) = BitVec.ofNat 32 (col q).val)
    (upd : FVec Ideal S262144x4 .f32) (r : Fin 262144) (q : Fin 4) :
    Host.scatter sD (fun _ b => b) x (idxCol v) upd (ix2 r (col q)) = upd (ix2 r q) :=
  Cert.Lib.ScatterSet.scatter_apply_of_eq sD x (idxCol v) upd (fun j => ix2 (j 0) (col (j 1)))
    (sD_resultIdx (idxCol v) col (fun q => by rw [idxCol_apply, hv, toInt_ofNat_col])) (colsInj col hc) (ix2 r q)

theorem scatterCols_of_ne (x : FVec Ideal S262144x8 .f32) (v : IVec S4 32) (col : Fin 4 → Fin 8)
    (hv : ∀ q : Fin 4, v (ix1 q) = BitVec.ofNat 32 (col q).val)
    (upd : FVec Ideal S262144x4 .f32) (r : Fin 262144) (e : Fin 8) (he : ∀ q, col q ≠ e) :
    Host.scatter sD (fun _ b => b) x (idxCol v) upd (ix2 r e) = x (ix2 r e) :=
  Cert.Lib.ScatterSet.scatter_apply_of_ne sD x (idxCol v) upd (fun j => ix2 (j 0) (col (j 1)))
    (sD_resultIdx (idxCol v) col (fun q => by rw [idxCol_apply, hv, toInt_ofNat_col])) (ix2 r e)
    (fun j h => he (j 1) (congrFun h 1))

/-! ## The columns of the two halves -/

theorem fixedCol_inj (i : Fin 6) : Function.Injective (Cert.Flow.fixedCol i) := by
  intro p q h
  have h' : 2 * p.val + i.val % 2 = 2 * q.val + i.val % 2 := congrArg Fin.val h
  exact Fin.ext (by omega)
theorem movedCol_inj (i : Fin 6) : Function.Injective (Cert.Flow.movedCol i) := by
  intro p q h
  have h' : 2 * p.val + (i.val + 1) % 2 = 2 * q.val + (i.val + 1) % 2 := congrArg Fin.val h
  exact Fin.ext (by omega)
theorem fixedCol_halfOf (i : Fin 6) (e : Fin 8) (h : e.val % 2 = i.val % 2) :
    Cert.Flow.fixedCol i (Cert.Flow.halfOf e) = e := by
  refine Fin.ext ?_
  show 2 * (e.val / 2) + i.val % 2 = e.val
  omega
theorem movedCol_halfOf (i : Fin 6) (e : Fin 8) (h : ¬ e.val % 2 = i.val % 2) :
    Cert.Flow.movedCol i (Cert.Flow.halfOf e) = e := by
  refine Fin.ext ?_
  show 2 * (e.val / 2) + (i.val + 1) % 2 = e.val
  omega
theorem movedCol_ne (i : Fin 6) (e : Fin 8) (h : e.val % 2 = i.val % 2) (q : Fin 4) : Cert.Flow.movedCol i q ≠ e := by
  intro he
  have h' : 2 * q.val + (i.val + 1) % 2 = e.val := congrArg Fin.val he
  omega

/-- The two halves written back and the columns reversed, at (r, d): the column before the reversal is 7 - d; of the
    fixed parity it holds the fixed half, of the other parity the transformed half. -/
theorem putV_apply (i : Fin 6) (fixed moved : IVec S4 32)
    (hfix : ∀ q : Fin 4, fixed (ix1 q) = BitVec.ofNat 32 (Cert.Flow.fixedCol i q).val)
    (hmov : ∀ q : Fin 4, moved (ix1 q) = BitVec.ofNat 32 (Cert.Flow.movedCol i q).val)
    (xf yt : FVec Ideal S262144x4 .f32) (r : Fin 262144) (d : Fin 8) :
    putV fixed moved xf yt (ix2 r d)
      = if (Cert.Flow.rev8 d).val % 2 = i.val % 2 then xf (ix2 r (Cert.Flow.halfOf (Cert.Flow.rev8 d)))
        else yt (ix2 r (Cert.Flow.halfOf (Cert.Flow.rev8 d))) := by
  unfold putV
  rw [reverse_apply]
  generalize Cert.Flow.rev8 d = e
  by_cases hp : e.val % 2 = i.val % 2
  · rw [if_pos hp, scatterCols_of_ne _ moved (Cert.Flow.movedCol i) hmov _ r e (movedCol_ne i e hp)]
    conv_lhs => rw [← fixedCol_halfOf i e hp]
    exact scatterCols_of_eq _ fixed (Cert.Flow.fixedCol i) (fixedCol_inj i) hfix xf r _
  · rw [if_neg hp]
    conv_lhs => rw [← movedCol_halfOf i e hp]
    exact scatterCols_of_eq _ moved (Cert.Flow.movedCol i) (movedCol_inj i) hmov yt r _

/-! ## The coupling -/

section Layer3

variable (a1 a2 : FVec Ideal S6x8 .f32) (a3 : FVec Ideal S6x4x128 .f32) (a4 : FVec Ideal S6x128 .f32)
  (a5 : FVec Ideal S6x128x128 .f32) (a6 : FVec Ideal S6x128 .f32) (a7 : FVec Ideal S6x128x8 .f32)
  (a8 : FVec Ideal S6x8 .f32) (a9 : FVec Ideal S6x4 .f32) (i : Fin 6)

local notation "PP" => Cert.Flow.Params.ofArrays a1 a2 a3 a4 a5 a6 a7 a8 a9

theorem scaleV_apply (h : FVec Ideal S262144x8 .f32) (xfr : Fin 4 → EReal) (r : Fin 262144)
    (hh : ∀ e : Fin 8, h (ix2 r e) = Cert.Flow.hid3 PP i xfr e) (j : Fin 4) :
    scaleV h (ix2 r j) = Cert.Flow.scale PP i xfr j := by
  unfold scaleV Cert.Flow.scale
  rw [mulf_apply, broadcastInDim_scalar_apply, hostTanh_apply, sliceHi_apply, hh]
  rfl

theorem onePlusV_apply (h : FVec Ideal S262144x8 .f32) (xfr : Fin 4 → EReal) (r : Fin 262144)
    (hh : ∀ e : Fin 8, h (ix2 r e) = Cert.Flow.hid3 PP i xfr e) (j : Fin 4) :
    onePlusV h (ix2 r j) = Cert.Flow.c1 + Cert.Flow.scale PP i xfr j := by
  unfold onePlusV
  rw [addf_apply, broadcastInDim_scalar_apply, scaleV_apply a1 a2 a3 a4 a5 a6 a7 a8 a9 i h xfr r hh]
  rfl

theorem shiftV_apply (h9 : S6x4.Slices ![i.val, 0] S1x4) (h : FVec Ideal S262144x8 .f32) (xfr : Fin 4 → EReal)
    (r : Fin 262144) (hh : ∀ e : Fin 8, h (ix2 r e) = Cert.Flow.hid3 PP i xfr e) (j : Fin 4) :
    shiftV (extractStridedSlice S1x4 ![i.val, 0] a9 h9) h (ix2 r j) = Cert.Flow.shift PP i xfr j := by
  unfold shiftV Cert.Flow.shift
  rw [mulf_apply, rows4_apply, hostExp_apply, clip4_apply, castRow2_apply, sliceRow2_apply, hostTanh_apply,
    sliceLo_apply, hh]
  rfl

theorem movedV_apply (h9 : S6x4.Slices ![i.val, 0] S1x4) (h : FVec Ideal S262144x8 .f32) (xfr xtr : Fin 4 → EReal)
    (xt : FVec Ideal S262144x4 .f32) (r : Fin 262144) (hh : ∀ e : Fin 8, h (ix2 r e) = Cert.Flow.hid3 PP i xfr e)
    (hxt : ∀ j : Fin 4, xt (ix2 r j) = xtr j) (j : Fin 4) :
    movedV (extractStridedSlice S1x4 ![i.val, 0] a9 h9) h xt (ix2 r j) = Cert.Flow.moved PP i xfr xtr j := by
  unfold movedV Cert.Flow.moved
  rw [addf_apply, mulf_apply, onePlusV_apply a1 a2 a3 a4 a5 a6 a7 a8 a9 i h xfr r hh,
    shiftV_apply a1 a2 a3 a4 a5 a6 a7 a8 a9 i h9 h xfr r hh, hxt]

theorem gainV_apply (h : FVec Ideal S262144x8 .f32) (xfr : Fin 4 → EReal) (r : Fin 262144)
    (hh : ∀ e : Fin 8, h (ix2 r e) = Cert.Flow.hid3 PP i xfr e) :
    gainV h (ix1 r) = Cert.Flow.gain PP i xfr := by
  unfold gainV Cert.Flow.gain
  rw [hostReduceAdd_apply, Ideal.hostReduceAdd_single _ (by decide : S262144x4.Reduces [1] S262144), constant_apply,
    Ideal.ofBits_zero_f32, zero_add]
  show ∑ k : Fin 4, _ = _
  refine Finset.sum_congr rfl fun k _ => ?_
  have hk : (by decide : S262144x4.Reduces [1] S262144).lift (ix1 r) k = ix2 r k := by
    funext c
    rcases fin2_cases c with rfl | rfl
    · rfl
    · rfl
  rw [hk, hostLog_apply, addf_apply, hostAbsf_apply, onePlusV_apply a1 a2 a3 a4 a5 a6 a7 a8 a9 i h xfr r hh,
    broadcastInDim_scalar_apply]
  rfl

end Layer3

/-! ## The layer -/

/-- The two components of the layer, as its pieces. -/
theorem layerV_fst (s1 s2 : FVec Ideal S1x8 .f32) (s3 : FVec Ideal S1x4x128 .f32) (s4 : FVec Ideal S1x128 .f32)
    (s5 : FVec Ideal S1x128x128 .f32) (s6 : FVec Ideal S1x128 .f32) (s7 : FVec Ideal S1x128x8 .f32)
    (s8 : FVec Ideal S1x8 .f32) (s9 : FVec Ideal S1x4 .f32) (fixed moved : IVec S4 32)
    (acc : FVec Ideal S262144x8 .f32 × FVec Ideal S262144 .f32) :
    (layerV s1 s2 s3 s4 s5 s6 s7 s8 s9 fixed moved acc).1
      = putV fixed moved (colsV (normV s1 s2 acc.1) fixed)
          (movedV s9 (mlpV s3 s4 s5 s6 s7 s8 (colsV (normV s1 s2 acc.1) fixed)) (colsV (normV s1 s2 acc.1) moved)) := by
  unfold layerV
  with_reducible rfl
theorem layerV_snd (s1 s2 : FVec Ideal S1x8 .f32) (s3 : FVec Ideal S1x4x128 .f32) (s4 : FVec Ideal S1x128 .f32)
    (s5 : FVec Ideal S1x128x128 .f32) (s6 : FVec Ideal S1x128 .f32) (s7 : FVec Ideal S1x128x8 .f32)
    (s8 : FVec Ideal S1x8 .f32) (s9 : FVec Ideal S1x4 .f32) (fixed moved : IVec S4 32)
    (acc : FVec Ideal S262144x8 .f32 × FVec Ideal S262144 .f32) :
    (layerV s1 s2 s3 s4 s5 s6 s7 s8 s9 fixed moved acc).2
      = addf (ldNormV s1 acc.2) (gainV (mlpV s3 s4 s5 s6 s7 s8 (colsV (normV s1 s2 acc.1) fixed))) := by
  unfold layerV
  with_reducible rfl

/-- The two components of one layer of the flow on the batch, at a row. -/
theorem batchStep_fst (P : Cert.Flow.Params) (i : Fin 6) (acc : FVec Ideal S262144x8 .f32 × FVec Ideal S262144 .f32)
    (r : Fin 262144) (d : Fin 8) :
    (Cert.Flow.batchStep P i acc).1 (ix2 r d)
      = if (Cert.Flow.rev8 d).val % 2 = i.val % 2
        then Cert.Flow.norm P i (fun d => acc.1 (ix2 r d)) (Cert.Flow.fixedCol i (Cert.Flow.halfOf (Cert.Flow.rev8 d)))
        else Cert.Flow.moved P i (fun j => Cert.Flow.norm P i (fun d => acc.1 (ix2 r d)) (Cert.Flow.fixedCol i j))
          (fun j => Cert.Flow.norm P i (fun d => acc.1 (ix2 r d)) (Cert.Flow.movedCol i j))
          (Cert.Flow.halfOf (Cert.Flow.rev8 d)) := rfl
theorem batchStep_snd (P : Cert.Flow.Params) (i : Fin 6) (acc : FVec Ideal S262144x8 .f32 × FVec Ideal S262144 .f32)
    (r : Fin 262144) :
    (Cert.Flow.batchStep P i acc).2 (ix1 r)
      = (acc.2 (ix1 r) + ∑ d : Fin 8, Cert.Flow.ls P i d)
        + Cert.Flow.gain P i (fun j => Cert.Flow.norm P i (fun d => acc.1 (ix2 r d)) (Cert.Flow.fixedCol i j)) := rfl

section Final

variable (a1 a2 : FVec Ideal S6x8 .f32) (a3 : FVec Ideal S6x4x128 .f32) (a4 : FVec Ideal S6x128 .f32)
  (a5 : FVec Ideal S6x128x128 .f32) (a6 : FVec Ideal S6x128 .f32) (a7 : FVec Ideal S6x128x8 .f32)
  (a8 : FVec Ideal S6x8 .f32) (a9 : FVec Ideal S6x4 .f32) (i : Fin 6)

local notation "PP" => Cert.Flow.Params.ofArrays a1 a2 a3 a4 a5 a6 a7 a8 a9

/-- ONE LAYER OF THE REFERENCE IS ONE LAYER OF THE FLOW ON EVERY ROW: with the sliced operands row i of the nine
    parameter arrays, the index vectors naming the fixed and the transformed columns of layer i. -/
theorem layerV_eq_batchStep (h1 h2 h8 : S6x8.Slices ![i.val, 0] S1x8) (h3 : S6x4x128.Slices ![i.val, 0, 0] S1x4x128)
    (h4 h6 : S6x128.Slices ![i.val, 0] S1x128) (h5 : S6x128x128.Slices ![i.val, 0, 0] S1x128x128)
    (h7 : S6x128x8.Slices ![i.val, 0, 0] S1x128x8) (h9 : S6x4.Slices ![i.val, 0] S1x4)
    (fixed moved : IVec S4 32)
    (hfix : ∀ q : Fin 4, fixed (ix1 q) = BitVec.ofNat 32 (Cert.Flow.fixedCol i q).val)
    (hmov : ∀ q : Fin 4, moved (ix1 q) = BitVec.ofNat 32 (Cert.Flow.movedCol i q).val)
    (acc : FVec Ideal S262144x8 .f32 × FVec Ideal S262144 .f32) :
    layerV (extractStridedSlice S1x8 ![i.val, 0] a1 h1) (extractStridedSlice S1x8 ![i.val, 0] a2 h2)
      (extractStridedSlice S1x4x128 ![i.val, 0, 0] a3 h3) (extractStridedSlice S1x128 ![i.val, 0] a4 h4)
      (extractStridedSlice S1x128x128 ![i.val, 0, 0] a5 h5) (extractStridedSlice S1x128 ![i.val, 0] a6 h6)
      (extractStridedSlice S1x128x8 ![i.val, 0, 0] a7 h7) (extractStridedSlice S1x8 ![i.val, 0] a8 h8)
      (extractStridedSlice S1x4 ![i.val, 0] a9 h9) fixed moved acc
      = Cert.Flow.batchStep PP i acc := by
  -- what every row sees
  have key : ∀ r : Fin 262144,
      (∀ q : Fin 4, colsV (normV (extractStridedSlice S1x8 ![i.val, 0] a1 h1) (extractStridedSlice S1x8 ![i.val, 0] a2 h2) acc.1)
          fixed (ix2 r q) = Cert.Flow.norm PP i (fun d => acc.1 (ix2 r d)) (Cert.Flow.fixedCol i q)) ∧
      (∀ q : Fin 4, colsV (normV (extractStridedSlice S1x8 ![i.val, 0] a1 h1) (extractStridedSlice S1x8 ![i.val, 0] a2 h2) acc.1)
          moved (ix2 r q) = Cert.Flow.norm PP i (fun d => acc.1 (ix2 r d)) (Cert.Flow.movedCol i q)) := fun r =>
    ⟨fun q => by rw [colsV_apply _ fixed (Cert.Flow.fixedCol i) hfix, normV_apply],
     fun q => by rw [colsV_apply _ moved (Cert.Flow.movedCol i) hmov, normV_apply]⟩
  have hmlp : ∀ (r : Fin 262144) (e : Fin 8),
      mlpV (extractStridedSlice S1x4x128 ![i.val, 0, 0] a3 h3) (extractStridedSlice S1x128 ![i.val, 0] a4 h4)
        (extractStridedSlice S1x128x128 ![i.val, 0, 0] a5 h5) (extractStridedSlice S1x128 ![i.val, 0] a6 h6)
        (extractStridedSlice S1x128x8 ![i.val, 0, 0] a7 h7) (extractStridedSlice S1x8 ![i.val, 0] a8 h8)
        (colsV (normV (extractStridedSlice S1x8 ![i.val, 0] a1 h1) (extractStridedSlice S1x8 ![i.val, 0] a2 h2) acc.1) fixed)
        (ix2 r e)
      = Cert.Flow.hid3 PP i (fun j => Cert.Flow.norm PP i (fun d => acc.1 (ix2 r d)) (Cert.Flow.fixedCol i j)) e :=
    fun r e => by
      rw [mlpV_apply]
      congr 1
      funext j
      exact (key r).1 j
  refine Prod.ext (funext fun j => ?_) (funext fun j => ?_)
  · obtain ⟨r, d, rfl⟩ : ∃ (r : Fin 262144) (d : Fin 8), j = ix2 r d := ⟨j 0, j 1, eq_ix2 j⟩
    rw [layerV_fst, batchStep_fst, putV_apply i fixed moved hfix hmov, (key r).1,
      movedV_apply a1 a2 a3 a4 a5 a6 a7 a8 a9 i h9 _ _ _ _ r (hmlp r) (key r).2]
  · obtain ⟨r, rfl⟩ : ∃ r : Fin 262144, j = ix1 r := ⟨j 0, eq_ix1 j⟩
    rw [layerV_snd, batchStep_snd, addf_apply, ldNormV_apply, gainV_apply a1 a2 a3 a4 a5 a6 a7 a8 a9 i _ _ r (hmlp r)]

end Final

/-! ## The program's two index vectors in the roles each layer's parity gives them -/

/-- The literal [0, 2, 4, 6] at q is the word 2 q. -/
theorem lit0_apply (q : Fin 4) : lit0 (S4.rowMajor (ix1 q)) = BitVec.ofNat 32 (2 * q.val) := by
  have e : (S4.rowMajor (ix1 q) : Fin 4) = q := Fin.ext (Shape.rowMajor_val_one _)
  refine (congrArg lit0 e).trans ?_
  fin_cases q <;> rfl
/-- The literal [1, 3, 5, 7] at q is the word 2 q + 1. -/
theorem lit1_apply (q : Fin 4) : lit1 (S4.rowMajor (ix1 q)) = BitVec.ofNat 32 (2 * q.val + 1) := by
  have e : (S4.rowMajor (ix1 q) : Fin 4) = q := Fin.ext (Shape.rowMajor_val_one _)
  refine (congrArg lit1 e).trans ?_
  fin_cases q <;> rfl

theorem fixedCol_even (i : Fin 6) (hi : i.val % 2 = 0) (q : Fin 4) : (Cert.Flow.fixedCol i q).val = 2 * q.val := by
  show 2 * q.val + i.val % 2 = _
  omega
theorem movedCol_even (i : Fin 6) (hi : i.val % 2 = 0) (q : Fin 4) : (Cert.Flow.movedCol i q).val = 2 * q.val + 1 := by
  show 2 * q.val + (i.val + 1) % 2 = _
  omega
theorem fixedCol_odd (i : Fin 6) (hi : i.val % 2 = 1) (q : Fin 4) : (Cert.Flow.fixedCol i q).val = 2 * q.val + 1 := by
  show 2 * q.val + i.val % 2 = _
  omega
theorem movedCol_odd (i : Fin 6) (hi : i.val % 2 = 1) (q : Fin 4) : (Cert.Flow.movedCol i q).val = 2 * q.val := by
  show 2 * q.val + (i.val + 1) % 2 = _
  omega

section Parity

variable (a1 a2 : FVec Ideal S6x8 .f32) (a3 : FVec Ideal S6x4x128 .f32) (a4 : FVec Ideal S6x128 .f32)
  (a5 : FVec Ideal S6x128x128 .f32) (a6 : FVec Ideal S6x128 .f32) (a7 : FVec Ideal S6x128x8 .f32)
  (a8 : FVec Ideal S6x8 .f32) (a9 : FVec Ideal S6x4 .f32) (i : Fin 6)

/-- An even layer: the fixed columns are the literal [0, 2, 4, 6], the transformed ones [1, 3, 5, 7]. -/
theorem layerV_even (hi : i.val % 2 = 0)
    (h1 h2 h8 : S6x8.Slices ![i.val, 0] S1x8) (h3 : S6x4x128.Slices ![i.val, 0, 0] S1x4x128)
    (h4 h6 : S6x128.Slices ![i.val, 0] S1x128) (h5 : S6x128x128.Slices ![i.val, 0, 0] S1x128x128)
    (h7 : S6x128x8.Slices ![i.val, 0, 0] S1x128x8) (h9 : S6x4.Slices ![i.val, 0] S1x4)
    (acc : FVec Ideal S262144x8 .f32 × FVec Ideal S262144 .f32) :
    layerV (extractStridedSlice S1x8 ![i.val, 0] a1 h1) (extractStridedSlice S1x8 ![i.val, 0] a2 h2)
      (extractStridedSlice S1x4x128 ![i.val, 0, 0] a3 h3) (extractStridedSlice S1x128 ![i.val, 0] a4 h4)
      (extractStridedSlice S1x128x128 ![i.val, 0, 0] a5 h5) (extractStridedSlice S1x128 ![i.val, 0] a6 h6)
      (extractStridedSlice S1x128x8 ![i.val, 0, 0] a7 h7) (extractStridedSlice S1x8 ![i.val, 0] a8 h8)
      (extractStridedSlice S1x4 ![i.val, 0] a9 h9)
      (fun j => lit0 (S4.rowMajor j)) (fun j => lit1 (S4.rowMajor j)) acc
      = Cert.Flow.batchStep (Cert.Flow.Params.ofArrays a1 a2 a3 a4 a5 a6 a7 a8 a9) i acc :=
  layerV_eq_batchStep a1 a2 a3 a4 a5 a6 a7 a8 a9 i h1 h2 h8 h3 h4 h6 h5 h7 h9 _ _
    (fun q => by rw [fixedCol_even i hi]; exact lit0_apply q)
    (fun q => by rw [movedCol_even i hi]; exact lit1_apply q) acc

/-- An odd layer: the fixed columns are the literal [1, 3, 5, 7], the transformed ones [0, 2, 4, 6]. -/
theorem layerV_odd (hi : i.val % 2 = 1)
    (h1 h2 h8 : S6x8.Slices ![i.val, 0] S1x8) (h3 : S6x4x128.Slices ![i.val, 0, 0] S1x4x128)
    (h4 h6 : S6x128.Slices ![i.val, 0] S1x128) (h5 : S6x128x128.Slices ![i.val, 0, 0] S1x128x128)
    (h7 : S6x128x8.Slices ![i.val, 0, 0] S1x128x8) (h9 : S6x4.Slices ![i.val, 0] S1x4)
    (acc : FVec Ideal S262144x8 .f32 × FVec Ideal S262144 .f32) :
    layerV (extractStridedSlice S1x8 ![i.val, 0] a1 h1) (extractStridedSlice S1x8 ![i.val, 0] a2 h2)
      (extractStridedSlice S1x4x128 ![i.val, 0, 0] a3 h3) (extractStridedSlice S1x128 ![i.val, 0] a4 h4)
      (extractStridedSlice S1x128x128 ![i.val, 0, 0] a5 h5) (extractStridedSlice S1x128 ![i.val, 0] a6 h6)
      (extractStridedSlice S1x128x8 ![i.val, 0, 0] a7 h7) (extractStridedSlice S1x8 ![i.val, 0] a8 h8)
      (extractStridedSlice S1x4 ![i.val, 0] a9 h9)
      (fun j => lit1 (S4.rowMajor j)) (fun j => lit0 (S4.rowMajor j)) acc
      = Cert.Flow.batchStep (Cert.Flow.Params.ofArrays a1 a2 a3 a4 a5 a6 a7 a8 a9) i acc :=
  layerV_eq_batchStep a1 a2 a3 a4 a5 a6 a7 a8 a9 i h1 h2 h8 h3 h4 h6 h5 h7 h9 _ _
    (fun q => by rw [fixedCol_odd i hi]; exact lit1_apply q)
    (fun q => by rw [movedCol_odd i hi]; exact lit0_apply q) acc

end Parity

end Cert.ReferenceIdeal.FlowValue
end
-- ==== Proof.RefRun.lean ====
/-
  The reference's run: its line of operations is the first stretch (the literals and the zero log-determinants) followed by
  six layers; each layer leaves the one-layer function of the pair the previous one left, on the launch contents' parameter
  arrays; the one-layer function is one layer of the flow on every row; so the two results are the flow of every row of
  the input and its log-determinant, and the arguments are unchanged.
-/
import proofs.«135321_j73263552135281_2_alg».proof.Proof.RefInvP0
import proofs.«135321_j73263552135281_2_alg».proof.Proof.RefKeptA
import proofs.«135321_j73263552135281_2_alg».proof.Proof.RefKeptB
import proofs.«135321_j73263552135281_2_alg».proof.Proof.RefKeptC
import proofs.«135321_j73263552135281_2_alg».proof.Proof.RefL0
import proofs.«135321_j73263552135281_2_alg».proof.Proof.RefL1
import proofs.«135321_j73263552135281_2_alg».proof.Proof.RefL2
import proofs.«135321_j73263552135281_2_alg».proof.Proof.RefL3
import proofs.«135321_j73263552135281_2_alg».proof.Proof.RefL4
import proofs.«135321_j73263552135281_2_alg».proof.Proof.RefL5
import proofs.«135321_j73263552135281_2_alg».proof.Proof.RefLayerEq
import proofs.«135321_j73263552135281_2_alg».proof.Proof.FlowIter

noncomputable section

namespace Cert.ReferenceIdeal.FlowValue

open Cert.ReferenceIdeal Cert.ReferenceIdeal.Gen Idealize.ShloMosaic Idealize.ShloMosaic.TcCoe Idealize.SL.Sem Idealize.ShloMosaic.StableHlo

/-- The whole line is the first stretch and then the six layers. -/
theorem after_ops (V0 : Valuation τ sig (Elt Ideal)) : after ops V0 = after L5 (after L4 (after L3 (after L2 (after L1 (after L0 (after p0 V0)))))) := by
  simp only [ops, L0, L1, L2, L3, L4, L5, after_append]

/-- The flow's parameters read off the launch contents' nine parameter arrays. -/
def PV (V0 : Valuation τ sig (Elt Ideal)) : Cert.Flow.Params :=
  Cert.Flow.Params.ofArrays (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig))

/-- Layer 0 as a function of the carried pair, on the launch contents' parameter arrays. -/
def step0 (V0 : Valuation τ sig (Elt Ideal)) (acc : FVec Ideal S262144x8 .f32 × FVec Ideal S262144 .f32) :
    FVec Ideal S262144x8 .f32 × FVec Ideal S262144 .f32 :=
  layerV (extractStridedSlice S1x8 ![0, 0] (V0 (main_arg1 : DevRef τ sig)) slices_S6x8_S1x8_0_0) (extractStridedSlice S1x8 ![0, 0] (V0 (main_arg2 : DevRef τ sig)) slices_S6x8_S1x8_0_0)
    (extractStridedSlice S1x4x128 ![0, 0, 0] (V0 (main_arg3 : DevRef τ sig)) slices_S6x4x128_S1x4x128_0_0_0) (extractStridedSlice S1x128 ![0, 0] (V0 (main_arg4 : DevRef τ sig)) slices_S6x128_S1x128_0_0)
    (extractStridedSlice S1x128x128 ![0, 0, 0] (V0 (main_arg5 : DevRef τ sig)) slices_S6x128x128_S1x128x128_0_0_0) (extractStridedSlice S1x128 ![0, 0] (V0 (main_arg6 : DevRef τ sig)) slices_S6x128_S1x128_0_0)
    (extractStridedSlice S1x128x8 ![0, 0, 0] (V0 (main_arg7 : DevRef τ sig)) slices_S6x128x8_S1x128x8_0_0_0) (extractStridedSlice S1x8 ![0, 0] (V0 (main_arg8 : DevRef τ sig)) slices_S6x8_S1x8_0_0)
    (extractStridedSlice S1x4 ![0, 0] (V0 (main_arg9 : DevRef τ sig)) slices_S6x4_S1x4_0_0)
    (fun j => lit0 (S4.rowMajor j)) (fun j => lit1 (S4.rowMajor j)) acc

/-- It is layer 0 of the flow on every row. -/
theorem step0_eq (V0 : Valuation τ sig (Elt Ideal)) (acc : FVec Ideal S262144x8 .f32 × FVec Ideal S262144 .f32) :
    step0 V0 acc = Cert.Flow.batchStep (PV V0) ⟨0, by decide⟩ acc :=
  layerV_even (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨0, by decide⟩ rfl
    slices_S6x8_S1x8_0_0 slices_S6x8_S1x8_0_0 slices_S6x8_S1x8_0_0 slices_S6x4x128_S1x4x128_0_0_0 slices_S6x128_S1x128_0_0 slices_S6x128_S1x128_0_0 slices_S6x128x128_S1x128x128_0_0_0 slices_S6x128x8_S1x128x8_0_0_0 slices_S6x4_S1x4_0_0 acc

/-- Layer 1 as a function of the carried pair, on the launch contents' parameter arrays. -/
def step1 (V0 : Valuation τ sig (Elt Ideal)) (acc : FVec Ideal S262144x8 .f32 × FVec Ideal S262144 .f32) :
    FVec Ideal S262144x8 .f32 × FVec Ideal S262144 .f32 :=
  layerV (extractStridedSlice S1x8 ![1, 0] (V0 (main_arg1 : DevRef τ sig)) slices_S6x8_S1x8_1_0) (extractStridedSlice S1x8 ![1, 0] (V0 (main_arg2 : DevRef τ sig)) slices_S6x8_S1x8_1_0)
    (extractStridedSlice S1x4x128 ![1, 0, 0] (V0 (main_arg3 : DevRef τ sig)) slices_S6x4x128_S1x4x128_1_0_0) (extractStridedSlice S1x128 ![1, 0] (V0 (main_arg4 : DevRef τ sig)) slices_S6x128_S1x128_1_0)
    (extractStridedSlice S1x128x128 ![1, 0, 0] (V0 (main_arg5 : DevRef τ sig)) slices_S6x128x128_S1x128x128_1_0_0) (extractStridedSlice S1x128 ![1, 0] (V0 (main_arg6 : DevRef τ sig)) slices_S6x128_S1x128_1_0)
    (extractStridedSlice S1x128x8 ![1, 0, 0] (V0 (main_arg7 : DevRef τ sig)) slices_S6x128x8_S1x128x8_1_0_0) (extractStridedSlice S1x8 ![1, 0] (V0 (main_arg8 : DevRef τ sig)) slices_S6x8_S1x8_1_0)
    (extractStridedSlice S1x4 ![1, 0] (V0 (main_arg9 : DevRef τ sig)) slices_S6x4_S1x4_1_0)
    (fun j => lit1 (S4.rowMajor j)) (fun j => lit0 (S4.rowMajor j)) acc

/-- It is layer 1 of the flow on every row. -/
theorem step1_eq (V0 : Valuation τ sig (Elt Ideal)) (acc : FVec Ideal S262144x8 .f32 × FVec Ideal S262144 .f32) :
    step1 V0 acc = Cert.Flow.batchStep (PV V0) ⟨1, by decide⟩ acc :=
  layerV_odd (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨1, by decide⟩ rfl
    slices_S6x8_S1x8_1_0 slices_S6x8_S1x8_1_0 slices_S6x8_S1x8_1_0 slices_S6x4x128_S1x4x128_1_0_0 slices_S6x128_S1x128_1_0 slices_S6x128_S1x128_1_0 slices_S6x128x128_S1x128x128_1_0_0 slices_S6x128x8_S1x128x8_1_0_0 slices_S6x4_S1x4_1_0 acc

/-- Layer 2 as a function of the carried pair, on the launch contents' parameter arrays. -/
def step2 (V0 : Valuation τ sig (Elt Ideal)) (acc : FVec Ideal S262144x8 .f32 × FVec Ideal S262144 .f32) :
    FVec Ideal S262144x8 .f32 × FVec Ideal S262144 .f32 :=
  layerV (extractStridedSlice S1x8 ![2, 0] (V0 (main_arg1 : DevRef τ sig)) slices_S6x8_S1x8_2_0) (extractStridedSlice S1x8 ![2, 0] (V0 (main_arg2 : DevRef τ sig)) slices_S6x8_S1x8_2_0)
    (extractStridedSlice S1x4x128 ![2, 0, 0] (V0 (main_arg3 : DevRef τ sig)) slices_S6x4x128_S1x4x128_2_0_0) (extractStridedSlice S1x128 ![2, 0] (V0 (main_arg4 : DevRef τ sig)) slices_S6x128_S1x128_2_0)
    (extractStridedSlice S1x128x128 ![2, 0, 0] (V0 (main_arg5 : DevRef τ sig)) slices_S6x128x128_S1x128x128_2_0_0) (extractStridedSlice S1x128 ![2, 0] (V0 (main_arg6 : DevRef τ sig)) slices_S6x128_S1x128_2_0)
    (extractStridedSlice S1x128x8 ![2, 0, 0] (V0 (main_arg7 : DevRef τ sig)) slices_S6x128x8_S1x128x8_2_0_0) (extractStridedSlice S1x8 ![2, 0] (V0 (main_arg8 : DevRef τ sig)) slices_S6x8_S1x8_2_0)
    (extractStridedSlice S1x4 ![2, 0] (V0 (main_arg9 : DevRef τ sig)) slices_S6x4_S1x4_2_0)
    (fun j => lit0 (S4.rowMajor j)) (fun j => lit1 (S4.rowMajor j)) acc

/-- It is layer 2 of the flow on every row. -/
theorem step2_eq (V0 : Valuation τ sig (Elt Ideal)) (acc : FVec Ideal S262144x8 .f32 × FVec Ideal S262144 .f32) :
    step2 V0 acc = Cert.Flow.batchStep (PV V0) ⟨2, by decide⟩ acc :=
  layerV_even (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨2, by decide⟩ rfl
    slices_S6x8_S1x8_2_0 slices_S6x8_S1x8_2_0 slices_S6x8_S1x8_2_0 slices_S6x4x128_S1x4x128_2_0_0 slices_S6x128_S1x128_2_0 slices_S6x128_S1x128_2_0 slices_S6x128x128_S1x128x128_2_0_0 slices_S6x128x8_S1x128x8_2_0_0 slices_S6x4_S1x4_2_0 acc

/-- Layer 3 as a function of the carried pair, on the launch contents' parameter arrays. -/
def step3 (V0 : Valuation τ sig (Elt Ideal)) (acc : FVec Ideal S262144x8 .f32 × FVec Ideal S262144 .f32) :
    FVec Ideal S262144x8 .f32 × FVec Ideal S262144 .f32 :=
  layerV (extractStridedSlice S1x8 ![3, 0] (V0 (main_arg1 : DevRef τ sig)) slices_S6x8_S1x8_3_0) (extractStridedSlice S1x8 ![3, 0] (V0 (main_arg2 : DevRef τ sig)) slices_S6x8_S1x8_3_0)
    (extractStridedSlice S1x4x128 ![3, 0, 0] (V0 (main_arg3 : DevRef τ sig)) slices_S6x4x128_S1x4x128_3_0_0) (extractStridedSlice S1x128 ![3, 0] (V0 (main_arg4 : DevRef τ sig)) slices_S6x128_S1x128_3_0)
    (extractStridedSlice S1x128x128 ![3, 0, 0] (V0 (main_arg5 : DevRef τ sig)) slices_S6x128x128_S1x128x128_3_0_0) (extractStridedSlice S1x128 ![3, 0] (V0 (main_arg6 : DevRef τ sig)) slices_S6x128_S1x128_3_0)
    (extractStridedSlice S1x128x8 ![3, 0, 0] (V0 (main_arg7 : DevRef τ sig)) slices_S6x128x8_S1x128x8_3_0_0) (extractStridedSlice S1x8 ![3, 0] (V0 (main_arg8 : DevRef τ sig)) slices_S6x8_S1x8_3_0)
    (extractStridedSlice S1x4 ![3, 0] (V0 (main_arg9 : DevRef τ sig)) slices_S6x4_S1x4_3_0)
    (fun j => lit1 (S4.rowMajor j)) (fun j => lit0 (S4.rowMajor j)) acc

/-- It is layer 3 of the flow on every row. -/
theorem step3_eq (V0 : Valuation τ sig (Elt Ideal)) (acc : FVec Ideal S262144x8 .f32 × FVec Ideal S262144 .f32) :
    step3 V0 acc = Cert.Flow.batchStep (PV V0) ⟨3, by decide⟩ acc :=
  layerV_odd (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨3, by decide⟩ rfl
    slices_S6x8_S1x8_3_0 slices_S6x8_S1x8_3_0 slices_S6x8_S1x8_3_0 slices_S6x4x128_S1x4x128_3_0_0 slices_S6x128_S1x128_3_0 slices_S6x128_S1x128_3_0 slices_S6x128x128_S1x128x128_3_0_0 slices_S6x128x8_S1x128x8_3_0_0 slices_S6x4_S1x4_3_0 acc

/-- Layer 4 as a function of the carried pair, on the launch contents' parameter arrays. -/
def step4 (V0 : Valuation τ sig (Elt Ideal)) (acc : FVec Ideal S262144x8 .f32 × FVec Ideal S262144 .f32) :
    FVec Ideal S262144x8 .f32 × FVec Ideal S262144 .f32 :=
  layerV (extractStridedSlice S1x8 ![4, 0] (V0 (main_arg1 : DevRef τ sig)) slices_S6x8_S1x8_4_0) (extractStridedSlice S1x8 ![4, 0] (V0 (main_arg2 : DevRef τ sig)) slices_S6x8_S1x8_4_0)
    (extractStridedSlice S1x4x128 ![4, 0, 0] (V0 (main_arg3 : DevRef τ sig)) slices_S6x4x128_S1x4x128_4_0_0) (extractStridedSlice S1x128 ![4, 0] (V0 (main_arg4 : DevRef τ sig)) slices_S6x128_S1x128_4_0)
    (extractStridedSlice S1x128x128 ![4, 0, 0] (V0 (main_arg5 : DevRef τ sig)) slices_S6x128x128_S1x128x128_4_0_0) (extractStridedSlice S1x128 ![4, 0] (V0 (main_arg6 : DevRef τ sig)) slices_S6x128_S1x128_4_0)
    (extractStridedSlice S1x128x8 ![4, 0, 0] (V0 (main_arg7 : DevRef τ sig)) slices_S6x128x8_S1x128x8_4_0_0) (extractStridedSlice S1x8 ![4, 0] (V0 (main_arg8 : DevRef τ sig)) slices_S6x8_S1x8_4_0)
    (extractStridedSlice S1x4 ![4, 0] (V0 (main_arg9 : DevRef τ sig)) slices_S6x4_S1x4_4_0)
    (fun j => lit0 (S4.rowMajor j)) (fun j => lit1 (S4.rowMajor j)) acc

/-- It is layer 4 of the flow on every row. -/
theorem step4_eq (V0 : Valuation τ sig (Elt Ideal)) (acc : FVec Ideal S262144x8 .f32 × FVec Ideal S262144 .f32) :
    step4 V0 acc = Cert.Flow.batchStep (PV V0) ⟨4, by decide⟩ acc :=
  layerV_even (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨4, by decide⟩ rfl
    slices_S6x8_S1x8_4_0 slices_S6x8_S1x8_4_0 slices_S6x8_S1x8_4_0 slices_S6x4x128_S1x4x128_4_0_0 slices_S6x128_S1x128_4_0 slices_S6x128_S1x128_4_0 slices_S6x128x128_S1x128x128_4_0_0 slices_S6x128x8_S1x128x8_4_0_0 slices_S6x4_S1x4_4_0 acc

/-- Layer 5 as a function of the carried pair, on the launch contents' parameter arrays. -/
def step5 (V0 : Valuation τ sig (Elt Ideal)) (acc : FVec Ideal S262144x8 .f32 × FVec Ideal S262144 .f32) :
    FVec Ideal S262144x8 .f32 × FVec Ideal S262144 .f32 :=
  layerV (extractStridedSlice S1x8 ![5, 0] (V0 (main_arg1 : DevRef τ sig)) slices_S6x8_S1x8_5_0) (extractStridedSlice S1x8 ![5, 0] (V0 (main_arg2 : DevRef τ sig)) slices_S6x8_S1x8_5_0)
    (extractStridedSlice S1x4x128 ![5, 0, 0] (V0 (main_arg3 : DevRef τ sig)) slices_S6x4x128_S1x4x128_5_0_0) (extractStridedSlice S1x128 ![5, 0] (V0 (main_arg4 : DevRef τ sig)) slices_S6x128_S1x128_5_0)
    (extractStridedSlice S1x128x128 ![5, 0, 0] (V0 (main_arg5 : DevRef τ sig)) slices_S6x128x128_S1x128x128_5_0_0) (extractStridedSlice S1x128 ![5, 0] (V0 (main_arg6 : DevRef τ sig)) slices_S6x128_S1x128_5_0)
    (extractStridedSlice S1x128x8 ![5, 0, 0] (V0 (main_arg7 : DevRef τ sig)) slices_S6x128x8_S1x128x8_5_0_0) (extractStridedSlice S1x8 ![5, 0] (V0 (main_arg8 : DevRef τ sig)) slices_S6x8_S1x8_5_0)
    (extractStridedSlice S1x4 ![5, 0] (V0 (main_arg9 : DevRef τ sig)) slices_S6x4_S1x4_5_0)
    (fun j => lit1 (S4.rowMajor j)) (fun j => lit0 (S4.rowMajor j)) acc

/-- It is layer 5 of the flow on every row. -/
theorem step5_eq (V0 : Valuation τ sig (Elt Ideal)) (acc : FVec Ideal S262144x8 .f32 × FVec Ideal S262144 .f32) :
    step5 V0 acc = Cert.Flow.batchStep (PV V0) ⟨5, by decide⟩ acc :=
  layerV_odd (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) ⟨5, by decide⟩ rfl
    slices_S6x8_S1x8_5_0 slices_S6x8_S1x8_5_0 slices_S6x8_S1x8_5_0 slices_S6x4x128_S1x4x128_5_0_0 slices_S6x128_S1x128_5_0 slices_S6x128_S1x128_5_0 slices_S6x128x128_S1x128x128_5_0_0 slices_S6x128x8_S1x128x8_5_0_0 slices_S6x4_S1x4_5_0 acc

/-- Layer 0 of the line, from contents that still agree with the launch contents: the pair it leaves. -/
theorem pair0 {V0 V : Valuation τ sig (Elt Ideal)} (h : Inv V0 V) :
    (after L0 V (main_v88 : DevRef τ sig), after L0 V (main_v76 : DevRef τ sig)) = step0 V0 (V (main_arg0 : DevRef τ sig), V (main_v0 : DevRef τ sig)) := by
  have hz := layer0_z V h.m0 h.m2 h.m3 h.m4
  have hl := layer0_ld V h.m0 h.m2 h.m3 h.m4
  rw [hz, hl]
  simp only [step0, h.a1, h.a2, h.a3, h.a4, h.a5, h.a6, h.a7, h.a8, h.a9, h.c, h.c1, Prod.mk.eta]

theorem inv_L0 {V0 V : Valuation τ sig (Elt Ideal)} (h : Inv V0 V) : Inv V0 (after L0 V) := by
  simp only [L0, after_append]
  exact (((h.step p1 p1_W p1_writes kept_p1).step p2 p2_W p2_writes kept_p2).step p3 p3_W p3_writes kept_p3)

/-- Layer 1 of the line, from contents that still agree with the launch contents: the pair it leaves. -/
theorem pair1 {V0 V : Valuation τ sig (Elt Ideal)} (h : Inv V0 V) :
    (after L1 V (main_v176 : DevRef τ sig), after L1 V (main_v164 : DevRef τ sig)) = step1 V0 (V (main_v88 : DevRef τ sig), V (main_v76 : DevRef τ sig)) := by
  have hz := layer1_z V h.m5 h.m6 h.m7 h.m8
  have hl := layer1_ld V h.m5 h.m6 h.m7 h.m8
  rw [hz, hl]
  simp only [step1, h.a1, h.a2, h.a3, h.a4, h.a5, h.a6, h.a7, h.a8, h.a9, h.c, h.c1, Prod.mk.eta]

theorem inv_L1 {V0 V : Valuation τ sig (Elt Ideal)} (h : Inv V0 V) : Inv V0 (after L1 V) := by
  simp only [L1, after_append]
  exact ((h.step p4 p4_W p4_writes kept_p4).step p5 p5_W p5_writes kept_p5)

/-- Layer 2 of the line, from contents that still agree with the launch contents: the pair it leaves. -/
theorem pair2 {V0 V : Valuation τ sig (Elt Ideal)} (h : Inv V0 V) :
    (after L2 V (main_v264 : DevRef τ sig), after L2 V (main_v252 : DevRef τ sig)) = step2 V0 (V (main_v176 : DevRef τ sig), V (main_v164 : DevRef τ sig)) := by
  have hz := layer2_z V h.m9 h.m10 h.m11 h.m12
  have hl := layer2_ld V h.m9 h.m10 h.m11 h.m12
  rw [hz, hl]
  simp only [step2, h.a1, h.a2, h.a3, h.a4, h.a5, h.a6, h.a7, h.a8, h.a9, h.c, h.c1, Prod.mk.eta]

theorem inv_L2 {V0 V : Valuation τ sig (Elt Ideal)} (h : Inv V0 V) : Inv V0 (after L2 V) := by
  simp only [L2, after_append]
  exact (((h.step p6 p6_W p6_writes kept_p6).step p7 p7_W p7_writes kept_p7).step p8 p8_W p8_writes kept_p8)

/-- Layer 3 of the line, from contents that still agree with the launch contents: the pair it leaves. -/
theorem pair3 {V0 V : Valuation τ sig (Elt Ideal)} (h : Inv V0 V) :
    (after L3 V (main_v352 : DevRef τ sig), after L3 V (main_v340 : DevRef τ sig)) = step3 V0 (V (main_v264 : DevRef τ sig), V (main_v252 : DevRef τ sig)) := by
  have hz := layer3_z V h.m13 h.m14 h.m15 h.m16
  have hl := layer3_ld V h.m13 h.m14 h.m15 h.m16
  rw [hz, hl]
  simp only [step3, h.a1, h.a2, h.a3, h.a4, h.a5, h.a6, h.a7, h.a8, h.a9, h.c, h.c1, Prod.mk.eta]

theorem inv_L3 {V0 V : Valuation τ sig (Elt Ideal)} (h : Inv V0 V) : Inv V0 (after L3 V) := by
  simp only [L3, after_append]
  exact (((h.step p9 p9_W p9_writes kept_p9).step p10 p10_W p10_writes kept_p10).step p11 p11_W p11_writes kept_p11)

/-- Layer 4 of the line, from contents that still agree with the launch contents: the pair it leaves. -/
theorem pair4 {V0 V : Valuation τ sig (Elt Ideal)} (h : Inv V0 V) :
    (after L4 V (main_v440 : DevRef τ sig), after L4 V (main_v428 : DevRef τ sig)) = step4 V0 (V (main_v352 : DevRef τ sig), V (main_v340 : DevRef τ sig)) := by
  have hz := layer4_z V h.m17 h.m18 h.m19 h.m20
  have hl := layer4_ld V h.m17 h.m18 h.m19 h.m20
  rw [hz, hl]
  simp only [step4, h.a1, h.a2, h.a3, h.a4, h.a5, h.a6, h.a7, h.a8, h.a9, h.c, h.c1, Prod.mk.eta]

theorem inv_L4 {V0 V : Valuation τ sig (Elt Ideal)} (h : Inv V0 V) : Inv V0 (after L4 V) := by
  simp only [L4, after_append]
  exact (((h.step p12 p12_W p12_writes kept_p12).step p13 p13_W p13_writes kept_p13).step p14 p14_W p14_writes kept_p14)

/-- Layer 5 of the line, from contents that still agree with the launch contents: the pair it leaves. -/
theorem pair5 {V0 V : Valuation τ sig (Elt Ideal)} (h : Inv V0 V) :
    (after L5 V (main_v528 : DevRef τ sig), after L5 V (main_v516 : DevRef τ sig)) = step5 V0 (V (main_v440 : DevRef τ sig), V (main_v428 : DevRef τ sig)) := by
  have hz := layer5_z V h.m21 h.m22 h.m23 h.m24
  have hl := layer5_ld V h.m21 h.m22 h.m23 h.m24
  rw [hz, hl]
  simp only [step5, h.a1, h.a2, h.a3, h.a4, h.a5, h.a6, h.a7, h.a8, h.a9, h.c, h.c1, Prod.mk.eta]

theorem inv_L5 {V0 V : Valuation τ sig (Elt Ideal)} (h : Inv V0 V) : Inv V0 (after L5 V) := by
  simp only [L5, after_append]
  exact ((h.step p15 p15_W p15_writes kept_p15).step p16 p16_W p16_writes kept_p16)

/-- The zero log-determinants the line starts from, as the flow's zero. -/
theorem zero_eq : (broadcastInDim S262144 ![] bcast_S_S262144 (constant (F := Ideal) S_ .f32 0x00000000#32) : FVec Ideal S262144 .f32)
    = fun _ => Cert.Flow.c0 := by
  funext j; rfl

/-- The two results of the line: six layers of the one-layer function from the input and zero. -/
theorem out_steps (V0 : Valuation τ sig (Elt Ideal)) :
    (after ops V0 (main_v528 : DevRef τ sig), after ops V0 (main_v516 : DevRef τ sig))
      = step5 V0 (step4 V0 (step3 V0 (step2 V0 (step1 V0 (step0 V0 (V0 (main_arg0 : DevRef τ sig), fun _ => Cert.Flow.c0)))))) := by
  rw [after_ops, pair5 (inv_L4 (inv_L3 (inv_L2 (inv_L1 (inv_L0 (inv_p0 V0)))))),
    pair4 (inv_L3 (inv_L2 (inv_L1 (inv_L0 (inv_p0 V0))))),
    pair3 (inv_L2 (inv_L1 (inv_L0 (inv_p0 V0)))),
    pair2 (inv_L1 (inv_L0 (inv_p0 V0))),
    pair1 (inv_L0 (inv_p0 V0)),
    pair0 (inv_p0 V0),
    (inv_p0 V0).a0, p0_zero, zero_eq]

/-- The two results of the line are the flow of every row of the input and its log-determinant. -/
theorem out_flow (V0 : Valuation τ sig (Elt Ideal)) :
    (after ops V0 (main_v528 : DevRef τ sig), after ops V0 (main_v516 : DevRef τ sig))
      = (Cert.Flow.zOut (PV V0) (V0 (main_arg0 : DevRef τ sig)), Cert.Flow.ldOut (PV V0) (V0 (main_arg0 : DevRef τ sig))) := by
  rw [out_steps, step5_eq, step4_eq, step3_eq, step2_eq, step1_eq, step0_eq, ← Cert.Flow.batch_six (PV V0) (V0 (main_arg0 : DevRef τ sig)),
    Cert.Flow.batchUpTo_succ (PV V0) _ 5 (by decide), Cert.Flow.batchUpTo_succ (PV V0) _ 4 (by decide),
    Cert.Flow.batchUpTo_succ (PV V0) _ 3 (by decide), Cert.Flow.batchUpTo_succ (PV V0) _ 2 (by decide),
    Cert.Flow.batchUpTo_succ (PV V0) _ 1 (by decide), Cert.Flow.batchUpTo_succ (PV V0) _ 0 (by decide)]
  rfl

/-- The arguments are never written. -/
theorem args_kept (V0 : Valuation τ sig (Elt Ideal)) : Inv V0 (after ops V0) := by
  rw [after_ops]; exact inv_L5 (inv_L4 (inv_L3 (inv_L2 (inv_L1 (inv_L0 (inv_p0 V0))))))

/-- The flow's parameters read off the nine parameter arrays in the launch memory of device `c`. -/
def paramsOf (m : (ℓ : Loc nD τ sig) → Buf (Elt Ideal) ℓ) (c : Dev nD) : Cert.Flow.Params :=
  PV (launchContents m c)

/-- The parameters are read off the launch memory's nine parameter arrays. -/
theorem paramsOf_eq (m : (ℓ : Loc nD τ sig) → Buf (Elt Ideal) ℓ) (c : Dev nD) :
    paramsOf m c = Cert.Flow.Params.ofArrays (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9)) := rfl

/-- On every device, from any memory with zero counters: every weakly fair execution of the reference terminates with its
    first result the flow of every row of the input, its second the log-determinants, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v528) = Cert.Flow.zOut (paramsOf m c) (m ((c.tc : Thread nD τ).loc main_arg0))
      ∧ r.2.mem ((c.tc : Thread nD τ).loc main_v516) = Cert.Flow.ldOut (paramsOf m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    have hz := (Prod.mk.inj (out_flow (launchContents m c))).1
    have hl := (Prod.mk.inj (out_flow (launchContents m c))).2
    have ha := args_kept (launchContents m c)
    exact ⟨(h c main_v528).trans hz, (h c main_v516).trans hl,
      (h c main_arg0).trans ha.a0,
      (h c main_arg1).trans ha.a1,
      (h c main_arg2).trans ha.a2,
      (h c main_arg3).trans ha.a3,
      (h c main_arg4).trans ha.a4,
      (h c main_arg5).trans ha.a5,
      (h c main_arg6).trans ha.a6,
      (h c main_arg7).trans ha.a7,
      (h c main_arg8).trans ha.a8,
      (h c main_arg9).trans ha.a9⟩)
    (run_main m ρ)

end Cert.ReferenceIdeal.FlowValue

end
-- ==== Proof.lean ====
/-
  The kernel runs the six coupling layers of a normalizing flow in a loop over the layers, one block of 8192 rows per grid
  point; the reference unrolls the layers over the whole batch. Both are, row by row, the same function of the row and of
  the nine parameter arrays (`Cert.Flow.flow`): the kernel takes a layer's fixed and moved halves, puts them back and
  reverses the columns by contracting with 0/1 tables, where the reference gathers, scatters and reverses, and at the
  exact values a contraction with a 0/1 table with one entry per column is that selection (x·1 = x, x·0 = 0, x + 0 = x on
  the extended reals); the matrix products, the sums and the pointwise operations are the same on both sides, with the
  same literal words. So both programs end with `Cert.Flow.zOut` and `Cert.Flow.ldOut` of the same arguments.
  No rewrite was made when the kernel was idealized, so that claim is trivial; the kernel's frames are the generated
  ones, the reference's frame is its run with the results dropped.
-/
import proofs.«135321_j73263552135281_2_alg».proof.Defs
import proofs.«135321_j73263552135281_2_alg».proof.Proof.Gen.Kernel
import proofs.«135321_j73263552135281_2_alg».proof.Proof.Gen.Kernel.Frame
import proofs.«135321_j73263552135281_2_alg».proof.Proof.Gen.KernelIdeal
import proofs.«135321_j73263552135281_2_alg».proof.Proof.Gen.KernelIdeal.Frame
import proofs.«135321_j73263552135281_2_alg».proof.Proof.Gen.ReferenceIdeal
import proofs.«135321_j73263552135281_2_alg».proof.Proof.Gen.Pre_finite_inputs
import proofs.«135321_j73263552135281_2_alg».proof.Proof.KernelRun
import proofs.«135321_j73263552135281_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.FlowValue.run m ρ)

theorem preserves : Cert.preserves_Kernel_KernelIdeal := trivial

/-- Both runs end at the flow of the input's rows, for parameters read off arguments that agree. -/
theorem algebraic : Cert.algebraic_KernelIdeal_ReferenceIdeal := by
  intro m ρ m' ρ' _ hagree
  refine ⟨_, _, Cert.KernelIdeal.FlowValue.run m ρ, ?_⟩
  refine (θ_run Cert.ReferenceIdeal.defs _ _).mono (fun _ h c => ?_) (Cert.ReferenceIdeal.FlowValue.run m' ρ')
  obtain ⟨a0, a1, a2, a3, a4, a5, a6, a7, a8, a9⟩ := hagree c
  have hP : Cert.ReferenceIdeal.FlowValue.paramsOf m' c = Cert.KernelIdeal.FlowValue.paramsOf m c := by
    rw [Cert.ReferenceIdeal.FlowValue.paramsOf_eq, a1, a2, a3, a4, a5, a6, a7, a8, a9]
    rfl
  refine ⟨(h c).1.trans ?_, (h c).2.1.trans ?_, (h c).2.2⟩
  · rw [hP, a0]
  · rw [hP, a0]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
